-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128x2 .f32) (main_arg10 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg9
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x2 .f32) (main_arg10 : FVec F S2 .f32) (main_arg11 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩
abbrev S5000 : Shape := ⟨1, ![5000]⟩

abbrev nBuf : Space → Nat
  | .hbm => 128
  | .vmem => 72
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S2x1600000, .i32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S1x128, .f32⟩
  | .hbm, ⟨89, _⟩ => ⟨S1x128, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S100000x2, .f32⟩
  | .hbm, ⟨112, _⟩ => ⟨S100000x2, .f32⟩
  | .hbm, ⟨113, _⟩ => ⟨S_, .i32⟩
  | .hbm, ⟨114, _⟩ => ⟨S1600000, .i32⟩
  | .hbm, ⟨115, _⟩ => ⟨S1600000, .i1⟩
  | .hbm, ⟨116, _⟩ => ⟨S_, .i32⟩
  | .hbm, ⟨117, _⟩ => ⟨S1600000, .i32⟩
  | .hbm, ⟨118, _⟩ => ⟨S1600000, .i32⟩
  | .hbm, ⟨119, _⟩ => ⟨S1600000, .i32⟩
  | .hbm, ⟨120, _⟩ => ⟨S1600000x1, .i32⟩
  | .hbm, ⟨121, _⟩ => ⟨S1600000x2, .f32⟩
  | .hbm, ⟨122, _⟩ => ⟨S_, .f32⟩
  | .hbm, ⟨123, _⟩ => ⟨S100000x2, .f32⟩
  | .hbm, ⟨124, _⟩ => ⟨S1600000x1, .i32⟩
  | .hbm, ⟨125, _⟩ => ⟨S100000x2, .f32⟩
  | .hbm, ⟨126, _⟩ => ⟨S1x2, .f32⟩
  | .hbm, ⟨127, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S128x2, .f32⟩
  | .local _ .vmem, ⟨55, _⟩ => ⟨S5000x1, .f32⟩
  | .local _ .vmem, ⟨56, _⟩ => ⟨S5000x1, .f32⟩
  | .local _ .vmem, ⟨57, _⟩ => ⟨S5000x2, .f32⟩
  | .local _ .vmem, ⟨58, _⟩ => ⟨S5000x2, .f32⟩
  | .local _ .vmem, ⟨59, _⟩ => ⟨S5000x2, .f32⟩
  | .local _ .vmem, ⟨60, _⟩ => ⟨S5000x2, .f32⟩
  | .local _ .vmem, ⟨61, _⟩ => ⟨S5000x2, .f32⟩
  | .local _ .vmem, ⟨62, _⟩ => ⟨S5000x2, .f32⟩
  | .local _ .vmem, ⟨63, _⟩ => ⟨S5000x2, .f32⟩
  | .local _ .vmem, ⟨64, _⟩ => ⟨S5000x2, .f32⟩
  | .local _ .vmem, ⟨65, _⟩ => ⟨S5000x1, .f32⟩
  | .local _ .vmem, ⟨66, _⟩ => ⟨S5000x1, .f32⟩
  | .local _ .vmem, ⟨67, _⟩ => ⟨S5000x1, .f32⟩
  | .local _ .vmem, ⟨68, _⟩ => ⟨S5000x1, .f32⟩
  | .local _ .vmem, ⟨69, _⟩ => ⟨S1x2, .f32⟩
  | .local _ .vmem, ⟨70, _⟩ => ⟨S5000x2, .f32⟩
  | .local _ .vmem, ⟨71, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57_0 : Ref sig .tc := ⟨.hbm, 87, rfl⟩
abbrev main_v57_1 : Ref sig .tc := ⟨.hbm, 88, rfl⟩
abbrev main_v57_2 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75_0 : Ref sig .tc := ⟨.hbm, 111, rfl⟩
abbrev main_v75_1 : Ref sig .tc := ⟨.hbm, 112, rfl⟩
abbrev main_c_16 : Ref sig .tc := ⟨.hbm, 113, rfl⟩
abbrev main_v76 : Ref sig .tc := ⟨.hbm, 114, rfl⟩
abbrev main_v77 : Ref sig .tc := ⟨.hbm, 115, rfl⟩
abbrev main_c_17 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_18 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_stg8_0 : Ref sig .tc := ⟨.vmem, 33, rfl⟩
abbrev cc2_stg8_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg7_0 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg6_1 : Ref sig .tc := ⟨.vmem, 56, rfl⟩
abbrev cc4_stg7_0 : Ref sig .tc := ⟨.vmem, 57, rfl⟩
abbrev cc4_stg7_1 : Ref sig .tc := ⟨.vmem, 58, rfl⟩
abbrev cc4_stg8_0 : Ref sig .tc := ⟨.vmem, 59, rfl⟩
abbrev cc4_stg8_1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg1_1 : Ref sig .tc := ⟨.vmem, 64, rfl⟩
abbrev cc5_stg2_0 : Ref sig .tc := ⟨.vmem, 65, rfl⟩
abbrev cc5_stg2_1 : Ref sig .tc := ⟨.vmem, 66, rfl⟩
abbrev cc5_stg3_0 : Ref sig .tc := ⟨.vmem, 67, rfl⟩
abbrev cc5_stg3_1 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc2_sem7_0 : DmaSem sig := 31
abbrev cc2_sem7_1 : DmaSem sig := 32
abbrev cc2_sem8_0 : DmaSem sig := 33
abbrev cc2_sem8_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem7_0 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem6_1 : DmaSem sig := 56
abbrev cc4_sem7_0 : DmaSem sig := 57
abbrev cc4_sem7_1 : DmaSem sig := 58
abbrev cc4_sem8_0 : DmaSem sig := 59
abbrev cc4_sem8_1 : DmaSem sig := 60
abbrev cc5_sem0_0 : DmaSem sig := 61
abbrev cc5_sem0_1 : DmaSem sig := 62
abbrev cc5_sem1_0 : DmaSem sig := 63
abbrev cc5_sem1_1 : DmaSem sig := 64
abbrev cc5_sem2_0 : DmaSem sig := 65
abbrev cc5_sem2_1 : DmaSem sig := 66
abbrev cc5_sem3_0 : DmaSem sig := 67
abbrev cc5_sem3_1 : DmaSem sig := 68
abbrev cc5_sem4_0 : DmaSem sig := 69
abbrev cc5_sem5_0 : DmaSem sig := 70
abbrev cc5_sem5_1 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x2 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x2 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  broadcasts_S5000x1_S5000x2 : S5000x1.Broadcasts S5000x2
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x2_S5000x2_1_0_0_1_n_n_wf : DotDims.WF S5000x128 S128x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x2.size a ≤ S128x2.size a
  hwx4_5 : ∀ i : grid4.Coords, EltTy.bits .f32 = 32 ∨ (Rect.block (s := S128x2) S128x2.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S100000x1.size a
  hwx4_6 : ∀ i : grid4.Coords, EltTy.bits .f32 = 32 ∨ (Rect.block (s := S100000x1) S5000x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x2.size a ≤ S100000x2.size a
  hwx4_7 : ∀ i : grid4.Coords, EltTy.bits .f32 = 32 ∨ (Rect.block (s := S100000x2) S5000x2.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x2.size a ≤ S100000x2.size a
  hwx4_8 : ∀ i : grid4.Coords, EltTy.bits .f32 = 32 ∨ (Rect.block (s := S100000x2) S5000x2.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S100000x2.size a
  hwx5_0 : ∀ i : grid5.Coords, EltTy.bits .f32 = 32 ∨ (Rect.block (s := S100000x2) S5000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x2.size a ≤ S100000x2.size a
  hwx5_1 : ∀ i : grid5.Coords, EltTy.bits .f32 = 32 ∨ (Rect.block (s := S100000x2) S5000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2.size a ≤ S1x2.size a
  hwx5_4 : ∀ i : grid5.Coords, EltTy.bits .f32 = 32 ∨ (Rect.block (s := S1x2) S1x2.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x2.size a ≤ S100000x2.size a
  hwx5_5 : ∀ i : grid5.Coords, EltTy.bits .f32 = 32 ∨ (Rect.block (s := S100000x2) S5000x2.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S5000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v45_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v45_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v45_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v57_1) S1x128.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57_2) S1x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v57_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S128x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v13) S5000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v75_0) S5000x2.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v75_1) S5000x2.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v75_0) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S5000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v14) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S5000x2.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x2, .f32⟩
  | 10 => ⟨S2, .f32⟩
  | 11 => ⟨S2x1600000, .i32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S_, .f32⟩
  | 104 => ⟨S128, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000x1, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S128, .f32⟩
  | 36 => ⟨S_, .f32⟩
  | 37 => ⟨S128, .f32⟩
  | 38 => ⟨S128, .f32⟩
  | 39 => ⟨S_, .i32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S100000x128, .f32⟩
  | 47 => ⟨S100000x128, .f32⟩
  | 48 => ⟨S100000x128, .f32⟩
  | 49 => ⟨S_, .f32⟩
  | 50 => ⟨S_, .f32⟩
  | 51 => ⟨S_, .f32⟩
  | 52 => ⟨S_, .f32⟩
  | 53 => ⟨S128, .f32⟩
  | 54 => ⟨S128, .f32⟩
  | 55 => ⟨S128, .f32⟩
  | 56 => ⟨S_, .f32⟩
  | 57 => ⟨S_, .i1⟩
  | 58 => ⟨S_, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x2, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x2, .f32⟩
  | 111 => ⟨S1600000x2, .f32⟩
  | 112 => ⟨S1600000x2, .f32⟩
  | 113 => ⟨S_, .f32⟩
  | 114 => ⟨S100000x2, .f32⟩
  | 115 => ⟨S1600000x1, .i32⟩
  | 116 => ⟨S100000x2, .f32⟩
  | 117 => ⟨S100000x1, .f32⟩
  | 118 => ⟨S100000x2, .f32⟩
  | 119 => ⟨S100000x2, .f32⟩
  | 120 => ⟨S100000x2, .f32⟩
  | 121 => ⟨S1x2, .f32⟩
  | 122 => ⟨S100000x2, .f32⟩
  | 123 => ⟨S100000x2, .f32⟩
  | 124 => ⟨S_, .f32⟩
  | 125 => ⟨S100000, .f32⟩
  | 126 => ⟨S_, .f32⟩
  | 127 => ⟨S100000, .f32⟩
  | _ => ⟨S100000x128, .f32⟩

abbrev hbmTy0_2 (i : Nat) : BufTy := match i % 128 with
  | 0 => ⟨S100000, .f32⟩
  | 1 => ⟨S100000x1, .f32⟩
  | 2 => ⟨S100000x2, .f32⟩
  | 3 => ⟨S100000x2, .f32⟩
  | 4 => ⟨S100000x2, .f32⟩
  | 5 => ⟨S_, .f32⟩
  | 6 => ⟨S100000, .f32⟩
  | 7 => ⟨S100000x1, .f32⟩
  | 8 => ⟨S100000x2, .f32⟩
  | 9 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_cst_3 : Ref sig .tc := ⟨.hbm, 94, rfl⟩
abbrev main_call0_v12 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_12 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_call1_cst : Ref sig .tc := ⟨.hbm, 116, rfl⟩
abbrev main_call1_v0 : Ref sig .tc := ⟨.hbm, 117, rfl⟩
abbrev main_v68 : Ref sig .tc := ⟨.hbm, 118, rfl⟩
abbrev main_v69 : Ref sig .tc := ⟨.hbm, 119, rfl⟩
abbrev main_c_13 : Ref sig .tc := ⟨.hbm, 120, rfl⟩
abbrev main_v70 : Ref sig .tc := ⟨.hbm, 121, rfl⟩
abbrev main_v71 : Ref sig .tc := ⟨.hbm, 122, rfl⟩
abbrev main_c_14 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_15 : Ref sig .tc := ⟨.hbm, 129, rfl⟩
abbrev main_v77 : Ref sig .tc := ⟨.hbm, 130, rfl⟩
abbrev main_v78 : Ref sig .tc := ⟨.hbm, 131, rfl⟩
abbrev main_c_16 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_17 : Ref sig .tc := ⟨.hbm, 140, rfl⟩
abbrev main_v86 : Ref sig .tc := ⟨.hbm, 141, rfl⟩
abbrev main_v87 : Ref sig .tc := ⟨.hbm, 142, rfl⟩
abbrev main_c_18 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_19 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_20 : Ref sig .tc := ⟨.hbm, 162, rfl⟩
abbrev main_v105 : Ref sig .tc := ⟨.hbm, 163, rfl⟩
abbrev main_cst_21 : Ref sig .tc := ⟨.hbm, 164, rfl⟩
abbrev main_v106 : Ref sig .tc := ⟨.hbm, 165, rfl⟩
abbrev main_v107 : Ref sig .tc := ⟨.hbm, 166, rfl⟩
abbrev main_c_22 : Ref sig .tc := ⟨.hbm, 167, rfl⟩
abbrev main_call2_cst : Ref sig .tc := ⟨.hbm, 168, rfl⟩
abbrev main_call2_v0 : Ref sig .tc := ⟨.hbm, 169, rfl⟩
abbrev main_call2_v1 : Ref sig .tc := ⟨.hbm, 170, rfl⟩
abbrev main_call2_cst_0 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_call2_v5 : Ref sig .tc := ⟨.hbm, 175, rfl⟩
abbrev main_call2_v6 : Ref sig .tc := ⟨.hbm, 176, rfl⟩
abbrev main_call2_v7 : Ref sig .tc := ⟨.hbm, 177, rfl⟩
abbrev main_call2_cst_1 : Ref sig .tc := ⟨.hbm, 178, rfl⟩
abbrev main_call2_v8 : Ref sig .tc := ⟨.hbm, 179, rfl⟩
abbrev main_call2_cst_2 : Ref sig .tc := ⟨.hbm, 180, rfl⟩
abbrev main_call2_v9 : Ref sig .tc := ⟨.hbm, 181, rfl⟩
abbrev main_call2_v10 : Ref sig .tc := ⟨.hbm, 182, rfl⟩
abbrev main_call2_v11 : Ref sig .tc := ⟨.hbm, 183, rfl⟩
abbrev main_call2_cst_3 : Ref sig .tc := ⟨.hbm, 184, rfl⟩
abbrev main_call2_v12 : Ref sig .tc := ⟨.hbm, 185, rfl⟩
abbrev main_call2_cst_4 : Ref sig .tc := ⟨.hbm, 186, rfl⟩
abbrev main_call2_call0_v0 : Ref sig .tc := ⟨.hbm, 187, rfl⟩
abbrev main_call2_call0_v1 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_cst_23 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_call3_cst : Ref sig .tc := ⟨.hbm, 206, rfl⟩
abbrev main_call3_v0 : Ref sig .tc := ⟨.hbm, 207, rfl⟩
abbrev main_v124 : Ref sig .tc := ⟨.hbm, 208, rfl⟩
abbrev main_v125 : Ref sig .tc := ⟨.hbm, 209, rfl⟩
abbrev main_c_24 : Ref sig .tc := ⟨.hbm, 210, rfl⟩
abbrev main_v126 : Ref sig .tc := ⟨.hbm, 211, rfl⟩
abbrev main_v127 : Ref sig .tc := ⟨.hbm, 212, rfl⟩
abbrev main_c_25 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_c_26 : Ref sig .tc := ⟨.hbm, 219, rfl⟩
abbrev main_v133 : Ref sig .tc := ⟨.hbm, 220, rfl⟩
abbrev main_v134 : Ref sig .tc := ⟨.hbm, 221, rfl⟩
abbrev main_c_27 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_c_28 : Ref sig .tc := ⟨.hbm, 230, rfl⟩
abbrev main_v142 : Ref sig .tc := ⟨.hbm, 231, rfl⟩
abbrev main_v143 : Ref sig .tc := ⟨.hbm, 232, rfl⟩
abbrev main_c_29 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_cst_30 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_cst_31 : Ref sig .tc := ⟨.hbm, 252, rfl⟩
abbrev main_v161 : Ref sig .tc := ⟨.hbm, 253, rfl⟩
abbrev main_cst_32 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_cst_33 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.KRun.lean ====
/-
  The idealized kernel's run with its result kept.  Every weakly fair execution of the six regions and the host
  operations between them terminates, nothing faulting; in the final state the result buffer holds what the last
  boundary's contents say (the fold of the host operations and the regions' write-backs from the launch memory), and
  every argument array is as launched.
-/
import proofs.«140138_j37512244363809_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v87) = W12 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v87 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.KRun

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.KKeep.lean ====
/-
  What the idealized kernel's program carries unchanged from one segment boundary to a later one.

  Between the launch and the return the program alternates six straight lines of host operations with six kernel
  regions; the contents of the buffers at the thirteen boundaries are W0 (the launch) … W12 (the return).  A straight
  line of host operations writes only the result buffers of its operations, so every other buffer holds after the line
  what it held before.  A region writes only its output arrays: an input array ends as it was entered, and a buffer
  that is none of the region's arrays is not touched at all.  Step by step, this carries

    • each argument array from the launch memory to the boundary where it is first read;
    • the two index vectors (the edges' sources and targets), written by the first line, to the three later lines
      that gather and scatter along them;
    • the two columns dis and di, written by the first line, to every region that scales rows by them
      (dis is an input of every region, di of the second, fourth and sixth);
    • the first output of each of the first five regions across the host line that follows it.

  Every statement holds for any reading of the floats: nothing here looks at a value.
-/
import proofs.«140138_j37512244363809_2_alg».proof.Proof.Gen.KernelIdeal.Frame
import proofs.«140138_j37512244363809_2_alg».proof.Proof.LibHostKeeps

set_option maxRecDepth 16384

noncomputable section

namespace Cert.KernelIdeal.KKeep

open Idealize.ShloMosaic Idealize.ShloMosaic.TcCoe Idealize.SL.Sem
open Cert.KernelIdeal Cert.KernelIdeal.Gen Cert.LibHostKeeps

variable {F : FTy → Type} [FloatOps F]
variable (m : (ℓ : Loc nD τ sig) → Buf (Elt F) ℓ) (ρ : Dev nD → PrngReg)

/-! ## The arguments, up to the boundary where each is first read: as launched -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by host_keeps hostOps0
    _ = m ((c : Thread nD τ).loc main_arg1) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by host_keeps hostOps2
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keeps hostOps2
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keeps hostOps3
    _ = W5 m ρ c (Proc.devRef .tc main_arg7) := W6_of_ne m ρ c main_arg7 (by decide)
    _ = W4 m ρ c (Proc.devRef .tc main_arg7) := by host_keeps hostOps2
    _ = W3 m ρ c (Proc.devRef .tc main_arg7) := W4_of_ne m ρ c main_arg7 (by decide)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_keeps hostOps3
    _ = W5 m ρ c (Proc.devRef .tc main_arg8) := W6_of_ne m ρ c main_arg8 (by decide)
    _ = W4 m ρ c (Proc.devRef .tc main_arg8) := by host_keeps hostOps2
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := by host_keeps hostOps4
    _ = W7 m ρ c (Proc.devRef .tc main_arg9) := W8_of_ne m ρ c main_arg9 (by decide)
    _ = W6 m ρ c (Proc.devRef .tc main_arg9) := by host_keeps hostOps3
    _ = W5 m ρ c (Proc.devRef .tc main_arg9) := W6_of_ne m ρ c main_arg9 (by decide)
    _ = W4 m ρ c (Proc.devRef .tc main_arg9) := by host_keeps hostOps2
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

theorem W10_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by host_keeps hostOps4
    _ = W7 m ρ c (Proc.devRef .tc main_arg10) := W8_of_ne m ρ c main_arg10 (by decide)
    _ = W6 m ρ c (Proc.devRef .tc main_arg10) := by host_keeps hostOps3
    _ = W5 m ρ c (Proc.devRef .tc main_arg10) := W6_of_ne m ρ c main_arg10 (by decide)
    _ = W4 m ρ c (Proc.devRef .tc main_arg10) := by host_keeps hostOps2
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

theorem W0_arg11 (c : Dev nD) : W0 m ρ c (Proc.devRef .tc main_arg11) = m ((c : Thread nD τ).loc main_arg11) := rfl

/-! ## The two index vectors (sources, targets): no region holds them and no later stretch writes them -/

theorem W2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W6_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by host_keeps hostOps2
    _ = W3 m ρ c (Proc.devRef .tc main_v1) := W4_of_ne m ρ c main_v1 (by decide)
    _ = W2 m ρ c (Proc.devRef .tc main_v1) := by host_keeps hostOps1
    _ = W1 m ρ c (Proc.devRef .tc main_v1) := W2_v1 m ρ c

theorem W10_v1 (c : Dev nD) : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by host_keeps hostOps4
    _ = W7 m ρ c (Proc.devRef .tc main_v1) := W8_of_ne m ρ c main_v1 (by decide)
    _ = W6 m ρ c (Proc.devRef .tc main_v1) := by host_keeps hostOps3
    _ = W1 m ρ c (Proc.devRef .tc main_v1) := W6_v1 m ρ c

theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W6_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keeps hostOps2
    _ = W3 m ρ c (Proc.devRef .tc main_v3) := W4_of_ne m ρ c main_v3 (by decide)
    _ = W2 m ρ c (Proc.devRef .tc main_v3) := by host_keeps hostOps1
    _ = W1 m ρ c (Proc.devRef .tc main_v3) := W2_v3 m ρ c

theorem W10_v3 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keeps hostOps4
    _ = W7 m ρ c (Proc.devRef .tc main_v3) := W8_of_ne m ρ c main_v3 (by decide)
    _ = W6 m ρ c (Proc.devRef .tc main_v3) := by host_keeps hostOps3
    _ = W1 m ρ c (Proc.devRef .tc main_v3) := W6_v3 m ρ c

/-! ## The column dis: an input of every region (a region leaves its inputs as entered), written by no later stretch -/

theorem W3_v13 (c : Dev nD) : W3 m ρ c (Proc.devRef .tc main_v13) = W1 m ρ c (Proc.devRef .tc main_v13) :=
  calc W3 m ρ c (Proc.devRef .tc main_v13)
    _ = W2 m ρ c (Proc.devRef .tc main_v13) := by host_keeps hostOps1
    _ = W1 m ρ c (Proc.devRef .tc main_v13) := (W2_arr m ρ c 2).trans (((dat0 (V1 m ρ) c).arrAt_in 2 rfl _).trans (A_eq0 (V1 m ρ) c 2))

theorem W5_v13 (c : Dev nD) : W5 m ρ c (Proc.devRef .tc main_v13) = W1 m ρ c (Proc.devRef .tc main_v13) :=
  calc W5 m ρ c (Proc.devRef .tc main_v13)
    _ = W4 m ρ c (Proc.devRef .tc main_v13) := by host_keeps hostOps2
    _ = W3 m ρ c (Proc.devRef .tc main_v13) := (W4_arr m ρ c 2).trans (((dat1 (V3 m ρ) c).arrAt_in 2 rfl _).trans (A_eq1 (V3 m ρ) c 2))
    _ = W1 m ρ c (Proc.devRef .tc main_v13) := W3_v13 m ρ c

theorem W7_v13 (c : Dev nD) : W7 m ρ c (Proc.devRef .tc main_v13) = W1 m ρ c (Proc.devRef .tc main_v13) :=
  calc W7 m ρ c (Proc.devRef .tc main_v13)
    _ = W6 m ρ c (Proc.devRef .tc main_v13) := by host_keeps hostOps3
    _ = W5 m ρ c (Proc.devRef .tc main_v13) := (W6_arr m ρ c 6).trans (((dat2 (V5 m ρ) c).arrAt_in 6 rfl _).trans (A_eq2 (V5 m ρ) c 6))
    _ = W1 m ρ c (Proc.devRef .tc main_v13) := W5_v13 m ρ c

theorem W9_v13 (c : Dev nD) : W9 m ρ c (Proc.devRef .tc main_v13) = W1 m ρ c (Proc.devRef .tc main_v13) :=
  calc W9 m ρ c (Proc.devRef .tc main_v13)
    _ = W8 m ρ c (Proc.devRef .tc main_v13) := by host_keeps hostOps4
    _ = W7 m ρ c (Proc.devRef .tc main_v13) := (W8_arr m ρ c 2).trans (((dat3 (V7 m ρ) c).arrAt_in 2 rfl _).trans (A_eq3 (V7 m ρ) c 2))
    _ = W1 m ρ c (Proc.devRef .tc main_v13) := W7_v13 m ρ c

theorem W11_v13 (c : Dev nD) : W11 m ρ c (Proc.devRef .tc main_v13) = W1 m ρ c (Proc.devRef .tc main_v13) :=
  calc W11 m ρ c (Proc.devRef .tc main_v13)
    _ = W10 m ρ c (Proc.devRef .tc main_v13) := by host_keeps hostOps5
    _ = W9 m ρ c (Proc.devRef .tc main_v13) := (W10_arr m ρ c 6).trans (((dat4 (V9 m ρ) c).arrAt_in 6 rfl _).trans (A_eq4 (V9 m ρ) c 6))
    _ = W1 m ρ c (Proc.devRef .tc main_v13) := W9_v13 m ρ c

/-! ## The column di: an input of regions 1, 3 and 5 only -/

theorem W3_v14 (c : Dev nD) : W3 m ρ c (Proc.devRef .tc main_v14) = W1 m ρ c (Proc.devRef .tc main_v14) :=
  calc W3 m ρ c (Proc.devRef .tc main_v14)
    _ = W2 m ρ c (Proc.devRef .tc main_v14) := by host_keeps hostOps1
    _ = W1 m ρ c (Proc.devRef .tc main_v14) := W2_of_ne m ρ c main_v14 (by decide)

theorem W7_v14 (c : Dev nD) : W7 m ρ c (Proc.devRef .tc main_v14) = W1 m ρ c (Proc.devRef .tc main_v14) :=
  calc W7 m ρ c (Proc.devRef .tc main_v14)
    _ = W6 m ρ c (Proc.devRef .tc main_v14) := by host_keeps hostOps3
    _ = W5 m ρ c (Proc.devRef .tc main_v14) := W6_of_ne m ρ c main_v14 (by decide)
    _ = W4 m ρ c (Proc.devRef .tc main_v14) := by host_keeps hostOps2
    _ = W3 m ρ c (Proc.devRef .tc main_v14) := (W4_arr m ρ c 3).trans (((dat1 (V3 m ρ) c).arrAt_in 3 rfl _).trans (A_eq1 (V3 m ρ) c 3))
    _ = W1 m ρ c (Proc.devRef .tc main_v14) := W3_v14 m ρ c

theorem W11_v14 (c : Dev nD) : W11 m ρ c (Proc.devRef .tc main_v14) = W1 m ρ c (Proc.devRef .tc main_v14) :=
  calc W11 m ρ c (Proc.devRef .tc main_v14)
    _ = W10 m ρ c (Proc.devRef .tc main_v14) := by host_keeps hostOps5
    _ = W9 m ρ c (Proc.devRef .tc main_v14) := W10_of_ne m ρ c main_v14 (by decide)
    _ = W8 m ρ c (Proc.devRef .tc main_v14) := by host_keeps hostOps4
    _ = W7 m ρ c (Proc.devRef .tc main_v14) := (W8_arr m ρ c 3).trans (((dat3 (V7 m ρ) c).arrAt_in 3 rfl _).trans (A_eq3 (V7 m ρ) c 3))
    _ = W1 m ρ c (Proc.devRef .tc main_v14) := W7_v14 m ρ c

/-! ## A region's first output across the host stretch that follows it -/

theorem W3_v15_0 (c : Dev nD) : W3 m ρ c (Proc.devRef .tc main_v15_0) = W2 m ρ c (Proc.devRef .tc main_v15_0) :=
  calc W3 m ρ c (Proc.devRef .tc main_v15_0)
    _ = W2 m ρ c (Proc.devRef .tc main_v15_0) := by host_keeps hostOps1

theorem W5_v27_0 (c : Dev nD) : W5 m ρ c (Proc.devRef .tc main_v27_0) = W4 m ρ c (Proc.devRef .tc main_v27_0) :=
  calc W5 m ρ c (Proc.devRef .tc main_v27_0)
    _ = W4 m ρ c (Proc.devRef .tc main_v27_0) := by host_keeps hostOps2

theorem W7_v45_0 (c : Dev nD) : W7 m ρ c (Proc.devRef .tc main_v45_0) = W6 m ρ c (Proc.devRef .tc main_v45_0) :=
  calc W7 m ρ c (Proc.devRef .tc main_v45_0)
    _ = W6 m ρ c (Proc.devRef .tc main_v45_0) := by host_keeps hostOps3

theorem W9_v57_0 (c : Dev nD) : W9 m ρ c (Proc.devRef .tc main_v57_0) = W8 m ρ c (Proc.devRef .tc main_v57_0) :=
  calc W9 m ρ c (Proc.devRef .tc main_v57_0)
    _ = W8 m ρ c (Proc.devRef .tc main_v57_0) := by host_keeps hostOps4

theorem W11_v75_0 (c : Dev nD) : W11 m ρ c (Proc.devRef .tc main_v75_0) = W10 m ρ c (Proc.devRef .tc main_v75_0) :=
  calc W11 m ρ c (Proc.devRef .tc main_v75_0)
    _ = W10 m ρ c (Proc.devRef .tc main_v75_0) := by host_keeps hostOps5

end Cert.KernelIdeal.KKeep

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«140138_j37512244363809_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibLayerSpec.lean ====
/-
  The perceptron of one message-passing layer, as whole-array functions over the extended reals, for any sizes.

  A layer's update is two dense maps with a column-wise normalisation between them.  With Z = A · W₁ + b₁ the first
  dense map of the aggregated features A, the second stage takes each column j of Z, subtracts a given number μ j,
  scales by the reciprocal square root of a given number v j plus a fixed ε, scales by g j, shifts by β j, and keeps
  the positive part (normRelu); the result goes through the second dense map, (·) · W₂ + b₂, and — in every layer
  but the last — through the positive part again.  Written with the matrix vocabulary (mm, addRow, relu) these are
  dense and layerOut below; the lemmas named _apply read them at an entry, by definition.
-/
import proofs.«140138_j37512244363809_2_alg».proof.Proof.LibMatOps

noncomputable section

open scoped BigOperators

namespace Cert.Spec

open Idealize.ShloMosaic Idealize.ShloMosaic.ValueIdx

variable {n k d : ℕ}

/-- The dense map: X · W plus the row B added to every row. -/
def dense (X : Mat n k) (W : Mat k d) (B : Mat 1 d) : Mat n d := addRow (mm X W) B

theorem dense_apply (X : Mat n k) (W : Mat k d) (B : Mat 1 d) (p : Fin n) (j : Fin d) :
    dense X W B (ix2 p j) = (∑ q : Fin k, X (ix2 p q) * W (ix2 q j)) + B (ix2 (0 : Fin 1) j) := rfl

/-- Column j of X centred at MU j, scaled by rsqrt (VAR j + ε) and by G j, shifted by BT j; then the positive part. -/
def normRelu (ε : EReal) (X : Mat n d) (MU VAR G BT : Mat 1 d) : Mat n d := fun i =>
  max ((X i - MU (ix2 (0 : Fin 1) (i 1))) * Ideal.rsqrt (VAR (ix2 (0 : Fin 1) (i 1)) + ε) * G (ix2 (0 : Fin 1) (i 1))
    + BT (ix2 (0 : Fin 1) (i 1))) 0

theorem normRelu_apply (ε : EReal) (X : Mat n d) (MU VAR G BT : Mat 1 d) (p : Fin n) (j : Fin d) :
    normRelu ε X MU VAR G BT (ix2 p j)
      = max ((X (ix2 p j) - MU (ix2 (0 : Fin 1) j)) * Ideal.rsqrt (VAR (ix2 (0 : Fin 1) j) + ε) * G (ix2 (0 : Fin 1) j)
          + BT (ix2 (0 : Fin 1) j)) 0 := rfl

/-- The second stage of a layer without the closing positive part: normalise, keep the positive part, dense map. -/
def layerOut (ε : EReal) (Z : Mat n k) (MU VAR G BT : Mat 1 k) (W : Mat k d) (B : Mat 1 d) : Mat n d :=
  dense (normRelu ε Z MU VAR G BT) W B

end Cert.Spec

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.GcnSpec.lean ====
/-
  A three-layer graph convolution with column normalisation, as whole-array functions over the extended reals,
  for any numbers of nodes n and edges e and any widths.

  The graph enters only through three pieces of data: for each node r the set into r of edges that point at it, for
  each edge x the node src x its message is read from, and the node tgt x that its target index reads — with
  tgt x = r for every x in into r.  With H = A · W the transformed features, dis r = deg r ^ (-1/2) and
  di r = 1 / deg r, one convolution is, at node r and column c,

      Y (r, c) = ∑ x ∈ into r, H (src x, c) · (dis (src x) · dis (tgt x))  +  H (r, c) · di r  +  b c        (convR)

  and the same number can be computed by scaling the rows of H by dis before the edges are summed and once more after:

      Y (r, c) = (∑ x ∈ into r, H (src x, c) · dis (src x)) · dis r  +  H (r, c) · di r  +  b c             (convK)

  The two agree when H and dis are finite: tgt x = r on into r, and a finite factor moves across a finite sum of finite
  terms (conv_eq).  The column normalisation takes column j of Y to (Y − μ j) · rsqrt (v j + ε) · g j + β j and keeps
  the positive part, with μ the column mean and v the column variance; the variance is the mean of the squared
  deviations (varR), or the mean of the squares less the squared mean, kept non-negative (varK).  For finite Y over
  n > 0 rows the two are one real number, the clamp at zero doing nothing to a mean of squares (var_eq).
  The last convolution has two columns and is followed by a softmax along each row.
-/
import proofs.«140138_j37512244363809_2_alg».proof.Proof.LibMatOps
import proofs.«140138_j37512244363809_2_alg».proof.Proof.LibLayerSpec
import proofs.«140138_j37512244363809_2_alg».proof.Proof.LibConsts

noncomputable section

open scoped BigOperators

namespace Cert.Gcn

open Idealize.ShloMosaic Idealize.ShloMosaic.ValueIdx Cert.Spec

variable {n e k d : ℕ}

/-- Every entry is a real number. -/
def Fin' (M : Mat n d) : Prop := ∀ i, ∃ r : ℝ, M i = (r : EReal)

/-- What the convolution uses of the edge list. -/
structure Graph (n e : ℕ) where
  /-- the edges that point at node r -/
  into : Fin n → Finset (Fin e)
  /-- the node an edge's message is read from -/
  src : Fin e → Fin n
  /-- the node an edge's target index reads -/
  tgt : Fin e → Fin n
  tgt_of_mem : ∀ r x, x ∈ into r → tgt x = r

/-- Row r of H scaled by s r. -/
def scaleRows (H : Mat n d) (s : Mat n 1) : Mat n d := fun i => H i * s (ix2 (i 0) (0 : Fin 1))

theorem scaleRows_apply (H : Mat n d) (s : Mat n 1) (r : Fin n) (c : Fin d) :
    scaleRows H s (ix2 r c) = H (ix2 r c) * s (ix2 r (0 : Fin 1)) := rfl

/-- The rows of M read along the edges into each node, summed. -/
def gsum (G : Graph n e) (M : Mat n d) : Mat n d := fun i => ∑ x ∈ G.into (i 0), M (ix2 (G.src x) (i 1))

theorem gsum_apply (G : Graph n e) (M : Mat n d) (r : Fin n) (c : Fin d) :
    gsum G M (ix2 r c) = ∑ x ∈ G.into r, M (ix2 (G.src x) c) := rfl

/-- The three terms of a convolution put together: the summed rows A scaled by dis, the node's own row H scaled by di,
    the bias row B. -/
def combine (A H : Mat n d) (dis di : Mat n 1) (B : Mat 1 d) : Mat n d := fun i =>
  A i * dis (ix2 (i 0) (0 : Fin 1)) + H i * di (ix2 (i 0) (0 : Fin 1)) + B (ix2 (0 : Fin 1) (i 1))

theorem combine_apply (A H : Mat n d) (dis di : Mat n 1) (B : Mat 1 d) (r : Fin n) (c : Fin d) :
    combine A H dis di B (ix2 r c)
      = A (ix2 r c) * dis (ix2 r (0 : Fin 1)) + H (ix2 r c) * di (ix2 r (0 : Fin 1)) + B (ix2 (0 : Fin 1) c) := rfl

/-- Column j of Y centred at MU j, scaled by INV j and by G j, shifted by BT j; then the positive part. -/
def normRelu0 (Y : Mat n d) (MU INV G BT : Mat 1 d) : Mat n d := fun i =>
  max ((Y i - MU (ix2 (0 : Fin 1) (i 1))) * INV (ix2 (0 : Fin 1) (i 1)) * G (ix2 (0 : Fin 1) (i 1))
    + BT (ix2 (0 : Fin 1) (i 1))) 0

theorem normRelu0_apply (Y : Mat n d) (MU INV G BT : Mat 1 d) (r : Fin n) (c : Fin d) :
    normRelu0 Y MU INV G BT (ix2 r c)
      = max ((Y (ix2 r c) - MU (ix2 (0 : Fin 1) c)) * INV (ix2 (0 : Fin 1) c) * G (ix2 (0 : Fin 1) c)
          + BT (ix2 (0 : Fin 1) c)) 0 := rfl

/-- One convolution with the rows scaled before the edges are summed and once more after. -/
def convK (G : Graph n e) (H : Mat n d) (dis di : Mat n 1) (B : Mat 1 d) : Mat n d := fun i =>
  gsum G (scaleRows H dis) i * dis (ix2 (i 0) (0 : Fin 1)) + H i * di (ix2 (i 0) (0 : Fin 1)) + B (ix2 (0 : Fin 1) (i 1))

theorem convK_apply (G : Graph n e) (H : Mat n d) (dis di : Mat n 1) (B : Mat 1 d) (r : Fin n) (c : Fin d) :
    convK G H dis di B (ix2 r c)
      = (∑ x ∈ G.into r, H (ix2 (G.src x) c) * dis (ix2 (G.src x) (0 : Fin 1))) * dis (ix2 r (0 : Fin 1))
        + H (ix2 r c) * di (ix2 r (0 : Fin 1)) + B (ix2 (0 : Fin 1) c) := rfl

/-- One convolution with each edge's message weighted by dis (src x) · dis (tgt x). -/
def convR (G : Graph n e) (H : Mat n d) (dis di : Mat n 1) (B : Mat 1 d) : Mat n d := fun i =>
  (∑ x ∈ G.into (i 0), H (ix2 (G.src x) (i 1)) * (dis (ix2 (G.src x) (0 : Fin 1)) * dis (ix2 (G.tgt x) (0 : Fin 1))))
    + H i * di (ix2 (i 0) (0 : Fin 1)) + B (ix2 (0 : Fin 1) (i 1))

theorem convR_apply (G : Graph n e) (H : Mat n d) (dis di : Mat n 1) (B : Mat 1 d) (r : Fin n) (c : Fin d) :
    convR G H dis di B (ix2 r c)
      = (∑ x ∈ G.into r, H (ix2 (G.src x) c) * (dis (ix2 (G.src x) (0 : Fin 1)) * dis (ix2 (G.tgt x) (0 : Fin 1))))
        + H (ix2 r c) * di (ix2 r (0 : Fin 1)) + B (ix2 (0 : Fin 1) c) := rfl

/-- The column means: each column's sum divided by cnt. -/
def colMean (Y : Mat n d) (cnt : EReal) : Mat 1 d := fun i => Ideal.div (colSum Y i) cnt

theorem colMean_apply (Y : Mat n d) (cnt : EReal) (z : Fin 1) (j : Fin d) :
    colMean Y cnt (ix2 z j) = Ideal.div (∑ p : Fin n, Y (ix2 p j)) cnt := rfl

/-- The column variances as the mean of the squares less the squared mean, kept non-negative. -/
def varK (Y : Mat n d) (cnt : EReal) : Mat 1 d := fun i =>
  max (Ideal.div (colSumSq Y i) cnt - colMean Y cnt i * colMean Y cnt i) 0

theorem varK_apply (Y : Mat n d) (cnt : EReal) (z : Fin 1) (j : Fin d) :
    varK Y cnt (ix2 z j)
      = max (Ideal.div (∑ p : Fin n, Y (ix2 p j) * Y (ix2 p j)) cnt - colMean Y cnt (ix2 z j) * colMean Y cnt (ix2 z j)) 0 := rfl

/-- The column variances as the mean of the squared deviations from the column mean. -/
def varR (Y : Mat n d) (cnt : EReal) : Mat 1 d := fun i =>
  Ideal.div (∑ p : Fin n, (Y (ix2 p (i 1)) - colMean Y cnt i) * (Y (ix2 p (i 1)) - colMean Y cnt i)) cnt

theorem varR_apply (Y : Mat n d) (cnt : EReal) (z : Fin 1) (j : Fin d) :
    varR Y cnt (ix2 z j)
      = Ideal.div (∑ p : Fin n, (Y (ix2 p j) - colMean Y cnt (ix2 z j)) * (Y (ix2 p j) - colMean Y cnt (ix2 z j))) cnt := rfl

/-- The softmax along each row of a two-column array. -/
def softmax2 (Z : Mat n 2) : Mat n 2 := fun i =>
  Ideal.div (Ideal.exp (Z i - max (Z (ix2 (i 0) (0 : Fin 2))) (Z (ix2 (i 0) (1 : Fin 2)))))
    (Ideal.exp (Z (ix2 (i 0) (0 : Fin 2)) - max (Z (ix2 (i 0) (0 : Fin 2))) (Z (ix2 (i 0) (1 : Fin 2))))
      + Ideal.exp (Z (ix2 (i 0) (1 : Fin 2)) - max (Z (ix2 (i 0) (0 : Fin 2))) (Z (ix2 (i 0) (1 : Fin 2)))))

theorem softmax2_apply (Z : Mat n 2) (r : Fin n) (c : Fin 2) :
    softmax2 Z (ix2 r c)
      = Ideal.div (Ideal.exp (Z (ix2 r c) - max (Z (ix2 r (0 : Fin 2))) (Z (ix2 r (1 : Fin 2)))))
          (Ideal.exp (Z (ix2 r (0 : Fin 2)) - max (Z (ix2 r (0 : Fin 2))) (Z (ix2 r (1 : Fin 2))))
            + Ideal.exp (Z (ix2 r (1 : Fin 2)) - max (Z (ix2 r (0 : Fin 2))) (Z (ix2 r (1 : Fin 2))))) := rfl

/-- The activations a layer passes on: the normalised columns' positive part, the variance by varK. -/
def actK (ε cnt : EReal) (Y : Mat n d) (g be : Mat 1 d) : Mat n d :=
  normRelu ε Y (colMean Y cnt) (varK Y cnt) g be

/-- The same with the variance by varR. -/
def actR (ε cnt : EReal) (Y : Mat n d) (g be : Mat 1 d) : Mat n d :=
  normRelu ε Y (colMean Y cnt) (varR Y cnt) g be

variable {h c : ℕ}

/-- The whole network, convolutions by convK and variances by varK. -/
def netK (G : Graph n e) (ε cnt : EReal) (dis di : Mat n 1) (X : Mat n k) (W1 : Mat k h) (b1 g1 be1 : Mat 1 h)
    (W2 : Mat h h) (b2 g2 be2 : Mat 1 h) (W3 : Mat h 2) (b3 : Mat 1 2) : Mat n 2 :=
  softmax2 (convK G (mm (actK ε cnt (convK G (mm (actK ε cnt (convK G (mm X W1) dis di b1) g1 be1) W2) dis di b2) g2 be2) W3)
    dis di b3)

/-- The whole network, convolutions by convR and variances by varR. -/
def netR (G : Graph n e) (ε cnt : EReal) (dis di : Mat n 1) (X : Mat n k) (W1 : Mat k h) (b1 g1 be1 : Mat 1 h)
    (W2 : Mat h h) (b2 g2 be2 : Mat 1 h) (W3 : Mat h 2) (b3 : Mat 1 2) : Mat n 2 :=
  softmax2 (convR G (mm (actR ε cnt (convR G (mm (actR ε cnt (convR G (mm X W1) dis di b1) g1 be1) W2) dis di b2) g2 be2) W3)
    dis di b3)

end Cert.Gcn

end
-- ==== Proof.KRegionTiles.lean ====
/-
  Two facts about arrays with two axes, used wherever a kernel works on a tile of rows.

  A one-column array repeated across b columns reads, at (p, c), its entry in row p (colBroadcast_apply): the layout a
  per-row factor takes before it multiplies a whole tile.  The offsets (0, 0) of a rectangle that starts at the corner
  of its array are the constant zero function, however the two zeros are spelt (zeros2).
-/
import Idealize.ShloMosaic.Lib.ValueIdx
import Idealize.ShloMosaic.Lib.ValueLayout
import Idealize.ShloMosaic.Lib.Pipeline.Value

noncomputable section

namespace Cert.Tiles

open Idealize.ShloMosaic Idealize.ShloMosaic.ValueIdx

/-- Two zero offsets are the zero function. -/
theorem zeros2 : (![0, 0] : Fin 2 → Nat) = fun _ => 0 := funext fun a => by fin_cases a <;> rfl

variable {α : Type}

/-- A one-column array repeated across b columns reads, at (p, c), the column at p. -/
theorem colBroadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Tiles

end
-- ==== Proof.KRegion0Pay.lean ====
/-
  What the first kernel's body stores, read at an entry of its tile, over the extended reals.

  The body takes a tile x of 5000 rows of the features, the weight matrix w and the tile s of the per-row factors.  Its
  first store is the product x · w: narrowing the operands' float format changes nothing over the exact reals, and a
  product accumulated into zero is the plain sum of products, so the entry (p, j) is the sum over q of x (p, q) · w (q, j)
  (pay1_apply).  Its second store is that product with row p scaled by s (p, 0): the factor column is repeated across the
  128 columns and multiplied in entry by entry (pay2_apply).

  When the tile x holds the rows of an array X of 100000 rows that start at row b · 5000, w is a whole matrix W and s
  holds the same rows of S, those entries are the entries (b · 5000 + p, j) of X · W and of X · W with its rows scaled by
  S (pay1_tile, pay2_tile): the product and the scaling are computed row by row, so a tile of rows of the input gives the
  same tile of rows of the result.
-/
import proofs.«140138_j37512244363809_2_alg».proof.Proof.Gen.KernelIdeal.Skeleton
import proofs.«140138_j37512244363809_2_alg».proof.Proof.LibPlainDot
import proofs.«140138_j37512244363809_2_alg».proof.Proof.GcnSpec
import proofs.«140138_j37512244363809_2_alg».proof.Proof.KRegionTiles

noncomputable section

open scoped BigOperators

namespace Cert.KernelIdeal.Region0

open Idealize.ShloMosaic Idealize.ShloMosaic.ValueIdx
open Cert.KernelIdeal Cert.KernelIdeal.Gen Cert.Spec Cert.Gcn Cert.Tiles

/-- The product the body stores first: at (p, j) the sum over q of x (p, q) · w (q, j). -/
theorem pay1_apply (x0 : Vec Ideal S5000x128 .f32) (x1 : Vec Ideal S128x128 .f32) (p : Fin 5000) (j : Fin 128) :
    k0_pay1 x0 x1 (ix2 p j) = ∑ q : Fin 128, x0 (ix2 p q) * x1 (ix2 q j) := by
  unfold k0_pay1
  exact Cert.LibPlainDot.matmul_zero_apply dot_S5000x128_S128x128_S5000x128_1_0_0_1_n_n rfl none
    (truncf .bf16 x0 bitsLt_bf16_f32) (truncf .bf16 x1 bitsLt_bf16_f32) p j

/-- What the body stores second: the product's entry scaled by the row's factor. -/
theorem pay2_apply (x0 : Vec Ideal S5000x128 .f32) (x1 : Vec Ideal S128x128 .f32) (x2 : Vec Ideal S5000x1 .f32)
    (p : Fin 5000) (j : Fin 128) :
    k0_pay2 x0 x1 x2 (ix2 p j) = k0_pay1 x0 x1 (ix2 p j) * x2 (ix2 p (0 : Fin 1)) := by
  show k0_pay1 x0 x1 (ix2 p j)
      * broadcastTo S5000x128 (shapeCast S5000x1 x2 shapeCasts_S5000x1_S5000x1) broadcasts_S5000x1_S5000x128 (ix2 p j) = _
  rw [shapeCast_self, colBroadcast_apply]

/-- A tile of rows of the features gives the same tile of rows of the product. -/
theorem pay1_tile (x0 : Vec Ideal S5000x128 .f32) (x1 : Vec Ideal S128x128 .f32) (X0 : Mat 100000 128) (X1 : Mat 128 128)
    (b : ℕ)
    (h0 : ∀ (y : S5000x128.Idx) (i : S100000x128.Idx), (i 0).val = b * 5000 + (y 0).val → (i 1).val = (y 1).val → x0 y = X0 i)
    (h1 : ∀ y : S128x128.Idx, x1 y = X1 y)
    (y : S5000x128.Idx) (i : S100000x128.Idx) (hi0 : (i 0).val = b * 5000 + (y 0).val) (hi1 : (i 1).val = (y 1).val) :
    k0_pay1 x0 x1 y = mm X0 X1 i := by
  obtain ⟨p, j, rfl⟩ : ∃ (p : Fin 5000) (j : Fin 128), y = ix2 p j := ⟨y 0, y 1, eq_ix2 y⟩
  obtain ⟨r, j', rfl⟩ : ∃ (r : Fin 100000) (j' : Fin 128), i = ix2 r j' := ⟨i 0, i 1, eq_ix2 i⟩
  have e0 : r.val = b * 5000 + p.val := hi0
  obtain rfl : j' = j := Fin.ext hi1
  rw [pay1_apply, mm_apply]
  refine Finset.sum_congr rfl fun q _ => ?_
  rw [h0 (ix2 p q) (ix2 r q) e0 rfl, h1]

/-- A tile of rows of the features and of the factors gives the same tile of rows of the scaled product. -/
theorem pay2_tile (x0 : Vec Ideal S5000x128 .f32) (x1 : Vec Ideal S128x128 .f32) (x2 : Vec Ideal S5000x1 .f32)
    (X0 : Mat 100000 128) (X1 : Mat 128 128) (X2 : Mat 100000 1) (b : ℕ)
    (h0 : ∀ (y : S5000x128.Idx) (i : S100000x128.Idx), (i 0).val = b * 5000 + (y 0).val → (i 1).val = (y 1).val → x0 y = X0 i)
    (h1 : ∀ y : S128x128.Idx, x1 y = X1 y)
    (h2 : ∀ (y : S5000x1.Idx) (i : S100000x1.Idx), (i 0).val = b * 5000 + (y 0).val → (i 1).val = (y 1).val → x2 y = X2 i)
    (y : S5000x128.Idx) (i : S100000x128.Idx) (hi0 : (i 0).val = b * 5000 + (y 0).val) (hi1 : (i 1).val = (y 1).val) :
    k0_pay2 x0 x1 x2 y = scaleRows (mm X0 X1) X2 i := by
  have hm := pay1_tile x0 x1 X0 X1 b h0 h1 y i hi0 hi1
  obtain ⟨p, j, rfl⟩ : ∃ (p : Fin 5000) (j : Fin 128), y = ix2 p j := ⟨y 0, y 1, eq_ix2 y⟩
  obtain ⟨r, j', rfl⟩ : ∃ (r : Fin 100000) (j' : Fin 128), i = ix2 r j' := ⟨i 0, i 1, eq_ix2 i⟩
  have e0 : r.val = b * 5000 + p.val := hi0
  rw [pay2_apply, scaleRows_apply, hm, h2 (ix2 p (0 : Fin 1)) (ix2 r (0 : Fin 1)) e0 rfl]

end Cert.KernelIdeal.Region0

end
-- ==== Proof.KRegion0Blocks.lean ====
/-
  The first kernel's tiles, as pieces of its whole arrays.

  The kernel runs at 20 grid points.  At point t its three inputs are: rows 5000 t … 5000 t + 4999 of the features
  (window 0), the whole weight matrix (window 1), and the same rows of the per-row factors (window 2); its two outputs
  (windows 3 and 4) are written back to rows 5000 t … 5000 t + 4999 of their arrays.  These relations between a point and
  its blocks are decided once over the grid from the kernel's index maps (idx_facts).  From them: an entry of an input's
  block is the entry of the input's array in the row the block's row is (iblk_0, iblk_1, iblk_2); an index of an output
  array lies in point t's block exactly when its row lies in the block's range (mem_blk_3, mem_blk_4); and every row r
  lies in the block of the point r / 5000, so the 20 blocks cover each output array (cover_3, cover_4).
-/
import proofs.«140138_j37512244363809_2_alg».proof.Proof.Gen.KernelIdeal.Frame
import proofs.«140138_j37512244363809_2_alg».proof.Proof.LibMatOps
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.Spec

variable (V : (c : Dev nD) → (b : Ref sig .tc) → Buf (Elt Ideal) ((c : Thread nD τ).loc b))

/-- The arrays the kernel's three inputs are read from, as the region finds them. -/
abbrev X0 (c : Dev nD) : Mat 100000 128 := V c (Pipeline.arrRef spec0 0)
abbrev X1 (c : Dev nD) : Mat 128 128 := V c (Pipeline.arrRef spec0 1)
abbrev X2 (c : Dev nD) : Mat 100000 1 := V c (Pipeline.arrRef spec0 2)

/-- The block indices at point t: the row-blocked windows are at block (t, 0), the whole matrix at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features' block at point t holds rows 5000 t … of the features. -/
theorem iblk_0 (c : Dev nD) (t : Fin cfg0.N) (y : S5000x128.Idx) (i : S100000x128.Idx)
    (hi0 : (i 0).val = t.val * 5000 + (y 0).val) (hi1 : (i 1).val = (y 1).val) :
    (iblk0 V c 0 t : Vec Ideal S5000x128 .f32) y = X0 V c i := by
  obtain ⟨e0, e1, -⟩ := idx_facts t
  unfold iblk0
  rw [View.read_apply]
  show X0 V c (((cfg0.win 0).blk t).view.emb y) = X0 V c i
  refine congrArg (X0 V c) (funext fun a => Fin.ext ?_)
  match a with
  | ⟨0, _⟩ => show win0_0.index t (0 : Fin 2) * 5000 + 1 * (y 0).val = (i 0).val; rw [e0, hi0]; omega
  | ⟨1, _⟩ => show win0_0.index t (1 : Fin 2) * 128 + 1 * (y 1).val = (i 1).val; rw [e1, hi1]; omega

/-- The weight matrix's block at any point is the whole matrix. -/
theorem iblk_1 (c : Dev nD) (t : Fin cfg0.N) (y : S128x128.Idx) :
    (iblk0 V c 1 t : Vec Ideal S128x128 .f32) y = X1 V c y := by
  obtain ⟨-, -, e0, e1, -⟩ := idx_facts t
  unfold iblk0
  rw [View.read_apply]
  show X1 V c (((cfg0.win 1).blk t).view.emb y) = X1 V c y
  refine congrArg (X1 V c) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The factors' block at point t holds rows 5000 t … of the factors. -/
theorem iblk_2 (c : Dev nD) (t : Fin cfg0.N) (y : S5000x1.Idx) (i : S100000x1.Idx)
    (hi0 : (i 0).val = t.val * 5000 + (y 0).val) (hi1 : (i 1).val = (y 1).val) :
    (iblk0 V c 2 t : Vec Ideal S5000x1 .f32) y = X2 V c i := by
  obtain ⟨-, -, -, -, e0, e1, -⟩ := idx_facts t
  unfold iblk0
  rw [View.read_apply]
  show X2 V c (((cfg0.win 2).blk t).view.emb y) = X2 V c i
  refine congrArg (X2 V c) (funext fun a => Fin.ext ?_)
  match a with
  | ⟨0, _⟩ => show win0_2.index t (0 : Fin 2) * 5000 + 1 * (y 0).val = (i 0).val; rw [e0, hi0]; omega
  | ⟨1, _⟩ => show win0_2.index t (1 : Fin 2) * 1 + 1 * (y 1).val = (i 1).val; rw [e1, hi1]; omega

/-- An index of the first output's array is in point t's block iff each coordinate is in the block's range on its axis. -/
theorem mem_blk_3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15_0).slice (win0_3.rect t)).set ↔ _
  rw [View.set_slice_whole, Rect.mem_set_unit]
  exact Iff.rfl

/-- The same for the second output's array. -/
theorem mem_blk_4 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v15_1).slice (win0_4.rect t)).set ↔ _
  rw [View.set_slice_whole, Rect.mem_set_unit]
  exact Iff.rfl

/-- Row r of the first output's array is written back by the point r / 5000. -/
theorem cover_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1, -⟩ := idx_facts t
  refine ⟨t, flush0_3 t, ?_⟩
  rw [mem_blk_3]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- Row r of the second output's array is written back by the point r / 5000. -/
theorem cover_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, e0, e1⟩ := idx_facts t
  refine ⟨t, flush0_4 t, ?_⟩
  rw [mem_blk_4]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 128 ≤ (i 1).val ∧ (i 1).val < win0_4.index t (1 : Fin 2) * 128 + 128
    rw [e1]; omega

end Cert.KernelIdeal.Region0

end
-- ==== Proof.KRegion0.lean ====
/-
  The first kernel's two output arrays after its 20 grid points, as functions of its whole input arrays.

  With X the features, W the weight matrix and S the per-row factors as the kernel finds them, the first output array
  ends holding the product X · W and the second the same product with row r scaled by S (r, 0).

  Point t writes back, into rows 5000 t … 5000 t + 4999 of each output array, what the body stored: the product, and
  the scaled product, of the features' and factors' blocks at t.  Those blocks are the same rows of X and S, and both
  results are computed row by row, so what point t writes back is exactly its block of X · W and of the scaled
  X · W (wrote_3, wrote_4).  The 20 blocks cover every row, so each array ends holding the whole function (h_eq, hs_eq).
-/
import proofs.«140138_j37512244363809_2_alg».proof.Proof.KRegion0Pay
import proofs.«140138_j37512244363809_2_alg».proof.Proof.KRegion0Blocks

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.Spec Cert.Gcn Cert.Tiles

variable (V : (c : Dev nD) → (b : Ref sig .tc) → Buf (Elt Ideal) ((c : Thread nD τ).loc b))

/-- What point t writes back into the first output's array is its block of the product. -/
theorem wrote_3 (c : Dev nD) (t : Fin cfg0.N) :
    (dat0 V c).flushed 3 t = ((cfg0.win 3).blk t).view.read (Elt Ideal) (mm (X0 V c) (X1 V c)) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x128) zeros2]
  obtain ⟨-, -, -, -, -, -, e0, e1, -⟩ := idx_facts t
  funext y
  show k0_pay1 (iblk0 V c 0 t) (iblk0 V c 1 t) ((cfg0.win 3).xinj (grid0.coords t) y)
      = mm (X0 V c) (X1 V c) (((cfg0.win 3).blk t).view.emb y)
  refine pay1_tile (iblk0 V c 0 t) (iblk0 V c 1 t) (X0 V c) (X1 V c) t.val (iblk_0 V c t) (iblk_1 V c t)
    ((cfg0.win 3).xinj (grid0.coords t) y) (((cfg0.win 3).blk t).view.emb y) ?_ ?_
  · show win0_3.index t (0 : Fin 2) * 5000 + 1 * (y 0).val = t.val * 5000 + (y 0).val
    rw [e0]; omega
  · show win0_3.index t (1 : Fin 2) * 128 + 1 * (y 1).val = (y 1).val
    rw [e1]; omega

/-- What point t writes back into the second output's array is its block of the scaled product. -/
theorem wrote_4 (c : Dev nD) (t : Fin cfg0.N) :
    (dat0 V c).flushed 4 t
      = ((cfg0.win 4).blk t).view.read (Elt Ideal) (scaleRows (mm (X0 V c) (X1 V c)) (X2 V c)) := by
  show (cfg0.win 4).cut (grid0.coords t) ((dat0 V c).after 4 t) = _
  rw [after0_4]
  unfold out0_4
  rw [View.canon_unit_zero zeros2]
  simp only [View.ld_unit_zero (S := S5000x128) zeros2, View.ld_unit_zero (S := S128x128) zeros2,
    View.ld_unit_zero (S := S5000x1) zeros2]
  obtain ⟨-, -, -, -, -, -, -, -, e0, e1⟩ := idx_facts t
  funext y
  show k0_pay2 (iblk0 V c 0 t) (iblk0 V c 1 t) (iblk0 V c 2 t) ((cfg0.win 4).xinj (grid0.coords t) y)
      = scaleRows (mm (X0 V c) (X1 V c)) (X2 V c) (((cfg0.win 4).blk t).view.emb y)
  refine pay2_tile (iblk0 V c 0 t) (iblk0 V c 1 t) (iblk0 V c 2 t) (X0 V c) (X1 V c) (X2 V c) t.val
    (iblk_0 V c t) (iblk_1 V c t) (iblk_2 V c t)
    ((cfg0.win 4).xinj (grid0.coords t) y) (((cfg0.win 4).blk t).view.emb y) ?_ ?_
  · show win0_4.index t (0 : Fin 2) * 5000 + 1 * (y 0).val = t.val * 5000 + (y 0).val
    rw [e0]; omega
  · show win0_4.index t (1 : Fin 2) * 128 + 1 * (y 1).val = (y 1).val
    rw [e1]; omega

/-- The first output's array after the region: the features times the weights. -/
theorem h_eq (c : Dev nD) :
    (dat0 V c).arrAt 3 cfg0.N
      = mm (V c (Pipeline.arrRef spec0 0) : Mat 100000 128) (V c (Pipeline.arrRef spec0 1) : Mat 128 128) :=
  (dat0 V c).arrAt_eq_of_cover 3 (mm (X0 V c) (X1 V c)) (fun t _ => wrote_3 V c t) cover_3

/-- The second output's array after the region: the same product with each row scaled by the row's factor. -/
theorem hs_eq (c : Dev nD) :
    (dat0 V c).arrAt 4 cfg0.N
      = scaleRows (mm (V c (Pipeline.arrRef spec0 0) : Mat 100000 128) (V c (Pipeline.arrRef spec0 1) : Mat 128 128))
          (V c (Pipeline.arrRef spec0 2) : Mat 100000 1) :=
  (dat0 V c).arrAt_eq_of_cover 4 (scaleRows (mm (X0 V c) (X1 V c)) (X2 V c)) (fun t _ => wrote_4 V c t) cover_4

end Cert.KernelIdeal.Region0

end
-- ==== Proof.KRegion1Pieces.lean ====
import proofs.«140138_j37512244363809_2_alg».proof.Proof.Gen.KernelIdeal.Frame
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

/-! What each control case of the combine kernel leaves in its three output buffers, as the body's arithmetic applied
    to the blocks it loaded.  Window 0 is h, 1 is agg, 2 is dis, 3 is di, 4 is b; the body reads agg and dis first. -/

theorem hz : (![0, 0] : Fin 2 → Nat) = fun _ => 0 := funext fun a => by fin_cases a <;> rfl

/-- At the first grid point the y block is the combine arithmetic of the loaded blocks. -/
theorem out_A_5 (c : Dev nD) (i : grid1.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond1_0 i) (x0 x1 : Vec F S5000x128 .f32) (x2 x3 : Vec F S5000x1 .f32) (x4 : Vec F S1x128 .f32) :
    out1_A_5 c i a1 h1 a2 h2 a3 h3 a4 h4 a5 h5 a6 h6 a7 h7 a8 h8 hc x0 x1 x2 x3 x4 = k1_pay3 x1 x2 x0 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero (S := S5000x128) hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz]

/-- At every later grid point too. -/
theorem out_B_5 (c : Dev nD) (i : grid1.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond1_0 i) (x0 x1 : Vec F S5000x128 .f32) (x2 x3 : Vec F S5000x1 .f32) (x4 : Vec F S1x128 .f32)
    (xo6 xo7 : Vec F S1x128 .f32) :
    out1_B_5 c i a1 h1 a2 h2 a3 h3 a4 h4 a5 h5 a6 h6 a7 h7 a8 h8 hc x0 x1 x2 x3 x4 xo6 xo7 = k1_pay3 x1 x2 x0 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  sl_unfold_words
  rw [View.canon_unit_zero (S := S5000x128) hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz]

/-- At the first grid point the column-sum row is zeroed, read back, and the block's column sums added to it. -/
theorem out_A_6 (c : Dev nD) (i : grid1.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond1_0 i) (x0 x1 : Vec F S5000x128 .f32) (x2 x3 : Vec F S5000x1 .f32) (x4 : Vec F S1x128 .f32) :
    out1_A_6 c i a1 h1 a2 h2 a3 h3 a4 h4 a5 h5 a6 h6 a7 h7 a8 h8 hc x0 x1 x2 x3 x4 = k1_pay4 x1 x2 x0 x3 x4 (k1_pay1 (F := F)) := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz]

/-- At a later grid point the block's column sums are added to what the row held. -/
theorem out_B_6 (c : Dev nD) (i : grid1.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond1_0 i) (x0 x1 : Vec F S5000x128 .f32) (x2 x3 : Vec F S5000x1 .f32) (x4 : Vec F S1x128 .f32)
    (xo6 xo7 : Vec F S1x128 .f32) :
    out1_B_6 c i a1 h1 a2 h2 a3 h3 a4 h4 a5 h5 a6 h6 a7 h7 a8 h8 hc x0 x1 x2 x3 x4 xo6 xo7 = k1_pay4 x1 x2 x0 x3 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  sl_unfold_words
  rw [View.canon_unit_zero (S := S1x128) hz]
  simp only [View.readAt_eq_ld, h1.read_unread, h2.read_unread, h3.read_unread, h4.read_unread, h5.read_unread,
    h7.read_unread, View.ld_unit_zero (S := S5000x128) hz, View.ld_unit_zero (S := S5000x1) hz,
    View.ld_unit_zero (S := S1x128) hz]

/-- The same for the row of column sums of squares: zeroed and added to at the first point, -/
theorem out_A_7 (c : Dev nD) (i : grid1.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond1_0 i) (x0 x1 : Vec F S5000x128 .f32) (x2 x3 : Vec F S5000x1 .f32) (x4 : Vec F S1x128 .f32) :
    out1_A_7 c i a1 h1 a2 h2 a3 h3 a4 h4 a5 h5 a6 h6 a7 h7 a8 h8 hc x0 x1 x2 x3 x4 = k1_pay5 x1 x2 x0 x3 x4 (k1_pay2 (F := F)) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz]

/-- and added to at a later point. -/
theorem out_B_7 (c : Dev nD) (i : grid1.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond1_0 i) (x0 x1 : Vec F S5000x128 .f32) (x2 x3 : Vec F S5000x1 .f32) (x4 : Vec F S1x128 .f32)
    (xo6 xo7 : Vec F S1x128 .f32) :
    out1_B_7 c i a1 h1 a2 h2 a3 h3 a4 h4 a5 h5 a6 h6 a7 h7 a8 h8 hc x0 x1 x2 x3 x4 xo6 xo7 = k1_pay5 x1 x2 x0 x3 x4 xo7 := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero (S := S1x128) hz]
  simp only [View.readAt_eq_ld, h1.read_unread, h2.read_unread, h3.read_unread, h4.read_unread, h5.read_unread,
    h8.read_unread, View.ld_unit_zero (S := S5000x128) hz, View.ld_unit_zero (S := S5000x1) hz,
    View.ld_unit_zero (S := S1x128) hz]

end Cert.KernelIdeal.Region1

end
-- ==== Proof.KRegion1Outs.lean ====
import proofs.«140138_j37512244363809_2_alg».proof.Proof.KRegion1Pieces

noncomputable section

open scoped BigOperators
open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]
variable (V : (c : Dev nD) → (b : Ref sig .tc) → Buf (Elt F) ((c : Thread nD τ).loc b))

/-! What the three output buffers hold after each grid point, as the body's arithmetic of that point's input blocks
    and — for the two accumulator rows — of what the point before left. -/

/-- The first point: y from the blocks, the two rows from the zero rows. -/
theorem outs_first (c : Dev nD) (t : Fin cfg1.N) (h0 : t.val % 20 = 0) :
    outsAt1 V c t.val t.isLt
      = (k1_pay3 (iblk1 V c 1 t) (iblk1 V c 2 t) (iblk1 V c 0 t) (iblk1 V c 3 t) (iblk1 V c 4 t),
         k1_pay4 (iblk1 V c 1 t) (iblk1 V c 2 t) (iblk1 V c 0 t) (iblk1 V c 3 t) (iblk1 V c 4 t) (k1_pay1 (F := F)),
         k1_pay5 (iblk1 V c 1 t) (iblk1 V c 2 t) (iblk1 V c 0 t) (iblk1 V c 3 t) (iblk1 V c 4 t) (k1_pay2 (F := F))) :=
  (outsAt1_A V c t h0).trans (congrArg₂ Prod.mk
    (out_A_5 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))
    (congrArg₂ Prod.mk
      (out_A_6 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))
      (out_A_7 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))))

/-- A later point: y from the blocks, the two rows from what the point before left in them. -/
theorem outs_later (c : Dev nD) (t : Fin cfg1.N) (h0 : ¬t.val % 20 = 0) :
    outsAt1 V c t.val t.isLt
      = (k1_pay3 (iblk1 V c 1 t) (iblk1 V c 2 t) (iblk1 V c 0 t) (iblk1 V c 3 t) (iblk1 V c 4 t),
         k1_pay4 (iblk1 V c 1 t) (iblk1 V c 2 t) (iblk1 V c 0 t) (iblk1 V c 3 t) (iblk1 V c 4 t)
           (outsAt1 V c (t.val - 1) (Nat.lt_of_le_of_lt (Nat.sub_le _ _) t.isLt)).2.1,
         k1_pay5 (iblk1 V c 1 t) (iblk1 V c 2 t) (iblk1 V c 0 t) (iblk1 V c 3 t) (iblk1 V c 4 t)
           (outsAt1 V c (t.val - 1) (Nat.lt_of_le_of_lt (Nat.sub_le _ _) t.isLt)).2.2) :=
  (outsAt1_B V c t h0).trans (congrArg₂ Prod.mk
    (out_B_5 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).2.1
      (outsAt1 V c (t.val - 1) (Nat.lt_of_le_of_lt (Nat.sub_le _ _) t.isLt)).2.2)
    (congrArg₂ Prod.mk
      (out_B_6 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t)
        (outsAt1 V c (t.val - 1) (Nat.lt_of_le_of_lt (Nat.sub_le _ _) t.isLt)).2.1
        (outsAt1 V c (t.val - 1) (Nat.lt_of_le_of_lt (Nat.sub_le _ _) t.isLt)).2.2)
      (out_B_7 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t)
        (outsAt1 V c (t.val - 1) (Nat.lt_of_le_of_lt (Nat.sub_le _ _) t.isLt)).2.1
        (outsAt1 V c (t.val - 1) (Nat.lt_of_le_of_lt (Nat.sub_le _ _) t.isLt)).2.2)))

/-- At every point the y buffer holds the combine arithmetic of the point's blocks. -/
theorem y_after (c : Dev nD) (t : Fin cfg1.N) :
    (outsAt1 V c t.val t.isLt).1 = k1_pay3 (iblk1 V c 1 t) (iblk1 V c 2 t) (iblk1 V c 0 t) (iblk1 V c 3 t) (iblk1 V c 4 t) := by
  by_cases h0 : t.val % 20 = 0
  · exact congrArg Prod.fst (outs_first V c t h0)
  · exact congrArg Prod.fst (outs_later V c t h0)

end Cert.KernelIdeal.Region1

end
-- ==== Proof.KRegion1Pay.lean ====
import proofs.«140138_j37512244363809_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Region1

open Cert.KernelIdeal Cert.KernelIdeal.Gen

/-! The combine kernel's arithmetic over the extended reals, read at an entry.  With A, s, H, d the loaded blocks of
    agg, dis, h, di (5000 rows each) and B the bias row, the y block at (p, j) is A (p, j) · s p + H (p, j) · d p + B j;
    the column-sum row at j becomes what it held plus the sum over the block's 5000 rows of y (p, j), and the row of
    sums of squares what it held plus the sum of y (p, j) · y (p, j). -/

/-- One column repeated across the columns: a [5000, 1] array broadcast to [5000, 128] reads, at (p, j), the column at p. -/
theorem bcast_col_apply {α : Type} (v : S5000x1.Idx → α) (h : S5000x1.Broadcasts S5000x128) (p : Fin 5000) (j : Fin 128) :
    broadcastTo S5000x128 v h (ix2 p j) = v (ix2 p (0 : Fin 1)) := by
  refine broadcastTo_apply v h (ix2 p j) (ix2 p (0 : Fin 1)) fun ax => ?_
  match ax with
  | ⟨0, _⟩ => rfl
  | ⟨1, _⟩ => rfl

/-- The y block at an entry. -/
theorem pay3_apply (A : Vec Ideal S5000x128 .f32) (s : Vec Ideal S5000x1 .f32) (H : Vec Ideal S5000x128 .f32)
    (d : Vec Ideal S5000x1 .f32) (B : Vec Ideal S1x128 .f32) (p : Fin 5000) (j : Fin 128) :
    k1_pay3 (F := Ideal) A s H d B (ix2 p j)
      = A (ix2 p j) * s (ix2 p (0 : Fin 1)) + H (ix2 p j) * d (ix2 p (0 : Fin 1)) + B (ix2 (0 : Fin 1) j) := by
  unfold k1_pay3
  simp only [addf_apply, mulf_apply, shapeCast_self, bcast_col_apply, broadcastTo_1b_ab_apply]

/-- The sum down the 5000 rows of a block, as the kernel's reduction over axis 0 computes it, at column j. -/
theorem colsum_apply (src : FVec Ideal S5000x128 .f32) (h : S5000x128.Reduces [0] S128) (hφ : FKind.Formats .f32)
    (hacc : (0x00000000#32 : BitVec 32) = FKind.add.neutral .f32 hφ) (j : Fin 128) :
    multiReduction .add [0] S128 src 0x00000000#32 h hφ hacc (ix1 j) = ∑ p : Fin 5000, src (ix2 p j) := by
  refine (Ideal.multiReduction_add_single src 0x00000000#32 h hφ hacc (ix1 j)).trans ?_
  refine Finset.sum_congr rfl fun k _ => congrArg src (funext fun a => Fin.ext ?_)
  rw [h.lift_val]
  match a with
  | ⟨0, _⟩ => rfl
  | ⟨1, _⟩ => rfl

/-- The column-sum row after the body, from what it held (acc). -/
theorem pay4_apply (A : Vec Ideal S5000x128 .f32) (s : Vec Ideal S5000x1 .f32) (H : Vec Ideal S5000x128 .f32)
    (d : Vec Ideal S5000x1 .f32) (B : Vec Ideal S1x128 .f32) (acc : Vec Ideal S1x128 .f32) (j : Fin 128) :
    k1_pay4 (F := Ideal) A s H d B acc (ix2 (0 : Fin 1) j)
      = acc (ix2 (0 : Fin 1) j) + ∑ p : Fin 5000, k1_pay3 (F := Ideal) A s H d B (ix2 p j) := by
  unfold k1_pay4
  simp only [addf_apply, shapeCast_self]
  refine congrArg (acc (ix2 (0 : Fin 1) j) + ·) ?_
  refine (shapeCast_a_1a_apply _ _ (0 : Fin 1) j).trans ?_
  exact colsum_apply _ _ _ _ j

/-- The row of column sums of squares after the body, from what it held (acc). -/
theorem pay5_apply (A : Vec Ideal S5000x128 .f32) (s : Vec Ideal S5000x1 .f32) (H : Vec Ideal S5000x128 .f32)
    (d : Vec Ideal S5000x1 .f32) (B : Vec Ideal S1x128 .f32) (acc : Vec Ideal S1x128 .f32) (j : Fin 128) :
    k1_pay5 (F := Ideal) A s H d B acc (ix2 (0 : Fin 1) j)
      = acc (ix2 (0 : Fin 1) j)
        + ∑ p : Fin 5000, k1_pay3 (F := Ideal) A s H d B (ix2 p j) * k1_pay3 (F := Ideal) A s H d B (ix2 p j) := by
  unfold k1_pay5
  simp only [addf_apply, shapeCast_self]
  refine congrArg (acc (ix2 (0 : Fin 1) j) + ·) ?_
  refine (shapeCast_a_1a_apply _ _ (0 : Fin 1) j).trans ?_
  exact (colsum_apply _ _ _ _ j).trans (Finset.sum_congr rfl fun p _ => mulf_apply _ _ _)

/-- The two rows the first grid point stores before it adds: zero at every column. -/
theorem pay1_apply (j : Fin 128) : k1_pay1 (F := Ideal) (ix2 (0 : Fin 1) j) = 0 := Ideal.ofBits_zero_f32

theorem pay2_apply (j : Fin 128) : k1_pay2 (F := Ideal) (ix2 (0 : Fin 1) j) = 0 := Ideal.ofBits_zero_f32

end Cert.KernelIdeal.Region1

end
-- ==== Proof.KRegion1Blocks.lean ====
import proofs.«140138_j37512244363809_2_alg».proof.Proof.Gen.KernelIdeal.Frame
import Idealize.ShloMosaic.Lib.ValueIdx
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

variable {F : FTy → Type} [FloatOps F]
variable (V : (c : Dev nD) → (b : Ref sig .tc) → Buf (Elt F) ((c : Thread nD τ).loc b))

/-! Where the blocks of the combine kernel sit in their arrays.  The grid has 20 points; at point t the row-blocked
    windows (h, agg, dis, di and the output y) hold rows 5000·t … 5000·t + 4999 of their arrays, and the bias row and the
    two accumulator rows are their whole one-row arrays at every point. -/

/-- The printed block-index maps, decided once over the grid. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = t.val ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0
  ∧ win1_6.index t (0 : Fin 2) = 0 ∧ win1_6.index t (1 : Fin 2) = 0
  ∧ win1_7.index t (0 : Fin 2) = 0 ∧ win1_7.index t (1 : Fin 2) = 0 :=
  (by decide +kernel : ∀ t : Fin grid1.N, _)

theorem N_eq : cfg1.N = 20 := N_1

/-- Row p of the h block at point t is row 5000·t + p of the h array. -/
theorem blk0_apply (c : Dev nD) (t : Fin cfg1.N) (p : Fin 5000) (j : Fin 128) (r : Fin 100000)
    (hr : r.val = 5000 * t.val + p.val) :
    (iblk1 V c 0 t : Vec F S5000x128 .f32) (ix2 p j)
      = (V c (Pipeline.arrRef spec1 0) : S100000x128.Idx → Elt F .f32) (ix2 r j) := by
  obtain ⟨e0, e1, -⟩ := idx_facts t
  unfold iblk1
  rw [View.read_apply]
  show (V c (Pipeline.arrRef spec1 0) : S100000x128.Idx → Elt F .f32) (((cfg1.win 0).blk t).view.emb (ix2 p j)) = _
  refine congrArg (V c (Pipeline.arrRef spec1 0) : S100000x128.Idx → Elt F .f32) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * j.val = j.val; rw [e1]; omega

/-- The same for the agg block. -/
theorem blk1_apply (c : Dev nD) (t : Fin cfg1.N) (p : Fin 5000) (j : Fin 128) (r : Fin 100000)
    (hr : r.val = 5000 * t.val + p.val) :
    (iblk1 V c 1 t : Vec F S5000x128 .f32) (ix2 p j)
      = (V c (Pipeline.arrRef spec1 1) : S100000x128.Idx → Elt F .f32) (ix2 r j) := by
  obtain ⟨-, -, e0, e1, -⟩ := idx_facts t
  unfold iblk1
  rw [View.read_apply]
  show (V c (Pipeline.arrRef spec1 1) : S100000x128.Idx → Elt F .f32) (((cfg1.win 1).blk t).view.emb (ix2 p j)) = _
  refine congrArg (V c (Pipeline.arrRef spec1 1) : S100000x128.Idx → Elt F .f32) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * j.val = j.val; rw [e1]; omega

/-- Entry p of the dis block at point t is entry 5000·t + p of the dis column. -/
theorem blk2_apply (c : Dev nD) (t : Fin cfg1.N) (p : Fin 5000) (r : Fin 100000)
    (hr : r.val = 5000 * t.val + p.val) :
    (iblk1 V c 2 t : Vec F S5000x1 .f32) (ix2 p (0 : Fin 1))
      = (V c (Pipeline.arrRef spec1 2) : S100000x1.Idx → Elt F .f32) (ix2 r (0 : Fin 1)) := by
  obtain ⟨-, -, -, -, e0, e1, -⟩ := idx_facts t
  unfold iblk1
  rw [View.read_apply]
  show (V c (Pipeline.arrRef spec1 2) : S100000x1.Idx → Elt F .f32) (((cfg1.win 2).blk t).view.emb (ix2 p (0 : Fin 1))) = _
  refine congrArg (V c (Pipeline.arrRef spec1 2) : S100000x1.Idx → Elt F .f32) (funext fun a => Fin.ext ?_)
  match a with
  | ⟨0, _⟩ => show win1_2.index t (0 : Fin 2) * 5000 + 1 * p.val = r.val; rw [e0, hr]; omega
  | ⟨1, _⟩ => show win1_2.index t (1 : Fin 2) * 1 + 1 * 0 = 0; rw [e1]

/-- The same for the di block. -/
theorem blk3_apply (c : Dev nD) (t : Fin cfg1.N) (p : Fin 5000) (r : Fin 100000)
    (hr : r.val = 5000 * t.val + p.val) :
    (iblk1 V c 3 t : Vec F S5000x1 .f32) (ix2 p (0 : Fin 1))
      = (V c (Pipeline.arrRef spec1 3) : S100000x1.Idx → Elt F .f32) (ix2 r (0 : Fin 1)) := by
  obtain ⟨-, -, -, -, -, -, e0, e1, -⟩ := idx_facts t
  unfold iblk1
  rw [View.read_apply]
  show (V c (Pipeline.arrRef spec1 3) : S100000x1.Idx → Elt F .f32) (((cfg1.win 3).blk t).view.emb (ix2 p (0 : Fin 1))) = _
  refine congrArg (V c (Pipeline.arrRef spec1 3) : S100000x1.Idx → Elt F .f32) (funext fun a => Fin.ext ?_)
  match a with
  | ⟨0, _⟩ => show win1_3.index t (0 : Fin 2) * 5000 + 1 * p.val = r.val; rw [e0, hr]; omega
  | ⟨1, _⟩ => show win1_3.index t (1 : Fin 2) * 1 + 1 * 0 = 0; rw [e1]

/-- The bias block is the bias row at every point. -/
theorem blk4_apply (c : Dev nD) (t : Fin cfg1.N) (j : Fin 128) :
    (iblk1 V c 4 t : Vec F S1x128 .f32) (ix2 (0 : Fin 1) j)
      = (V c (Pipeline.arrRef spec1 4) : S1x128.Idx → Elt F .f32) (ix2 (0 : Fin 1) j) := by
  obtain ⟨-, -, -, -, -, -, -, -, e0, e1, -⟩ := idx_facts t
  unfold iblk1
  rw [View.read_apply]
  show (V c (Pipeline.arrRef spec1 4) : S1x128.Idx → Elt F .f32) (((cfg1.win 4).blk t).view.emb (ix2 (0 : Fin 1) j)) = _
  refine congrArg (V c (Pipeline.arrRef spec1 4) : S1x128.Idx → Elt F .f32) (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

/-- Row p of the y block at point t sits at row 5000·t + p of the y array. -/
theorem emb5 (t : Fin cfg1.N) (p : Fin 5000) (j : Fin 128) (r : Fin 100000) (hr : r.val = 5000 * t.val + p.val) :
    (((cfg1.win 5).blk t).view.emb (ix2 p j) : S100000x128.Idx) = ix2 r j := by
  obtain ⟨-, -, -, -, -, -, -, -, -, -, e0, e1, -⟩ := idx_facts t
  refine funext fun a => Fin.ext ?_
  match a with
  | ⟨0, _⟩ => show win1_5.index t (0 : Fin 2) * 5000 + 1 * p.val = r.val; rw [e0, hr]; omega
  | ⟨1, _⟩ => show win1_5.index t (1 : Fin 2) * 128 + 1 * j.val = j.val; rw [e1]; omega

/-- The accumulator rows' blocks are their arrays. -/
theorem emb6 (t : Fin cfg1.N) (j : Fin 128) :
    (((cfg1.win 6).blk t).view.emb (ix2 (0 : Fin 1) j) : S1x128.Idx) = ix2 (0 : Fin 1) j := by
  obtain ⟨-, -, -, -, -, -, -, -, -, -, -, -, e0, e1, -⟩ := idx_facts t
  refine funext fun a => Fin.ext ?_
  match a with
  | ⟨0, _⟩ => show win1_6.index t (0 : Fin 2) * 1 + 1 * 0 = 0; rw [e0]
  | ⟨1, _⟩ => show win1_6.index t (1 : Fin 2) * 128 + 1 * j.val = j.val; rw [e1]; omega

theorem emb7 (t : Fin cfg1.N) (j : Fin 128) :
    (((cfg1.win 7).blk t).view.emb (ix2 (0 : Fin 1) j) : S1x128.Idx) = ix2 (0 : Fin 1) j := by
  obtain ⟨-, -, -, -, -, -, -, -, -, -, -, -, -, -, e0, e1⟩ := idx_facts t
  refine funext fun a => Fin.ext ?_
  match a with
  | ⟨0, _⟩ => show win1_7.index t (0 : Fin 2) * 1 + 1 * 0 = 0; rw [e0]
  | ⟨1, _⟩ => show win1_7.index t (1 : Fin 2) * 128 + 1 * j.val = j.val; rw [e1]; omega

/-- A one-row block read through an accumulator row's window is the row itself: contents X of the staging buffer, cut to
    what a write-back moves, are the block of any array Y that agrees with X entry by entry. -/
theorem flush_row6 (t : Fin cfg1.N) (X : Vec F S1x128 .f32) (Y : S1x128.Idx → Elt F .f32)
    (h : ∀ j : Fin 128, X (ix2 (0 : Fin 1) j) = Y (ix2 (0 : Fin 1) j)) :
    (cfg1.win 6).cut (grid1.coords t) X = ((cfg1.win 6).blk t).view.read (Elt F) Y := by
  funext y
  obtain ⟨z, j, rfl⟩ : ∃ (z : Fin 1) (j : Fin 128), y = ix2 z j := ⟨y 0, y 1, eq_ix2 y⟩
  obtain rfl : z = 0 := Subsingleton.elim _ _
  rw [View.read_apply]
  show X (ix2 (0 : Fin 1) j) = Y (((cfg1.win 6).blk t).view.emb (ix2 (0 : Fin 1) j))
  rw [emb6 t j]
  exact h j

theorem flush_row7 (t : Fin cfg1.N) (X : Vec F S1x128 .f32) (Y : S1x128.Idx → Elt F .f32)
    (h : ∀ j : Fin 128, X (ix2 (0 : Fin 1) j) = Y (ix2 (0 : Fin 1) j)) :
    (cfg1.win 7).cut (grid1.coords t) X = ((cfg1.win 7).blk t).view.read (Elt F) Y := by
  funext y
  obtain ⟨z, j, rfl⟩ : ∃ (z : Fin 1) (j : Fin 128), y = ix2 z j := ⟨y 0, y 1, eq_ix2 y⟩
  obtain rfl : z = 0 := Subsingleton.elim _ _
  rw [View.read_apply]
  show X (ix2 (0 : Fin 1) j) = Y (((cfg1.win 7).blk t).view.emb (ix2 (0 : Fin 1) j))
  rw [emb7 t j]
  exact h j

/-- An entry of the y array is in point t's block iff its coordinates are in the block's ranges. -/
theorem mem_blk5 (t : Fin cfg1.N) (i : S100000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v27_0).slice (win1_5.rect t)).set ↔ _
  rw [View.set_slice_whole, Rect.mem_set_unit]
  exact Iff.rfl

theorem mem_blk6 (t : Fin cfg1.N) (i : S1x128.Idx) :
    i ∈ ((cfg1.win 6).blk t).view.set
      ↔ ∀ a : Fin 2, win1_6.index t a * S1x128.size a ≤ (i a).val
          ∧ (i a).val < win1_6.index t a * S1x128.size a + S1x128.size a := by
  show i ∈ ((View.whole main_v27_1).slice (win1_6.rect t)).set ↔ _
  rw [View.set_slice_whole, Rect.mem_set_unit]
  exact Iff.rfl

theorem mem_blk7 (t : Fin cfg1.N) (i : S1x128.Idx) :
    i ∈ ((cfg1.win 7).blk t).view.set
      ↔ ∀ a : Fin 2, win1_7.index t a * S1x128.size a ≤ (i a).val
          ∧ (i a).val < win1_7.index t a * S1x128.size a + S1x128.size a := by
  show i ∈ ((View.whole main_v27_2).slice (win1_7.rect t)).set ↔ _
  rw [View.set_slice_whole, Rect.mem_set_unit]
  exact Iff.rfl

/-- Every row of the y array is in the block of the point its row number divided by 5000 names, and that point writes
    its block back. -/
theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 5000, lt_of_lt_of_eq (by omega) N_eq.symm⟩, flush1_5 _, ?_⟩
  rw [mem_blk5]
  obtain ⟨-, -, -, -, -, -, -, -, -, -, e0, e1, -⟩ :=
    idx_facts ⟨(i 0).val / 5000, lt_of_lt_of_eq (by omega) N_eq.symm⟩
  intro a
  match a with
  | ⟨0, _⟩ =>
    show win1_5.index _ (0 : Fin 2) * 5000 ≤ (i 0).val ∧ (i 0).val < win1_5.index _ (0 : Fin 2) * 5000 + 5000
    rw [e0]; dsimp only; omega
  | ⟨1, _⟩ =>
    show win1_5.index _ (1 : Fin 2) * 128 ≤ (i 1).val ∧ (i 1).val < win1_5.index _ (1 : Fin 2) * 128 + 128
    rw [e1]; omega

/-- Every entry of an accumulator row is in the block of the last point, the one point that writes it back. -/
theorem cover6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  refine ⟨⟨19, lt_of_lt_of_eq (by omega) N_eq.symm⟩, (flush1_6 _).mpr rfl, ?_⟩
  rw [mem_blk6]
  obtain ⟨-, -, -, -, -, -, -, -, -, -, -, -, e0, e1, -⟩ :=
    idx_facts ⟨19, lt_of_lt_of_eq (by omega) N_eq.symm⟩
  intro a
  match a with
  | ⟨0, _⟩ =>
    show win1_6.index _ (0 : Fin 2) * 1 ≤ (i 0).val ∧ (i 0).val < win1_6.index _ (0 : Fin 2) * 1 + 1
    rw [e0]; omega
  | ⟨1, _⟩ =>
    show win1_6.index _ (1 : Fin 2) * 128 ≤ (i 1).val ∧ (i 1).val < win1_6.index _ (1 : Fin 2) * 128 + 128
    rw [e1]; omega

theorem cover7 (i : S1x128.Idx) :
    ∃ t : Fin cfg1.N, (cfg1.win 7).flush t = true ∧ i ∈ ((cfg1.win 7).blk t).view.set := by
  have hi0 : (i 0).val < 1 := (i 0).isLt
  have hi1 : (i 1).val < 128 := (i 1).isLt
  refine ⟨⟨19, lt_of_lt_of_eq (by omega) N_eq.symm⟩, (flush1_7 _).mpr rfl, ?_⟩
  rw [mem_blk7]
  obtain ⟨-, -, -, -, -, -, -, -, -, -, -, -, -, -, e0, e1⟩ :=
    idx_facts ⟨19, lt_of_lt_of_eq (by omega) N_eq.symm⟩
  intro a
  match a with
  | ⟨0, _⟩ =>
    show win1_7.index _ (0 : Fin 2) * 1 ≤ (i 0).val ∧ (i 0).val < win1_7.index _ (0 : Fin 2) * 1 + 1
    rw [e0]; omega
  | ⟨1, _⟩ =>
    show win1_7.index _ (1 : Fin 2) * 128 ≤ (i 1).val ∧ (i 1).val < win1_7.index _ (1 : Fin 2) * 128 + 128
    rw [e1]; omega

end Cert.KernelIdeal.Region1

end
-- ==== Proof.KRegion1Y.lean ====
import proofs.«140138_j37512244363809_2_alg».proof.Proof.KRegion1Outs
import proofs.«140138_j37512244363809_2_alg».proof.Proof.KRegion1Pay
import proofs.«140138_j37512244363809_2_alg».proof.Proof.KRegion1Blocks
import proofs.«140138_j37512244363809_2_alg».proof.Proof.GcnSpec

noncomputable section

open scoped BigOperators
open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.Spec

variable (V : (c : Dev nD) → (b : Ref sig .tc) → Buf (Elt Ideal) ((c : Thread nD τ).loc b))

/-! The y array after the region.  Every grid point writes its y block back; the block is the combine arithmetic of the
    point's input blocks, which are rows 5000·t … 5000·t + 4999 of the input arrays, so it is those rows of one
    whole-array function of the five input arrays: agg · dis + h · di + b.  The twenty blocks tile the array. -/

/-- The combine of the five arrays the region finds: agg (window 1), h (window 0), dis, di, b. -/
abbrev Yarr (c : Dev nD) : Mat 100000 128 :=
  Cert.Gcn.combine (V c (Pipeline.arrRef spec1 1) : Mat 100000 128) (V c (Pipeline.arrRef spec1 0) : Mat 100000 128)
    (V c (Pipeline.arrRef spec1 2) : Mat 100000 1) (V c (Pipeline.arrRef spec1 3) : Mat 100000 1)
    (V c (Pipeline.arrRef spec1 4) : Mat 1 128)

/-- The y block of point t at row p is the whole-array combine at row 5000·t + p. -/
theorem yblk_apply (c : Dev nD) (t : Fin cfg1.N) (p : Fin 5000) (j : Fin 128) (r : Fin 100000)
    (hr : r.val = 5000 * t.val + p.val) :
    k1_pay3 (F := Ideal) (iblk1 V c 1 t) (iblk1 V c 2 t) (iblk1 V c 0 t) (iblk1 V c 3 t) (iblk1 V c 4 t) (ix2 p j) = Yarr V c (ix2 r j) := by
  refine (pay3_apply (iblk1 V c 1 t) (iblk1 V c 2 t) (iblk1 V c 0 t) (iblk1 V c 3 t) (iblk1 V c 4 t) p j).trans ?_
  rw [blk1_apply V c t p j r hr, blk2_apply V c t p r hr, blk0_apply V c t p j r hr, blk3_apply V c t p r hr,
    blk4_apply V c t j]
  rfl

/-- What point t writes back is its block of the whole-array combine. -/
theorem flushed5_eq (c : Dev nD) (t : Fin cfg1.N) :
    (dat1 V c).flushed 5 t = ((cfg1.win 5).blk t).view.read (Elt Ideal) (Yarr V c) := by
  show (cfg1.win 5).cut (grid1.coords t) ((dat1 V c).after 5 t) = _
  rw [after1_5, y_after]
  funext y
  obtain ⟨p, j, rfl⟩ : ∃ (p : Fin 5000) (j : Fin 128), y = ix2 p j := ⟨y 0, y 1, eq_ix2 y⟩
  have hN : t.val < 20 := lt_of_lt_of_eq t.isLt N_eq
  rw [View.read_apply]
  show k1_pay3 (F := Ideal) (iblk1 V c 1 t) (iblk1 V c 2 t) (iblk1 V c 0 t) (iblk1 V c 3 t) (iblk1 V c 4 t) (ix2 p j)
    = Yarr V c (((cfg1.win 5).blk t).view.emb (ix2 p j))
  rw [emb5 t p j ⟨5000 * t.val + p.val, by omega⟩ rfl]
  exact yblk_apply V c t p j _ rfl

/-- The y array after the region is the combine of the five input arrays. -/
theorem y_eq (c : Dev nD) :
    (dat1 V c).arrAt 5 cfg1.N = Cert.Gcn.combine (V c (Pipeline.arrRef spec1 1) : Mat 100000 128) (V c (Pipeline.arrRef spec1 0) : Mat 100000 128)
    (V c (Pipeline.arrRef spec1 2) : Mat 100000 1) (V c (Pipeline.arrRef spec1 3) : Mat 100000 1)
    (V c (Pipeline.arrRef spec1 4) : Mat 1 128) :=
  (dat1 V c).arrAt_eq_of_cover 5 (Yarr V c) (fun t _ => flushed5_eq V c t) cover5

end Cert.KernelIdeal.Region1

end
-- ==== Proof.KRegionRowSplit.lean ====
import Mathlib.Algebra.BigOperators.Fin
import Mathlib.Data.Fintype.BigOperators
import Mathlib.Logic.Equiv.Fin.Basic

open scoped BigOperators

namespace Cert.KernelIdeal.RowSplit

/-! The 100000 rows as twenty blocks of 5000: row p of block s is row 5000·s + p.  A sum over all rows is the sum over
    the blocks of the sums over each block's rows; nothing is asked of the summands but that addition commutes and
    associates, so it holds of the extended reals as it stands. -/

/-- Row p of block s.  The number is reduced modulo 100000 so that it names a row for every s; for s < 20 nothing is
    reduced (row_val). -/
def row (s : ℕ) (p : Fin 5000) : Fin 100000 := ⟨(5000 * s + p.val) % 100000, Nat.mod_lt _ (by omega)⟩

theorem row_val (s : ℕ) (hs : s < 20) (p : Fin 5000) : (row s p).val = 5000 * s + p.val := by
  have := p.isLt
  exact Nat.mod_eq_of_lt (by omega)

/-- A sum over the rows, block by block. -/
theorem sum_rows {M : Type*} [AddCommMonoid M] (f : Fin 100000 → M) :
    ∑ r : Fin 100000, f r = ∑ s ∈ Finset.range 20, ∑ p : Fin 5000, f (row s p) := by
  have e : ∑ r : Fin 100000, f r = ∑ x : Fin 20 × Fin 5000, f (finProdFinEquiv x) :=
    (Equiv.sum_comp (finProdFinEquiv : Fin 20 × Fin 5000 ≃ Fin (20 * 5000)) f).symm
  rw [e, Fintype.sum_prod_type, ← Fin.sum_univ_eq_sum_range (fun s => ∑ p : Fin 5000, f (row s p)) 20]
  refine Finset.sum_congr rfl fun s _ => Finset.sum_congr rfl fun p _ => congrArg f (Fin.ext ?_)
  have hs := s.isLt
  have hp := p.isLt
  show p.val + 5000 * s.val = (5000 * s.val + p.val) % 100000
  rw [Nat.mod_eq_of_lt (by omega)]
  omega

/-- The same with the number of blocks written as one more than the last block's number. -/
theorem sum_rows_upto {M : Type*} [AddCommMonoid M] (f : Fin 100000 → M) (n : ℕ) (hn : n = 19) :
    ∑ r : Fin 100000, f r = ∑ s ∈ Finset.range (n + 1), ∑ p : Fin 5000, f (row s p) := by
  subst hn
  exact sum_rows f

end Cert.KernelIdeal.RowSplit
-- ==== Proof.KRegion1Acc.lean ====
import proofs.«140138_j37512244363809_2_alg».proof.Proof.KRegion1Y
import proofs.«140138_j37512244363809_2_alg».proof.Proof.KRegionRowSplit

noncomputable section

open scoped BigOperators
open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.Spec Cert.KernelIdeal.RowSplit

variable (V : (c : Dev nD) → (b : Ref sig .tc) → Buf (Elt Ideal) ((c : Thread nD τ).loc b))

/-! The two accumulator rows after the region.  Their one block is the whole one-row array at every grid point and is
    written back once, after the last point.  The first point zeroes the row and adds its block's column sums; every
    later point adds its block's column sums to what the row held.  So after point n the row holds, at column j, the sum
    over the blocks 0 … n of the sums over each block's 5000 rows of y (r, j) — of y (r, j)² for the second row —, with
    y the whole-array combine; after the last point that is the sum over all 100000 rows, in whatever order: over the
    extended reals addition commutes and associates with no finiteness asked. -/

/-- The column-sum row after point n. -/
theorem acc6_eq (c : Dev nD) : ∀ (n : ℕ) (hn : n < cfg1.N) (j : Fin 128),
    ((outsAt1 V c n hn).2.1 : Vec Ideal S1x128 .f32) (ix2 (0 : Fin 1) j)
      = ∑ s ∈ Finset.range (n + 1), ∑ p : Fin 5000, Yarr V c (ix2 (row s p) j)
  | 0, hn, j => by
    have e : (outsAt1 V c 0 hn).2.1
        = k1_pay4 (F := Ideal) (iblk1 V c 1 ⟨0, hn⟩) (iblk1 V c 2 ⟨0, hn⟩) (iblk1 V c 0 ⟨0, hn⟩) (iblk1 V c 3 ⟨0, hn⟩) (iblk1 V c 4 ⟨0, hn⟩) (k1_pay1 (F := Ideal)) :=
      congrArg (fun x => x.2.1) (outs_first V c ⟨0, hn⟩ rfl)
    refine (congrFun e (ix2 (0 : Fin 1) j)).trans ?_
    refine (pay4_apply (iblk1 V c 1 ⟨0, hn⟩) (iblk1 V c 2 ⟨0, hn⟩) (iblk1 V c 0 ⟨0, hn⟩) (iblk1 V c 3 ⟨0, hn⟩) (iblk1 V c 4 ⟨0, hn⟩) (k1_pay1 (F := Ideal)) j).trans ?_
    rw [pay1_apply, zero_add, Finset.sum_range_one]
    exact Finset.sum_congr rfl fun p _ => yblk_apply V c ⟨0, hn⟩ p j (row 0 p) (row_val 0 (by omega) p)
  | n + 1, hn, j => by
    have hN : n + 1 < 20 := lt_of_lt_of_eq hn N_eq
    have hB : ¬(⟨n + 1, hn⟩ : Fin cfg1.N).val % 20 = 0 := by dsimp only; omega
    have e : (outsAt1 V c (n + 1) hn).2.1
        = k1_pay4 (F := Ideal) (iblk1 V c 1 ⟨n + 1, hn⟩) (iblk1 V c 2 ⟨n + 1, hn⟩) (iblk1 V c 0 ⟨n + 1, hn⟩) (iblk1 V c 3 ⟨n + 1, hn⟩) (iblk1 V c 4 ⟨n + 1, hn⟩)
            (outsAt1 V c n (Nat.lt_of_succ_lt hn)).2.1 :=
      congrArg (fun x => x.2.1) (outs_later V c ⟨n + 1, hn⟩ hB)
    refine (congrFun e (ix2 (0 : Fin 1) j)).trans ?_
    refine (pay4_apply (iblk1 V c 1 ⟨n + 1, hn⟩) (iblk1 V c 2 ⟨n + 1, hn⟩) (iblk1 V c 0 ⟨n + 1, hn⟩) (iblk1 V c 3 ⟨n + 1, hn⟩) (iblk1 V c 4 ⟨n + 1, hn⟩)
      (outsAt1 V c n (Nat.lt_of_succ_lt hn)).2.1 j).trans ?_
    rw [Finset.sum_range_succ _ (n + 1)]
    exact congrArg₂ (· + ·) (acc6_eq c n (Nat.lt_of_succ_lt hn) j)
      (Finset.sum_congr rfl fun p _ => yblk_apply V c ⟨n + 1, hn⟩ p j (row (n + 1) p) (row_val (n + 1) hN p))

/-- The row of sums of squares after point n. -/
theorem acc7_eq (c : Dev nD) : ∀ (n : ℕ) (hn : n < cfg1.N) (j : Fin 128),
    ((outsAt1 V c n hn).2.2 : Vec Ideal S1x128 .f32) (ix2 (0 : Fin 1) j)
      = ∑ s ∈ Finset.range (n + 1), ∑ p : Fin 5000, Yarr V c (ix2 (row s p) j) * Yarr V c (ix2 (row s p) j)
  | 0, hn, j => by
    have e : (outsAt1 V c 0 hn).2.2
        = k1_pay5 (F := Ideal) (iblk1 V c 1 ⟨0, hn⟩) (iblk1 V c 2 ⟨0, hn⟩) (iblk1 V c 0 ⟨0, hn⟩) (iblk1 V c 3 ⟨0, hn⟩) (iblk1 V c 4 ⟨0, hn⟩) (k1_pay2 (F := Ideal)) :=
      congrArg (fun x => x.2.2) (outs_first V c ⟨0, hn⟩ rfl)
    refine (congrFun e (ix2 (0 : Fin 1) j)).trans ?_
    refine (pay5_apply (iblk1 V c 1 ⟨0, hn⟩) (iblk1 V c 2 ⟨0, hn⟩) (iblk1 V c 0 ⟨0, hn⟩) (iblk1 V c 3 ⟨0, hn⟩) (iblk1 V c 4 ⟨0, hn⟩) (k1_pay2 (F := Ideal)) j).trans ?_
    rw [pay2_apply, zero_add, Finset.sum_range_one]
    exact Finset.sum_congr rfl fun p _ => congrArg₂ (· * ·)
      (yblk_apply V c ⟨0, hn⟩ p j (row 0 p) (row_val 0 (by omega) p))
      (yblk_apply V c ⟨0, hn⟩ p j (row 0 p) (row_val 0 (by omega) p))
  | n + 1, hn, j => by
    have hN : n + 1 < 20 := lt_of_lt_of_eq hn N_eq
    have hB : ¬(⟨n + 1, hn⟩ : Fin cfg1.N).val % 20 = 0 := by dsimp only; omega
    have e : (outsAt1 V c (n + 1) hn).2.2
        = k1_pay5 (F := Ideal) (iblk1 V c 1 ⟨n + 1, hn⟩) (iblk1 V c 2 ⟨n + 1, hn⟩) (iblk1 V c 0 ⟨n + 1, hn⟩) (iblk1 V c 3 ⟨n + 1, hn⟩) (iblk1 V c 4 ⟨n + 1, hn⟩)
            (outsAt1 V c n (Nat.lt_of_succ_lt hn)).2.2 :=
      congrArg (fun x => x.2.2) (outs_later V c ⟨n + 1, hn⟩ hB)
    refine (congrFun e (ix2 (0 : Fin 1) j)).trans ?_
    refine (pay5_apply (iblk1 V c 1 ⟨n + 1, hn⟩) (iblk1 V c 2 ⟨n + 1, hn⟩) (iblk1 V c 0 ⟨n + 1, hn⟩) (iblk1 V c 3 ⟨n + 1, hn⟩) (iblk1 V c 4 ⟨n + 1, hn⟩)
      (outsAt1 V c n (Nat.lt_of_succ_lt hn)).2.2 j).trans ?_
    rw [Finset.sum_range_succ _ (n + 1)]
    exact congrArg₂ (· + ·) (acc7_eq c n (Nat.lt_of_succ_lt hn) j)
      (Finset.sum_congr rfl fun p _ => congrArg₂ (· * ·)
        (yblk_apply V c ⟨n + 1, hn⟩ p j (row (n + 1) p) (row_val (n + 1) hN p))
        (yblk_apply V c ⟨n + 1, hn⟩ p j (row (n + 1) p) (row_val (n + 1) hN p)))

/-- What the last point writes back into the column-sum array is the column sums of the whole-array combine. -/
theorem flushed6_eq (c : Dev nD) (t : Fin cfg1.N) (hf : (cfg1.win 6).flush t = true) :
    (dat1 V c).flushed 6 t = ((cfg1.win 6).blk t).view.read (Elt Ideal) (colSum (Yarr V c)) := by
  have hN : t.val < 20 := lt_of_lt_of_eq t.isLt N_eq
  have h19 : t.val = 19 := by have := (flush1_6 t).mp hf; omega
  show (cfg1.win 6).cut (grid1.coords t) ((dat1 V c).after 6 t) = _
  rw [after1_6]
  refine flush_row6 t (outsAt1 V c t.val t.isLt).2.1 (colSum (Yarr V c)) fun j => ?_
  refine (acc6_eq V c t.val t.isLt j).trans ?_
  exact ((colSum_apply (Yarr V c) (0 : Fin 1) j).trans (sum_rows_upto _ t.val h19)).symm

/-- The same for the sums of squares. -/
theorem flushed7_eq (c : Dev nD) (t : Fin cfg1.N) (hf : (cfg1.win 7).flush t = true) :
    (dat1 V c).flushed 7 t = ((cfg1.win 7).blk t).view.read (Elt Ideal) (colSumSq (Yarr V c)) := by
  have hN : t.val < 20 := lt_of_lt_of_eq t.isLt N_eq
  have h19 : t.val = 19 := by have := (flush1_7 t).mp hf; omega
  show (cfg1.win 7).cut (grid1.coords t) ((dat1 V c).after 7 t) = _
  rw [after1_7]
  refine flush_row7 t (outsAt1 V c t.val t.isLt).2.2 (colSumSq (Yarr V c)) fun j => ?_
  refine (acc7_eq V c t.val t.isLt j).trans ?_
  exact ((colSumSq_apply (Yarr V c) (0 : Fin 1) j).trans (sum_rows_upto _ t.val h19)).symm

/-- The column-sum array after the region: the sums down the columns of the combine of the five input arrays. -/
theorem sum_eq (c : Dev nD) :
    (dat1 V c).arrAt 6 cfg1.N = Cert.Spec.colSum (Cert.Gcn.combine (V c (Pipeline.arrRef spec1 1) : Mat 100000 128) (V c (Pipeline.arrRef spec1 0) : Mat 100000 128)
    (V c (Pipeline.arrRef spec1 2) : Mat 100000 1) (V c (Pipeline.arrRef spec1 3) : Mat 100000 1)
    (V c (Pipeline.arrRef spec1 4) : Mat 1 128)) :=
  (dat1 V c).arrAt_eq_of_cover 6 (colSum (Yarr V c)) (fun t hf => flushed6_eq V c t hf) cover6

/-- The array of column sums of squares after the region. -/
theorem sq_eq (c : Dev nD) :
    (dat1 V c).arrAt 7 cfg1.N = Cert.Spec.colSumSq (Cert.Gcn.combine (V c (Pipeline.arrRef spec1 1) : Mat 100000 128) (V c (Pipeline.arrRef spec1 0) : Mat 100000 128)
    (V c (Pipeline.arrRef spec1 2) : Mat 100000 1) (V c (Pipeline.arrRef spec1 3) : Mat 100000 1)
    (V c (Pipeline.arrRef spec1 4) : Mat 1 128)) :=
  (dat1 V c).arrAt_eq_of_cover 7 (colSumSq (Yarr V c)) (fun t hf => flushed7_eq V c t hf) cover7

end Cert.KernelIdeal.Region1

end
-- ==== Proof.GcnDeg.lean ====
/-
  Degrees of a graph with self loops, and the two weights the convolution takes from them.  The degree of node r is
  one for every edge into r, and one: a real number ≥ 1, so its reciprocal square root dis r and its reciprocal di r
  are finite positive reals.  Also: a length-d vector read as one row.
-/
import proofs.«140138_j37512244363809_2_alg».proof.Proof.GcnSpec

noncomputable section

open scoped BigOperators

namespace Cert.Gcn

open Idealize.ShloMosaic Idealize.ShloMosaic.ValueIdx Cert.Spec

variable {n e d : ℕ}

/-- The degree of node r counting its self loop: one for every edge into r, and one. -/
def deg (G : Graph n e) (r : Fin n) : EReal := (0 + ∑ _x ∈ G.into r, (1 : EReal)) + 1

theorem deg_def (G : Graph n e) (r : Fin n) : deg G r = (0 + ∑ _x ∈ G.into r, (1 : EReal)) + 1 := rfl

theorem deg_pos (G : Graph n e) (r : Fin n) : ∃ v : ℝ, 0 < v ∧ deg G r = (v : EReal) := by
  refine ⟨(0 + ∑ _x ∈ G.into r, (1 : ℝ)) + 1, ?_, ?_⟩
  · have : (0 : ℝ) ≤ ∑ _x ∈ G.into r, (1 : ℝ) := Finset.sum_nonneg fun _ _ => zero_le_one
    linarith
  · unfold deg
    simp only [← EReal.coe_one, ← EReal.coe_zero, ← Cert.Consts.coe_sum, ← EReal.coe_add]

/-- The degrees, their reciprocal square roots and their reciprocals as vectors and as columns. -/
def degVec (G : Graph n e) : (⟨1, ![n]⟩ : Shape).Idx → EReal := fun i => deg G (i 0)
def disVec (G : Graph n e) : (⟨1, ![n]⟩ : Shape).Idx → EReal := fun i => Ideal.rsqrt (deg G (i 0))
def diVec (G : Graph n e) : (⟨1, ![n]⟩ : Shape).Idx → EReal := fun i => Ideal.div 1 (deg G (i 0))
def disCol (G : Graph n e) : Mat n 1 := fun i => Ideal.rsqrt (deg G (i 0))
def diCol (G : Graph n e) : Mat n 1 := fun i => Ideal.div 1 (deg G (i 0))

theorem degVec_apply (G : Graph n e) (r : Fin n) : degVec G (ix1 r) = deg G r := rfl
theorem disVec_apply (G : Graph n e) (r : Fin n) : disVec G (ix1 r) = disCol G (ix2 r (0 : Fin 1)) := rfl
theorem diVec_apply (G : Graph n e) (r : Fin n) : diVec G (ix1 r) = diCol G (ix2 r (0 : Fin 1)) := rfl

theorem fin_disCol (G : Graph n e) : Fin' (disCol G) := by
  intro i
  obtain ⟨v, hv, hd⟩ := deg_pos G (i 0)
  exact ⟨_, by show Ideal.rsqrt (deg G (i 0)) = _; rw [hd, Cert.Consts.rsqrt_pos hv]⟩

theorem fin_diCol (G : Graph n e) : Fin' (diCol G) := by
  intro i
  obtain ⟨v, hv, hd⟩ := deg_pos G (i 0)
  exact ⟨_, by show Ideal.div 1 (deg G (i 0)) = _; rw [hd, ← EReal.coe_one, Cert.Consts.div_real 1 hv.ne']⟩

/-- A length-d vector as one row. -/
def rowOf (v : (⟨1, ![d]⟩ : Shape).Idx → EReal) : Mat 1 d := fun i => v (ix1 (i 1))

theorem rowOf_apply (v : (⟨1, ![d]⟩ : Shape).Idx → EReal) (z : Fin 1) (j : Fin d) : rowOf v (ix2 z j) = v (ix1 j) := rfl

theorem fin_rowOf (v : (⟨1, ![d]⟩ : Shape).Idx → EReal) (hv : ∀ i, ∃ r : ℝ, v i = (r : EReal)) : Fin' (rowOf v) :=
  fun i => hv _

end Cert.Gcn

end
-- ==== Proof.LibRows.lean ====
/-
  Whole rows of a matrix gathered and scatter-added, for any sizes.  A gather with one start index per result row
  (operand [N, C], start indices [E, 1], result [E, C]) reads, at (e, c), the operand at the row the e-th index names
  (read signed, clamped into [0, N - 1]) and column c.  A scatter-add with one index per update row adds, at (r, c),
  the column-c entries of exactly the update rows whose index, read signed, is r; a row whose index is outside the
  operand is dropped.  Summing gathered rows commutes with a matrix product on the right, for finite entries:
  the scatter-add into zeros of the gathered rows of X · W is (the scatter-add into zeros of the gathered rows of X) · W.
-/
import Idealize.ShloMosaic.Lib.ValueIdx
import Idealize.ShloMosaic.PureOps.Ideal
import Idealize.ShloMosaic.PureOps.Ideal.Laws
import proofs.«140138_j37512244363809_2_alg».proof.Proof.LibMatOps

noncomputable section

open scoped BigOperators

namespace Cert.LibRows

open Idealize.ShloMosaic Idealize.ShloMosaic.ValueIdx

variable {N C K E w : ℕ}

/-! ## Gathering whole rows -/

/-- The dimension numbers of a gather of whole rows: operand `[N, C]`, start indices `[E, 1]` (one row number per
    result row), result `[E, C]`; axis 0 of the operand is collapsed and indexed, axis 1 is taken whole. -/
abbrev gatherRowsDims (N C E : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row `e` reads: its start index, read signed, clamped into `[0, N - 1]`. -/
def rowAt (hN : 0 < N) (idx : IVec ⟨2, ![E, 1]⟩ w) (e : Fin E) : Fin N :=
  ⟨min (idx (ix2 e (0 : Fin 1))).toInt.toNat (N - 1), by omega⟩

/-- The gather read at `(e, c)`: the operand at row `rowAt e`, column `c`. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N C E wf) x idx (ix2 e c) = x (ix2 (rowAt hN idx e) c) := by
  unfold Host.gather
  congr 1
  have h0 : (gatherRowsDims N C E wf).start (ix2 e c) idx (0 : Fin 2)
      + (gatherRowsDims N C E wf).batchCoord (ix2 e c) (0 : Fin 2)
      + (gatherRowsDims N C E wf).offCoord (ix2 e c) (0 : Fin 2) = (rowAt hN idx e).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gatherRowsDims N C E wf).startIndexMap from List.mem_singleton.mpr rfl)]
    have hsi : (gatherRowsDims N C E wf).siIdx (ix2 e c)
        ⟨List.idxOf (0 : Fin 2) (gatherRowsDims N C E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (gatherRowsDims N C E wf).start (ix2 e c) idx (1 : Fin 2)
      + (gatherRowsDims N C E wf).batchCoord (ix2 e c) (1 : Fin 2)
      + (gatherRowsDims N C E wf).offCoord (ix2 e c) (1 : Fin 2) = c.val := by
    have hstart : (gatherRowsDims N C E wf).start (ix2 e c) idx (1 : Fin 2) = 0 := by
      unfold GatherDims.start
      rw [dif_neg (show (1 : Fin 2) ∉ (gatherRowsDims N C E wf).startIndexMap from
        (by decide : (1 : Fin 2) ∉ [(0 : Fin 2)]))]
    have hoff : (gatherRowsDims N C E wf).offCoord (ix2 e c) (1 : Fin 2) = c.val := by
      unfold GatherDims.offCoord
      rw [dif_pos (show (1 : Fin 2) ∈ (gatherRowsDims N C E wf).sKept from
        (by decide : (1 : Fin 2) ∈ (List.finRange 2).filter (· ∉ ([(0 : Fin 2)] ++ []))))]
      rfl
    rw [GatherDims.batchCoord_eq_zero _ _ _ List.not_mem_nil, hstart, hoff]; omega
  funext a
  refine Fin.ext ?_
  match a with
  | ⟨0, _⟩ => exact h0
  | ⟨1, _⟩ => exact h1

/-! ## Scatter-adding whole rows -/

/-- The dimension numbers of a scatter of whole rows: operand `[N, C]`, scatter indices `[E, 1]` (one row number per
    update row), updates `[E, C]`; update row `e` goes, whole, to the operand row its index names. -/
abbrev scatterRowsDims (N C E : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update element `(e, c')` lands on `(r, c)` exactly when row `e`'s index, read signed, is `r` and `c' = c`. -/
theorem resultIdx_rows_iff (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (scatterRowsDims N C E wf).resultIdx? (ix2 e c') idx = some (ix2 r c)
      ↔ (idx (ix2 e (0 : Fin 1))).toInt = (r.val : ℤ) ∧ c' = c := by
  have hs0 : (scatterRowsDims N C E wf).start (ix2 e c') idx (0 : Fin 2) = (idx (ix2 e (0 : Fin 1))).toInt := by
    unfold ScatterDims.start
    rw [dif_pos (show (0 : Fin 2) ∈ (scatterRowsDims N C E wf).scatterDimsToOperandDims from
      List.mem_singleton.mpr rfl)]
    have hsi : (scatterRowsDims N C E wf).siIdx (ix2 e c')
        ⟨List.idxOf (0 : Fin 2) (scatterRowsDims N C E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (scatterRowsDims N C E wf).start (ix2 e c') idx (1 : Fin 2) = 0 := by
    unfold ScatterDims.start
    rw [dif_neg (show (1 : Fin 2) ∉ (scatterRowsDims N C E wf).scatterDimsToOperandDims from
      (by decide : (1 : Fin 2) ∉ [(0 : Fin 2)]))]
  have hw0 : (scatterRowsDims N C E wf).window (ix2 e c') (0 : Fin 2) = 0 := by
    unfold ScatterDims.window
    rw [dif_neg (show (0 : Fin 2) ∉ (scatterRowsDims N C E wf).sKept from
      (by decide : (0 : Fin 2) ∉ (List.finRange 2).filter (· ∉ [(0 : Fin 2)])))]
  have hw1 : (scatterRowsDims N C E wf).window (ix2 e c') (1 : Fin 2) = c'.val := by
    unfold ScatterDims.window
    rw [dif_pos (show (1 : Fin 2) ∈ (scatterRowsDims N C E wf).sKept from
      (by decide : (1 : Fin 2) ∈ (List.finRange 2).filter (· ∉ [(0 : Fin 2)])))]
    rfl
  unfold ScatterDims.resultIdx?
  constructor
  · intro h
    split at h
    · rename_i hall
      have hf := Option.some.inj h
      have h0 : ((scatterRowsDims N C E wf).start (ix2 e c') idx (0 : Fin 2)
          + ((scatterRowsDims N C E wf).window (ix2 e c') (0 : Fin 2) : ℤ)).toNat = r.val :=
        congrArg Fin.val (congrFun hf (0 : Fin 2))
      have h1 : ((scatterRowsDims N C E wf).start (ix2 e c') idx (1 : Fin 2)
          + ((scatterRowsDims N C E wf).window (ix2 e c') (1 : Fin 2) : ℤ)).toNat = c.val :=
        congrArg Fin.val (congrFun hf (1 : Fin 2))
      have ha0 := (hall (0 : Fin 2)).1
      rw [hs0, hw0] at h0 ha0
      rw [hs1, hw1] at h1
      refine ⟨by omega, Fin.ext (by omega)⟩
    · exact absurd h (by simp)
  · rintro ⟨hr, rfl⟩
    have hall : ∀ a : Fin 2, 0 ≤ (scatterRowsDims N C E wf).start (ix2 e c') idx a
          + ((scatterRowsDims N C E wf).window (ix2 e c') a : ℤ)
        ∧ (scatterRowsDims N C E wf).start (ix2 e c') idx a + ((scatterRowsDims N C E wf).window (ix2 e c') a : ℤ)
          < ((⟨2, ![N, C]⟩ : Shape).size a : ℤ) := by
      intro a
      match a with
      | ⟨0, _⟩ =>
        show 0 ≤ (scatterRowsDims N C E wf).start (ix2 e c') idx (0 : Fin 2)
            + ((scatterRowsDims N C E wf).window (ix2 e c') (0 : Fin 2) : ℤ)
          ∧ (scatterRowsDims N C E wf).start (ix2 e c') idx (0 : Fin 2)
            + ((scatterRowsDims N C E wf).window (ix2 e c') (0 : Fin 2) : ℤ) < (N : ℤ)
        rw [hs0, hw0, hr]; have := r.isLt; omega
      | ⟨1, _⟩ =>
        show 0 ≤ (scatterRowsDims N C E wf).start (ix2 e c') idx (1 : Fin 2)
            + ((scatterRowsDims N C E wf).window (ix2 e c') (1 : Fin 2) : ℤ)
          ∧ (scatterRowsDims N C E wf).start (ix2 e c') idx (1 : Fin 2)
            + ((scatterRowsDims N C E wf).window (ix2 e c') (1 : Fin 2) : ℤ) < (C : ℤ)
        rw [hs1, hw1]; have := c'.isLt; omega
    rw [dif_pos hall]
    congr 1
    funext a
    refine Fin.ext ?_
    match a with
    | ⟨0, _⟩ =>
      show ((scatterRowsDims N C E wf).start (ix2 e c') idx (0 : Fin 2)
        + ((scatterRowsDims N C E wf).window (ix2 e c') (0 : Fin 2) : ℤ)).toNat = r.val
      rw [hs0, hw0, hr]; omega
    | ⟨1, _⟩ =>
      show ((scatterRowsDims N C E wf).start (ix2 e c') idx (1 : Fin 2)
        + ((scatterRowsDims N C E wf).window (ix2 e c') (1 : Fin 2) : ℤ)).toNat = c'.val
      rw [hs1, hw1]; omega

/-- The scatter-add read at `(r, c)`: the operand's entry plus the updates' column-`c` entries of the rows whose
    index, read signed, is `r`. -/
theorem scatterRows_apply (wf : ScatterDims.WF ⟨2, ![N, C]⟩ ⟨2, ![E, 1]⟩ ⟨2, ![E, C]⟩ [1] [0] [0] 1)
    (x : Cert.Spec.Mat N C) (idx : IVec ⟨2, ![E, 1]⟩ w) (upd : Cert.Spec.Mat E C) (r : Fin N) (c : Fin C) :
    Ideal.hostScatterAdd (scatterRowsDims N C E wf) x idx upd (ix2 r c)
      = x (ix2 r c) + ∑ e ∈ Finset.univ.filter
          (fun e : Fin E => (idx (ix2 e (0 : Fin 1))).toInt = (r.val : ℤ)), upd (ix2 e c) := by
  unfold Ideal.hostScatterAdd
  congr 1
  rw [Finset.sum_filter, Finset.sum_filter, sum_idx2]
  refine Finset.sum_congr rfl fun e _ => ?_
  by_cases hP : (idx (ix2 e (0 : Fin 1))).toInt = (r.val : ℤ)
  · rw [if_pos hP, Finset.sum_eq_single c]
    · rw [if_pos ((resultIdx_rows_iff wf idx e c r c).mpr ⟨hP, rfl⟩)]
    · intro c' _ hc'
      rw [if_neg (fun h => hc' ((resultIdx_rows_iff wf idx e c' r c).mp h).2)]
    · intro h; exact absurd (Finset.mem_univ _) h
  · rw [if_neg hP]
    refine Finset.sum_eq_zero fun c' _ => ?_
    rw [if_neg (fun h => hP ((resultIdx_rows_iff wf idx e c' r c).mp h).1)]

/-! ## Aggregation commutes with a matrix product -/

/-- The coercion of the reals into the extended reals takes a finite sum to the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing gathered rows and multiplying by a matrix commute, for finite entries: scatter-adding, into zeros, the
    gathered rows of `X · W` is `(the scatter-add of the gathered rows of X) · W`. -/
theorem aggregate_mm (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    (X : Cert.Spec.Mat N K) (W : Cert.Spec.Mat K C)
    (hX : ∀ i, ∃ r : ℝ, X i = (r : EReal)) (hW : ∀ i, ∃ r : ℝ, W i = (r : EReal))
    (ZC : Cert.Spec.Mat N C) (ZK : Cert.Spec.Mat N K) (hZC : ∀ i, ZC i = 0) (hZK : ∀ i, ZK i = 0)
    (idxs idxd : IVec ⟨2, ![E, 1]⟩ w) :
    Ideal.hostScatterAdd (scatterRowsDims N C E wfsC) ZC idxd
        (Host.gather (gatherRowsDims N C E wfgC) (Cert.Spec.mm X W) idxs)
      = Cert.Spec.mm (Ideal.hostScatterAdd (scatterRowsDims N K E wfsK) ZK idxd
          (Host.gather (gatherRowsDims N K E wfgK) X idxs)) W := by
  funext i
  obtain ⟨r, c, rfl⟩ : ∃ (r : Fin N) (c : Fin C), i = ix2 r c := ⟨i 0, i 1, eq_ix2 i⟩
  rw [scatterRows_apply, Cert.Spec.mm_apply]
  simp only [scatterRows_apply, gatherRows_apply hN, hZC, hZK, zero_add, Cert.Spec.mm_apply]
  choose xr hxr using hX
  choose wr hwr using hW
  simp only [hxr, hwr, ← EReal.coe_mul, ← coe_sum]
  congr 1
  rw [Finset.sum_comm]
  exact Finset.sum_congr rfl fun q _ => (Finset.sum_mul _ _ _).symm

end Cert.LibRows

end
-- ==== Proof.LibVec.lean ====
/-
  A vector gathered and scatter-added along its one axis, for any sizes.  A gather with one start index per result
  entry (operand [N], start indices [E, 1], result [E]) reads, at e, the operand at the position the e-th index names
  (read signed, clamped into [0, N - 1]).  A scatter-add with one index per update entry adds, at r, exactly the
  update entries whose index, read signed, is r; an entry whose index is outside the operand is dropped.  A sum over
  the indices of a one-axis shape is the sum over its coordinate.
-/
import Idealize.ShloMosaic.Lib.ValueIdx
import Idealize.ShloMosaic.PureOps.Ideal
import Idealize.ShloMosaic.PureOps.Ideal.Laws
import proofs.«140138_j37512244363809_2_alg».proof.Proof.LibRows

noncomputable section

open scoped BigOperators

namespace Cert.LibVec

open Idealize.ShloMosaic Idealize.ShloMosaic.ValueIdx Cert.LibRows

variable {N E w : ℕ}

/-- The indices of a one-axis shape are its coordinates. -/
def idxEquiv1 {n : ℕ} : (⟨1, ![n]⟩ : Shape).Idx ≃ Fin n where
  toFun j := j 0
  invFun a := ix1 a
  left_inv j := (eq_ix1 j).symm
  right_inv _ := rfl

theorem sum_idx1 {M : Type*} [AddCommMonoid M] {n : ℕ} (f : (⟨1, ![n]⟩ : Shape).Idx → M) :
    ∑ j, f j = ∑ a : Fin n, f (ix1 a) :=
  (Equiv.sum_comp (idxEquiv1 (n := n)).symm f).symm

/-! ## Gathering entries -/

/-- The dimension numbers of a gather of single entries: operand [N], start indices [E, 1], result [E]. -/
abbrev gather1Dims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at e: the operand at the position rowAt e. -/
theorem gather1_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gather1Dims N E wf) x idx (ix1 e) = x (ix1 (rowAt hN idx e)) := by
  unfold Host.gather
  congr 1
  funext a
  refine Fin.ext ?_
  match a with
  | ⟨0, _⟩ =>
    show (gather1Dims N E wf).start (ix1 e) idx (0 : Fin 1) + (gather1Dims N E wf).batchCoord (ix1 e) (0 : Fin 1)
      + (gather1Dims N E wf).offCoord (ix1 e) (0 : Fin 1) = (rowAt hN idx e).val
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (gather1Dims N E wf).startIndexMap from List.mem_singleton.mpr rfl)]
    have hsi : (gather1Dims N E wf).siIdx (ix1 e)
        ⟨List.idxOf (0 : Fin 1) (gather1Dims N E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Scatter-adding entries -/

/-- Over the extended reals the host's accumulating scatter is the exact sum, for any dimension numbers. -/
theorem scatterAdd_ideal {s si u : Shape} {w : ℕ} (d : ScatterDims s si u) (x : s.Idx → EReal) (idx : IVec si w)
    (upd : u.Idx → EReal) :
    Host.scatterAdd (F := Ideal) (φ := .f32) d x idx upd = Ideal.hostScatterAdd d x idx upd := rfl

/-- The dimension numbers of a scatter of single entries: operand [N], scatter indices [E, 1], updates [E]. -/
abbrev scatter1Dims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update entry e lands on r exactly when its index, read signed, is r. -/
theorem resultIdx1_iff (wf : ScatterDims.WF ⟨1, ![N]⟩ ⟨2, ![E, 1]⟩ ⟨1, ![E]⟩ [] [0] [0] 1)
    (idx : IVec ⟨2, ![E, 1]⟩ w) (e : Fin E) (r : Fin N) :
    (scatter1Dims N E wf).resultIdx? (ix1 e) idx = some (ix1 r)
      ↔ (idx (ix2 e (0 : Fin 1))).toInt = (r.val : ℤ) := by
  have hs0 : (scatter1Dims N E wf).start (ix1 e) idx (0 : Fin 1) = (idx (ix2 e (0 : Fin 1))).toInt := by
    unfold ScatterDims.start
    rw [dif_pos (show (0 : Fin 1) ∈ (scatter1Dims N E wf).scatterDimsToOperandDims from
      List.mem_singleton.mpr rfl)]
    have hsi : (scatter1Dims N E wf).siIdx (ix1 e)
        ⟨List.idxOf (0 : Fin 1) (scatter1Dims N E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1Dims N E wf).window (ix1 e) (0 : Fin 1) = 0 := by
    unfold ScatterDims.window
    rw [dif_neg (show (0 : Fin 1) ∉ (scatter1Dims N E wf).sKept from
      (by decide : (0 : Fin 1) ∉ (List.finRange 1).filter (· ∉ [(0 : Fin 1)])))]
  unfold ScatterDims.resultIdx?
  constructor
  · intro h
    split at h
    · rename_i hall
      have hf := Option.some.inj h
      have h0 : ((scatter1Dims N E wf).start (ix1 e) idx (0 : Fin 1)
          + ((scatter1Dims N E wf).window (ix1 e) (0 : Fin 1) : ℤ)).toNat = r.val :=
        congrArg Fin.val (congrFun hf (0 : Fin 1))
      have ha0 := (hall (0 : Fin 1)).1
      rw [hs0, hw0] at h0 ha0
      omega
    · exact absurd h (by simp)
  · intro hr
    have hall : ∀ a : Fin 1, 0 ≤ (scatter1Dims N E wf).start (ix1 e) idx a
          + ((scatter1Dims N E wf).window (ix1 e) a : ℤ)
        ∧ (scatter1Dims N E wf).start (ix1 e) idx a + ((scatter1Dims N E wf).window (ix1 e) a : ℤ)
          < ((⟨1, ![N]⟩ : Shape).size a : ℤ) := by
      intro a
      match a with
      | ⟨0, _⟩ =>
        show 0 ≤ (scatter1Dims N E wf).start (ix1 e) idx (0 : Fin 1)
            + ((scatter1Dims N E wf).window (ix1 e) (0 : Fin 1) : ℤ)
          ∧ (scatter1Dims N E wf).start (ix1 e) idx (0 : Fin 1)
            + ((scatter1Dims N E wf).window (ix1 e) (0 : Fin 1) : ℤ) < (N : ℤ)
        rw [hs0, hw0, hr]; have := r.isLt; omega
    rw [dif_pos hall]
    congr 1
    funext a
    refine Fin.ext ?_
    match a with
    | ⟨0, _⟩ =>
      show ((scatter1Dims N E wf).start (ix1 e) idx (0 : Fin 1)
        + ((scatter1Dims N E wf).window (ix1 e) (0 : Fin 1) : ℤ)).toNat = r.val
      rw [hs0, hw0, hr]; omega

/-- The scatter-add read at r: the operand's entry plus the update entries whose index, read signed, is r. -/
theorem scatter1_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (r : Fin N) :
    Ideal.hostScatterAdd (scatter1Dims N E wf) x idx upd (ix1 r)
      = x (ix1 r) + ∑ e ∈ Finset.univ.filter
          (fun e : Fin E => (idx (ix2 e (0 : Fin 1))).toInt = (r.val : ℤ)), upd (ix1 e) := by
  unfold Ideal.hostScatterAdd
  congr 1
  rw [Finset.sum_filter, Finset.sum_filter, sum_idx1]
  refine Finset.sum_congr rfl fun e _ => ?_
  by_cases hP : (idx (ix2 e (0 : Fin 1))).toInt = (r.val : ℤ)
  · rw [if_pos hP, if_pos ((resultIdx1_iff wf idx e r).mpr hP)]
  · rw [if_neg hP, if_neg (fun h => hP ((resultIdx1_iff wf idx e r).mp h))]

end Cert.LibVec

end
-- ==== Proof.LibHostRead.lean ====
/-
  A few host layouts read at an entry, for any sizes: a scalar constant spread over an array; a length-d vector laid as
  one row and repeated over n rows; a column [n, 1] repeated across d columns.
-/
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal
import proofs.«140138_j37512244363809_2_alg».proof.Proof.LibConsts

noncomputable section

namespace Cert.HostRead

open Idealize.ShloMosaic Idealize.ShloMosaic.ValueIdx

variable {α : Type} {n d : ℕ}

/-- The zero word spread over any shape is zero everywhere. -/
theorem fill_zero_apply {T : Shape} (h : (⟨0, ![]⟩ : Shape).BroadcastsInDim T ![]) (i : T.Idx) :
    broadcastInDim T ![] h (constant (F := Ideal) ⟨0, ![]⟩ .f32 0x00000000#32) i = 0 := by
  rw [broadcastInDim_scalar_apply, constant_apply, Cert.Consts.ofBits_zero]

/-- The word of 1.0 spread over any shape is one everywhere. -/
theorem fill_one_apply {T : Shape} (h : (⟨0, ![]⟩ : Shape).BroadcastsInDim T ![]) (i : T.Idx) :
    broadcastInDim T ![] h (constant (F := Ideal) ⟨0, ![]⟩ .f32 0x3F800000#32) i = 1 := by
  rw [broadcastInDim_scalar_apply, constant_apply, Cert.Consts.ofBits_one, EReal.coe_one]

/-- A length-d vector laid as one row reads, at (0, j), the vector at j. -/
theorem asRow_apply (v : (⟨1, ![d]⟩ : Shape).Idx → α) (h : (⟨1, ![d]⟩ : Shape).BroadcastsInDim ⟨2, ![1, d]⟩ ![1])
    (z : Fin 1) (j : Fin d) : broadcastInDim ⟨2, ![1, d]⟩ ![1] h v (ix2 z j) = v (ix1 j) := by
  refine broadcastInDim_apply ![1] h v (ix2 z j) (ix1 j) ?_
  intro a
  match a with
  | ⟨0, _⟩ =>
    show j.val = if d = 1 then 0 else j.val
    split_ifs with hd
    · have := j.isLt; omega
    · rfl

/-- A length-d vector laid as one row and repeated over n rows reads, at (p, j), the vector at j. -/
theorem rows_apply (v : (⟨1, ![d]⟩ : Shape).Idx → α) (h₁ : (⟨1, ![d]⟩ : Shape).BroadcastsInDim ⟨2, ![1, d]⟩ ![1])
    (h₂ : (⟨2, ![1, d]⟩ : Shape).BroadcastsInDim ⟨2, ![n, d]⟩ ![0, 1]) (p : Fin n) (j : Fin d) :
    broadcastInDim ⟨2, ![n, d]⟩ ![0, 1] h₂ (broadcastInDim ⟨2, ![1, d]⟩ ![1] h₁ v) (ix2 p j) = v (ix1 j) :=
  (broadcastInDim_oneRow_apply h₂ _ p j).trans (asRow_apply v h₁ 0 j)

/-- A column repeated across d columns reads, at (p, j), the column at p. -/
theorem cols_apply (hn : n ≠ 1) (x : (⟨2, ![n, 1]⟩ : Shape).Idx → α)
    (h : (⟨2, ![n, 1]⟩ : Shape).BroadcastsInDim ⟨2, ![n, d]⟩ ![0, 1]) (p : Fin n) (j : Fin d) :
    broadcastInDim ⟨2, ![n, d]⟩ ![0, 1] h x (ix2 p j) = x (ix2 p (0 : Fin 1)) := by
  refine broadcastInDim_apply ![0, 1] h x (ix2 p j) (ix2 p (0 : Fin 1)) ?_
  intro a
  match a with
  | ⟨0, _⟩ =>
    show p.val = if n = 1 then 0 else p.val
    rw [if_neg hn]
  | ⟨1, _⟩ =>
    show (0 : ℕ) = if (1 : ℕ) = 1 then 0 else _
    simp

end Cert.HostRead

end
-- ==== Proof.GcnArgs.lean ====
/-
  The data both programs derive from the edge list, and how their shared host operations read at an index.

  From the source and target index vectors sv, dv (length E, signed 32-bit words) the programs use: the raw target
  column (an edge is summed into node r exactly when its raw target index, read signed, is r — a negative or too
  large index is dropped); the normalised columns (a negative index counts from the end: idx < 0 ? idx + N : idx),
  which every gather reads clamped into [0, N − 1]; the degree deg r = 0 + (one for every edge into r) + 1, a real
  number ≥ 1; and dis r = rsqrt (deg r), di r = 1 / deg r, finite positive reals.  An edge into r has a raw target
  index in [0, N), which the normalisation and the clamp leave alone: its target reads r (graphOf's tgt_of_mem).
-/
import proofs.«140138_j37512244363809_2_alg».proof.Proof.GcnDeg
import proofs.«140138_j37512244363809_2_alg».proof.Proof.LibRows
import proofs.«140138_j37512244363809_2_alg».proof.Proof.LibVec
import proofs.«140138_j37512244363809_2_alg».proof.Proof.LibHostRead
import Idealize.ShloMosaic.Lib.ValueLayout

noncomputable section

open scoped BigOperators

namespace Cert.GcnArgs

open Idealize.ShloMosaic Idealize.ShloMosaic.ValueIdx Cert.Spec Cert.Gcn Cert.LibRows Cert.LibVec

abbrev N : ℕ := 100000
abbrev E : ℕ := 1600000

theorem N_pos : 0 < N := by decide

/-- The variance's ε and the row count, as the programs spell them. -/
def eps : EReal := Ideal.ofBits .f32 0x3727C5AC#32
def cnt : EReal := Ideal.ofBits .f32 0x47C35000#32

theorem cnt_eq : cnt = (((N : ℕ) : ℝ) : EReal) := by
  unfold cnt
  simp [Ideal.ofBits, Ideal.ieee, -EReal.coe_mul]; norm_num

theorem eps_pos : ∃ ε : ℝ, 0 < ε ∧ eps = (ε : EReal) := Cert.Consts.ofBits_eps

/-- A length-E index vector as a column. -/
def rawCol (v : IVec ⟨1, ![E]⟩ 32) : IVec ⟨2, ![E, 1]⟩ 32 := fun i => v (ix1 (i 0))

/-- The same with a negative index counted from the end. -/
def normCol (v : IVec ⟨1, ![E]⟩ 32) : IVec ⟨2, ![E, 1]⟩ 32 := fun i =>
  Scalar.select (IntOp.cmpi .slt (v (ix1 (i 0))) 0#32) (IntOp.addi (v (ix1 (i 0))) 100000#32) (v (ix1 (i 0)))

/-- The edges summed into node r: those whose raw target index, read signed, is r. -/
def edgesInto (dv : IVec ⟨1, ![E]⟩ 32) (r : Fin N) : Finset (Fin E) :=
  Finset.univ.filter fun x : Fin E => (rawCol dv (ix2 x (0 : Fin 1))).toInt = (r.val : ℤ)

theorem edgesInto_def (dv : IVec ⟨1, ![E]⟩ 32) (r : Fin N) :
    edgesInto dv r = Finset.univ.filter fun x : Fin E => (rawCol dv (ix2 x (0 : Fin 1))).toInt = (r.val : ℤ) := rfl

/-- The graph the two index vectors describe. -/
def graphOf (sv dv : IVec ⟨1, ![E]⟩ 32) : Graph N E where
  into := edgesInto dv
  src x := rowAt N_pos (normCol sv) x
  tgt x := rowAt N_pos (normCol dv) x
  tgt_of_mem := by
    intro r x hx
    have hv : (dv (ix1 x)).toInt = (r.val : ℤ) := by
      rw [edgesInto_def] at hx
      exact (Finset.mem_filter.mp hx).2
    have hlt : ¬ ((dv (ix1 x)).toInt < (0#32 : BitVec 32).toInt) := by
      rw [hv]; simp
    refine Fin.ext ?_
    show min (normCol dv (ix2 x (0 : Fin 1))).toInt.toNat (N - 1) = r.val
    have hn : normCol dv (ix2 x (0 : Fin 1)) = dv (ix1 x) := by
      show Scalar.select (IntOp.cmpi .slt (dv (ix1 x)) 0#32) _ _ = _
      have : IntOp.cmpi .slt (dv (ix1 x)) 0#32 = 0#1 := by
        show BitVec.ofBool ((dv (ix1 x)).slt 0#32) = 0#1
        rw [BitVec.slt, decide_eq_false hlt]; rfl
      rw [this]; exact ValueIdx.select_zero _ _
    rw [hn, hv]
    have := r.isLt
    omega

theorem graphOf_into (sv dv : IVec ⟨1, ![E]⟩ 32) (r : Fin N) : (graphOf sv dv).into r = edgesInto dv r := rfl
theorem graphOf_src (sv dv : IVec ⟨1, ![E]⟩ 32) (x : Fin E) :
    (graphOf sv dv).src x = rowAt N_pos (normCol sv) x := rfl
theorem graphOf_tgt (sv dv : IVec ⟨1, ![E]⟩ 32) (x : Fin E) :
    (graphOf sv dv).tgt x = rowAt N_pos (normCol dv) x := rfl

/-- The two rows of the edge list as vectors: the sources and the targets. -/
def srcOf (ei : IVec ⟨2, ![2, E]⟩ 32) : IVec ⟨1, ![E]⟩ 32 :=
  shapeCast ⟨1, ![E]⟩ (extractStridedSlice ⟨2, ![1, E]⟩ ![0, 0] ei (by decide)) (by decide)
def dstOf (ei : IVec ⟨2, ![2, E]⟩ 32) : IVec ⟨1, ![E]⟩ 32 :=
  shapeCast ⟨1, ![E]⟩ (extractStridedSlice ⟨2, ![1, E]⟩ ![1, 0] ei (by decide)) (by decide)

end Cert.GcnArgs

end
-- ==== Proof.GcnRead.lean ====
/-
  How the host operations the two programs share read at an index, in the vocabulary of GcnArgs: an index vector
  laid as a column, with or without the normalisation of negative indices; the degrees as a scatter-add of ones; their
  reciprocal square roots and reciprocals; the scatter-add into zeros of rows gathered along the sources as the sum,
  over the edges into a node, of the source rows; and a vector reshaped to a column or to one row.
-/
import proofs.«140138_j37512244363809_2_alg».proof.Proof.GcnArgs
import proofs.«140138_j37512244363809_2_alg».proof.Proof.LibRows
import proofs.«140138_j37512244363809_2_alg».proof.Proof.LibVec
import proofs.«140138_j37512244363809_2_alg».proof.Proof.LibHostRead
import Idealize.ShloMosaic.Lib.ValueLayout

noncomputable section

open scoped BigOperators

namespace Cert.GcnArgs

open Idealize.ShloMosaic Idealize.ShloMosaic.ValueIdx Cert.Spec Cert.Gcn Cert.LibRows Cert.LibVec

theorem rawCol_read (v : IVec ⟨1, ![E]⟩ 32)
    (hb : (⟨1, ![E]⟩ : Shape).BroadcastsInDim ⟨2, ![E, 1]⟩ ![0]) :
    broadcastInDim ⟨2, ![E, 1]⟩ ![0] hb v = rawCol v := by
  funext i
  refine broadcastInDim_apply ![0] hb v i (ix1 (i 0)) ?_
  intro a
  match a with
  | ⟨0, _⟩ =>
    show (i 0).val = if E = 1 then 0 else (i 0).val
    rw [if_neg (by decide)]

theorem normCol_read (v : IVec ⟨1, ![E]⟩ 32)
    (h0 : (⟨0, ![]⟩ : Shape).BroadcastsInDim ⟨1, ![E]⟩ ![])
    (hb : (⟨1, ![E]⟩ : Shape).BroadcastsInDim ⟨2, ![E, 1]⟩ ![0]) :
    broadcastInDim ⟨2, ![E, 1]⟩ ![0] hb
      (select (cmpi .slt v (broadcastInDim ⟨1, ![E]⟩ ![] h0 (constantI ⟨0, ![]⟩ 32 0#32)))
        (addi v (broadcastInDim ⟨1, ![E]⟩ ![] h0 (constantI ⟨0, ![]⟩ 32 100000#32))) v) = normCol v := by
  rw [rawCol_read]
  funext i
  show Scalar.select (IntOp.cmpi .slt (v (ix1 (i 0))) (broadcastInDim ⟨1, ![E]⟩ ![] h0 (constantI ⟨0, ![]⟩ 32 0#32) (ix1 (i 0))))
      (IntOp.addi (v (ix1 (i 0))) (broadcastInDim ⟨1, ![E]⟩ ![] h0 (constantI ⟨0, ![]⟩ 32 100000#32) (ix1 (i 0)))) (v (ix1 (i 0))) = _
  rw [broadcastInDim_scalar_apply, broadcastInDim_scalar_apply]
  rfl

/-- The degrees: the scatter-add of ones into zeros along the raw target column, plus one. -/
theorem deg_read (sv dv : IVec ⟨1, ![E]⟩ 32)
    (wf : ScatterDims.WF ⟨1, ![N]⟩ ⟨2, ![E, 1]⟩ ⟨1, ![E]⟩ [] [0] [0] 1)
    (D : ScatterDims ⟨1, ![N]⟩ ⟨2, ![E, 1]⟩ ⟨1, ![E]⟩) (hD : D = scatter1Dims N E wf)
    (hN : (⟨0, ![]⟩ : Shape).BroadcastsInDim ⟨1, ![N]⟩ ![]) (hE : (⟨0, ![]⟩ : Shape).BroadcastsInDim ⟨1, ![E]⟩ ![]) :
    addf (Host.scatterAdd (F := Ideal) D (broadcastInDim ⟨1, ![N]⟩ ![] hN (constant (F := Ideal) ⟨0, ![]⟩ .f32 0x00000000#32))
        (rawCol dv) (broadcastInDim ⟨1, ![E]⟩ ![] hE (constant (F := Ideal) ⟨0, ![]⟩ .f32 0x3F800000#32)))
      (broadcastInDim ⟨1, ![N]⟩ ![] hN (constant (F := Ideal) ⟨0, ![]⟩ .f32 0x3F800000#32))
      = degVec (graphOf sv dv) := by
  subst hD
  rw [scatterAdd_ideal]
  funext i
  obtain ⟨r, rfl⟩ : ∃ r : Fin N, i = ix1 r := ⟨i 0, eq_ix1 i⟩
  rw [addf_apply, scatter1_apply, Cert.HostRead.fill_zero_apply, Cert.HostRead.fill_one_apply, degVec_apply, deg_def,
    graphOf_into, edgesInto_def,
    Finset.sum_congr rfl (fun x _ => Cert.HostRead.fill_one_apply hE (ix1 x))]

theorem dis_read (G : Graph N E) : (Host.rsqrt (F := Ideal) (φ := .f32) (degVec G) : (⟨1, ![N]⟩ : Shape).Idx → EReal) = disVec G := rfl

theorem di_read (G : Graph N E) (hN : (⟨0, ![]⟩ : Shape).BroadcastsInDim ⟨1, ![N]⟩ ![]) :
    Host.divf (F := Ideal) (φ := .f32) (broadcastInDim ⟨1, ![N]⟩ ![] hN (constant (F := Ideal) ⟨0, ![]⟩ .f32 0x3F800000#32)) (degVec G)
      = diVec G := by
  funext i
  show Ideal.div (broadcastInDim ⟨1, ![N]⟩ ![] hN (constant (F := Ideal) ⟨0, ![]⟩ .f32 0x3F800000#32) i) (deg G (i 0)) = _
  rw [Cert.HostRead.fill_one_apply]; rfl

/-- The scatter-add, into zeros along the raw target column, of the rows gathered along the normalised source
    column: the sum over the edges into each node of the source rows. -/
theorem agg_read {C : ℕ} (sv dv : IVec ⟨1, ![E]⟩ 32)
    (wfg : GatherDims.WF ⟨2, ![N, C]⟩ ⟨2, ![E, 1]⟩ ⟨2, ![E, C]⟩ [1] [0] [] [0] [] 1 ![1, C])
    (Dg : GatherDims ⟨2, ![N, C]⟩ ⟨2, ![E, 1]⟩ ⟨2, ![E, C]⟩) (hDg : Dg = gatherRowsDims N C E wfg)
    (wfs : ScatterDims.WF ⟨2, ![N, C]⟩ ⟨2, ![E, 1]⟩ ⟨2, ![E, C]⟩ [1] [0] [0] 1)
    (Ds : ScatterDims ⟨2, ![N, C]⟩ ⟨2, ![E, 1]⟩ ⟨2, ![E, C]⟩) (hDs : Ds = scatterRowsDims N C E wfs)
    (hZ : (⟨0, ![]⟩ : Shape).BroadcastsInDim ⟨2, ![N, C]⟩ ![]) (M : Mat N C) :
    Host.scatterAdd (F := Ideal) Ds (broadcastInDim ⟨2, ![N, C]⟩ ![] hZ (constant (F := Ideal) ⟨0, ![]⟩ .f32 0x00000000#32))
        (rawCol dv) (Host.gather Dg M (normCol sv))
      = gsum (graphOf sv dv) M := by
  subst hDg hDs
  rw [scatterAdd_ideal]
  funext i
  obtain ⟨r, c, rfl⟩ : ∃ (r : Fin N) (c : Fin C), i = ix2 r c := ⟨i 0, i 1, eq_ix2 i⟩
  rw [scatterRows_apply, Cert.HostRead.fill_zero_apply, zero_add, gsum_apply, graphOf_into, edgesInto_def]
  simp only [gatherRows_apply N_pos wfg, graphOf_src]

/-- A length-N vector reshaped to a column. -/
theorem col_reshape (v : (⟨1, ![N]⟩ : Shape).Idx → EReal) (h : (⟨1, ![N]⟩ : Shape).ShapeCasts ⟨2, ![N, 1]⟩)
    (r : Fin N) (z : Fin 1) : shapeCast ⟨2, ![N, 1]⟩ v h (ix2 r z) = v (ix1 r) := by
  refine shapeCast_apply v h (ix2 r z) (ix1 r) ?_
  rw [Shape.rowMajor_val_one, Shape.rowMajor_val_two]
  have := z.isLt
  show r.val = r.val * 1 + z.val
  omega

/-- A length-d vector reshaped to one row. -/
theorem row_reshape {d : ℕ} (v : (⟨1, ![d]⟩ : Shape).Idx → EReal) (h : (⟨1, ![d]⟩ : Shape).ShapeCasts ⟨2, ![1, d]⟩) :
    shapeCast ⟨2, ![1, d]⟩ v h = rowOf v := by
  funext i
  obtain ⟨z, j, rfl⟩ : ∃ (z : Fin 1) (j : Fin d), i = ix2 z j := ⟨i 0, i 1, eq_ix2 i⟩
  exact shapeCast_a_1a_apply v h z j
end Cert.GcnArgs

end
-- ==== Proof.LibNary.lean ====
/-
  A host operation over a literal family of three or of five buffers, read at its result.

  An operation of several operands (a concatenation) is printed over a family `![a, b, …]` of references, and its result
  is its function of the family `fun k => F (xs k)` of the operands' contents.  Under that binder the reference
  `![a, b, …] k` is no literal, so nothing more can be said of the contents there.  For a literal family the same result
  is the function of the contents listed one by one, each AT ITS OWN reference, where the contents of each operand can be
  read further.  The library states this for four operands; here are three and five, in the same words.
-/
import Idealize.ShloMosaic.Lib.StableHlo.Run

namespace Cert.LibNary

open Idealize.ShloMosaic Idealize.ShloMosaic.TcCoe Idealize.SL.Sem Idealize.ShloMosaic.StableHlo

variable {τ : Topo} {sig : RefSig} {Val : EltTy → Type}
variable {x a b c d y : Ref sig .tc}

/-- The result of an operation over three literal references, each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The result of an operation over five literal references, each operand's contents at its own reference. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Cert.LibNary

/-- The contents of one buffer after a literal line of host operations, in one pass: every operation's result at its own
    result buffer is its function of its operands' contents, and at any other buffer what was there; an operation over
    three, four or five literal references is read operand by operand. -/
macro "after_results_each" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- What the one pass leaves unread — contents standing inside a pair of a concatenation's list, where a rewriting pass
    does not enter —, read by rewriting: each operation's result at its own result buffer to its function's value, at
    any other buffer to what was there, until none applies. -/
macro "after_results_rest" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))
-- ==== Proof.LibReadLine.lean ====
/-
  Reading one buffer after a straight line of host operations, when the line concatenates.

  A concatenation of two arrays is printed over a two-element list of (shape, array) pairs.  Written instead as a
  function cat2 of its two arrays, it is a term whose pieces stand as plain arguments, so that a single pass which reads
  every operation's result at its own buffer also reads the buffers the two pieces came from.
-/
import Idealize.ShloMosaic.Lib.StableHlo.Run
import proofs.«140138_j37512244363809_2_alg».proof.Proof.LibNary

namespace Cert.ReadLine

open Idealize.ShloMosaic

/-- The concatenation of two arrays along axis a, as a function of the two arrays. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

end Cert.ReadLine

/-- The contents of one buffer after a literal line of host operations, in one pass, two-piece concatenations folded
    into cat2 so that the pass goes on into their pieces. -/
macro "read_line" : tactic =>
  `(tactic| (simp (disch := decide) only [Idealize.ShloMosaic.StableHlo.after_cons, Idealize.ShloMosaic.StableHlo.after_nil,
      Cert.ReadLine.cat2_eq,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))
-- ==== Proof.KHostEdges.lean ====
import proofs.«140138_j37512244363809_2_alg».proof.Proof.Gen.KernelIdeal.Launch
import proofs.«140138_j37512244363809_2_alg».proof.Proof.GcnRead
import proofs.«140138_j37512244363809_2_alg».proof.Proof.LibReadLine
import proofs.«140138_j37512244363809_2_alg».proof.Proof.LibHostKeeps

noncomputable section

open scoped BigOperators
open Idealize.ShloMosaic Idealize.ShloMosaic.ValueIdx

namespace Cert.KernelIdeal.KHost

open Cert.KernelIdeal Cert.KernelIdeal.Gen Cert.Spec Cert.Gcn Cert.GcnArgs

/-! The edge-side host stretches of the kernel's program, read for any contents W of the buffers they are entered with.

    The prelude takes the two rows of the edge list as the source and target index vectors, counts the degrees as a
    scatter-add of ones along the raw target column plus one, and lays their reciprocal square roots dis and their
    reciprocals di as columns.  Each of the three later stretches counts a negative source index from the end, gathers
    the rows of its input along the source column, and scatter-adds them into zeros along the raw target column: at
    node r that is the sum, over the edges into r, of the source rows (gsum of the graph the two index vectors describe);
    and it lays a bias vector as one row. -/

/-- dis from the target vector: the reciprocal square roots of the degrees, as a column. -/
theorem dis_line (sv dv : IVec ⟨1, ![E]⟩ 32)
    (wf : ScatterDims.WF ⟨1, ![N]⟩ ⟨2, ![E, 1]⟩ ⟨1, ![E]⟩ [] [0] [0] 1)
    (D : ScatterDims ⟨1, ![N]⟩ ⟨2, ![E, 1]⟩ ⟨1, ![E]⟩) (hD : D = Cert.LibVec.scatter1Dims N E wf)
    (hN : (⟨0, ![]⟩ : Shape).BroadcastsInDim ⟨1, ![N]⟩ ![]) (hE : (⟨0, ![]⟩ : Shape).BroadcastsInDim ⟨1, ![E]⟩ ![])
    (hb : (⟨1, ![E]⟩ : Shape).BroadcastsInDim ⟨2, ![E, 1]⟩ ![0])
    (hc : (⟨1, ![N]⟩ : Shape).ShapeCasts ⟨2, ![N, 1]⟩) :
    shapeCast ⟨2, ![N, 1]⟩ (Host.rsqrt (F := Ideal) (φ := .f32)
      (addf (Host.scatterAdd (F := Ideal) D
          (broadcastInDim ⟨1, ![N]⟩ ![] hN (constant (F := Ideal) ⟨0, ![]⟩ .f32 0x00000000#32))
          (broadcastInDim ⟨2, ![E, 1]⟩ ![0] hb dv)
          (broadcastInDim ⟨1, ![E]⟩ ![] hE (constant (F := Ideal) ⟨0, ![]⟩ .f32 0x3F800000#32)))
        (broadcastInDim ⟨1, ![N]⟩ ![] hN (constant (F := Ideal) ⟨0, ![]⟩ .f32 0x3F800000#32)))) hc
      = disCol (graphOf sv dv) := by
  rw [rawCol_read, deg_read sv dv wf D hD hN hE, dis_read]
  funext i
  obtain ⟨r, z, rfl⟩ : ∃ (r : Fin N) (z : Fin 1), i = ix2 r z := ⟨i 0, i 1, eq_ix2 i⟩
  obtain rfl : z = 0 := Subsingleton.elim _ _
  rw [col_reshape, disVec_apply]

/-- di from the target vector: the reciprocals of the degrees, as a column. -/
theorem di_line (sv dv : IVec ⟨1, ![E]⟩ 32)
    (wf : ScatterDims.WF ⟨1, ![N]⟩ ⟨2, ![E, 1]⟩ ⟨1, ![E]⟩ [] [0] [0] 1)
    (D : ScatterDims ⟨1, ![N]⟩ ⟨2, ![E, 1]⟩ ⟨1, ![E]⟩) (hD : D = Cert.LibVec.scatter1Dims N E wf)
    (hN : (⟨0, ![]⟩ : Shape).BroadcastsInDim ⟨1, ![N]⟩ ![]) (hE : (⟨0, ![]⟩ : Shape).BroadcastsInDim ⟨1, ![E]⟩ ![])
    (hb : (⟨1, ![E]⟩ : Shape).BroadcastsInDim ⟨2, ![E, 1]⟩ ![0])
    (hc : (⟨1, ![N]⟩ : Shape).ShapeCasts ⟨2, ![N, 1]⟩) :
    shapeCast ⟨2, ![N, 1]⟩ (Host.divf (F := Ideal) (φ := .f32)
      (broadcastInDim ⟨1, ![N]⟩ ![] hN (constant (F := Ideal) ⟨0, ![]⟩ .f32 0x3F800000#32))
      (addf (Host.scatterAdd (F := Ideal) D
          (broadcastInDim ⟨1, ![N]⟩ ![] hN (constant (F := Ideal) ⟨0, ![]⟩ .f32 0x00000000#32))
          (broadcastInDim ⟨2, ![E, 1]⟩ ![0] hb dv)
          (broadcastInDim ⟨1, ![E]⟩ ![] hE (constant (F := Ideal) ⟨0, ![]⟩ .f32 0x3F800000#32)))
        (broadcastInDim ⟨1, ![N]⟩ ![] hN (constant (F := Ideal) ⟨0, ![]⟩ .f32 0x3F800000#32)))) hc
      = diCol (graphOf sv dv) := by
  rw [rawCol_read, deg_read sv dv wf D hD hN hE, di_read]
  funext i
  obtain ⟨r, z, rfl⟩ : ∃ (r : Fin N) (z : Fin 1), i = ix2 r z := ⟨i 0, i 1, eq_ix2 i⟩
  obtain rfl : z = 0 := Subsingleton.elim _ _
  rw [col_reshape, diVec_apply]

/-- The aggregation from the two index vectors and the rows M: at node r the sum over the edges into r of the source
    rows of M. -/
theorem agg_line {C : ℕ} (sv dv : IVec ⟨1, ![E]⟩ 32)
    (wfg : GatherDims.WF ⟨2, ![N, C]⟩ ⟨2, ![E, 1]⟩ ⟨2, ![E, C]⟩ [1] [0] [] [0] [] 1 ![1, C])
    (Dg : GatherDims ⟨2, ![N, C]⟩ ⟨2, ![E, 1]⟩ ⟨2, ![E, C]⟩) (hDg : Dg = Cert.LibRows.gatherRowsDims N C E wfg)
    (wfs : ScatterDims.WF ⟨2, ![N, C]⟩ ⟨2, ![E, 1]⟩ ⟨2, ![E, C]⟩ [1] [0] [0] 1)
    (Ds : ScatterDims ⟨2, ![N, C]⟩ ⟨2, ![E, 1]⟩ ⟨2, ![E, C]⟩) (hDs : Ds = Cert.LibRows.scatterRowsDims N C E wfs)
    (hZ : (⟨0, ![]⟩ : Shape).BroadcastsInDim ⟨2, ![N, C]⟩ ![])
    (h0 : (⟨0, ![]⟩ : Shape).BroadcastsInDim ⟨1, ![E]⟩ ![])
    (hb : (⟨1, ![E]⟩ : Shape).BroadcastsInDim ⟨2, ![E, 1]⟩ ![0]) (M : Mat N C) :
    Host.scatterAdd (F := Ideal) Ds
        (broadcastInDim ⟨2, ![N, C]⟩ ![] hZ (constant (F := Ideal) ⟨0, ![]⟩ .f32 0x00000000#32))
        (broadcastInDim ⟨2, ![E, 1]⟩ ![0] hb dv)
        (Host.gather Dg M (broadcastInDim ⟨2, ![E, 1]⟩ ![0] hb
          (select (cmpi .slt sv (broadcastInDim ⟨1, ![E]⟩ ![] h0 (constantI ⟨0, ![]⟩ 32 0#32)))
            (addi sv (broadcastInDim ⟨1, ![E]⟩ ![] h0 (constantI ⟨0, ![]⟩ 32 100000#32))) sv)))
      = gsum (graphOf sv dv) M := by
  rw [normCol_read, rawCol_read, agg_read sv dv wfg Dg hDg wfs Ds hDs hZ M]

variable (W : Valuation τ sig (Elt Ideal))

/-- After the prelude the source vector is the first row of the edge list, -/
theorem h0_src : StableHlo.after (hostOps0 (F := Ideal)) W (Proc.devRef .tc main_v1)
    = srcOf (W (Proc.devRef .tc main_arg11)) := by
  simp only [hostOps0]
  read_line
  rfl

/-- the target vector its second row, -/
theorem h0_dst : StableHlo.after (hostOps0 (F := Ideal)) W (Proc.devRef .tc main_v3)
    = dstOf (W (Proc.devRef .tc main_arg11)) := by
  simp only [hostOps0]
  read_line
  rfl

/-- the dis column the reciprocal square roots of the degrees of the graph the two rows describe, -/
theorem h0_dis : StableHlo.after (hostOps0 (F := Ideal)) W (Proc.devRef .tc main_v13)
    = disCol (graphOf (srcOf (W (Proc.devRef .tc main_arg11))) (dstOf (W (Proc.devRef .tc main_arg11)))) := by
  simp only [hostOps0]
  read_line
  exact dis_line (srcOf (W (Proc.devRef .tc main_arg11))) _ _ scatter_S100000_S1600000x1_S1600000_n_0_0_1 rfl _ _ _ _

/-- and the di column the reciprocals of the degrees. -/
theorem h0_di : StableHlo.after (hostOps0 (F := Ideal)) W (Proc.devRef .tc main_v14)
    = diCol (graphOf (srcOf (W (Proc.devRef .tc main_arg11))) (dstOf (W (Proc.devRef .tc main_arg11)))) := by
  simp only [hostOps0]
  read_line
  exact di_line (srcOf (W (Proc.devRef .tc main_arg11))) _ _ scatter_S100000_S1600000x1_S1600000_n_0_0_1 rfl _ _ _ _

/-- After the first aggregation stretch: the sum over the edges into each node of the source rows of its input, -/
theorem h1_agg : StableHlo.after (hostOps1 (F := Ideal)) W (Proc.devRef .tc main_v25)
    = gsum (graphOf (W (Proc.devRef .tc main_v1)) (W (Proc.devRef .tc main_v3))) (W (Proc.devRef .tc main_v15_1) : Mat N 128) := by
  simp only [hostOps1]
  read_line
  exact agg_line (W (Proc.devRef .tc main_v1)) (W (Proc.devRef .tc main_v3)) _ gather_S100000x128_S1600000x1_S1600000x128_1_0_n_n_0_1_1128 rfl _ scatter_S100000x128_S1600000x1_S1600000x128_1_0_0_1 rfl _ _ _
    (W (Proc.devRef .tc main_v15_1))

/-- and the first bias as one row. -/
theorem h1_b : StableHlo.after (hostOps1 (F := Ideal)) W (Proc.devRef .tc main_v26) = rowOf (W (Proc.devRef .tc main_arg2)) := by
  simp only [hostOps1]
  read_line
  exact row_reshape (W (Proc.devRef .tc main_arg2)) _

/-- After the second aggregation stretch, -/
theorem h3_agg : StableHlo.after (hostOps3 (F := Ideal)) W (Proc.devRef .tc main_v55)
    = gsum (graphOf (W (Proc.devRef .tc main_v1)) (W (Proc.devRef .tc main_v3))) (W (Proc.devRef .tc main_v45_1) : Mat N 128) := by
  simp only [hostOps3]
  read_line
  exact agg_line (W (Proc.devRef .tc main_v1)) (W (Proc.devRef .tc main_v3)) _ gather_S100000x128_S1600000x1_S1600000x128_1_0_n_n_0_1_1128 rfl _ scatter_S100000x128_S1600000x1_S1600000x128_1_0_0_1 rfl _ _ _
    (W (Proc.devRef .tc main_v45_1))

/-- and the second bias as one row. -/
theorem h3_b : StableHlo.after (hostOps3 (F := Ideal)) W (Proc.devRef .tc main_v56) = rowOf (W (Proc.devRef .tc main_arg6)) := by
  simp only [hostOps3]
  read_line
  exact row_reshape (W (Proc.devRef .tc main_arg6)) _

/-- After the third aggregation stretch, at width 2, -/
theorem h5_agg : StableHlo.after (hostOps5 (F := Ideal)) W (Proc.devRef .tc main_v85)
    = gsum (graphOf (W (Proc.devRef .tc main_v1)) (W (Proc.devRef .tc main_v3))) (W (Proc.devRef .tc main_v75_1) : Mat N 2) := by
  simp only [hostOps5]
  read_line
  exact agg_line (W (Proc.devRef .tc main_v1)) (W (Proc.devRef .tc main_v3)) _ gather_S100000x2_S1600000x1_S1600000x2_1_0_n_n_0_1_12 rfl _ scatter_S100000x2_S1600000x1_S1600000x2_1_0_0_1 rfl _ _ _
    (W (Proc.devRef .tc main_v75_1))

/-- and the third bias as one row. -/
theorem h5_b : StableHlo.after (hostOps5 (F := Ideal)) W (Proc.devRef .tc main_v86) = rowOf (W (Proc.devRef .tc main_arg10)) := by
  simp only [hostOps5]
  read_line
  exact row_reshape (W (Proc.devRef .tc main_arg10)) _

end Cert.KernelIdeal.KHost

end
-- ==== Proof.GcnUnfold.lean ====
/-
  The spellings of GcnSpec's composite functions, as rewriting lemmas for any sizes: a convolution with pre-scaled rows
  is the three-term combination of the edge sum; the activations are the normalised columns' positive part; the network
  is the softmax of the third convolution of the second layer's activations.  Stated over variable sizes, so that they
  are used by rewriting at the programs' literal sizes.
-/
import proofs.«140138_j37512244363809_2_alg».proof.Proof.GcnSpec

noncomputable section

namespace Cert.Gcn

open Idealize.ShloMosaic Idealize.ShloMosaic.ValueIdx Cert.Spec

variable {n e k d h : ℕ}

theorem combine_congr {A A' H H' : Mat n d} {s s' t t' : Mat n 1} {B B' : Mat 1 d}
    (hA : A = A') (hH : H = H') (hs : s = s') (ht : t = t') (hB : B = B') :
    combine A H s t B = combine A' H' s' t' B' := by
  subst hA hH hs ht hB; rfl

theorem normRelu0_congr {Y Y' : Mat n d} {MU MU' INV INV' G G' BT BT' : Mat 1 d}
    (hY : Y = Y') (hMU : MU = MU') (hINV : INV = INV') (hG : G = G') (hBT : BT = BT') :
    normRelu0 Y MU INV G BT = normRelu0 Y' MU' INV' G' BT' := by
  subst hY hMU hINV hG hBT; rfl

theorem combine_gsum (G : Graph n e) (H : Mat n d) (dis di : Mat n 1) (B : Mat 1 d) :
    combine (gsum G (scaleRows H dis)) H dis di B = convK G H dis di B := rfl

theorem normRelu0_rsqrt (ε : EReal) (Y : Mat n d) (MU VAR G BT : Mat 1 d) :
    normRelu0 Y MU (fun i => Ideal.rsqrt (VAR i + ε)) G BT = normRelu ε Y MU VAR G BT := rfl

theorem actK_def (ε cnt : EReal) (Y : Mat n d) (g be : Mat 1 d) :
    normRelu ε Y (colMean Y cnt) (varK Y cnt) g be = actK ε cnt Y g be := rfl

theorem netK_def (G : Graph n e) (ε cnt : EReal) (dis di : Mat n 1) (X : Mat n k) (W1 : Mat k h) (b1 g1 be1 : Mat 1 h)
    (W2 : Mat h h) (b2 g2 be2 : Mat 1 h) (W3 : Mat h 2) (b3 : Mat 1 2) :
    softmax2 (convK G (mm (actK ε cnt (convK G (mm (actK ε cnt (convK G (mm X W1) dis di b1) g1 be1) W2) dis di b2) g2 be2) W3)
        dis di b3)
      = netK G ε cnt dis di X W1 b1 g1 be1 W2 b2 g2 be2 W3 b3 := rfl

end Cert.Gcn

end
-- ==== Proof.KValue1.lean ====
/-
  The idealized kernel's intermediate arrays, named, and the first layer's boundaries.

  With X, W₁, … the argument arrays, G the graph of the edge list, dis and di its two weight columns, the kernel computes
  H₁ = X · W₁, Y₁ = the convolution of H₁ (rows scaled by dis before the edges are summed and once more after), the
  activations A₁ of Y₁ (column mean, one-pass variance kept non-negative, reciprocal square root, scale, shift, positive
  part), H₂ = A₁ · W₂, Y₂, A₂, H₃ = A₂ · W₃, Z = the convolution of H₃, and the row softmax of Z.  Each array sits in one
  buffer of @main at the boundary after the segment that writes it; this module names them and follows the run through the
  prelude, the first matrix product, the first edge sum and the first combination with its column sums.
-/
import proofs.«140138_j37512244363809_2_alg».proof.Proof.KKeep
import proofs.«140138_j37512244363809_2_alg».proof.Proof.KRegion0
import proofs.«140138_j37512244363809_2_alg».proof.Proof.KRegion1Acc
import proofs.«140138_j37512244363809_2_alg».proof.Proof.KHostEdges
import proofs.«140138_j37512244363809_2_alg».proof.Proof.GcnUnfold

noncomputable section

namespace Cert.KernelIdeal.KValue

open Cert.KernelIdeal Cert.KernelIdeal.Gen Cert.KernelIdeal.KHost
open Idealize.ShloMosaic Idealize.ShloMosaic.TcCoe Idealize.ShloMosaic.ValueIdx
open Cert.Spec Cert.Gcn Cert.GcnArgs

variable (m : (ℓ : Loc nD τ sig) → Buf (Elt Ideal) ℓ) (ρ : Dev nD → PrngReg) (c : Dev nD)

/-! ## The arguments and the arrays the kernel computes from them -/

abbrev aX : Mat N 128 := m ((c : Thread nD τ).loc main_arg0)
abbrev aW1 : Mat 128 128 := m ((c : Thread nD τ).loc main_arg1)
abbrev ab1 : Mat 1 128 := rowOf (m ((c : Thread nD τ).loc main_arg2))
abbrev ag1 : Mat 1 128 := rowOf (m ((c : Thread nD τ).loc main_arg3))
abbrev abe1 : Mat 1 128 := rowOf (m ((c : Thread nD τ).loc main_arg4))
abbrev aW2 : Mat 128 128 := m ((c : Thread nD τ).loc main_arg5)
abbrev ab2 : Mat 1 128 := rowOf (m ((c : Thread nD τ).loc main_arg6))
abbrev ag2 : Mat 1 128 := rowOf (m ((c : Thread nD τ).loc main_arg7))
abbrev abe2 : Mat 1 128 := rowOf (m ((c : Thread nD τ).loc main_arg8))
abbrev aW3 : Mat 128 2 := m ((c : Thread nD τ).loc main_arg9)
abbrev ab3 : Mat 1 2 := rowOf (m ((c : Thread nD τ).loc main_arg10))
abbrev aEi : IVec ⟨2, ![2, E]⟩ 32 := m ((c : Thread nD τ).loc main_arg11)

/-- The graph of the edge list, and its two weight columns. -/
def gr : Graph N E := graphOf (srcOf (aEi m c)) (dstOf (aEi m c))
def dis : Mat N 1 := disCol (gr m c)
def di : Mat N 1 := diCol (gr m c)

def H1 : Mat N 128 := mm (aX m c) (aW1 m c)
def Y1 : Mat N 128 := convK (gr m c) (H1 m c) (dis m c) (di m c) (ab1 m c)
def A1 : Mat N 128 := actK eps cnt (Y1 m c) (ag1 m c) (abe1 m c)
def H2 : Mat N 128 := mm (A1 m c) (aW2 m c)
def Y2 : Mat N 128 := convK (gr m c) (H2 m c) (dis m c) (di m c) (ab2 m c)
def A2 : Mat N 128 := actK eps cnt (Y2 m c) (ag2 m c) (abe2 m c)
def H3 : Mat N 2 := mm (A2 m c) (aW3 m c)
def Z : Mat N 2 := convK (gr m c) (H3 m c) (dis m c) (di m c) (ab3 m c)
def out : Mat N 2 := softmax2 (Z m c)

/-- The kernel's result is the network with pre-scaled rows and one-pass variances. -/
theorem out_eq : out m c = netK (gr m c) eps cnt (dis m c) (di m c) (aX m c) (aW1 m c) (ab1 m c) (ag1 m c) (abe1 m c)
    (aW2 m c) (ab2 m c) (ag2 m c) (abe2 m c) (aW3 m c) (ab3 m c) := by
  unfold out Z H3 A2 Y2 H2 A1 Y1 H1
  rw [netK_def]

/-! ## After the prelude -/

theorem w1_src : W1 m ρ c (Proc.devRef .tc main_v1) = srcOf (aEi m c) :=
  (h0_src (W0 m ρ c)).trans (congrArg srcOf (KKeep.W0_arg11 m ρ c))
theorem w1_dst : W1 m ρ c (Proc.devRef .tc main_v3) = dstOf (aEi m c) :=
  (h0_dst (W0 m ρ c)).trans (congrArg dstOf (KKeep.W0_arg11 m ρ c))
theorem w1_dis : W1 m ρ c (Proc.devRef .tc main_v13) = dis m c :=
  (h0_dis (W0 m ρ c)).trans (by unfold dis gr; rw [KKeep.W0_arg11])
theorem w1_di : W1 m ρ c (Proc.devRef .tc main_v14) = di m c :=
  (h0_di (W0 m ρ c)).trans (by unfold di gr; rw [KKeep.W0_arg11])

/-- The graph read off the two index vectors at any later boundary where they are as the prelude left them. -/
theorem graph_of {sv dv : IVec ⟨1, ![E]⟩ 32} (hs : sv = W1 m ρ c (Proc.devRef .tc main_v1))
    (hd : dv = W1 m ρ c (Proc.devRef .tc main_v3)) : graphOf sv dv = gr m c := by
  rw [hs, hd, w1_src, w1_dst]; rfl

/-! ## Region 0: the first matrix product -/

theorem w2_h : W2 m ρ c (Proc.devRef .tc main_v15_0) = H1 m c := by
  refine ((hF0 m ρ c 3).symm.trans (Region0.h_eq (V1 m ρ) c)).trans ?_
  unfold H1
  rw [show (V1 m ρ c (Pipeline.arrRef spec0 0) : Mat 100000 128) = aX m c from KKeep.W1_arg0 m ρ c,
    show (V1 m ρ c (Pipeline.arrRef spec0 1) : Mat 128 128) = aW1 m c from KKeep.W1_arg1 m ρ c]

theorem w2_hs : W2 m ρ c (Proc.devRef .tc main_v15_1) = scaleRows (H1 m c) (dis m c) := by
  refine ((hF0 m ρ c 4).symm.trans (Region0.hs_eq (V1 m ρ) c)).trans ?_
  unfold H1
  rw [show (V1 m ρ c (Pipeline.arrRef spec0 0) : Mat 100000 128) = aX m c from KKeep.W1_arg0 m ρ c,
    show (V1 m ρ c (Pipeline.arrRef spec0 1) : Mat 128 128) = aW1 m c from KKeep.W1_arg1 m ρ c,
    show (V1 m ρ c (Pipeline.arrRef spec0 2) : Mat 100000 1) = dis m c from w1_dis m ρ c]

/-! ## The first edge sum -/

theorem w3_agg : W3 m ρ c (Proc.devRef .tc main_v25) = gsum (gr m c) (scaleRows (H1 m c) (dis m c)) := by
  refine (h1_agg (W2 m ρ c)).trans ?_
  rw [graph_of m ρ c (KKeep.W2_v1 m ρ c) (KKeep.W2_v3 m ρ c), w2_hs]

theorem w3_b : W3 m ρ c (Proc.devRef .tc main_v26) = ab1 m c :=
  (h1_b (W2 m ρ c)).trans (congrArg rowOf (KKeep.W2_arg2 m ρ c))

/-! ## Region 1: the first combination and its column sums -/

theorem comb1 : combine (V3 m ρ c (Pipeline.arrRef spec1 1) : Mat 100000 128) (V3 m ρ c (Pipeline.arrRef spec1 0) : Mat 100000 128)
      (V3 m ρ c (Pipeline.arrRef spec1 2) : Mat 100000 1) (V3 m ρ c (Pipeline.arrRef spec1 3) : Mat 100000 1)
      (V3 m ρ c (Pipeline.arrRef spec1 4) : Mat 1 128) = Y1 m c :=
  (combine_congr (w3_agg m ρ c) ((KKeep.W3_v15_0 m ρ c).trans (w2_h m ρ c))
      ((KKeep.W3_v13 m ρ c).trans (w1_dis m ρ c)) ((KKeep.W3_v14 m ρ c).trans (w1_di m ρ c)) (w3_b m ρ c)).trans
    (combine_gsum (gr m c) (H1 m c) (dis m c) (di m c) (ab1 m c))

theorem w4_y : W4 m ρ c (Proc.devRef .tc main_v27_0) = Y1 m c :=
  ((hF1 m ρ c 5).symm.trans (Region1.y_eq (V3 m ρ) c)).trans (comb1 m ρ c)
theorem w4_sum : W4 m ρ c (Proc.devRef .tc main_v27_1) = colSum (Y1 m c) :=
  ((hF1 m ρ c 6).symm.trans (Region1.sum_eq (V3 m ρ) c)).trans (congrArg colSum (comb1 m ρ c))
theorem w4_sq : W4 m ρ c (Proc.devRef .tc main_v27_2) = colSumSq (Y1 m c) :=
  ((hF1 m ρ c 7).symm.trans (Region1.sq_eq (V3 m ρ) c)).trans (congrArg colSumSq (comb1 m ρ c))

end Cert.KernelIdeal.KValue

end
-- ==== Proof.KRegionAct.lean ====
/-
  The normalisation of a tile's columns followed by the positive part, read at an entry, over the extended reals.

  The two middle kernels begin alike.  From a tile y of 5000 rows and four rows mu, inv, g, be of 128 numbers each, the
  body forms, entry by entry,  max ((y (p, q) − mu (0, q)) · inv (0, q) · g (0, q) + be (0, q), 0):  each of the four
  rows is repeated over the 5000 rows of the tile, and the zero the maximum is taken with is the float word of zero
  repeated over the tile (act, act_apply).
-/
import proofs.«140138_j37512244363809_2_alg».proof.Proof.Gen.KernelIdeal.Skeleton
import proofs.«140138_j37512244363809_2_alg».proof.Proof.KRegionTiles
import Idealize.ShloMosaic.Lib.ValueLayout
import Idealize.ShloMosaic.PureOps.Ideal.Laws

noncomputable section

namespace Cert.KernelIdeal.Act

open Idealize.ShloMosaic Idealize.ShloMosaic.ValueIdx
open Cert.KernelIdeal Cert.KernelIdeal.Gen

/-- The normalised columns' positive part of a tile, as the two bodies form it. -/
def act (y : Vec Ideal S5000x128 .f32) (mu inv g be : Vec Ideal S1x128 .f32) : FVec Ideal S5000x128 .f32 :=
  maximumf
    (addf
      (mulf
        (mulf
          (subf (shapeCast S5000x128 y shapeCasts_S5000x128_S5000x128)
            (broadcastTo S5000x128 (shapeCast S1x128 mu shapeCasts_S1x128_S1x128) broadcasts_S1x128_S5000x128))
          (broadcastTo S5000x128 (shapeCast S1x128 inv shapeCasts_S1x128_S1x128) broadcasts_S1x128_S5000x128))
        (broadcastTo S5000x128 (shapeCast S1x128 g shapeCasts_S1x128_S1x128) broadcasts_S1x128_S5000x128))
      (broadcastTo S5000x128 (shapeCast S1x128 be shapeCasts_S1x128_S1x128) broadcasts_S1x128_S5000x128))
    (broadcast S5000x128 (Scalar.ofBits (F := Ideal) .f32 0x00000000#32))

/-- Its entry (p, q). -/
theorem act_apply (y : Vec Ideal S5000x128 .f32) (mu inv g be : Vec Ideal S1x128 .f32) (p : Fin 5000) (q : Fin 128) :
    act y mu inv g be (ix2 p q)
      = max ((y (ix2 p q) - mu (ix2 (0 : Fin 1) q)) * inv (ix2 (0 : Fin 1) q) * g (ix2 (0 : Fin 1) q)
          + be (ix2 (0 : Fin 1) q)) 0 := by
  unfold act
  rw [maximumf_apply, addf_apply, mulf_apply, mulf_apply, subf_apply, broadcast_apply]
  simp only [shapeCast_self, broadcastTo_1b_ab_apply]
  show max _ (Ideal.ofBits .f32 0x00000000#32) = _
  rw [Ideal.ofBits_zero_f32]

end Cert.KernelIdeal.Act

end
-- ==== Proof.KRegion2Pay.lean ====
/-
  What the second product kernel's body stores, read at an entry of its tile, over the extended reals.

  The body takes a tile y of 5000 rows of the previous layer's output, the four rows mu, inv, g, be of the column
  normalisation, the weight matrix w with 128 columns and the tile s of the per-row factors.  It first normalises the
  tile's columns and keeps the positive part (the shared first step, act), and stores the product of that with w:
  narrowing the operands' float format changes nothing over the exact reals and a product accumulated into zero is the
  plain sum of products, so the entry (p, j) is the sum over q of act (p, q) · w (q, j) (pay1_eq, pay1_apply).  Its
  second store is that product with row p scaled by s (p, 0), the factor column repeated across the 128 columns
  (pay2_apply).

  When the tile y holds the rows of an array Y of 100000 rows that start at row b · 5000, the four rows and w are whole
  arrays, and s holds the same rows of S, those entries are the entries in row b · 5000 + p of the normalised positive
  part of Y times W, and of that with its rows scaled by S (pay1_tile, pay2_tile): the normalisation works column by
  column with the same four numbers in every row, and the product and the scaling row by row.
-/
import proofs.«140138_j37512244363809_2_alg».proof.Proof.Gen.KernelIdeal.Skeleton
import proofs.«140138_j37512244363809_2_alg».proof.Proof.LibPlainDot
import proofs.«140138_j37512244363809_2_alg».proof.Proof.GcnSpec
import proofs.«140138_j37512244363809_2_alg».proof.Proof.KRegionTiles
import proofs.«140138_j37512244363809_2_alg».proof.Proof.KRegionAct

noncomputable section

open scoped BigOperators

namespace Cert.KernelIdeal.Region2

open Idealize.ShloMosaic Idealize.ShloMosaic.ValueIdx
open Cert.KernelIdeal Cert.KernelIdeal.Gen Cert.Spec Cert.Gcn Cert.Tiles Cert.KernelIdeal.Act

/-- The body's first store is the product of the normalised positive part with the weights, into zero. -/
theorem pay1_eq (y : Vec Ideal S5000x128 .f32) (mu inv g be : Vec Ideal S1x128 .f32) (w : Vec Ideal S128x128 .f32) :
    k2_pay1 y mu inv g be w
      = matmul dot_S5000x128_S128x128_S5000x128_1_0_0_1_n_n none (truncf .bf16 (act y mu inv g be) bitsLt_bf16_f32)
          (truncf .bf16 w bitsLt_bf16_f32) (constant (F := Ideal) S5000x128 .f32 0x00000000#32) := rfl

/-- Its entry (p, j): the sum over q of act (p, q) · w (q, j). -/
theorem pay1_apply (y : Vec Ideal S5000x128 .f32) (mu inv g be : Vec Ideal S1x128 .f32) (w : Vec Ideal S128x128 .f32)
    (p : Fin 5000) (j : Fin 128) :
    k2_pay1 y mu inv g be w (ix2 p j) = ∑ q : Fin 128, act y mu inv g be (ix2 p q) * w (ix2 q j) := by
  rw [pay1_eq]
  exact Cert.LibPlainDot.matmul_zero_apply dot_S5000x128_S128x128_S5000x128_1_0_0_1_n_n rfl none
    (truncf .bf16 (act y mu inv g be) bitsLt_bf16_f32) (truncf .bf16 w bitsLt_bf16_f32) p j

/-- What the body stores second: the product's entry scaled by the row's factor. -/
theorem pay2_apply (y : Vec Ideal S5000x128 .f32) (mu inv g be : Vec Ideal S1x128 .f32) (w : Vec Ideal S128x128 .f32)
    (s : Vec Ideal S5000x1 .f32) (p : Fin 5000) (j : Fin 128) :
    k2_pay2 y mu inv g be w s (ix2 p j) = k2_pay1 y mu inv g be w (ix2 p j) * s (ix2 p (0 : Fin 1)) := by
  show k2_pay1 y mu inv g be w (ix2 p j)
      * broadcastTo S5000x128 (shapeCast S5000x1 s shapeCasts_S5000x1_S5000x1) broadcasts_S5000x1_S5000x128 (ix2 p j) = _
  rw [shapeCast_self, colBroadcast_apply]

/-- A tile of rows of the input gives the same tile of rows of the normalised positive part times the weights. -/
theorem pay1_tile (y : Vec Ideal S5000x128 .f32) (mu inv g be : Vec Ideal S1x128 .f32) (w : Vec Ideal S128x128 .f32)
    (Y : Mat 100000 128) (MU INV G BE : Mat 1 128) (W : Mat 128 128) (b : ℕ)
    (hy : ∀ (z : S5000x128.Idx) (i : S100000x128.Idx), (i 0).val = b * 5000 + (z 0).val → (i 1).val = (z 1).val → y z = Y i)
    (hmu : ∀ z : S1x128.Idx, mu z = MU z) (hinv : ∀ z : S1x128.Idx, inv z = INV z)
    (hg : ∀ z : S1x128.Idx, g z = G z) (hbe : ∀ z : S1x128.Idx, be z = BE z)
    (hw : ∀ z : S128x128.Idx, w z = W z)
    (z : S5000x128.Idx) (i : S100000x128.Idx) (hi0 : (i 0).val = b * 5000 + (z 0).val) (hi1 : (i 1).val = (z 1).val) :
    k2_pay1 y mu inv g be w z = mm (normRelu0 Y MU INV G BE) W i := by
  obtain ⟨p, j, rfl⟩ : ∃ (p : Fin 5000) (j : Fin 128), z = ix2 p j := ⟨z 0, z 1, eq_ix2 z⟩
  obtain ⟨r, j', rfl⟩ : ∃ (r : Fin 100000) (j' : Fin 128), i = ix2 r j' := ⟨i 0, i 1, eq_ix2 i⟩
  have e0 : r.val = b * 5000 + p.val := hi0
  obtain rfl : j' = j := Fin.ext hi1
  rw [pay1_apply, mm_apply]
  refine Finset.sum_congr rfl fun q _ => ?_
  rw [act_apply, normRelu0_apply, hy (ix2 p q) (ix2 r q) e0 rfl, hmu, hinv, hg, hbe, hw]

/-- The same with each row scaled by the row's factor. -/
theorem pay2_tile (y : Vec Ideal S5000x128 .f32) (mu inv g be : Vec Ideal S1x128 .f32) (w : Vec Ideal S128x128 .f32)
    (s : Vec Ideal S5000x1 .f32)
    (Y : Mat 100000 128) (MU INV G BE : Mat 1 128) (W : Mat 128 128) (S : Mat 100000 1) (b : ℕ)
    (hy : ∀ (z : S5000x128.Idx) (i : S100000x128.Idx), (i 0).val = b * 5000 + (z 0).val → (i 1).val = (z 1).val → y z = Y i)
    (hmu : ∀ z : S1x128.Idx, mu z = MU z) (hinv : ∀ z : S1x128.Idx, inv z = INV z)
    (hg : ∀ z : S1x128.Idx, g z = G z) (hbe : ∀ z : S1x128.Idx, be z = BE z)
    (hw : ∀ z : S128x128.Idx, w z = W z)
    (hs : ∀ (z : S5000x1.Idx) (i : S100000x1.Idx), (i 0).val = b * 5000 + (z 0).val → (i 1).val = (z 1).val → s z = S i)
    (z : S5000x128.Idx) (i : S100000x128.Idx) (hi0 : (i 0).val = b * 5000 + (z 0).val) (hi1 : (i 1).val = (z 1).val) :
    k2_pay2 y mu inv g be w s z = scaleRows (mm (normRelu0 Y MU INV G BE) W) S i := by
  have hm := pay1_tile y mu inv g be w Y MU INV G BE W b hy hmu hinv hg hbe hw z i hi0 hi1
  obtain ⟨p, j, rfl⟩ : ∃ (p : Fin 5000) (j : Fin 128), z = ix2 p j := ⟨z 0, z 1, eq_ix2 z⟩
  obtain ⟨r, j', rfl⟩ : ∃ (r : Fin 100000) (j' : Fin 128), i = ix2 r j' := ⟨i 0, i 1, eq_ix2 i⟩
  have e0 : r.val = b * 5000 + p.val := hi0
  rw [pay2_apply, scaleRows_apply, hm, hs (ix2 p (0 : Fin 1)) (ix2 r (0 : Fin 1)) e0 rfl]

end Cert.KernelIdeal.Region2

end
-- ==== Proof.KRegion2Blocks.lean ====
/-
  The second product kernel's tiles, as pieces of its whole arrays.

  The kernel runs at 20 grid points.  At point t its input of features (window 0) and its per-row factors (window 6) are
  rows 5000 t … 5000 t + 4999 of their arrays; the four rows of the column normalisation (windows 1 to 4) and the weight
  matrix (window 5) are whole at every point; and its two outputs (windows 7 and 8) are written back to rows 5000 t …
  5000 t + 4999 of their arrays.  These relations are decided once over the grid from the kernel's index maps
  (idx_facts).  From them: an entry of an input's block is the entry of the input's array in the row the block's row
  is (iblk_0 … iblk_6); an index of an output array lies in point t's block exactly when its row lies in the block's
  range (mem_blk_7, mem_blk_8); and every row r lies in the block of the point r / 5000, so the 20 blocks cover each
  output array (cover_7, cover_8).
-/
import proofs.«140138_j37512244363809_2_alg».proof.Proof.Gen.KernelIdeal.Frame
import proofs.«140138_j37512244363809_2_alg».proof.Proof.LibMatOps
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen Cert.Spec

variable (V : (c : Dev nD) → (b : Ref sig .tc) → Buf (Elt Ideal) ((c : Thread nD τ).loc b))

/-- The arrays the kernel's inputs are read from, as the region finds them. -/
abbrev X0 (c : Dev nD) : Mat 100000 128 := V c (Pipeline.arrRef spec2 0)
abbrev X1 (c : Dev nD) : Mat 1 128 := V c (Pipeline.arrRef spec2 1)
abbrev X2 (c : Dev nD) : Mat 1 128 := V c (Pipeline.arrRef spec2 2)
abbrev X3 (c : Dev nD) : Mat 1 128 := V c (Pipeline.arrRef spec2 3)
abbrev X4 (c : Dev nD) : Mat 1 128 := V c (Pipeline.arrRef spec2 4)
abbrev X5 (c : Dev nD) : Mat 128 128 := V c (Pipeline.arrRef spec2 5)
abbrev X6 (c : Dev nD) : Mat 100000 1 := V c (Pipeline.arrRef spec2 6)

/-- The block indices at point t: a window cut into tiles of rows is at block (t, 0), a window that is its whole array
    at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The block of the features at point t holds rows 5000 t … of the whole array. -/
theorem iblk_0 (c : Dev nD) (t : Fin cfg2.N) (y : S5000x128.Idx) (i : S100000x128.Idx)
    (hi0 : (i 0).val = t.val * 5000 + (y 0).val) (hi1 : (i 1).val = (y 1).val) :
    (iblk2 V c 0 t : Vec Ideal S5000x128 .f32) y = X0 V c i := by
  obtain ⟨e0, e1, -⟩ := idx_facts t
  unfold iblk2
  rw [View.read_apply]
  show X0 V c (((cfg2.win 0).blk t).view.emb y) = X0 V c i
  refine congrArg (X0 V c) (funext fun a => Fin.ext ?_)
  match a with
  | ⟨0, _⟩ => show win2_0.index t (0 : Fin 2) * 5000 + 1 * (y 0).val = (i 0).val; rw [e0, hi0]; omega
  | ⟨1, _⟩ => show win2_0.index t (1 : Fin 2) * 128 + 1 * (y 1).val = (i 1).val; rw [e1, hi1]; omega

/-- The block of the column means at any point is the whole array. -/
theorem iblk_1 (c : Dev nD) (t : Fin cfg2.N) (y : S1x128.Idx) :
    (iblk2 V c 1 t : Vec Ideal S1x128 .f32) y = X1 V c y := by
  obtain ⟨-, -, e0, e1, -⟩ := idx_facts t
  unfold iblk2
  rw [View.read_apply]
  show X1 V c (((cfg2.win 1).blk t).view.emb y) = X1 V c y
  refine congrArg (X1 V c) (funext fun a => Fin.ext ?_)
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The block of the column scales at any point is the whole array. -/
theorem iblk_2 (c : Dev nD) (t : Fin cfg2.N) (y : S1x128.Idx) :
    (iblk2 V c 2 t : Vec Ideal S1x128 .f32) y = X2 V c y := by
  obtain ⟨-, -, -, -, e0, e1, -⟩ := idx_facts t
  unfold iblk2
  rw [View.read_apply]
  show X2 V c (((cfg2.win 2).blk t).view.emb y) = X2 V c y
  refine congrArg (X2 V c) (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The block of the column gains at any point is the whole array. -/
theorem iblk_3 (c : Dev nD) (t : Fin cfg2.N) (y : S1x128.Idx) :
    (iblk2 V c 3 t : Vec Ideal S1x128 .f32) y = X3 V c y := by
  obtain ⟨-, -, -, -, -, -, e0, e1, -⟩ := idx_facts t
  unfold iblk2
  rw [View.read_apply]
  show X3 V c (((cfg2.win 3).blk t).view.emb y) = X3 V c y
  refine congrArg (X3 V c) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The block of the column shifts at any point is the whole array. -/
theorem iblk_4 (c : Dev nD) (t : Fin cfg2.N) (y : S1x128.Idx) :
    (iblk2 V c 4 t : Vec Ideal S1x128 .f32) y = X4 V c y := by
  obtain ⟨-, -, -, -, -, -, -, -, e0, e1, -⟩ := idx_facts t
  unfold iblk2
  rw [View.read_apply]
  show X4 V c (((cfg2.win 4).blk t).view.emb y) = X4 V c y
  refine congrArg (X4 V c) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The block of the weight matrix at any point is the whole array. -/
theorem iblk_5 (c : Dev nD) (t : Fin cfg2.N) (y : S128x128.Idx) :
    (iblk2 V c 5 t : Vec Ideal S128x128 .f32) y = X5 V c y := by
  obtain ⟨-, -, -, -, -, -, -, -, -, -, e0, e1, -⟩ := idx_facts t
  unfold iblk2
  rw [View.read_apply]
  show X5 V c (((cfg2.win 5).blk t).view.emb y) = X5 V c y
  refine congrArg (X5 V c) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- The block of the per-row factors at point t holds rows 5000 t … of the whole array. -/
theorem iblk_6 (c : Dev nD) (t : Fin cfg2.N) (y : S5000x1.Idx) (i : S100000x1.Idx)
    (hi0 : (i 0).val = t.val * 5000 + (y 0).val) (hi1 : (i 1).val = (y 1).val) :
    (iblk2 V c 6 t : Vec Ideal S5000x1 .f32) y = X6 V c i := by
  obtain ⟨-, -, -, -, -, -, -, -, -, -, -, -, e0, e1, -⟩ := idx_facts t
  unfold iblk2
  rw [View.read_apply]
  show X6 V c (((cfg2.win 6).blk t).view.emb y) = X6 V c i
  refine congrArg (X6 V c) (funext fun a => Fin.ext ?_)
  match a with
  | ⟨0, _⟩ => show win2_6.index t (0 : Fin 2) * 5000 + 1 * (y 0).val = (i 0).val; rw [e0, hi0]; omega
  | ⟨1, _⟩ => show win2_6.index t (1 : Fin 2) * 1 + 1 * (y 1).val = (i 1).val; rw [e1, hi1]; omega

/-- An index of the array of the first output is in point t's block iff each coordinate is in the block's range on its axis. -/
theorem mem_blk_7 (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v45_0).slice (win2_7.rect t)).set ↔ _
  rw [View.set_slice_whole, Rect.mem_set_unit]
  exact Iff.rfl

/-- Row r of the array of the first output is written back by the point r / 5000. -/
theorem cover_7 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, -, -, -, -, e0, e1, -⟩ := idx_facts t
  refine ⟨t, flush2_7 t, ?_⟩
  rw [mem_blk_7]
  intro a
  match a with
  | ⟨0, _⟩ =>
    show win2_7.index t (0 : Fin 2) * 5000 ≤ (i 0).val ∧ (i 0).val < win2_7.index t (0 : Fin 2) * 5000 + 5000
    rw [e0, ht]; omega
  | ⟨1, _⟩ =>
    show win2_7.index t (1 : Fin 2) * 128 ≤ (i 1).val ∧ (i 1).val < win2_7.index t (1 : Fin 2) * 128 + 128
    rw [e1]; omega

/-- An index of the array of the second output is in point t's block iff each coordinate is in the block's range on its axis. -/
theorem mem_blk_8 (t : Fin cfg2.N) (i : S100000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v45_1).slice (win2_8.rect t)).set ↔ _
  rw [View.set_slice_whole, Rect.mem_set_unit]
  exact Iff.rfl

/-- Row r of the array of the second output is written back by the point r / 5000. -/
theorem cover_8 (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, -, -, -, -, -, -, e0, e1⟩ := idx_facts t
  refine ⟨t, flush2_8 t, ?_⟩
  rw [mem_blk_8]
  intro a
  match a with
  | ⟨0, _⟩ =>
    show win2_8.index t (0 : Fin 2) * 5000 ≤ (i 0).val ∧ (i 0).val < win2_8.index t (0 : Fin 2) * 5000 + 5000
    rw [e0, ht]; omega
  | ⟨1, _⟩ =>
    show win2_8.index t (1 : Fin 2) * 128 ≤ (i 1).val ∧ (i 1).val < win2_8.index t (1 : Fin 2) * 128 + 128
    rw [e1]; omega

end Cert.KernelIdeal.Region2

end
-- ==== Proof.KRegion2.lean ====
/-
  The second product kernel's two output arrays after its 20 grid points, as functions of its whole input arrays.

  With Y the previous layer's output, MU, INV, G, BE the four rows of the column normalisation, W the weight matrix and
  S the per-row factors as the kernel finds them, the first output array ends holding  N · W,  where N is Y with each
  column centred at MU, scaled by INV and by G, shifted by BE, and the positive part kept; the second ends holding the
  same product with row r scaled by S (r, 0).

  Point t writes back, into rows 5000 t … 5000 t + 4999 of each output array, what the body stored from the blocks at
  t.  The blocks of Y and S are the same rows of the whole arrays, the other inputs are whole, the normalisation uses the
  same four numbers of a column in every row, and the product and the scaling work row by row: so what point t writes
  back is exactly its block of N · W and of the scaled N · W (wrote_7, wrote_8).  The 20 blocks cover every row, so each
  array ends holding the whole function (h_eq, hs_eq).
-/
import proofs.«140138_j37512244363809_2_alg».proof.Proof.KRegion2Pay
import proofs.«140138_j37512244363809_2_alg».proof.Proof.KRegion2Blocks

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen Cert.Spec Cert.Gcn Cert.Tiles

variable (V : (c : Dev nD) → (b : Ref sig .tc) → Buf (Elt Ideal) ((c : Thread nD τ).loc b))

/-- What point t writes back into the first output's array is its block of the product. -/
theorem wrote_7 (c : Dev nD) (t : Fin cfg2.N) :
    (dat2 V c).flushed 7 t
      = ((cfg2.win 7).blk t).view.read (Elt Ideal) (mm (normRelu0 (X0 V c) (X1 V c) (X2 V c) (X3 V c) (X4 V c)) (X5 V c)) := by
  show (cfg2.win 7).cut (grid2.coords t) ((dat2 V c).after 7 t) = _
  rw [after2_7]
  unfold out2_7
  rw [View.canon_unit_zero zeros2]
  simp only [View.ld_unit_zero (S := S5000x128) zeros2, View.ld_unit_zero (S := S1x128) zeros2,
    View.ld_unit_zero (S := S128x128) zeros2]
  obtain ⟨-, -, -, -, -, -, -, -, -, -, -, -, -, -, e0, e1, -⟩ := idx_facts t
  funext y
  show k2_pay1 (iblk2 V c 0 t) (iblk2 V c 1 t) (iblk2 V c 2 t) (iblk2 V c 3 t) (iblk2 V c 4 t) (iblk2 V c 5 t) ((cfg2.win 7).xinj (grid2.coords t) y)
      = mm (normRelu0 (X0 V c) (X1 V c) (X2 V c) (X3 V c) (X4 V c)) (X5 V c) (((cfg2.win 7).blk t).view.emb y)
  refine pay1_tile (iblk2 V c 0 t) (iblk2 V c 1 t) (iblk2 V c 2 t) (iblk2 V c 3 t) (iblk2 V c 4 t) (iblk2 V c 5 t)
    (X0 V c) (X1 V c) (X2 V c) (X3 V c) (X4 V c) (X5 V c) t.val
    (iblk_0 V c t) (iblk_1 V c t) (iblk_2 V c t) (iblk_3 V c t) (iblk_4 V c t) (iblk_5 V c t)
    ((cfg2.win 7).xinj (grid2.coords t) y) (((cfg2.win 7).blk t).view.emb y) ?_ ?_
  · show win2_7.index t (0 : Fin 2) * 5000 + 1 * (y 0).val = t.val * 5000 + (y 0).val
    rw [e0]; omega
  · show win2_7.index t (1 : Fin 2) * 128 + 1 * (y 1).val = (y 1).val
    rw [e1]; omega

/-- What point t writes back into the second output's array is its block of the scaled product. -/
theorem wrote_8 (c : Dev nD) (t : Fin cfg2.N) :
    (dat2 V c).flushed 8 t
      = ((cfg2.win 8).blk t).view.read (Elt Ideal) (scaleRows (mm (normRelu0 (X0 V c) (X1 V c) (X2 V c) (X3 V c) (X4 V c)) (X5 V c)) (X6 V c)) := by
  show (cfg2.win 8).cut (grid2.coords t) ((dat2 V c).after 8 t) = _
  rw [after2_8]
  unfold out2_8
  rw [View.canon_unit_zero zeros2]
  simp only [View.ld_unit_zero (S := S5000x128) zeros2, View.ld_unit_zero (S := S1x128) zeros2,
    View.ld_unit_zero (S := S128x128) zeros2,
    View.ld_unit_zero (S := S5000x1) zeros2]
  obtain ⟨-, -, -, -, -, -, -, -, -, -, -, -, -, -, -, -, e0, e1⟩ := idx_facts t
  funext y
  show k2_pay2 (iblk2 V c 0 t) (iblk2 V c 1 t) (iblk2 V c 2 t) (iblk2 V c 3 t) (iblk2 V c 4 t) (iblk2 V c 5 t) (iblk2 V c 6 t) ((cfg2.win 8).xinj (grid2.coords t) y)
      = scaleRows (mm (normRelu0 (X0 V c) (X1 V c) (X2 V c) (X3 V c) (X4 V c)) (X5 V c)) (X6 V c) (((cfg2.win 8).blk t).view.emb y)
  refine pay2_tile (iblk2 V c 0 t) (iblk2 V c 1 t) (iblk2 V c 2 t) (iblk2 V c 3 t) (iblk2 V c 4 t) (iblk2 V c 5 t) (iblk2 V c 6 t)
    (X0 V c) (X1 V c) (X2 V c) (X3 V c) (X4 V c) (X5 V c) (X6 V c) t.val
    (iblk_0 V c t) (iblk_1 V c t) (iblk_2 V c t) (iblk_3 V c t) (iblk_4 V c t) (iblk_5 V c t) (iblk_6 V c t)
    ((cfg2.win 8).xinj (grid2.coords t) y) (((cfg2.win 8).blk t).view.emb y) ?_ ?_
  · show win2_8.index t (0 : Fin 2) * 5000 + 1 * (y 0).val = t.val * 5000 + (y 0).val
    rw [e0]; omega
  · show win2_8.index t (1 : Fin 2) * 128 + 1 * (y 1).val = (y 1).val
    rw [e1]; omega

/-- The first output's array after the region: the normalised positive part of the features times the weights. -/
theorem h_eq (c : Dev nD) :
    (dat2 V c).arrAt 7 cfg2.N
      = mm (normRelu0 (V c (Pipeline.arrRef spec2 0) : Mat 100000 128) (V c (Pipeline.arrRef spec2 1) : Mat 1 128)
            (V c (Pipeline.arrRef spec2 2) : Mat 1 128) (V c (Pipeline.arrRef spec2 3) : Mat 1 128)
            (V c (Pipeline.arrRef spec2 4) : Mat 1 128))
          (V c (Pipeline.arrRef spec2 5) : Mat 128 128) :=
  (dat2 V c).arrAt_eq_of_cover 7 (mm (normRelu0 (X0 V c) (X1 V c) (X2 V c) (X3 V c) (X4 V c)) (X5 V c)) (fun t _ => wrote_7 V c t) cover_7

/-- The second output's array after the region: the same product with each row scaled by the row's factor. -/
theorem hs_eq (c : Dev nD) :
    (dat2 V c).arrAt 8 cfg2.N
      = scaleRows
          (mm (normRelu0 (V c (Pipeline.arrRef spec2 0) : Mat 100000 128) (V c (Pipeline.arrRef spec2 1) : Mat 1 128)
            (V c (Pipeline.arrRef spec2 2) : Mat 1 128) (V c (Pipeline.arrRef spec2 3) : Mat 1 128)
            (V c (Pipeline.arrRef spec2 4) : Mat 1 128))
            (V c (Pipeline.arrRef spec2 5) : Mat 128 128))
          (V c (Pipeline.arrRef spec2 6) : Mat 100000 1) :=
  (dat2 V c).arrAt_eq_of_cover 8 (scaleRows (mm (normRelu0 (X0 V c) (X1 V c) (X2 V c) (X3 V c) (X4 V c)) (X5 V c)) (X6 V c)) (fun t _ => wrote_8 V c t) cover_8

end Cert.KernelIdeal.Region2

end
-- ==== Proof.KRegion3Pieces.lean ====
import proofs.«140138_j37512244363809_2_alg».proof.Proof.Gen.KernelIdeal.Frame
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Region3

open Cert.KernelIdeal Cert.KernelIdeal.Gen

variable {F : FTy → Type} [FloatOps F]

/-! What each control case of the combine kernel leaves in its three output buffers, as the body's arithmetic applied
    to the blocks it loaded.  Window 0 is h, 1 is agg, 2 is dis, 3 is di, 4 is b; the body reads agg and dis first. -/

theorem hz : (![0, 0] : Fin 2 → Nat) = fun _ => 0 := funext fun a => by fin_cases a <;> rfl

/-- At the first grid point the y block is the combine arithmetic of the loaded blocks. -/
theorem out_A_5 (c : Dev nD) (i : grid3.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond3_0 i) (x0 x1 : Vec F S5000x128 .f32) (x2 x3 : Vec F S5000x1 .f32) (x4 : Vec F S1x128 .f32) :
    out3_A_5 c i a1 h1 a2 h2 a3 h3 a4 h4 a5 h5 a6 h6 a7 h7 a8 h8 hc x0 x1 x2 x3 x4 = k3_pay3 x1 x2 x0 x3 x4 := by
  unfold out3_A_5
  rw [View.read_writes_eq_canon _ _ _ (cover3_A_5 c i a1 h1 a2 h2 a3 h3 a4 h4 a5 h5 a6 h6 a7 h7 a8 h8 hc x0 x1 x2 x3 x4)]
  unfold kernelRun3_A
  dsimp only
  sl_unfold_words
  rw [View.canon_unit_zero (S := S5000x128) hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz]

/-- At every later grid point too. -/
theorem out_B_5 (c : Dev nD) (i : grid3.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond3_0 i) (x0 x1 : Vec F S5000x128 .f32) (x2 x3 : Vec F S5000x1 .f32) (x4 : Vec F S1x128 .f32)
    (xo6 xo7 : Vec F S1x128 .f32) :
    out3_B_5 c i a1 h1 a2 h2 a3 h3 a4 h4 a5 h5 a6 h6 a7 h7 a8 h8 hc x0 x1 x2 x3 x4 xo6 xo7 = k3_pay3 x1 x2 x0 x3 x4 := by
  unfold out3_B_5
  rw [View.read_writes_eq_canon _ _ _ (cover3_B_5 c i a1 h1 a2 h2 a3 h3 a4 h4 a5 h5 a6 h6 a7 h7 a8 h8 hc x0 x1 x2 x3 x4 xo6 xo7)]
  unfold kernelRun3_B
  dsimp only
  sl_unfold_words
  rw [View.canon_unit_zero (S := S5000x128) hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz]

/-- At the first grid point the column-sum row is zeroed, read back, and the block's column sums added to it. -/
theorem out_A_6 (c : Dev nD) (i : grid3.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond3_0 i) (x0 x1 : Vec F S5000x128 .f32) (x2 x3 : Vec F S5000x1 .f32) (x4 : Vec F S1x128 .f32) :
    out3_A_6 c i a1 h1 a2 h2 a3 h3 a4 h4 a5 h5 a6 h6 a7 h7 a8 h8 hc x0 x1 x2 x3 x4 = k3_pay4 x1 x2 x0 x3 x4 (k3_pay1 (F := F)) := by
  unfold out3_A_6
  rw [View.read_writes_eq_canon _ _ _ (cover3_A_6 c i a1 h1 a2 h2 a3 h3 a4 h4 a5 h5 a6 h6 a7 h7 a8 h8 hc x0 x1 x2 x3 x4)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz]

/-- At a later grid point the block's column sums are added to what the row held. -/
theorem out_B_6 (c : Dev nD) (i : grid3.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond3_0 i) (x0 x1 : Vec F S5000x128 .f32) (x2 x3 : Vec F S5000x1 .f32) (x4 : Vec F S1x128 .f32)
    (xo6 xo7 : Vec F S1x128 .f32) :
    out3_B_6 c i a1 h1 a2 h2 a3 h3 a4 h4 a5 h5 a6 h6 a7 h7 a8 h8 hc x0 x1 x2 x3 x4 xo6 xo7 = k3_pay4 x1 x2 x0 x3 x4 xo6 := by
  unfold out3_B_6
  rw [View.read_writes_eq_canon _ _ _ (cover3_B_6 c i a1 h1 a2 h2 a3 h3 a4 h4 a5 h5 a6 h6 a7 h7 a8 h8 hc x0 x1 x2 x3 x4 xo6 xo7)]
  unfold kernelRun3_B
  dsimp only
  sl_unfold_words
  rw [View.canon_unit_zero (S := S1x128) hz]
  simp only [View.readAt_eq_ld, h1.read_unread, h2.read_unread, h3.read_unread, h4.read_unread, h5.read_unread,
    h7.read_unread, View.ld_unit_zero (S := S5000x128) hz, View.ld_unit_zero (S := S5000x1) hz,
    View.ld_unit_zero (S := S1x128) hz]

/-- The same for the row of column sums of squares: zeroed and added to at the first point, -/
theorem out_A_7 (c : Dev nD) (i : grid3.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond3_0 i) (x0 x1 : Vec F S5000x128 .f32) (x2 x3 : Vec F S5000x1 .f32) (x4 : Vec F S1x128 .f32) :
    out3_A_7 c i a1 h1 a2 h2 a3 h3 a4 h4 a5 h5 a6 h6 a7 h7 a8 h8 hc x0 x1 x2 x3 x4 = k3_pay5 x1 x2 x0 x3 x4 (k3_pay2 (F := F)) := by
  unfold out3_A_7
  rw [View.read_writes_eq_canon _ _ _ (cover3_A_7 c i a1 h1 a2 h2 a3 h3 a4 h4 a5 h5 a6 h6 a7 h7 a8 h8 hc x0 x1 x2 x3 x4)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz]

/-- and added to at a later point. -/
theorem out_B_7 (c : Dev nD) (i : grid3.Coords) (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond3_0 i) (x0 x1 : Vec F S5000x128 .f32) (x2 x3 : Vec F S5000x1 .f32) (x4 : Vec F S1x128 .f32)
    (xo6 xo7 : Vec F S1x128 .f32) :
    out3_B_7 c i a1 h1 a2 h2 a3 h3 a4 h4 a5 h5 a6 h6 a7 h7 a8 h8 hc x0 x1 x2 x3 x4 xo6 xo7 = k3_pay5 x1 x2 x0 x3 x4 xo7 := by
  unfold out3_B_7
  rw [View.read_writes_eq_canon _ _ _ (cover3_B_7 c i a1 h1 a2 h2 a3 h3 a4 h4 a5 h5 a6 h6 a7 h7 a8 h8 hc x0 x1 x2 x3 x4 xo6 xo7)]
  unfold kernelRun3_B
  dsimp only
  sl_unfold_words
  rw [View.canon_unit_zero (S := S1x128) hz]
  simp only [View.readAt_eq_ld, h1.read_unread, h2.read_unread, h3.read_unread, h4.read_unread, h5.read_unread,
    h8.read_unread, View.ld_unit_zero (S := S5000x128) hz, View.ld_unit_zero (S := S5000x1) hz,
    View.ld_unit_zero (S := S1x128) hz]

end Cert.KernelIdeal.Region3

end
-- ==== Proof.KRegion3Outs.lean ====
import proofs.«140138_j37512244363809_2_alg».proof.Proof.KRegion3Pieces

noncomputable section

open scoped BigOperators
open Idealize.ShloMosaic Idealize.ShloMosaic.TcCoe Idealize.SL.Sem
open Idealize.ShloMosaic.Pipeline (Dat)

namespace Cert.KernelIdeal.Region3

open Cert.KernelIdeal Cert.KernelIdeal.Gen

variable {F : FTy → Type} [FloatOps F]
variable (V : (c : Dev nD) → (b : Ref sig .tc) → Buf (Elt F) ((c : Thread nD τ).loc b))

/-! What the three output buffers hold after each grid point, as the body's arithmetic of that point's input blocks
    and — for the two accumulator rows — of what the point before left. -/

/-- The first point: y from the blocks, the two rows from the zero rows. -/
theorem outs_first (c : Dev nD) (t : Fin cfg3.N) (h0 : t.val % 20 = 0) :
    outsAt3 V c t.val t.isLt
      = (k3_pay3 (iblk3 V c 1 t) (iblk3 V c 2 t) (iblk3 V c 0 t) (iblk3 V c 3 t) (iblk3 V c 4 t),
         k3_pay4 (iblk3 V c 1 t) (iblk3 V c 2 t) (iblk3 V c 0 t) (iblk3 V c 3 t) (iblk3 V c 4 t) (k3_pay1 (F := F)),
         k3_pay5 (iblk3 V c 1 t) (iblk3 V c 2 t) (iblk3 V c 0 t) (iblk3 V c 3 t) (iblk3 V c 4 t) (k3_pay2 (F := F))) :=
  (outsAt3_A V c t h0).trans (congrArg₂ Prod.mk
    (out_A_5 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t))
    (congrArg₂ Prod.mk
      (out_A_6 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t))
      (out_A_7 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t))))

/-- A later point: y from the blocks, the two rows from what the point before left in them. -/
theorem outs_later (c : Dev nD) (t : Fin cfg3.N) (h0 : ¬t.val % 20 = 0) :
    outsAt3 V c t.val t.isLt
      = (k3_pay3 (iblk3 V c 1 t) (iblk3 V c 2 t) (iblk3 V c 0 t) (iblk3 V c 3 t) (iblk3 V c 4 t),
         k3_pay4 (iblk3 V c 1 t) (iblk3 V c 2 t) (iblk3 V c 0 t) (iblk3 V c 3 t) (iblk3 V c 4 t)
           (outsAt3 V c (t.val - 1) (Nat.lt_of_le_of_lt (Nat.sub_le _ _) t.isLt)).2.1,
         k3_pay5 (iblk3 V c 1 t) (iblk3 V c 2 t) (iblk3 V c 0 t) (iblk3 V c 3 t) (iblk3 V c 4 t)
           (outsAt3 V c (t.val - 1) (Nat.lt_of_le_of_lt (Nat.sub_le _ _) t.isLt)).2.2) :=
  (outsAt3_B V c t h0).trans (congrArg₂ Prod.mk
    (out_B_5 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t)
      (outsAt3 V c (t.val - 1) (Nat.lt_of_le_of_lt (Nat.sub_le _ _) t.isLt)).2.1
      (outsAt3 V c (t.val - 1) (Nat.lt_of_le_of_lt (Nat.sub_le _ _) t.isLt)).2.2)
    (congrArg₂ Prod.mk
      (out_B_6 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t)
        (outsAt3 V c (t.val - 1) (Nat.lt_of_le_of_lt (Nat.sub_le _ _) t.isLt)).2.1
        (outsAt3 V c (t.val - 1) (Nat.lt_of_le_of_lt (Nat.sub_le _ _) t.isLt)).2.2)
      (out_B_7 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t)
        (outsAt3 V c (t.val - 1) (Nat.lt_of_le_of_lt (Nat.sub_le _ _) t.isLt)).2.1
        (outsAt3 V c (t.val - 1) (Nat.lt_of_le_of_lt (Nat.sub_le _ _) t.isLt)).2.2)))

/-- At every point the y buffer holds the combine arithmetic of the point's blocks. -/
theorem y_after (c : Dev nD) (t : Fin cfg3.N) :
    (outsAt3 V c t.val t.isLt).1 = k3_pay3 (iblk3 V c 1 t) (iblk3 V c 2 t) (iblk3 V c 0 t) (iblk3 V c 3 t) (iblk3 V c 4 t) := by
  by_cases h0 : t.val % 20 = 0
  · exact congrArg Prod.fst (outs_first V c t h0)
  · exact congrArg Prod.fst (outs_later V c t h0)

end Cert.KernelIdeal.Region3

end
-- ==== Proof.KRegion3Pay.lean ====
import proofs.«140138_j37512244363809_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Region3

open Cert.KernelIdeal Cert.KernelIdeal.Gen

/-! The combine kernel's arithmetic over the extended reals, read at an entry.  With A, s, H, d the loaded blocks of
    agg, dis, h, di (5000 rows each) and B the bias row, the y block at (p, j) is A (p, j) · s p + H (p, j) · d p + B j;
    the column-sum row at j becomes what it held plus the sum over the block's 5000 rows of y (p, j), and the row of
    sums of squares what it held plus the sum of y (p, j) · y (p, j). -/

/-- One column repeated across the columns: a [5000, 1] array broadcast to [5000, 128] reads, at (p, j), the column at p. -/
theorem bcast_col_apply {α : Type} (v : S5000x1.Idx → α) (h : S5000x1.Broadcasts S5000x128) (p : Fin 5000) (j : Fin 128) :
    broadcastTo S5000x128 v h (ix2 p j) = v (ix2 p (0 : Fin 1)) := by
  refine broadcastTo_apply v h (ix2 p j) (ix2 p (0 : Fin 1)) fun ax => ?_
  match ax with
  | ⟨0, _⟩ => rfl
  | ⟨1, _⟩ => rfl

/-- The y block at an entry. -/
theorem pay3_apply (A : Vec Ideal S5000x128 .f32) (s : Vec Ideal S5000x1 .f32) (H : Vec Ideal S5000x128 .f32)
    (d : Vec Ideal S5000x1 .f32) (B : Vec Ideal S1x128 .f32) (p : Fin 5000) (j : Fin 128) :
    k3_pay3 (F := Ideal) A s H d B (ix2 p j)
      = A (ix2 p j) * s (ix2 p (0 : Fin 1)) + H (ix2 p j) * d (ix2 p (0 : Fin 1)) + B (ix2 (0 : Fin 1) j) := by
  unfold k3_pay3
  simp only [addf_apply, mulf_apply, shapeCast_self, bcast_col_apply, broadcastTo_1b_ab_apply]

/-- The sum down the 5000 rows of a block, as the kernel's reduction over axis 0 computes it, at column j. -/
theorem colsum_apply (src : FVec Ideal S5000x128 .f32) (h : S5000x128.Reduces [0] S128) (hφ : FKind.Formats .f32)
    (hacc : (0x00000000#32 : BitVec 32) = FKind.add.neutral .f32 hφ) (j : Fin 128) :
    multiReduction .add [0] S128 src 0x00000000#32 h hφ hacc (ix1 j) = ∑ p : Fin 5000, src (ix2 p j) := by
  refine (Ideal.multiReduction_add_single src 0x00000000#32 h hφ hacc (ix1 j)).trans ?_
  refine Finset.sum_congr rfl fun k _ => congrArg src (funext fun a => Fin.ext ?_)
  rw [h.lift_val]
  match a with
  | ⟨0, _⟩ => rfl
  | ⟨1, _⟩ => rfl

/-- The column-sum row after the body, from what it held (acc). -/
theorem pay4_apply (A : Vec Ideal S5000x128 .f32) (s : Vec Ideal S5000x1 .f32) (H : Vec Ideal S5000x128 .f32)
    (d : Vec Ideal S5000x1 .f32) (B : Vec Ideal S1x128 .f32) (acc : Vec Ideal S1x128 .f32) (j : Fin 128) :
    k3_pay4 (F := Ideal) A s H d B acc (ix2 (0 : Fin 1) j)
      = acc (ix2 (0 : Fin 1) j) + ∑ p : Fin 5000, k3_pay3 (F := Ideal) A s H d B (ix2 p j) := by
  unfold k3_pay4
  simp only [addf_apply, shapeCast_self]
  refine congrArg (acc (ix2 (0 : Fin 1) j) + ·) ?_
  refine (shapeCast_a_1a_apply _ _ (0 : Fin 1) j).trans ?_
  exact colsum_apply _ _ _ _ j

/-- The row of column sums of squares after the body, from what it held (acc). -/
theorem pay5_apply (A : Vec Ideal S5000x128 .f32) (s : Vec Ideal S5000x1 .f32) (H : Vec Ideal S5000x128 .f32)
    (d : Vec Ideal S5000x1 .f32) (B : Vec Ideal S1x128 .f32) (acc : Vec Ideal S1x128 .f32) (j : Fin 128) :
    k3_pay5 (F := Ideal) A s H d B acc (ix2 (0 : Fin 1) j)
      = acc (ix2 (0 : Fin 1) j)
        + ∑ p : Fin 5000, k3_pay3 (F := Ideal) A s H d B (ix2 p j) * k3_pay3 (F := Ideal) A s H d B (ix2 p j) := by
  unfold k3_pay5
  simp only [addf_apply, shapeCast_self]
  refine congrArg (acc (ix2 (0 : Fin 1) j) + ·) ?_
  refine (shapeCast_a_1a_apply _ _ (0 : Fin 1) j).trans ?_
  exact (colsum_apply _ _ _ _ j).trans (Finset.sum_congr rfl fun p _ => mulf_apply _ _ _)

/-- The two rows the first grid point stores before it adds: zero at every column. -/
theorem pay1_apply (j : Fin 128) : k3_pay1 (F := Ideal) (ix2 (0 : Fin 1) j) = 0 := Ideal.ofBits_zero_f32

theorem pay2_apply (j : Fin 128) : k3_pay2 (F := Ideal) (ix2 (0 : Fin 1) j) = 0 := Ideal.ofBits_zero_f32

end Cert.KernelIdeal.Region3

end
-- ==== Proof.KRegion3Blocks.lean ====
import proofs.«140138_j37512244363809_2_alg».proof.Proof.Gen.KernelIdeal.Frame
import Idealize.ShloMosaic.Lib.ValueIdx
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.Region3

open Cert.KernelIdeal Cert.KernelIdeal.Gen Idealize.ShloMosaic.ValueIdx

variable {F : FTy → Type} [FloatOps F]
variable (V : (c : Dev nD) → (b : Ref sig .tc) → Buf (Elt F) ((c : Thread nD τ).loc b))

/-! Where the blocks of the combine kernel sit in their arrays.  The grid has 20 points; at point t the row-blocked
    windows (h, agg, dis, di and the output y) hold rows 5000·t … 5000·t + 4999 of their arrays, and the bias row and the
    two accumulator rows are their whole one-row arrays at every point. -/

/-- The printed block-index maps, decided once over the grid. -/
theorem idx_facts : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = t.val ∧ win3_2.index t (1 : Fin 2) = 0
  ∧ win3_3.index t (0 : Fin 2) = t.val ∧ win3_3.index t (1 : Fin 2) = 0
  ∧ win3_4.index t (0 : Fin 2) = 0 ∧ win3_4.index t (1 : Fin 2) = 0
  ∧ win3_5.index t (0 : Fin 2) = t.val ∧ win3_5.index t (1 : Fin 2) = 0
  ∧ win3_6.index t (0 : Fin 2) = 0 ∧ win3_6.index t (1 : Fin 2) = 0
  ∧ win3_7.index t (0 : Fin 2) = 0 ∧ win3_7.index t (1 : Fin 2) = 0 :=
  (by decide +kernel : ∀ t : Fin grid3.N, _)

theorem N_eq : cfg3.N = 20 := N_3

/-- Row p of the h block at point t is row 5000·t + p of the h array. -/
theorem blk0_apply (c : Dev nD) (t : Fin cfg3.N) (p : Fin 5000) (j : Fin 128) (r : Fin 100000)
    (hr : r.val = 5000 * t.val + p.val) :
    (iblk3 V c 0 t : Vec F S5000x128 .f32) (ix2 p j)
      = (V c (Pipeline.arrRef spec3 0) : S100000x128.Idx → Elt F .f32) (ix2 r j) := by
  obtain ⟨e0, e1, -⟩ := idx_facts t
  unfold iblk3
  rw [View.read_apply]
  show (V c (Pipeline.arrRef spec3 0) : S100000x128.Idx → Elt F .f32) (((cfg3.win 0).blk t).view.emb (ix2 p j)) = _
  refine congrArg (V c (Pipeline.arrRef spec3 0) : S100000x128.Idx → Elt F .f32) (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * j.val = j.val; rw [e1]; omega

/-- The same for the agg block. -/
theorem blk1_apply (c : Dev nD) (t : Fin cfg3.N) (p : Fin 5000) (j : Fin 128) (r : Fin 100000)
    (hr : r.val = 5000 * t.val + p.val) :
    (iblk3 V c 1 t : Vec F S5000x128 .f32) (ix2 p j)
      = (V c (Pipeline.arrRef spec3 1) : S100000x128.Idx → Elt F .f32) (ix2 r j) := by
  obtain ⟨-, -, e0, e1, -⟩ := idx_facts t
  unfold iblk3
  rw [View.read_apply]
  show (V c (Pipeline.arrRef spec3 1) : S100000x128.Idx → Elt F .f32) (((cfg3.win 1).blk t).view.emb (ix2 p j)) = _
  refine congrArg (V c (Pipeline.arrRef spec3 1) : S100000x128.Idx → Elt F .f32) (funext fun a => Fin.ext ?_)
  match a with
  | ⟨0, _⟩ => show win3_1.index t (0 : Fin 2) * 5000 + 1 * p.val = r.val; rw [e0, hr]; omega
  | ⟨1, _⟩ => show win3_1.index t (1 : Fin 2) * 128 + 1 * j.val = j.val; rw [e1]; omega

/-- Entry p of the dis block at point t is entry 5000·t + p of the dis column. -/
theorem blk2_apply (c : Dev nD) (t : Fin cfg3.N) (p : Fin 5000) (r : Fin 100000)
    (hr : r.val = 5000 * t.val + p.val) :
    (iblk3 V c 2 t : Vec F S5000x1 .f32) (ix2 p (0 : Fin 1))
      = (V c (Pipeline.arrRef spec3 2) : S100000x1.Idx → Elt F .f32) (ix2 r (0 : Fin 1)) := by
  obtain ⟨-, -, -, -, e0, e1, -⟩ := idx_facts t
  unfold iblk3
  rw [View.read_apply]
  show (V c (Pipeline.arrRef spec3 2) : S100000x1.Idx → Elt F .f32) (((cfg3.win 2).blk t).view.emb (ix2 p (0 : Fin 1))) = _
  refine congrArg (V c (Pipeline.arrRef spec3 2) : S100000x1.Idx → Elt F .f32) (funext fun a => Fin.ext ?_)
  match a with
  | ⟨0, _⟩ => show win3_2.index t (0 : Fin 2) * 5000 + 1 * p.val = r.val; rw [e0, hr]; omega
  | ⟨1, _⟩ => show win3_2.index t (1 : Fin 2) * 1 + 1 * 0 = 0; rw [e1]

/-- The same for the di block. -/
theorem blk3_apply (c : Dev nD) (t : Fin cfg3.N) (p : Fin 5000) (r : Fin 100000)
    (hr : r.val = 5000 * t.val + p.val) :
    (iblk3 V c 3 t : Vec F S5000x1 .f32) (ix2 p (0 : Fin 1))
      = (V c (Pipeline.arrRef spec3 3) : S100000x1.Idx → Elt F .f32) (ix2 r (0 : Fin 1)) := by
  obtain ⟨-, -, -, -, -, -, e0, e1, -⟩ := idx_facts t
  unfold iblk3
  rw [View.read_apply]
  show (V c (Pipeline.arrRef spec3 3) : S100000x1.Idx → Elt F .f32) (((cfg3.win 3).blk t).view.emb (ix2 p (0 : Fin 1))) = _
  refine congrArg (V c (Pipeline.arrRef spec3 3) : S100000x1.Idx → Elt F .f32) (funext fun a => Fin.ext ?_)
  match a with
  | ⟨0, _⟩ => show win3_3.index t (0 : Fin 2) * 5000 + 1 * p.val = r.val; rw [e0, hr]; omega
  | ⟨1, _⟩ => show win3_3.index t (1 : Fin 2) * 1 + 1 * 0 = 0; rw [e1]

/-- The bias block is the bias row at every point. -/
theorem blk4_apply (c : Dev nD) (t : Fin cfg3.N) (j : Fin 128) :
    (iblk3 V c 4 t : Vec F S1x128 .f32) (ix2 (0 : Fin 1) j)
      = (V c (Pipeline.arrRef spec3 4) : S1x128.Idx → Elt F .f32) (ix2 (0 : Fin 1) j) := by
  obtain ⟨-, -, -, -, -, -, -, -, e0, e1, -⟩ := idx_facts t
  unfold iblk3
  rw [View.read_apply]
  show (V c (Pipeline.arrRef spec3 4) : S1x128.Idx → Elt F .f32) (((cfg3.win 4).blk t).view.emb (ix2 (0 : Fin 1) j)) = _
  refine congrArg (V c (Pipeline.arrRef spec3 4) : S1x128.Idx → Elt F .f32) (funext fun a => Fin.ext ?_)
  match a with
  | ⟨0, _⟩ => show win3_4.index t (0 : Fin 2) * 1 + 1 * 0 = 0; rw [e0]
  | ⟨1, _⟩ => show win3_4.index t (1 : Fin 2) * 128 + 1 * j.val = j.val; rw [e1]; omega

/-- Row p of the y block at point t sits at row 5000·t + p of the y array. -/
theorem emb5 (t : Fin cfg3.N) (p : Fin 5000) (j : Fin 128) (r : Fin 100000) (hr : r.val = 5000 * t.val + p.val) :
    (((cfg3.win 5).blk t).view.emb (ix2 p j) : S100000x128.Idx) = ix2 r j := by
  obtain ⟨-, -, -, -, -, -, -, -, -, -, e0, e1, -⟩ := idx_facts t
  refine funext fun a => Fin.ext ?_
  match a with
  | ⟨0, _⟩ => show win3_5.index t (0 : Fin 2) * 5000 + 1 * p.val = r.val; rw [e0, hr]; omega
  | ⟨1, _⟩ => show win3_5.index t (1 : Fin 2) * 128 + 1 * j.val = j.val; rw [e1]; omega

/-- The accumulator rows' blocks are their arrays. -/
theorem emb6 (t : Fin cfg3.N) (j : Fin 128) :
    (((cfg3.win 6).blk t).view.emb (ix2 (0 : Fin 1) j) : S1x128.Idx) = ix2 (0 : Fin 1) j := by
  obtain ⟨-, -, -, -, -, -, -, -, -, -, -, -, e0, e1, -⟩ := idx_facts t
  refine funext fun a => Fin.ext ?_
  match a with
  | ⟨0, _⟩ => show win3_6.index t (0 : Fin 2) * 1 + 1 * 0 = 0; rw [e0]
  | ⟨1, _⟩ => show win3_6.index t (1 : Fin 2) * 128 + 1 * j.val = j.val; rw [e1]; omega

theorem emb7 (t : Fin cfg3.N) (j : Fin 128) :
    (((cfg3.win 7).blk t).view.emb (ix2 (0 : Fin 1) j) : S1x128.Idx) = ix2 (0 : Fin 1) j := by
  obtain ⟨-, -, -, -, -, -, -, -, -, -, -, -, -, -, e0, e1⟩ := idx_facts t
  refine funext fun a => Fin.ext ?_
  match a with
  | ⟨0, _⟩ => show win3_7.index t (0 : Fin 2) * 1 + 1 * 0 = 0; rw [e0]
  | ⟨1, _⟩ => show win3_7.index t (1 : Fin 2) * 128 + 1 * j.val = j.val; rw [e1]; omega

/-- A one-row block read through an accumulator row's window is the row itself: contents X of the staging buffer, cut to
    what a write-back moves, are the block of any array Y that agrees with X entry by entry. -/
theorem flush_row6 (t : Fin cfg3.N) (X : Vec F S1x128 .f32) (Y : S1x128.Idx → Elt F .f32)
    (h : ∀ j : Fin 128, X (ix2 (0 : Fin 1) j) = Y (ix2 (0 : Fin 1) j)) :
    (cfg3.win 6).cut (grid3.coords t) X = ((cfg3.win 6).blk t).view.read (Elt F) Y := by
  funext y
  obtain ⟨z, j, rfl⟩ : ∃ (z : Fin 1) (j : Fin 128), y = ix2 z j := ⟨y 0, y 1, eq_ix2 y⟩
  obtain rfl : z = 0 := Subsingleton.elim _ _
  rw [View.read_apply]
  show X (ix2 (0 : Fin 1) j) = Y (((cfg3.win 6).blk t).view.emb (ix2 (0 : Fin 1) j))
  rw [emb6 t j]
  exact h j

theorem flush_row7 (t : Fin cfg3.N) (X : Vec F S1x128 .f32) (Y : S1x128.Idx → Elt F .f32)
    (h : ∀ j : Fin 128, X (ix2 (0 : Fin 1) j) = Y (ix2 (0 : Fin 1) j)) :
    (cfg3.win 7).cut (grid3.coords t) X = ((cfg3.win 7).blk t).view.read (Elt F) Y := by
  funext y
  obtain ⟨z, j, rfl⟩ : ∃ (z : Fin 1) (j : Fin 128), y = ix2 z j := ⟨y 0, y 1, eq_ix2 y⟩
  obtain rfl : z = 0 := Subsingleton.elim _ _
  rw [View.read_apply]
  show X (ix2 (0 : Fin 1) j) = Y (((cfg3.win 7).blk t).view.emb (ix2 (0 : Fin 1) j))
  rw [emb7 t j]
  exact h j

/-- An entry of the y array is in point t's block iff its coordinates are in the block's ranges. -/
theorem mem_blk5 (t : Fin cfg3.N) (i : S100000x128.Idx) :
    i ∈ ((cfg3.win 5).blk t).view.set
      ↔ ∀ a : Fin 2, win3_5.index t a * S5000x128.size a ≤ (i a).val
          ∧ (i a).val < win3_5.index t a * S5000x128.size a + S5000x128.size a := by
  show i ∈ ((View.whole main_v57_0).slice (win3_5.rect t)).set ↔ _
  rw [View.set_slice_whole, Rect.mem_set_unit]
  exact Iff.rfl

theorem mem_blk6 (t : Fin cfg3.N) (i : S1x128.Idx) :
    i ∈ ((cfg3.win 6).blk t).view.set
      ↔ ∀ a : Fin 2, win3_6.index t a * S1x128.size a ≤ (i a).val
          ∧ (i a).val < win3_6.index t a * S1x128.size a + S1x128.size a := by
  show i ∈ ((View.whole main_v57_1).slice (win3_6.rect t)).set ↔ _
  rw [View.set_slice_whole, Rect.mem_set_unit]
  exact Iff.rfl

theorem mem_blk7 (t : Fin cfg3.N) (i : S1x128.Idx) :
    i ∈ ((cfg3.win 7).blk t).view.set
      ↔ ∀ a : Fin 2, win3_7.index t a * S1x128.size a ≤ (i a).val
          ∧ (i a).val < win3_7.index t a * S1x128.size a + S1x128.size a := by
  show i ∈ ((View.whole main_v57_2).slice (win3_7.rect t)).set ↔ _
  rw [View.set_slice_whole, Rect.mem_set_unit]
  exact Iff.rfl

/-- Every row of the y array is in the block of the point its row number divided by 5000 names, and that point writes
    its block back. -/
theorem cover5 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  refine ⟨⟨(i 0).val / 5000, lt_of_lt_of_eq (by omega) N_eq.symm⟩, flush3_5 _, ?_⟩
  rw [mem_blk5]
  obtain ⟨-, -, -, -, -, -, -, -, -, -, e0, e1, -⟩ :=
    idx_facts ⟨(i 0).val / 5000, lt_of_lt_of_eq (by omega) N_eq.symm⟩
  intro a
  match a with
  | ⟨0, _⟩ =>
    show win3_5.index _ (0 : Fin 2) * 5000 ≤ (i 0).val ∧ (i 0).val < win3_5.index _ (0 : Fin 2) * 5000 + 5000
    rw [e0]; dsimp only; omega
  | ⟨1, _⟩ =>
    show win3_5.index _ (1 : Fin 2) * 128 ≤ (i 1).val ∧ (i 1).val < win3_5.index _ (1 : Fin 2) * 128 + 128
    rw [e1]; omega

/-- Every entry of an accumulator row is in the block of the last point, the one point that writes it back. -/
theorem cover6 (i : S1x128.Idx) :
    ∃ t : Fin cfg3.N, (cfg3.win 6).flush t = true ∧ i ∈ ((cfg3.win 6).blk t).view.set := by
  have hi0 : (i 0).val < 1 := (i 0).isLt
  have hi1 : (i 1).val < 128 := (i 1).isLt
  refine ⟨⟨19, lt_of_lt_of_eq (by omega) N_eq.symm⟩, (flush3_6 _).mpr rfl, ?_⟩
  rw [mem_blk6]
  obtain ⟨-, -, -, -, -, -, -, -, -, -, -, -, e0, e1, -⟩ :=
    idx_facts ⟨19, lt_of_lt_of_eq (by omega) N_eq.symm⟩
  intro a
  match a with
  | ⟨0, _⟩ =>
    show win3_6.index _ (0 : Fin 2) * 1 ≤ (i 0).val ∧ (i 0).val < win3_6.index _ (0 : Fin 2) * 1 + 1
    rw [e0]; omega
  | ⟨1, _⟩ =>
    show win3_6.index _ (1 : Fin 2) * 128 ≤ (i 1).val ∧ (i 1).val < win3_6.index _ (1 : Fin 2) * 128 + 128
    rw [e1]; omega

theorem cover7 (i : S1x128.Idx) :
    ∃ t : Fin cfg3.N, (cfg3.win 7).flush t = true ∧ i ∈ ((cfg3.win 7).blk t).view.set := by
  have hi0 : (i 0).val < 1 := (i 0).isLt
  have hi1 : (i 1).val < 128 := (i 1).isLt
  refine ⟨⟨19, lt_of_lt_of_eq (by omega) N_eq.symm⟩, (flush3_7 _).mpr rfl, ?_⟩
  rw [mem_blk7]
  obtain ⟨-, -, -, -, -, -, -, -, -, -, -, -, -, -, e0, e1⟩ :=
    idx_facts ⟨19, lt_of_lt_of_eq (by omega) N_eq.symm⟩
  intro a
  match a with
  | ⟨0, _⟩ =>
    show win3_7.index _ (0 : Fin 2) * 1 ≤ (i 0).val ∧ (i 0).val < win3_7.index _ (0 : Fin 2) * 1 + 1
    rw [e0]; omega
  | ⟨1, _⟩ =>
    show win3_7.index _ (1 : Fin 2) * 128 ≤ (i 1).val ∧ (i 1).val < win3_7.index _ (1 : Fin 2) * 128 + 128
    rw [e1]; omega

end Cert.KernelIdeal.Region3

end
-- ==== Proof.KRegion3Y.lean ====
import proofs.«140138_j37512244363809_2_alg».proof.Proof.KRegion3Outs
import proofs.«140138_j37512244363809_2_alg».proof.Proof.KRegion3Pay
import proofs.«140138_j37512244363809_2_alg».proof.Proof.KRegion3Blocks
import proofs.«140138_j37512244363809_2_alg».proof.Proof.GcnSpec

noncomputable section

open scoped BigOperators
open Idealize.ShloMosaic Idealize.ShloMosaic.TcCoe Idealize.SL.Sem
open Idealize.ShloMosaic.Pipeline (Dat)

namespace Cert.KernelIdeal.Region3

open Cert.KernelIdeal Cert.KernelIdeal.Gen Idealize.ShloMosaic.ValueIdx Cert.Spec

variable (V : (c : Dev nD) → (b : Ref sig .tc) → Buf (Elt Ideal) ((c : Thread nD τ).loc b))

/-! The y array after the region.  Every grid point writes its y block back; the block is the combine arithmetic of the
    point's input blocks, which are rows 5000·t … 5000·t + 4999 of the input arrays, so it is those rows of one
    whole-array function of the five input arrays: agg · dis + h · di + b.  The twenty blocks tile the array. -/

/-- The combine of the five arrays the region finds: agg (window 1), h (window 0), dis, di, b. -/
abbrev Yarr (c : Dev nD) : Mat 100000 128 :=
  Cert.Gcn.combine (V c (Pipeline.arrRef spec3 1) : Mat 100000 128) (V c (Pipeline.arrRef spec3 0) : Mat 100000 128)
    (V c (Pipeline.arrRef spec3 2) : Mat 100000 1) (V c (Pipeline.arrRef spec3 3) : Mat 100000 1)
    (V c (Pipeline.arrRef spec3 4) : Mat 1 128)

/-- The y block of point t at row p is the whole-array combine at row 5000·t + p. -/
theorem yblk_apply (c : Dev nD) (t : Fin cfg3.N) (p : Fin 5000) (j : Fin 128) (r : Fin 100000)
    (hr : r.val = 5000 * t.val + p.val) :
    k3_pay3 (F := Ideal) (iblk3 V c 1 t) (iblk3 V c 2 t) (iblk3 V c 0 t) (iblk3 V c 3 t) (iblk3 V c 4 t) (ix2 p j) = Yarr V c (ix2 r j) := by
  refine (pay3_apply (iblk3 V c 1 t) (iblk3 V c 2 t) (iblk3 V c 0 t) (iblk3 V c 3 t) (iblk3 V c 4 t) p j).trans ?_
  rw [blk1_apply V c t p j r hr, blk2_apply V c t p r hr, blk0_apply V c t p j r hr, blk3_apply V c t p r hr,
    blk4_apply V c t j]
  rfl

/-- What point t writes back is its block of the whole-array combine. -/
theorem flushed5_eq (c : Dev nD) (t : Fin cfg3.N) :
    (dat3 V c).flushed 5 t = ((cfg3.win 5).blk t).view.read (Elt Ideal) (Yarr V c) := by
  show (cfg3.win 5).cut (grid3.coords t) ((dat3 V c).after 5 t) = _
  rw [after3_5, y_after]
  funext y
  obtain ⟨p, j, rfl⟩ : ∃ (p : Fin 5000) (j : Fin 128), y = ix2 p j := ⟨y 0, y 1, eq_ix2 y⟩
  have hN : t.val < 20 := lt_of_lt_of_eq t.isLt N_eq
  rw [View.read_apply]
  show k3_pay3 (F := Ideal) (iblk3 V c 1 t) (iblk3 V c 2 t) (iblk3 V c 0 t) (iblk3 V c 3 t) (iblk3 V c 4 t) (ix2 p j)
    = Yarr V c (((cfg3.win 5).blk t).view.emb (ix2 p j))
  rw [emb5 t p j ⟨5000 * t.val + p.val, by omega⟩ rfl]
  exact yblk_apply V c t p j _ rfl

/-- The y array after the region is the combine of the five input arrays. -/
theorem y_eq (c : Dev nD) :
    (dat3 V c).arrAt 5 cfg3.N = Cert.Gcn.combine (V c (Pipeline.arrRef spec3 1) : Mat 100000 128) (V c (Pipeline.arrRef spec3 0) : Mat 100000 128)
    (V c (Pipeline.arrRef spec3 2) : Mat 100000 1) (V c (Pipeline.arrRef spec3 3) : Mat 100000 1)
    (V c (Pipeline.arrRef spec3 4) : Mat 1 128) :=
  (dat3 V c).arrAt_eq_of_cover 5 (Yarr V c) (fun t _ => flushed5_eq V c t) cover5

end Cert.KernelIdeal.Region3

end
-- ==== Proof.KRegion3Acc.lean ====
import proofs.«140138_j37512244363809_2_alg».proof.Proof.KRegion3Y
import proofs.«140138_j37512244363809_2_alg».proof.Proof.KRegionRowSplit

noncomputable section

open scoped BigOperators
open Idealize.ShloMosaic Idealize.ShloMosaic.TcCoe Idealize.SL.Sem
open Idealize.ShloMosaic.Pipeline (Dat)

namespace Cert.KernelIdeal.Region3

open Cert.KernelIdeal Cert.KernelIdeal.Gen Idealize.ShloMosaic.ValueIdx Cert.Spec Cert.KernelIdeal.RowSplit

variable (V : (c : Dev nD) → (b : Ref sig .tc) → Buf (Elt Ideal) ((c : Thread nD τ).loc b))

/-! The two accumulator rows after the region.  Their one block is the whole one-row array at every grid point and is
    written back once, after the last point.  The first point zeroes the row and adds its block's column sums; every
    later point adds its block's column sums to what the row held.  So after point n the row holds, at column j, the sum
    over the blocks 0 … n of the sums over each block's 5000 rows of y (r, j) — of y (r, j)² for the second row —, with
    y the whole-array combine; after the last point that is the sum over all 100000 rows, in whatever order: over the
    extended reals addition commutes and associates with no finiteness asked. -/

/-- The column-sum row after point n. -/
theorem acc6_eq (c : Dev nD) : ∀ (n : ℕ) (hn : n < cfg3.N) (j : Fin 128),
    ((outsAt3 V c n hn).2.1 : Vec Ideal S1x128 .f32) (ix2 (0 : Fin 1) j)
      = ∑ s ∈ Finset.range (n + 1), ∑ p : Fin 5000, Yarr V c (ix2 (row s p) j)
  | 0, hn, j => by
    have e : (outsAt3 V c 0 hn).2.1
        = k3_pay4 (F := Ideal) (iblk3 V c 1 ⟨0, hn⟩) (iblk3 V c 2 ⟨0, hn⟩) (iblk3 V c 0 ⟨0, hn⟩) (iblk3 V c 3 ⟨0, hn⟩) (iblk3 V c 4 ⟨0, hn⟩) (k3_pay1 (F := Ideal)) :=
      congrArg (fun x => x.2.1) (outs_first V c ⟨0, hn⟩ rfl)
    refine (congrFun e (ix2 (0 : Fin 1) j)).trans ?_
    refine (pay4_apply (iblk3 V c 1 ⟨0, hn⟩) (iblk3 V c 2 ⟨0, hn⟩) (iblk3 V c 0 ⟨0, hn⟩) (iblk3 V c 3 ⟨0, hn⟩) (iblk3 V c 4 ⟨0, hn⟩) (k3_pay1 (F := Ideal)) j).trans ?_
    rw [pay1_apply, zero_add, Finset.sum_range_one]
    exact Finset.sum_congr rfl fun p _ => yblk_apply V c ⟨0, hn⟩ p j (row 0 p) (row_val 0 (by omega) p)
  | n + 1, hn, j => by
    have hN : n + 1 < 20 := lt_of_lt_of_eq hn N_eq
    have hB : ¬(⟨n + 1, hn⟩ : Fin cfg3.N).val % 20 = 0 := by dsimp only; omega
    have e : (outsAt3 V c (n + 1) hn).2.1
        = k3_pay4 (F := Ideal) (iblk3 V c 1 ⟨n + 1, hn⟩) (iblk3 V c 2 ⟨n + 1, hn⟩) (iblk3 V c 0 ⟨n + 1, hn⟩) (iblk3 V c 3 ⟨n + 1, hn⟩) (iblk3 V c 4 ⟨n + 1, hn⟩)
            (outsAt3 V c n (Nat.lt_of_succ_lt hn)).2.1 :=
      congrArg (fun x => x.2.1) (outs_later V c ⟨n + 1, hn⟩ hB)
    refine (congrFun e (ix2 (0 : Fin 1) j)).trans ?_
    refine (pay4_apply (iblk3 V c 1 ⟨n + 1, hn⟩) (iblk3 V c 2 ⟨n + 1, hn⟩) (iblk3 V c 0 ⟨n + 1, hn⟩) (iblk3 V c 3 ⟨n + 1, hn⟩) (iblk3 V c 4 ⟨n + 1, hn⟩)
      (outsAt3 V c n (Nat.lt_of_succ_lt hn)).2.1 j).trans ?_
    rw [Finset.sum_range_succ _ (n + 1)]
    exact congrArg₂ (· + ·) (acc6_eq c n (Nat.lt_of_succ_lt hn) j)
      (Finset.sum_congr rfl fun p _ => yblk_apply V c ⟨n + 1, hn⟩ p j (row (n + 1) p) (row_val (n + 1) hN p))

/-- The row of sums of squares after point n. -/
theorem acc7_eq (c : Dev nD) : ∀ (n : ℕ) (hn : n < cfg3.N) (j : Fin 128),
    ((outsAt3 V c n hn).2.2 : Vec Ideal S1x128 .f32) (ix2 (0 : Fin 1) j)
      = ∑ s ∈ Finset.range (n + 1), ∑ p : Fin 5000, Yarr V c (ix2 (row s p) j) * Yarr V c (ix2 (row s p) j)
  | 0, hn, j => by
    have e : (outsAt3 V c 0 hn).2.2
        = k3_pay5 (F := Ideal) (iblk3 V c 1 ⟨0, hn⟩) (iblk3 V c 2 ⟨0, hn⟩) (iblk3 V c 0 ⟨0, hn⟩) (iblk3 V c 3 ⟨0, hn⟩) (iblk3 V c 4 ⟨0, hn⟩) (k3_pay2 (F := Ideal)) :=
      congrArg (fun x => x.2.2) (outs_first V c ⟨0, hn⟩ rfl)
    refine (congrFun e (ix2 (0 : Fin 1) j)).trans ?_
    refine (pay5_apply (iblk3 V c 1 ⟨0, hn⟩) (iblk3 V c 2 ⟨0, hn⟩) (iblk3 V c 0 ⟨0, hn⟩) (iblk3 V c 3 ⟨0, hn⟩) (iblk3 V c 4 ⟨0, hn⟩) (k3_pay2 (F := Ideal)) j).trans ?_
    rw [pay2_apply, zero_add, Finset.sum_range_one]
    exact Finset.sum_congr rfl fun p _ => congrArg₂ (· * ·)
      (yblk_apply V c ⟨0, hn⟩ p j (row 0 p) (row_val 0 (by omega) p))
      (yblk_apply V c ⟨0, hn⟩ p j (row 0 p) (row_val 0 (by omega) p))
  | n + 1, hn, j => by
    have hN : n + 1 < 20 := lt_of_lt_of_eq hn N_eq
    have hB : ¬(⟨n + 1, hn⟩ : Fin cfg3.N).val % 20 = 0 := by dsimp only; omega
    have e : (outsAt3 V c (n + 1) hn).2.2
        = k3_pay5 (F := Ideal) (iblk3 V c 1 ⟨n + 1, hn⟩) (iblk3 V c 2 ⟨n + 1, hn⟩) (iblk3 V c 0 ⟨n + 1, hn⟩) (iblk3 V c 3 ⟨n + 1, hn⟩) (iblk3 V c 4 ⟨n + 1, hn⟩)
            (outsAt3 V c n (Nat.lt_of_succ_lt hn)).2.2 :=
      congrArg (fun x => x.2.2) (outs_later V c ⟨n + 1, hn⟩ hB)
    refine (congrFun e (ix2 (0 : Fin 1) j)).trans ?_
    refine (pay5_apply (iblk3 V c 1 ⟨n + 1, hn⟩) (iblk3 V c 2 ⟨n + 1, hn⟩) (iblk3 V c 0 ⟨n + 1, hn⟩) (iblk3 V c 3 ⟨n + 1, hn⟩) (iblk3 V c 4 ⟨n + 1, hn⟩)
      (outsAt3 V c n (Nat.lt_of_succ_lt hn)).2.2 j).trans ?_
    rw [Finset.sum_range_succ _ (n + 1)]
    exact congrArg₂ (· + ·) (acc7_eq c n (Nat.lt_of_succ_lt hn) j)
      (Finset.sum_congr rfl fun p _ => congrArg₂ (· * ·)
        (yblk_apply V c ⟨n + 1, hn⟩ p j (row (n + 1) p) (row_val (n + 1) hN p))
        (yblk_apply V c ⟨n + 1, hn⟩ p j (row (n + 1) p) (row_val (n + 1) hN p)))

/-- What the last point writes back into the column-sum array is the column sums of the whole-array combine. -/
theorem flushed6_eq (c : Dev nD) (t : Fin cfg3.N) (hf : (cfg3.win 6).flush t = true) :
    (dat3 V c).flushed 6 t = ((cfg3.win 6).blk t).view.read (Elt Ideal) (colSum (Yarr V c)) := by
  have hN : t.val < 20 := lt_of_lt_of_eq t.isLt N_eq
  have h19 : t.val = 19 := by have := (flush3_6 t).mp hf; omega
  show (cfg3.win 6).cut (grid3.coords t) ((dat3 V c).after 6 t) = _
  rw [after3_6]
  refine flush_row6 t (outsAt3 V c t.val t.isLt).2.1 (colSum (Yarr V c)) fun j => ?_
  refine (acc6_eq V c t.val t.isLt j).trans ?_
  exact ((colSum_apply (Yarr V c) (0 : Fin 1) j).trans (sum_rows_upto _ t.val h19)).symm

/-- The same for the sums of squares. -/
theorem flushed7_eq (c : Dev nD) (t : Fin cfg3.N) (hf : (cfg3.win 7).flush t = true) :
    (dat3 V c).flushed 7 t = ((cfg3.win 7).blk t).view.read (Elt Ideal) (colSumSq (Yarr V c)) := by
  have hN : t.val < 20 := lt_of_lt_of_eq t.isLt N_eq
  have h19 : t.val = 19 := by have := (flush3_7 t).mp hf; omega
  show (cfg3.win 7).cut (grid3.coords t) ((dat3 V c).after 7 t) = _
  rw [after3_7]
  refine flush_row7 t (outsAt3 V c t.val t.isLt).2.2 (colSumSq (Yarr V c)) fun j => ?_
  refine (acc7_eq V c t.val t.isLt j).trans ?_
  exact ((colSumSq_apply (Yarr V c) (0 : Fin 1) j).trans (sum_rows_upto _ t.val h19)).symm

/-- The column-sum array after the region: the sums down the columns of the combine of the five input arrays. -/
theorem sum_eq (c : Dev nD) :
    (dat3 V c).arrAt 6 cfg3.N = Cert.Spec.colSum (Cert.Gcn.combine (V c (Pipeline.arrRef spec3 1) : Mat 100000 128) (V c (Pipeline.arrRef spec3 0) : Mat 100000 128)
    (V c (Pipeline.arrRef spec3 2) : Mat 100000 1) (V c (Pipeline.arrRef spec3 3) : Mat 100000 1)
    (V c (Pipeline.arrRef spec3 4) : Mat 1 128)) :=
  (dat3 V c).arrAt_eq_of_cover 6 (colSum (Yarr V c)) (fun t hf => flushed6_eq V c t hf) cover6

/-- The array of column sums of squares after the region. -/
theorem sq_eq (c : Dev nD) :
    (dat3 V c).arrAt 7 cfg3.N = Cert.Spec.colSumSq (Cert.Gcn.combine (V c (Pipeline.arrRef spec3 1) : Mat 100000 128) (V c (Pipeline.arrRef spec3 0) : Mat 100000 128)
    (V c (Pipeline.arrRef spec3 2) : Mat 100000 1) (V c (Pipeline.arrRef spec3 3) : Mat 100000 1)
    (V c (Pipeline.arrRef spec3 4) : Mat 1 128)) :=
  (dat3 V c).arrAt_eq_of_cover 7 (colSumSq (Yarr V c)) (fun t hf => flushed7_eq V c t hf) cover7

end Cert.KernelIdeal.Region3

end
-- ==== Proof.KRegion4Pay.lean ====
/-
  What the third product kernel's body stores, read at an entry of its tile, over the extended reals.

  The body takes a tile y of 5000 rows of the previous layer's output, the four rows mu, inv, g, be of the column
  normalisation, the weight matrix w with 2 columns and the tile s of the per-row factors.  It first normalises the
  tile's columns and keeps the positive part (the shared first step, act), and stores the product of that with w:
  narrowing the operands' float format changes nothing over the exact reals and a product accumulated into zero is the
  plain sum of products, so the entry (p, j) is the sum over q of act (p, q) · w (q, j) (pay1_eq, pay1_apply).  Its
  second store is that product with row p scaled by s (p, 0), the factor column repeated across the 2 columns
  (pay2_apply).

  When the tile y holds the rows of an array Y of 100000 rows that start at row b · 5000, the four rows and w are whole
  arrays, and s holds the same rows of S, those entries are the entries in row b · 5000 + p of the normalised positive
  part of Y times W, and of that with its rows scaled by S (pay1_tile, pay2_tile): the normalisation works column by
  column with the same four numbers in every row, and the product and the scaling row by row.
-/
import proofs.«140138_j37512244363809_2_alg».proof.Proof.Gen.KernelIdeal.Skeleton
import proofs.«140138_j37512244363809_2_alg».proof.Proof.LibPlainDot
import proofs.«140138_j37512244363809_2_alg».proof.Proof.GcnSpec
import proofs.«140138_j37512244363809_2_alg».proof.Proof.KRegionTiles
import proofs.«140138_j37512244363809_2_alg».proof.Proof.KRegionAct

noncomputable section

open scoped BigOperators

namespace Cert.KernelIdeal.Region4

open Idealize.ShloMosaic Idealize.ShloMosaic.ValueIdx
open Cert.KernelIdeal Cert.KernelIdeal.Gen Cert.Spec Cert.Gcn Cert.Tiles Cert.KernelIdeal.Act

/-- The body's first store is the product of the normalised positive part with the weights, into zero. -/
theorem pay1_eq (y : Vec Ideal S5000x128 .f32) (mu inv g be : Vec Ideal S1x128 .f32) (w : Vec Ideal S128x2 .f32) :
    k4_pay1 y mu inv g be w
      = matmul dot_S5000x128_S128x2_S5000x2_1_0_0_1_n_n none (truncf .bf16 (act y mu inv g be) bitsLt_bf16_f32)
          (truncf .bf16 w bitsLt_bf16_f32) (constant (F := Ideal) S5000x2 .f32 0x00000000#32) := rfl

/-- Its entry (p, j): the sum over q of act (p, q) · w (q, j). -/
theorem pay1_apply (y : Vec Ideal S5000x128 .f32) (mu inv g be : Vec Ideal S1x128 .f32) (w : Vec Ideal S128x2 .f32)
    (p : Fin 5000) (j : Fin 2) :
    k4_pay1 y mu inv g be w (ix2 p j) = ∑ q : Fin 128, act y mu inv g be (ix2 p q) * w (ix2 q j) := by
  rw [pay1_eq]
  exact Cert.LibPlainDot.matmul_zero_apply dot_S5000x128_S128x2_S5000x2_1_0_0_1_n_n rfl none
    (truncf .bf16 (act y mu inv g be) bitsLt_bf16_f32) (truncf .bf16 w bitsLt_bf16_f32) p j

/-- What the body stores second: the product's entry scaled by the row's factor. -/
theorem pay2_apply (y : Vec Ideal S5000x128 .f32) (mu inv g be : Vec Ideal S1x128 .f32) (w : Vec Ideal S128x2 .f32)
    (s : Vec Ideal S5000x1 .f32) (p : Fin 5000) (j : Fin 2) :
    k4_pay2 y mu inv g be w s (ix2 p j) = k4_pay1 y mu inv g be w (ix2 p j) * s (ix2 p (0 : Fin 1)) := by
  show k4_pay1 y mu inv g be w (ix2 p j)
      * broadcastTo S5000x2 (shapeCast S5000x1 s shapeCasts_S5000x1_S5000x1) broadcasts_S5000x1_S5000x2 (ix2 p j) = _
  rw [shapeCast_self, colBroadcast_apply]

/-- A tile of rows of the input gives the same tile of rows of the normalised positive part times the weights. -/
theorem pay1_tile (y : Vec Ideal S5000x128 .f32) (mu inv g be : Vec Ideal S1x128 .f32) (w : Vec Ideal S128x2 .f32)
    (Y : Mat 100000 128) (MU INV G BE : Mat 1 128) (W : Mat 128 2) (b : ℕ)
    (hy : ∀ (z : S5000x128.Idx) (i : S100000x128.Idx), (i 0).val = b * 5000 + (z 0).val → (i 1).val = (z 1).val → y z = Y i)
    (hmu : ∀ z : S1x128.Idx, mu z = MU z) (hinv : ∀ z : S1x128.Idx, inv z = INV z)
    (hg : ∀ z : S1x128.Idx, g z = G z) (hbe : ∀ z : S1x128.Idx, be z = BE z)
    (hw : ∀ z : S128x2.Idx, w z = W z)
    (z : S5000x2.Idx) (i : S100000x2.Idx) (hi0 : (i 0).val = b * 5000 + (z 0).val) (hi1 : (i 1).val = (z 1).val) :
    k4_pay1 y mu inv g be w z = mm (normRelu0 Y MU INV G BE) W i := by
  obtain ⟨p, j, rfl⟩ : ∃ (p : Fin 5000) (j : Fin 2), z = ix2 p j := ⟨z 0, z 1, eq_ix2 z⟩
  obtain ⟨r, j', rfl⟩ : ∃ (r : Fin 100000) (j' : Fin 2), i = ix2 r j' := ⟨i 0, i 1, eq_ix2 i⟩
  have e0 : r.val = b * 5000 + p.val := hi0
  obtain rfl : j' = j := Fin.ext hi1
  rw [pay1_apply, mm_apply]
  refine Finset.sum_congr rfl fun q _ => ?_
  rw [act_apply, normRelu0_apply, hy (ix2 p q) (ix2 r q) e0 rfl, hmu, hinv, hg, hbe, hw]

/-- The same with each row scaled by the row's factor. -/
theorem pay2_tile (y : Vec Ideal S5000x128 .f32) (mu inv g be : Vec Ideal S1x128 .f32) (w : Vec Ideal S128x2 .f32)
    (s : Vec Ideal S5000x1 .f32)
    (Y : Mat 100000 128) (MU INV G BE : Mat 1 128) (W : Mat 128 2) (S : Mat 100000 1) (b : ℕ)
    (hy : ∀ (z : S5000x128.Idx) (i : S100000x128.Idx), (i 0).val = b * 5000 + (z 0).val → (i 1).val = (z 1).val → y z = Y i)
    (hmu : ∀ z : S1x128.Idx, mu z = MU z) (hinv : ∀ z : S1x128.Idx, inv z = INV z)
    (hg : ∀ z : S1x128.Idx, g z = G z) (hbe : ∀ z : S1x128.Idx, be z = BE z)
    (hw : ∀ z : S128x2.Idx, w z = W z)
    (hs : ∀ (z : S5000x1.Idx) (i : S100000x1.Idx), (i 0).val = b * 5000 + (z 0).val → (i 1).val = (z 1).val → s z = S i)
    (z : S5000x2.Idx) (i : S100000x2.Idx) (hi0 : (i 0).val = b * 5000 + (z 0).val) (hi1 : (i 1).val = (z 1).val) :
    k4_pay2 y mu inv g be w s z = scaleRows (mm (normRelu0 Y MU INV G BE) W) S i := by
  have hm := pay1_tile y mu inv g be w Y MU INV G BE W b hy hmu hinv hg hbe hw z i hi0 hi1
  obtain ⟨p, j, rfl⟩ : ∃ (p : Fin 5000) (j : Fin 2), z = ix2 p j := ⟨z 0, z 1, eq_ix2 z⟩
  obtain ⟨r, j', rfl⟩ : ∃ (r : Fin 100000) (j' : Fin 2), i = ix2 r j' := ⟨i 0, i 1, eq_ix2 i⟩
  have e0 : r.val = b * 5000 + p.val := hi0
  rw [pay2_apply, scaleRows_apply, hm, hs (ix2 p (0 : Fin 1)) (ix2 r (0 : Fin 1)) e0 rfl]

end Cert.KernelIdeal.Region4

end
-- ==== Proof.KRegion4Blocks.lean ====
/-
  The third product kernel's tiles, as pieces of its whole arrays.

  The kernel runs at 20 grid points.  At point t its input of features (window 0) and its per-row factors (window 6) are
  rows 5000 t … 5000 t + 4999 of their arrays; the four rows of the column normalisation (windows 1 to 4) and the weight
  matrix (window 5) are whole at every point; and its two outputs (windows 7 and 8) are written back to rows 5000 t …
  5000 t + 4999 of their arrays.  These relations are decided once over the grid from the kernel's index maps
  (idx_facts).  From them: an entry of an input's block is the entry of the input's array in the row the block's row
  is (iblk_0 … iblk_6); an index of an output array lies in point t's block exactly when its row lies in the block's
  range (mem_blk_7, mem_blk_8); and every row r lies in the block of the point r / 5000, so the 20 blocks cover each
  output array (cover_7, cover_8).
-/
import proofs.«140138_j37512244363809_2_alg».proof.Proof.Gen.KernelIdeal.Frame
import proofs.«140138_j37512244363809_2_alg».proof.Proof.LibMatOps
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Region4

open Cert.KernelIdeal Cert.KernelIdeal.Gen Cert.Spec

variable (V : (c : Dev nD) → (b : Ref sig .tc) → Buf (Elt Ideal) ((c : Thread nD τ).loc b))

/-- The arrays the kernel's inputs are read from, as the region finds them. -/
abbrev X0 (c : Dev nD) : Mat 100000 128 := V c (Pipeline.arrRef spec4 0)
abbrev X1 (c : Dev nD) : Mat 1 128 := V c (Pipeline.arrRef spec4 1)
abbrev X2 (c : Dev nD) : Mat 1 128 := V c (Pipeline.arrRef spec4 2)
abbrev X3 (c : Dev nD) : Mat 1 128 := V c (Pipeline.arrRef spec4 3)
abbrev X4 (c : Dev nD) : Mat 1 128 := V c (Pipeline.arrRef spec4 4)
abbrev X5 (c : Dev nD) : Mat 128 2 := V c (Pipeline.arrRef spec4 5)
abbrev X6 (c : Dev nD) : Mat 100000 1 := V c (Pipeline.arrRef spec4 6)

/-- The block indices at point t: a window cut into tiles of rows is at block (t, 0), a window that is its whole array
    at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- The block of the features at point t holds rows 5000 t … of the whole array. -/
theorem iblk_0 (c : Dev nD) (t : Fin cfg4.N) (y : S5000x128.Idx) (i : S100000x128.Idx)
    (hi0 : (i 0).val = t.val * 5000 + (y 0).val) (hi1 : (i 1).val = (y 1).val) :
    (iblk4 V c 0 t : Vec Ideal S5000x128 .f32) y = X0 V c i := by
  obtain ⟨e0, e1, -⟩ := idx_facts t
  unfold iblk4
  rw [View.read_apply]
  show X0 V c (((cfg4.win 0).blk t).view.emb y) = X0 V c i
  refine congrArg (X0 V c) (funext fun a => Fin.ext ?_)
  match a with
  | ⟨0, _⟩ => show win4_0.index t (0 : Fin 2) * 5000 + 1 * (y 0).val = (i 0).val; rw [e0, hi0]; omega
  | ⟨1, _⟩ => show win4_0.index t (1 : Fin 2) * 128 + 1 * (y 1).val = (i 1).val; rw [e1, hi1]; omega

/-- The block of the column means at any point is the whole array. -/
theorem iblk_1 (c : Dev nD) (t : Fin cfg4.N) (y : S1x128.Idx) :
    (iblk4 V c 1 t : Vec Ideal S1x128 .f32) y = X1 V c y := by
  obtain ⟨-, -, e0, e1, -⟩ := idx_facts t
  unfold iblk4
  rw [View.read_apply]
  show X1 V c (((cfg4.win 1).blk t).view.emb y) = X1 V c y
  refine congrArg (X1 V c) (funext fun a => Fin.ext ?_)
  match a with
  | ⟨0, _⟩ => show win4_1.index t (0 : Fin 2) * 1 + 1 * (y 0).val = (y 0).val; rw [e0]; omega
  | ⟨1, _⟩ => show win4_1.index t (1 : Fin 2) * 128 + 1 * (y 1).val = (y 1).val; rw [e1]; omega

/-- The block of the column scales at any point is the whole array. -/
theorem iblk_2 (c : Dev nD) (t : Fin cfg4.N) (y : S1x128.Idx) :
    (iblk4 V c 2 t : Vec Ideal S1x128 .f32) y = X2 V c y := by
  obtain ⟨-, -, -, -, e0, e1, -⟩ := idx_facts t
  unfold iblk4
  rw [View.read_apply]
  show X2 V c (((cfg4.win 2).blk t).view.emb y) = X2 V c y
  refine congrArg (X2 V c) (funext fun a => Fin.ext ?_)
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- The block of the column gains at any point is the whole array. -/
theorem iblk_3 (c : Dev nD) (t : Fin cfg4.N) (y : S1x128.Idx) :
    (iblk4 V c 3 t : Vec Ideal S1x128 .f32) y = X3 V c y := by
  obtain ⟨-, -, -, -, -, -, e0, e1, -⟩ := idx_facts t
  unfold iblk4
  rw [View.read_apply]
  show X3 V c (((cfg4.win 3).blk t).view.emb y) = X3 V c y
  refine congrArg (X3 V c) (funext fun a => Fin.ext ?_)
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- The block of the column shifts at any point is the whole array. -/
theorem iblk_4 (c : Dev nD) (t : Fin cfg4.N) (y : S1x128.Idx) :
    (iblk4 V c 4 t : Vec Ideal S1x128 .f32) y = X4 V c y := by
  obtain ⟨-, -, -, -, -, -, -, -, e0, e1, -⟩ := idx_facts t
  unfold iblk4
  rw [View.read_apply]
  show X4 V c (((cfg4.win 4).blk t).view.emb y) = X4 V c y
  refine congrArg (X4 V c) (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- The block of the weight matrix at any point is the whole array. -/
theorem iblk_5 (c : Dev nD) (t : Fin cfg4.N) (y : S128x2.Idx) :
    (iblk4 V c 5 t : Vec Ideal S128x2 .f32) y = X5 V c y := by
  obtain ⟨-, -, -, -, -, -, -, -, -, -, e0, e1, -⟩ := idx_facts t
  unfold iblk4
  rw [View.read_apply]
  show X5 V c (((cfg4.win 5).blk t).view.emb y) = X5 V c y
  refine congrArg (X5 V c) (funext fun a => Fin.ext ?_)
  match a with
  | ⟨0, _⟩ => show win4_5.index t (0 : Fin 2) * 128 + 1 * (y 0).val = (y 0).val; rw [e0]; omega
  | ⟨1, _⟩ => show win4_5.index t (1 : Fin 2) * 2 + 1 * (y 1).val = (y 1).val; rw [e1]; omega

/-- The block of the per-row factors at point t holds rows 5000 t … of the whole array. -/
theorem iblk_6 (c : Dev nD) (t : Fin cfg4.N) (y : S5000x1.Idx) (i : S100000x1.Idx)
    (hi0 : (i 0).val = t.val * 5000 + (y 0).val) (hi1 : (i 1).val = (y 1).val) :
    (iblk4 V c 6 t : Vec Ideal S5000x1 .f32) y = X6 V c i := by
  obtain ⟨-, -, -, -, -, -, -, -, -, -, -, -, e0, e1, -⟩ := idx_facts t
  unfold iblk4
  rw [View.read_apply]
  show X6 V c (((cfg4.win 6).blk t).view.emb y) = X6 V c i
  refine congrArg (X6 V c) (funext fun a => Fin.ext ?_)
  match a with
  | ⟨0, _⟩ => show win4_6.index t (0 : Fin 2) * 5000 + 1 * (y 0).val = (i 0).val; rw [e0, hi0]; omega
  | ⟨1, _⟩ => show win4_6.index t (1 : Fin 2) * 1 + 1 * (y 1).val = (i 1).val; rw [e1, hi1]; omega

/-- An index of the array of the first output is in point t's block iff each coordinate is in the block's range on its axis. -/
theorem mem_blk_7 (t : Fin cfg4.N) (i : S100000x2.Idx) :
    i ∈ ((cfg4.win 7).blk t).view.set ↔ ∀ a : Fin 2, win4_7.index t a * S5000x2.size a ≤ (i a).val
      ∧ (i a).val < win4_7.index t a * S5000x2.size a + S5000x2.size a := by
  show i ∈ ((View.whole main_v75_0).slice (win4_7.rect t)).set ↔ _
  rw [View.set_slice_whole, Rect.mem_set_unit]
  exact Iff.rfl

/-- Row r of the array of the first output is written back by the point r / 5000. -/
theorem cover_7 (i : S100000x2.Idx) :
    ∃ t : Fin cfg4.N, (cfg4.win 7).flush t = true ∧ i ∈ ((cfg4.win 7).blk t).view.set := by
  have hi0 : (i 0).val < 100000 := (i 0).isLt
  have hi1 : (i 1).val < 2 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, -, -, -, -, -, -, -, -, e0, e1, -⟩ := idx_facts t
  refine ⟨t, flush4_7 t, ?_⟩
  rw [mem_blk_7]
  intro a
  match a with
  | ⟨0, _⟩ =>
    show win4_7.index t (0 : Fin 2) * 5000 ≤ (i 0).val ∧ (i 0).val < win4_7.index t (0 : Fin 2) * 5000 + 5000
    rw [e0, ht]; omega
  | ⟨1, _⟩ =>
    show win4_7.index t (1 : Fin 2) * 2 ≤ (i 1).val ∧ (i 1).val < win4_7.index t (1 : Fin 2) * 2 + 2
    rw [e1]; omega

/-- An index of the array of the second output is in point t's block iff each coordinate is in the block's range on its axis. -/
theorem mem_blk_8 (t : Fin cfg4.N) (i : S100000x2.Idx) :
    i ∈ ((cfg4.win 8).blk t).view.set ↔ ∀ a : Fin 2, win4_8.index t a * S5000x2.size a ≤ (i a).val
      ∧ (i a).val < win4_8.index t a * S5000x2.size a + S5000x2.size a := by
  show i ∈ ((View.whole main_v75_1).slice (win4_8.rect t)).set ↔ _
  rw [View.set_slice_whole, Rect.mem_set_unit]
  exact Iff.rfl

/-- Row r of the array of the second output is written back by the point r / 5000. -/
theorem cover_8 (i : S100000x2.Idx) :
    ∃ t : Fin cfg4.N, (cfg4.win 8).flush t = true ∧ i ∈ ((cfg4.win 8).blk t).view.set := by
  have hi0 : (i 0).val < 100000 := (i 0).isLt
  have hi1 : (i 1).val < 2 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, -, -, -, -, -, -, -, -, -, -, e0, e1⟩ := idx_facts t
  refine ⟨t, flush4_8 t, ?_⟩
  rw [mem_blk_8]
  intro a
  match a with
  | ⟨0, _⟩ =>
    show win4_8.index t (0 : Fin 2) * 5000 ≤ (i 0).val ∧ (i 0).val < win4_8.index t (0 : Fin 2) * 5000 + 5000
    rw [e0, ht]; omega
  | ⟨1, _⟩ =>
    show win4_8.index t (1 : Fin 2) * 2 ≤ (i 1).val ∧ (i 1).val < win4_8.index t (1 : Fin 2) * 2 + 2
    rw [e1]; omega

end Cert.KernelIdeal.Region4

end
-- ==== Proof.KRegion4.lean ====
/-
  The third product kernel's two output arrays after its 20 grid points, as functions of its whole input arrays.

  With Y the previous layer's output, MU, INV, G, BE the four rows of the column normalisation, W the weight matrix and
  S the per-row factors as the kernel finds them, the first output array ends holding  N · W,  where N is Y with each
  column centred at MU, scaled by INV and by G, shifted by BE, and the positive part kept; the second ends holding the
  same product with row r scaled by S (r, 0).

  Point t writes back, into rows 5000 t … 5000 t + 4999 of each output array, what the body stored from the blocks at
  t.  The blocks of Y and S are the same rows of the whole arrays, the other inputs are whole, the normalisation uses the
  same four numbers of a column in every row, and the product and the scaling work row by row: so what point t writes
  back is exactly its block of N · W and of the scaled N · W (wrote_7, wrote_8).  The 20 blocks cover every row, so each
  array ends holding the whole function (h_eq, hs_eq).
-/
import proofs.«140138_j37512244363809_2_alg».proof.Proof.KRegion4Pay
import proofs.«140138_j37512244363809_2_alg».proof.Proof.KRegion4Blocks

noncomputable section

open Idealize.ShloMosaic Idealize.ShloMosaic.TcCoe Idealize.ShloMosaic.ValueIdx Idealize.SL.Sem
open Idealize.ShloMosaic.Pipeline (Dat)

namespace Cert.KernelIdeal.Region4

open Cert.KernelIdeal Cert.KernelIdeal.Gen Cert.Spec Cert.Gcn Cert.Tiles

variable (V : (c : Dev nD) → (b : Ref sig .tc) → Buf (Elt Ideal) ((c : Thread nD τ).loc b))

/-- What point t writes back into the first output's array is its block of the product. -/
theorem wrote_7 (c : Dev nD) (t : Fin cfg4.N) :
    (dat4 V c).flushed 7 t
      = ((cfg4.win 7).blk t).view.read (Elt Ideal) (mm (normRelu0 (X0 V c) (X1 V c) (X2 V c) (X3 V c) (X4 V c)) (X5 V c)) := by
  show (cfg4.win 7).cut (grid4.coords t) ((dat4 V c).after 7 t) = _
  rw [after4_7]
  unfold out4_7
  rw [View.canon_unit_zero zeros2]
  simp only [View.ld_unit_zero (S := S5000x128) zeros2, View.ld_unit_zero (S := S1x128) zeros2,
    View.ld_unit_zero (S := S128x2) zeros2]
  obtain ⟨-, -, -, -, -, -, -, -, -, -, -, -, -, -, e0, e1, -⟩ := idx_facts t
  funext y
  show k4_pay1 (iblk4 V c 0 t) (iblk4 V c 1 t) (iblk4 V c 2 t) (iblk4 V c 3 t) (iblk4 V c 4 t) (iblk4 V c 5 t) ((cfg4.win 7).xinj (grid4.coords t) y)
      = mm (normRelu0 (X0 V c) (X1 V c) (X2 V c) (X3 V c) (X4 V c)) (X5 V c) (((cfg4.win 7).blk t).view.emb y)
  refine pay1_tile (iblk4 V c 0 t) (iblk4 V c 1 t) (iblk4 V c 2 t) (iblk4 V c 3 t) (iblk4 V c 4 t) (iblk4 V c 5 t)
    (X0 V c) (X1 V c) (X2 V c) (X3 V c) (X4 V c) (X5 V c) t.val
    (iblk_0 V c t) (iblk_1 V c t) (iblk_2 V c t) (iblk_3 V c t) (iblk_4 V c t) (iblk_5 V c t)
    ((cfg4.win 7).xinj (grid4.coords t) y) (((cfg4.win 7).blk t).view.emb y) ?_ ?_
  · show win4_7.index t (0 : Fin 2) * 5000 + 1 * (y 0).val = t.val * 5000 + (y 0).val
    rw [e0]; omega
  · show win4_7.index t (1 : Fin 2) * 2 + 1 * (y 1).val = (y 1).val
    rw [e1]; omega

/-- What point t writes back into the second output's array is its block of the scaled product. -/
theorem wrote_8 (c : Dev nD) (t : Fin cfg4.N) :
    (dat4 V c).flushed 8 t
      = ((cfg4.win 8).blk t).view.read (Elt Ideal) (scaleRows (mm (normRelu0 (X0 V c) (X1 V c) (X2 V c) (X3 V c) (X4 V c)) (X5 V c)) (X6 V c)) := by
  show (cfg4.win 8).cut (grid4.coords t) ((dat4 V c).after 8 t) = _
  rw [after4_8]
  unfold out4_8
  rw [View.canon_unit_zero zeros2]
  simp only [View.ld_unit_zero (S := S5000x128) zeros2, View.ld_unit_zero (S := S1x128) zeros2,
    View.ld_unit_zero (S := S128x2) zeros2,
    View.ld_unit_zero (S := S5000x1) zeros2]
  obtain ⟨-, -, -, -, -, -, -, -, -, -, -, -, -, -, -, -, e0, e1⟩ := idx_facts t
  funext y
  show k4_pay2 (iblk4 V c 0 t) (iblk4 V c 1 t) (iblk4 V c 2 t) (iblk4 V c 3 t) (iblk4 V c 4 t) (iblk4 V c 5 t) (iblk4 V c 6 t) ((cfg4.win 8).xinj (grid4.coords t) y)
      = scaleRows (mm (normRelu0 (X0 V c) (X1 V c) (X2 V c) (X3 V c) (X4 V c)) (X5 V c)) (X6 V c) (((cfg4.win 8).blk t).view.emb y)
  refine pay2_tile (iblk4 V c 0 t) (iblk4 V c 1 t) (iblk4 V c 2 t) (iblk4 V c 3 t) (iblk4 V c 4 t) (iblk4 V c 5 t) (iblk4 V c 6 t)
    (X0 V c) (X1 V c) (X2 V c) (X3 V c) (X4 V c) (X5 V c) (X6 V c) t.val
    (iblk_0 V c t) (iblk_1 V c t) (iblk_2 V c t) (iblk_3 V c t) (iblk_4 V c t) (iblk_5 V c t) (iblk_6 V c t)
    ((cfg4.win 8).xinj (grid4.coords t) y) (((cfg4.win 8).blk t).view.emb y) ?_ ?_
  · show win4_8.index t (0 : Fin 2) * 5000 + 1 * (y 0).val = t.val * 5000 + (y 0).val
    rw [e0]; omega
  · show win4_8.index t (1 : Fin 2) * 2 + 1 * (y 1).val = (y 1).val
    rw [e1]; omega

/-- The first output's array after the region: the normalised positive part of the features times the weights. -/
theorem h_eq (c : Dev nD) :
    (dat4 V c).arrAt 7 cfg4.N
      = mm (normRelu0 (V c (Pipeline.arrRef spec4 0) : Mat 100000 128) (V c (Pipeline.arrRef spec4 1) : Mat 1 128)
            (V c (Pipeline.arrRef spec4 2) : Mat 1 128) (V c (Pipeline.arrRef spec4 3) : Mat 1 128)
            (V c (Pipeline.arrRef spec4 4) : Mat 1 128))
          (V c (Pipeline.arrRef spec4 5) : Mat 128 2) :=
  (dat4 V c).arrAt_eq_of_cover 7 (mm (normRelu0 (X0 V c) (X1 V c) (X2 V c) (X3 V c) (X4 V c)) (X5 V c)) (fun t _ => wrote_7 V c t) cover_7

/-- The second output's array after the region: the same product with each row scaled by the row's factor. -/
theorem hs_eq (c : Dev nD) :
    (dat4 V c).arrAt 8 cfg4.N
      = scaleRows
          (mm (normRelu0 (V c (Pipeline.arrRef spec4 0) : Mat 100000 128) (V c (Pipeline.arrRef spec4 1) : Mat 1 128)
            (V c (Pipeline.arrRef spec4 2) : Mat 1 128) (V c (Pipeline.arrRef spec4 3) : Mat 1 128)
            (V c (Pipeline.arrRef spec4 4) : Mat 1 128))
            (V c (Pipeline.arrRef spec4 5) : Mat 128 2))
          (V c (Pipeline.arrRef spec4 6) : Mat 100000 1) :=
  (dat4 V c).arrAt_eq_of_cover 8 (scaleRows (mm (normRelu0 (X0 V c) (X1 V c) (X2 V c) (X3 V c) (X4 V c)) (X5 V c)) (X6 V c)) (fun t _ => wrote_8 V c t) cover_8

end Cert.KernelIdeal.Region4

end
-- ==== Proof.KRegionRows.lean ====
/-
  Operations along the rows of a two-column array, read at an entry, over the extended reals.

  A reduction along axis 1 of an [n, 2] array gives one number per row.  Started from the float word of −∞, which is the
  least extended real, the maximum of row p is the larger of its two entries (rowMax2_apply); started from zero, the sum
  of row p is its two entries added (rowSum2_apply).  Both follow from reading the reduction as a fold over the two
  coordinates of the dropped axis: the source index over row p with coordinate k inserted is (p, k) (lift_row).
  A length-a array laid as one column reads, at (p, 0), its entry p (col_apply).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rows

open Idealize.ShloMosaic Idealize.ShloMosaic.ValueIdx

/-- The float word of −∞ is the least extended real. -/
theorem ofBits_neg_inf : Ideal.ofBits .f32 0xFF800000#32 = ⊥ := by simp [Ideal.ofBits, Ideal.ieee]

variable {α : Type}

/-- A length-a array laid as one column reads, at (p, 0), the array at p. -/
theorem col_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_one, Shape.rowMajor_val_two]
    show p.val = p.val * 1 + z.val
    rw [hz, Nat.mul_one, Nat.add_zero])

variable {n : ℕ}

/-- Over row p, the source index with coordinate k on the dropped axis is (p, k). -/
theorem lift_row (h : (⟨2, ![n, 2]⟩ : Shape).Reduces [1] ⟨1, ![n]⟩) (p : Fin n) (k : Fin 2) :
    h.lift (ix1 p) k = ix2 p k :=
  funext fun c => Fin.ext (by
    match c with
    | ⟨0, _⟩ => rfl
    | ⟨1, _⟩ => rfl)

/-- A fold of max over two terms, written out. -/
theorem fold_max_two (b : EReal) (f : Fin 2 → EReal) :
    (Finset.univ : Finset (Fin 2)).fold max b f = max (f 0) (max (f 1) b) := by
  rw [show (Finset.univ : Finset (Fin 2)) = insert 0 {1} from by decide, Finset.fold_insert (by decide),
    Finset.fold_singleton]

/-- The maximum along row p, started from −∞, is the larger of the row's two entries. -/
theorem rowMax2_apply (src : FVec Ideal ⟨2, ![n, 2]⟩ .f32) (h : (⟨2, ![n, 2]⟩ : Shape).Reduces [1] ⟨1, ![n]⟩)
    (hφ : FKind.Formats .f32) (hacc : (0xFF800000#32 : BitVec FTy.f32.bits) = FKind.maximumf.neutral .f32 hφ) (p : Fin n) :
    multiReduction (F := Ideal) .maximumf [1] ⟨1, ![n]⟩ src 0xFF800000#32 h hφ hacc (ix1 p)
      = max (src (ix2 p (0 : Fin 2))) (src (ix2 p (1 : Fin 2))) := by
  refine (Ideal.multiReduction_maximumf_single src 0xFF800000#32 h hφ hacc (ix1 p)).trans ?_
  refine (fold_max_two (Ideal.ofBits .f32 0xFF800000#32) (fun k => src (h.lift (ix1 p) k))).trans ?_
  show max (src (h.lift (ix1 p) (0 : Fin 2))) (max (src (h.lift (ix1 p) (1 : Fin 2))) (Ideal.ofBits .f32 0xFF800000#32)) = _
  rw [ofBits_neg_inf, max_bot_right]
  exact congrArg₂ max (congrArg src (lift_row h p 0)) (congrArg src (lift_row h p 1))

/-- The sum along row p, started from zero, is the row's two entries added. -/
theorem rowSum2_apply (src : FVec Ideal ⟨2, ![n, 2]⟩ .f32) (h : (⟨2, ![n, 2]⟩ : Shape).Reduces [1] ⟨1, ![n]⟩)
    (hφ : FKind.Formats .f32) (hacc : (0x00000000#32 : BitVec FTy.f32.bits) = FKind.add.neutral .f32 hφ) (p : Fin n) :
    multiReduction (F := Ideal) .add [1] ⟨1, ![n]⟩ src 0x00000000#32 h hφ hacc (ix1 p)
      = src (ix2 p (0 : Fin 2)) + src (ix2 p (1 : Fin 2)) := by
  refine (Ideal.multiReduction_add_single src 0x00000000#32 h hφ hacc (ix1 p)).trans ?_
  refine (Fin.sum_univ_two (fun k : Fin 2 => src (h.lift (ix1 p) k))).trans ?_
  exact congrArg₂ (· + ·) (congrArg src (lift_row h p 0)) (congrArg src (lift_row h p 1))

end Cert.Rows

end
-- ==== Proof.KRegion5Pay.lean ====
/-
  What the last kernel's body stores, read at an entry of its tile, over the extended reals.

  The body takes tiles of 5000 rows: a of the summed neighbour rows, s and d of the two per-row factors, h of the node's
  own transformed features, and the bias row bb.  It first forms the logits  z (p, c) = a (p, c) · s (p, 0) + h (p, c) ·
  d (p, 0) + bb (0, c)  (logits, logits_apply: each factor column is repeated across the two columns, the bias row over
  the rows), and then the softmax along each row (smax, smax_apply): with m the larger of the row's two logits — the
  row maximum started from −∞ — and e (p, c) = exp (z (p, c) − m), the entry is e (p, c) / (e (p, 0) + e (p, 1)), the
  row sum of the exponentials started from zero being the two of them added.  The body's stored value is these two steps
  composed, by definition (pay1_eq), so its entry (p, c) is the softmax of the row (z (p, 0), z (p, 1)) (pay1_apply).

  When the tiles hold the rows of whole arrays A, S, H, D that start at row b · 5000 and bb is the whole bias row B, the
  logits are the entries of  A · S + H · D + B  in the rows b · 5000 + p, and the stored value is the softmax of those
  rows (pay1_tile): every step works inside one row.
-/
import proofs.«140138_j37512244363809_2_alg».proof.Proof.Gen.KernelIdeal.Skeleton
import proofs.«140138_j37512244363809_2_alg».proof.Proof.GcnSpec
import proofs.«140138_j37512244363809_2_alg».proof.Proof.KRegionTiles
import proofs.«140138_j37512244363809_2_alg».proof.Proof.KRegionRows

noncomputable section

open scoped BigOperators

namespace Cert.KernelIdeal.Region5

open Idealize.ShloMosaic Idealize.ShloMosaic.ValueIdx
open Cert.KernelIdeal Cert.KernelIdeal.Gen Cert.Spec Cert.Gcn Cert.Tiles Cert.Rows

/-- The logits of a tile, as the body forms them. -/
def logits (a : Vec Ideal S5000x2 .f32) (s : Vec Ideal S5000x1 .f32) (h : Vec Ideal S5000x2 .f32)
    (d : Vec Ideal S5000x1 .f32) (bb : Vec Ideal S1x2 .f32) : FVec Ideal S5000x2 .f32 :=
  addf
    (addf
      (mulf (shapeCast S5000x2 a shapeCasts_S5000x2_S5000x2)
        (broadcastTo S5000x2 (shapeCast S5000x1 s shapeCasts_S5000x1_S5000x1) broadcasts_S5000x1_S5000x2))
      (mulf (shapeCast S5000x2 h shapeCasts_S5000x2_S5000x2)
        (broadcastTo S5000x2 (shapeCast S5000x1 d shapeCasts_S5000x1_S5000x1) broadcasts_S5000x1_S5000x2)))
    (broadcastTo S5000x2 (shapeCast S1x2 bb shapeCasts_S1x2_S1x2) broadcasts_S1x2_S5000x2)

/-- Each row's maximum, repeated across the two columns. -/
def rowMaxB (Z : FVec Ideal S5000x2 .f32) : FVec Ideal S5000x2 .f32 :=
  broadcastTo S5000x2
    (shapeCast S5000x1
      (multiReduction (F := Ideal) .maximumf [1] S5000 Z 0xFF800000#32 reduces_S5000x2_S5000 (.inl rfl) rfl)
      shapeCasts_S5000_S5000x1)
    broadcasts_S5000x1_S5000x2

/-- The exponentials of the logits less their row's maximum. -/
def expo (Z : FVec Ideal S5000x2 .f32) : FVec Ideal S5000x2 .f32 := exp (subf Z (rowMaxB Z))

/-- The softmax along each row of a tile, as the body computes it. -/
def smax (Z : FVec Ideal S5000x2 .f32) : FVec Ideal S5000x2 .f32 :=
  divf (expo Z)
    (broadcastTo S5000x2
      (shapeCast S5000x1
        (multiReduction (F := Ideal) .add [1] S5000 (expo Z) 0x00000000#32 reduces_S5000x2_S5000 (.inl rfl) rfl)
        shapeCasts_S5000_S5000x1)
      broadcasts_S5000x1_S5000x2)

/-- What the body stores is the softmax of its logits. -/
theorem pay1_eq (a : Vec Ideal S5000x2 .f32) (s : Vec Ideal S5000x1 .f32) (h : Vec Ideal S5000x2 .f32)
    (d : Vec Ideal S5000x1 .f32) (bb : Vec Ideal S1x2 .f32) :
    k5_pay1 a s h d bb = smax (logits a s h d bb) := rfl

/-- The logit at (p, c) as a number. -/
def zt (a : Vec Ideal S5000x2 .f32) (s : Vec Ideal S5000x1 .f32) (h : Vec Ideal S5000x2 .f32)
    (d : Vec Ideal S5000x1 .f32) (bb : Vec Ideal S1x2 .f32) (p : Fin 5000) (c : Fin 2) : EReal :=
  a (ix2 p c) * s (ix2 p (0 : Fin 1)) + h (ix2 p c) * d (ix2 p (0 : Fin 1)) + bb (ix2 (0 : Fin 1) c)

theorem logits_apply (a : Vec Ideal S5000x2 .f32) (s : Vec Ideal S5000x1 .f32) (h : Vec Ideal S5000x2 .f32)
    (d : Vec Ideal S5000x1 .f32) (bb : Vec Ideal S1x2 .f32) (p : Fin 5000) (c : Fin 2) :
    logits a s h d bb (ix2 p c) = zt a s h d bb p c := by
  unfold logits zt
  rw [addf_apply, addf_apply, mulf_apply, mulf_apply]
  simp only [shapeCast_self]
  rw [colBroadcast_apply, colBroadcast_apply, broadcastTo_1b_ab_apply]

/-- The row maximum at any column of row p is the larger of the row's two entries. -/
theorem rowMaxB_apply (Z : FVec Ideal S5000x2 .f32) (p : Fin 5000) (c : Fin 2) :
    rowMaxB Z (ix2 p c) = max (Z (ix2 p (0 : Fin 2))) (Z (ix2 p (1 : Fin 2))) := by
  unfold rowMaxB
  rw [colBroadcast_apply, col_apply]
  exact rowMax2_apply Z reduces_S5000x2_S5000 (.inl rfl) rfl p

theorem expo_apply (Z : FVec Ideal S5000x2 .f32) (p : Fin 5000) (c : Fin 2) :
    expo Z (ix2 p c) = Ideal.exp (Z (ix2 p c) - max (Z (ix2 p (0 : Fin 2))) (Z (ix2 p (1 : Fin 2)))) := by
  show Ideal.exp (Z (ix2 p c) - rowMaxB Z (ix2 p c)) = _
  rw [rowMaxB_apply]

/-- The softmax of a tile at (p, c). -/
theorem smax_apply (Z : FVec Ideal S5000x2 .f32) (p : Fin 5000) (c : Fin 2) :
    smax Z (ix2 p c)
      = Ideal.div (Ideal.exp (Z (ix2 p c) - max (Z (ix2 p (0 : Fin 2))) (Z (ix2 p (1 : Fin 2)))))
          (Ideal.exp (Z (ix2 p (0 : Fin 2)) - max (Z (ix2 p (0 : Fin 2))) (Z (ix2 p (1 : Fin 2))))
            + Ideal.exp (Z (ix2 p (1 : Fin 2)) - max (Z (ix2 p (0 : Fin 2))) (Z (ix2 p (1 : Fin 2))))) := by
  unfold smax
  rw [divf_apply, colBroadcast_apply, col_apply]
  refine congrArg₂ Ideal.div (expo_apply Z p c) ?_
  refine (rowSum2_apply (expo Z) reduces_S5000x2_S5000 (.inl rfl) rfl p).trans ?_
  rw [expo_apply, expo_apply]

/-- What the body stores at (p, c): the softmax of the row's two logits. -/
theorem pay1_apply (a : Vec Ideal S5000x2 .f32) (s : Vec Ideal S5000x1 .f32) (h : Vec Ideal S5000x2 .f32)
    (d : Vec Ideal S5000x1 .f32) (bb : Vec Ideal S1x2 .f32) (p : Fin 5000) (c : Fin 2) :
    k5_pay1 a s h d bb (ix2 p c)
      = Ideal.div (Ideal.exp (zt a s h d bb p c - max (zt a s h d bb p 0) (zt a s h d bb p 1)))
          (Ideal.exp (zt a s h d bb p 0 - max (zt a s h d bb p 0) (zt a s h d bb p 1))
            + Ideal.exp (zt a s h d bb p 1 - max (zt a s h d bb p 0) (zt a s h d bb p 1))) := by
  rw [pay1_eq, smax_apply, logits_apply, logits_apply, logits_apply]

/-- Tiles of rows of the inputs give the same tile of rows of the softmax of the combined logits. -/
theorem pay1_tile (a : Vec Ideal S5000x2 .f32) (s : Vec Ideal S5000x1 .f32) (h : Vec Ideal S5000x2 .f32)
    (d : Vec Ideal S5000x1 .f32) (bb : Vec Ideal S1x2 .f32)
    (A H : Mat 100000 2) (S D : Mat 100000 1) (B : Mat 1 2) (b : ℕ)
    (ha : ∀ (y : S5000x2.Idx) (i : S100000x2.Idx), (i 0).val = b * 5000 + (y 0).val → (i 1).val = (y 1).val → a y = A i)
    (hs : ∀ (y : S5000x1.Idx) (i : S100000x1.Idx), (i 0).val = b * 5000 + (y 0).val → (i 1).val = (y 1).val → s y = S i)
    (hh : ∀ (y : S5000x2.Idx) (i : S100000x2.Idx), (i 0).val = b * 5000 + (y 0).val → (i 1).val = (y 1).val → h y = H i)
    (hd : ∀ (y : S5000x1.Idx) (i : S100000x1.Idx), (i 0).val = b * 5000 + (y 0).val → (i 1).val = (y 1).val → d y = D i)
    (hb : ∀ y : S1x2.Idx, bb y = B y)
    (y : S5000x2.Idx) (i : S100000x2.Idx) (hi0 : (i 0).val = b * 5000 + (y 0).val) (hi1 : (i 1).val = (y 1).val) :
    k5_pay1 a s h d bb y = softmax2 (combine A H S D B) i := by
  obtain ⟨p, c, rfl⟩ : ∃ (p : Fin 5000) (c : Fin 2), y = ix2 p c := ⟨y 0, y 1, eq_ix2 y⟩
  obtain ⟨r, c', rfl⟩ : ∃ (r : Fin 100000) (c' : Fin 2), i = ix2 r c' := ⟨i 0, i 1, eq_ix2 i⟩
  have e0 : r.val = b * 5000 + p.val := hi0
  obtain rfl : c' = c := Fin.ext hi1
  have hz : ∀ k : Fin 2, zt a s h d bb p k = combine A H S D B (ix2 r k) := fun k => by
    unfold zt
    rw [combine_apply, ha (ix2 p k) (ix2 r k) e0 rfl, hs (ix2 p (0 : Fin 1)) (ix2 r (0 : Fin 1)) e0 rfl,
      hh (ix2 p k) (ix2 r k) e0 rfl, hd (ix2 p (0 : Fin 1)) (ix2 r (0 : Fin 1)) e0 rfl, hb]
  rw [pay1_apply, softmax2_apply, hz c', hz 0, hz 1]

end Cert.KernelIdeal.Region5

end
-- ==== Proof.KRegion5Blocks.lean ====
/-
  The last kernel's tiles, as pieces of its whole arrays.

  The kernel runs at 20 grid points.  At point t four of its inputs are rows 5000 t … 5000 t + 4999 of their arrays — the
  node's own transformed features (window 0), the summed neighbour rows (window 1) and the two per-row factors (windows
  2 and 3) —, the bias row (window 4) is whole at every point, and the output (window 5) is written back to the same
  rows of its array.  These relations are decided once over the grid from the kernel's index maps (idx_facts).  From
  them: an entry of an input's block is the entry of the input's array in the row the block's row is (iblk_0 … iblk_4);
  an index of the output array lies in point t's block exactly when its row lies in the block's range (mem_blk_5); and
  every row r lies in the block of the point r / 5000, so the 20 blocks cover the output array (cover_5).
-/
import proofs.«140138_j37512244363809_2_alg».proof.Proof.Gen.KernelIdeal.Frame
import proofs.«140138_j37512244363809_2_alg».proof.Proof.LibMatOps
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Region5

open Cert.KernelIdeal Cert.KernelIdeal.Gen Cert.Spec

variable (V : (c : Dev nD) → (b : Ref sig .tc) → Buf (Elt Ideal) ((c : Thread nD τ).loc b))

/-- The arrays the kernel's inputs are read from, as the region finds them. -/
abbrev X0 (c : Dev nD) : Mat 100000 2 := V c (Pipeline.arrRef spec5 0)
abbrev X1 (c : Dev nD) : Mat 100000 2 := V c (Pipeline.arrRef spec5 1)
abbrev X2 (c : Dev nD) : Mat 100000 1 := V c (Pipeline.arrRef spec5 2)
abbrev X3 (c : Dev nD) : Mat 100000 1 := V c (Pipeline.arrRef spec5 3)
abbrev X4 (c : Dev nD) : Mat 1 2 := V c (Pipeline.arrRef spec5 4)

/-- The block indices at point t: a window cut into tiles of rows is at block (t, 0), a window that is its whole array
    at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The block of the node's own features at point t holds rows 5000 t … of the whole array. -/
theorem iblk_0 (c : Dev nD) (t : Fin cfg5.N) (y : S5000x2.Idx) (i : S100000x2.Idx)
    (hi0 : (i 0).val = t.val * 5000 + (y 0).val) (hi1 : (i 1).val = (y 1).val) :
    (iblk5 V c 0 t : Vec Ideal S5000x2 .f32) y = X0 V c i := by
  obtain ⟨e0, e1, -⟩ := idx_facts t
  unfold iblk5
  rw [View.read_apply]
  show X0 V c (((cfg5.win 0).blk t).view.emb y) = X0 V c i
  refine congrArg (X0 V c) (funext fun a => Fin.ext ?_)
  match a with
  | ⟨0, _⟩ => show win5_0.index t (0 : Fin 2) * 5000 + 1 * (y 0).val = (i 0).val; rw [e0, hi0]; omega
  | ⟨1, _⟩ => show win5_0.index t (1 : Fin 2) * 2 + 1 * (y 1).val = (i 1).val; rw [e1, hi1]; omega

/-- The block of the summed neighbour rows at point t holds rows 5000 t … of the whole array. -/
theorem iblk_1 (c : Dev nD) (t : Fin cfg5.N) (y : S5000x2.Idx) (i : S100000x2.Idx)
    (hi0 : (i 0).val = t.val * 5000 + (y 0).val) (hi1 : (i 1).val = (y 1).val) :
    (iblk5 V c 1 t : Vec Ideal S5000x2 .f32) y = X1 V c i := by
  obtain ⟨-, -, e0, e1, -⟩ := idx_facts t
  unfold iblk5
  rw [View.read_apply]
  show X1 V c (((cfg5.win 1).blk t).view.emb y) = X1 V c i
  refine congrArg (X1 V c) (funext fun a => Fin.ext ?_)
  match a with
  | ⟨0, _⟩ => show win5_1.index t (0 : Fin 2) * 5000 + 1 * (y 0).val = (i 0).val; rw [e0, hi0]; omega
  | ⟨1, _⟩ => show win5_1.index t (1 : Fin 2) * 2 + 1 * (y 1).val = (i 1).val; rw [e1, hi1]; omega

/-- The block of the first per-row factor at point t holds rows 5000 t … of the whole array. -/
theorem iblk_2 (c : Dev nD) (t : Fin cfg5.N) (y : S5000x1.Idx) (i : S100000x1.Idx)
    (hi0 : (i 0).val = t.val * 5000 + (y 0).val) (hi1 : (i 1).val = (y 1).val) :
    (iblk5 V c 2 t : Vec Ideal S5000x1 .f32) y = X2 V c i := by
  obtain ⟨-, -, -, -, e0, e1, -⟩ := idx_facts t
  unfold iblk5
  rw [View.read_apply]
  show X2 V c (((cfg5.win 2).blk t).view.emb y) = X2 V c i
  refine congrArg (X2 V c) (funext fun a => Fin.ext ?_)
  match a with
  | ⟨0, _⟩ => show win5_2.index t (0 : Fin 2) * 5000 + 1 * (y 0).val = (i 0).val; rw [e0, hi0]; omega
  | ⟨1, _⟩ => show win5_2.index t (1 : Fin 2) * 1 + 1 * (y 1).val = (i 1).val; rw [e1, hi1]; omega

/-- The block of the second per-row factor at point t holds rows 5000 t … of the whole array. -/
theorem iblk_3 (c : Dev nD) (t : Fin cfg5.N) (y : S5000x1.Idx) (i : S100000x1.Idx)
    (hi0 : (i 0).val = t.val * 5000 + (y 0).val) (hi1 : (i 1).val = (y 1).val) :
    (iblk5 V c 3 t : Vec Ideal S5000x1 .f32) y = X3 V c i := by
  obtain ⟨-, -, -, -, -, -, e0, e1, -⟩ := idx_facts t
  unfold iblk5
  rw [View.read_apply]
  show X3 V c (((cfg5.win 3).blk t).view.emb y) = X3 V c i
  refine congrArg (X3 V c) (funext fun a => Fin.ext ?_)
  match a with
  | ⟨0, _⟩ => show win5_3.index t (0 : Fin 2) * 5000 + 1 * (y 0).val = (i 0).val; rw [e0, hi0]; omega
  | ⟨1, _⟩ => show win5_3.index t (1 : Fin 2) * 1 + 1 * (y 1).val = (i 1).val; rw [e1, hi1]; omega

/-- The block of the bias row at any point is the whole array. -/
theorem iblk_4 (c : Dev nD) (t : Fin cfg5.N) (y : S1x2.Idx) :
    (iblk5 V c 4 t : Vec Ideal S1x2 .f32) y = X4 V c y := by
  obtain ⟨-, -, -, -, -, -, -, -, e0, e1, -⟩ := idx_facts t
  unfold iblk5
  rw [View.read_apply]
  show X4 V c (((cfg5.win 4).blk t).view.emb y) = X4 V c y
  refine congrArg (X4 V c) (funext fun a => Fin.ext ?_)
  match a with
  | ⟨0, _⟩ => show win5_4.index t (0 : Fin 2) * 1 + 1 * (y 0).val = (y 0).val; rw [e0]; omega
  | ⟨1, _⟩ => show win5_4.index t (1 : Fin 2) * 2 + 1 * (y 1).val = (y 1).val; rw [e1]; omega

/-- An index of the array of the output is in point t's block iff each coordinate is in the block's range on its axis. -/
theorem mem_blk_5 (t : Fin cfg5.N) (i : S100000x2.Idx) :
    i ∈ ((cfg5.win 5).blk t).view.set ↔ ∀ a : Fin 2, win5_5.index t a * S5000x2.size a ≤ (i a).val
      ∧ (i a).val < win5_5.index t a * S5000x2.size a + S5000x2.size a := by
  show i ∈ ((View.whole main_v87).slice (win5_5.rect t)).set ↔ _
  rw [View.set_slice_whole, Rect.mem_set_unit]
  exact Iff.rfl

/-- Row r of the array of the output is written back by the point r / 5000. -/
theorem cover_5 (i : S100000x2.Idx) :
    ∃ t : Fin cfg5.N, (cfg5.win 5).flush t = true ∧ i ∈ ((cfg5.win 5).blk t).view.set := by
  have hi0 : (i 0).val < 100000 := (i 0).isLt
  have hi1 : (i 1).val < 2 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, -, -, -, -, -, -, e0, e1⟩ := idx_facts t
  refine ⟨t, flush5_5 t, ?_⟩
  rw [mem_blk_5]
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 2 ≤ (i 1).val ∧ (i 1).val < win5_5.index t (1 : Fin 2) * 2 + 2
    rw [e1]; omega

end Cert.KernelIdeal.Region5

end
-- ==== Proof.KRegion5.lean ====
/-
  The last kernel's output array after its 20 grid points, as a function of its whole input arrays.

  With H the node's own transformed features, A the summed neighbour rows, S and D the two per-row factors and B the
  bias row as the kernel finds them, the output array ends holding the softmax along each row of the logits
  A · S + H · D + B  (each row of A scaled by its entry of S, each row of H by its entry of D, B added to every row).

  Point t writes back, into rows 5000 t … 5000 t + 4999, the softmax of the logits of its blocks; those blocks are the
  same rows of the whole arrays and every step works inside one row, so what point t writes back is exactly its block
  of the whole function (wrote_5).  The 20 blocks cover every row, so the array ends holding the whole function (out_eq).
-/
import proofs.«140138_j37512244363809_2_alg».proof.Proof.KRegion5Pay
import proofs.«140138_j37512244363809_2_alg».proof.Proof.KRegion5Blocks

noncomputable section

open Idealize.ShloMosaic Idealize.ShloMosaic.TcCoe Idealize.ShloMosaic.ValueIdx Idealize.SL.Sem
open Idealize.ShloMosaic.Pipeline (Dat)

namespace Cert.KernelIdeal.Region5

open Cert.KernelIdeal Cert.KernelIdeal.Gen Cert.Spec Cert.Gcn Cert.Tiles

variable (V : (c : Dev nD) → (b : Ref sig .tc) → Buf (Elt Ideal) ((c : Thread nD τ).loc b))

/-- What point t writes back into the output array is its block of the softmax of the combined logits. -/
theorem wrote_5 (c : Dev nD) (t : Fin cfg5.N) :
    (dat5 V c).flushed 5 t
      = ((cfg5.win 5).blk t).view.read (Elt Ideal)
          (softmax2 (combine (X1 V c) (X0 V c) (X2 V c) (X3 V c) (X4 V c))) := by
  show (cfg5.win 5).cut (grid5.coords t) ((dat5 V c).after 5 t) = _
  rw [after5_5]
  unfold out5_5
  rw [View.canon_unit_zero zeros2]
  simp only [View.ld_unit_zero (S := S5000x2) zeros2, View.ld_unit_zero (S := S5000x1) zeros2,
    View.ld_unit_zero (S := S1x2) zeros2]
  obtain ⟨-, -, -, -, -, -, -, -, -, -, e0, e1⟩ := idx_facts t
  funext y
  show k5_pay1 (iblk5 V c 1 t) (iblk5 V c 2 t) (iblk5 V c 0 t) (iblk5 V c 3 t) (iblk5 V c 4 t)
        ((cfg5.win 5).xinj (grid5.coords t) y)
      = softmax2 (combine (X1 V c) (X0 V c) (X2 V c) (X3 V c) (X4 V c)) (((cfg5.win 5).blk t).view.emb y)
  refine pay1_tile (iblk5 V c 1 t) (iblk5 V c 2 t) (iblk5 V c 0 t) (iblk5 V c 3 t) (iblk5 V c 4 t)
    (X1 V c) (X0 V c) (X2 V c) (X3 V c) (X4 V c) t.val
    (iblk_1 V c t) (iblk_2 V c t) (iblk_0 V c t) (iblk_3 V c t) (iblk_4 V c t)
    ((cfg5.win 5).xinj (grid5.coords t) y) (((cfg5.win 5).blk t).view.emb y) ?_ ?_
  · show win5_5.index t (0 : Fin 2) * 5000 + 1 * (y 0).val = t.val * 5000 + (y 0).val
    rw [e0]; omega
  · show win5_5.index t (1 : Fin 2) * 2 + 1 * (y 1).val = (y 1).val
    rw [e1]; omega

/-- The output array after the region: the softmax along each row of the combined logits. -/
theorem out_eq (c : Dev nD) :
    (dat5 V c).arrAt 5 cfg5.N
      = softmax2 (combine (V c (Pipeline.arrRef spec5 1) : Mat 100000 2) (V c (Pipeline.arrRef spec5 0) : Mat 100000 2)
          (V c (Pipeline.arrRef spec5 2) : Mat 100000 1) (V c (Pipeline.arrRef spec5 3) : Mat 100000 1)
          (V c (Pipeline.arrRef spec5 4) : Mat 1 2)) :=
  (dat5 V c).arrAt_eq_of_cover 5 (softmax2 (combine (X1 V c) (X0 V c) (X2 V c) (X3 V c) (X4 V c)))
    (fun t _ => wrote_5 V c t) cover_5

end Cert.KernelIdeal.Region5

end
-- ==== Proof.KHostStats.lean ====
/-
  The two lines of host operations that turn a region's column sums into the next region's column statistics.

  After the second and after the fourth region the program holds two rows: S, the sum down each column of the
  region's output, and Q, the sum of the squares.  The line of host operations that follows flattens each row to a
  vector, divides by the row count cnt (the word of 100000.0), and forms, entry by entry,

      mean = S / cnt,        inv = rsqrt (max (Q / cnt − mean · mean) 0 + ε),

  lays both as one row again, and lays the two parameter vectors g and β of the normalisation as one row each.
  meanOf and invOf below are these two rows as functions of S and Q for any width.  When S and Q are the column sums
  and the column sums of squares of an array Y, they are the column means of Y and the reciprocal square root of its
  variance (mean of squares less squared mean, kept non-negative) plus ε — by definition, whatever the number of rows.
-/
import proofs.«140138_j37512244363809_2_alg».proof.Proof.Gen.KernelIdeal.Launch
import proofs.«140138_j37512244363809_2_alg».proof.Proof.GcnArgs
import proofs.«140138_j37512244363809_2_alg».proof.Proof.LibHostRead
import proofs.«140138_j37512244363809_2_alg».proof.Proof.LibReadLine
import Idealize.ShloMosaic.Lib.ValueLayout

set_option maxRecDepth 16384

noncomputable section

open scoped BigOperators

namespace Cert.KernelIdeal.KHost

open Idealize.ShloMosaic Idealize.ShloMosaic.TcCoe Idealize.ShloMosaic.ValueIdx Idealize.SL.Sem
open Cert.KernelIdeal Cert.KernelIdeal.Gen Cert.Spec Cert.Gcn Cert.GcnArgs

variable {n d : ℕ}

/-- The column means from the row of column sums. -/
def meanOf (S : Mat 1 d) : Mat 1 d := fun i => Ideal.div (S (ix2 (0 : Fin 1) (i 1))) cnt

/-- The reciprocal standard deviations from the rows of column sums and of sums of squares. -/
def invOf (S Q : Mat 1 d) : Mat 1 d := fun i =>
  Ideal.rsqrt (max (Ideal.div (Q (ix2 (0 : Fin 1) (i 1))) cnt - meanOf S i * meanOf S i) 0 + eps)

/-- Of an array's column sums, the means are the array's column means. -/
theorem meanOf_colSum (Y : Mat n d) : meanOf (colSum Y) = colMean Y cnt := rfl

/-- Of an array's column sums and sums of squares, the second row is rsqrt (variance + ε), the variance as the mean
    of the squares less the squared mean, kept non-negative. -/
theorem invOf_col (Y : Mat n d) : invOf (colSum Y) (colSumSq Y) = fun i => Ideal.rsqrt (varK Y cnt i + eps) := rfl

/-- Normalising with a given row of reciprocal deviations rsqrt (VAR + ε) is normalising with the row VAR. -/
theorem normRelu0_eq (ε : EReal) (Y : Mat n d) (MU VAR G BT : Mat 1 d) :
    normRelu0 Y MU (fun i => Ideal.rsqrt (VAR i + ε)) G BT = normRelu ε Y MU VAR G BT := rfl

/-! ## The statistics a line of host operations makes of two rows of sums, for any width -/

/-- A scalar word spread over any shape reads, everywhere, the number the word denotes. -/
theorem fill_apply {T : Shape} (w : BitVec 32) (h : (⟨0, ![]⟩ : Shape).BroadcastsInDim T ![]) (i : T.Idx) :
    broadcastInDim T ![] h (constant (F := Ideal) ⟨0, ![]⟩ .f32 w) i = Ideal.ofBits .f32 w := by
  rw [broadcastInDim_scalar_apply, constant_apply]

/-- The row of sums, flattened, divided entry by entry by the row count, laid as one row again: the means. -/
theorem mean_read (S : Mat 1 d) (h1 : (⟨2, ![1, d]⟩ : Shape).ShapeCasts ⟨1, ![d]⟩)
    (h2 : (⟨1, ![d]⟩ : Shape).ShapeCasts ⟨2, ![1, d]⟩) (hb : (⟨0, ![]⟩ : Shape).BroadcastsInDim ⟨1, ![d]⟩ ![]) :
    shapeCast ⟨2, ![1, d]⟩
      (Host.divf (F := Ideal) (φ := .f32) (shapeCast ⟨1, ![d]⟩ S h1)
        (broadcastInDim ⟨1, ![d]⟩ ![] hb (constant (F := Ideal) ⟨0, ![]⟩ .f32 0x47C35000#32))) h2 = meanOf S := by
  funext i
  obtain ⟨z, j, rfl⟩ : ∃ (z : Fin 1) (j : Fin d), i = ix2 z j := ⟨i 0, i 1, eq_ix2 i⟩
  rw [shapeCast_a_1a_apply]
  show Ideal.div (shapeCast ⟨1, ![d]⟩ S h1 (ix1 j))
      (broadcastInDim ⟨1, ![d]⟩ ![] hb (constant (F := Ideal) ⟨0, ![]⟩ .f32 0x47C35000#32) (ix1 j)) = _
  rw [shapeCast_1a_a_apply, fill_apply]
  rfl

/-- The same line's other result: from the flattened rows of sums S and of sums of squares Q, entry by entry,
    Q / cnt − (S / cnt) · (S / cnt), kept non-negative, plus ε, under the reciprocal square root; laid as one row. -/
theorem inv_read (S Q : Mat 1 d) (h1 : (⟨2, ![1, d]⟩ : Shape).ShapeCasts ⟨1, ![d]⟩)
    (h2 : (⟨1, ![d]⟩ : Shape).ShapeCasts ⟨2, ![1, d]⟩) (hb : (⟨0, ![]⟩ : Shape).BroadcastsInDim ⟨1, ![d]⟩ ![]) :
    shapeCast ⟨2, ![1, d]⟩
      (Host.rsqrt (F := Ideal) (φ := .f32)
        (addf
          (maximumf
            (subf
              (Host.divf (F := Ideal) (φ := .f32) (shapeCast ⟨1, ![d]⟩ Q h1)
                (broadcastInDim ⟨1, ![d]⟩ ![] hb (constant (F := Ideal) ⟨0, ![]⟩ .f32 0x47C35000#32)))
              (mulf
                (Host.divf (F := Ideal) (φ := .f32) (shapeCast ⟨1, ![d]⟩ S h1)
                  (broadcastInDim ⟨1, ![d]⟩ ![] hb (constant (F := Ideal) ⟨0, ![]⟩ .f32 0x47C35000#32)))
                (Host.divf (F := Ideal) (φ := .f32) (shapeCast ⟨1, ![d]⟩ S h1)
                  (broadcastInDim ⟨1, ![d]⟩ ![] hb (constant (F := Ideal) ⟨0, ![]⟩ .f32 0x47C35000#32)))))
            (broadcastInDim ⟨1, ![d]⟩ ![] hb (constant (F := Ideal) ⟨0, ![]⟩ .f32 0x00000000#32)))
          (broadcastInDim ⟨1, ![d]⟩ ![] hb (constant (F := Ideal) ⟨0, ![]⟩ .f32 0x3727C5AC#32)))) h2 = invOf S Q := by
  funext i
  obtain ⟨z, j, rfl⟩ : ∃ (z : Fin 1) (j : Fin d), i = ix2 z j := ⟨i 0, i 1, eq_ix2 i⟩
  rw [shapeCast_a_1a_apply]
  show Ideal.rsqrt
      (max
          (Ideal.div (shapeCast ⟨1, ![d]⟩ Q h1 (ix1 j))
              (broadcastInDim ⟨1, ![d]⟩ ![] hb (constant (F := Ideal) ⟨0, ![]⟩ .f32 0x47C35000#32) (ix1 j))
            - Ideal.div (shapeCast ⟨1, ![d]⟩ S h1 (ix1 j))
                (broadcastInDim ⟨1, ![d]⟩ ![] hb (constant (F := Ideal) ⟨0, ![]⟩ .f32 0x47C35000#32) (ix1 j))
              * Ideal.div (shapeCast ⟨1, ![d]⟩ S h1 (ix1 j))
                (broadcastInDim ⟨1, ![d]⟩ ![] hb (constant (F := Ideal) ⟨0, ![]⟩ .f32 0x47C35000#32) (ix1 j)))
          (broadcastInDim ⟨1, ![d]⟩ ![] hb (constant (F := Ideal) ⟨0, ![]⟩ .f32 0x00000000#32) (ix1 j))
        + broadcastInDim ⟨1, ![d]⟩ ![] hb (constant (F := Ideal) ⟨0, ![]⟩ .f32 0x3727C5AC#32) (ix1 j)) = _
  rw [shapeCast_1a_a_apply, shapeCast_1a_a_apply, Cert.HostRead.fill_zero_apply, fill_apply, fill_apply]
  rfl

/-- A length-d vector reshaped to one row. -/
theorem row_read (v : (⟨1, ![d]⟩ : Shape).Idx → EReal) (h : (⟨1, ![d]⟩ : Shape).ShapeCasts ⟨2, ![1, d]⟩) :
    shapeCast ⟨2, ![1, d]⟩ v h = rowOf v := by
  funext i
  obtain ⟨z, j, rfl⟩ : ∃ (z : Fin 1) (j : Fin d), i = ix2 z j := ⟨i 0, i 1, eq_ix2 i⟩
  exact shapeCast_a_1a_apply v h z j

/-! ## The two lines of the program, entered with any contents W -/

variable (W : Valuation τ sig (Elt Ideal))

theorem h2_mean : StableHlo.after hostOps2 W (Proc.devRef .tc main_v41) = meanOf (W (Proc.devRef .tc main_v27_1)) := by
  simp only [hostOps2]
  read_line
  exact mean_read _ _ _ _

theorem h2_inv : StableHlo.after hostOps2 W (Proc.devRef .tc main_v42)
    = invOf (W (Proc.devRef .tc main_v27_1)) (W (Proc.devRef .tc main_v27_2)) := by
  simp only [hostOps2]
  read_line
  exact inv_read _ _ _ _ _

theorem h2_g : StableHlo.after hostOps2 W (Proc.devRef .tc main_v43) = rowOf (W (Proc.devRef .tc main_arg3)) := by
  simp only [hostOps2]
  read_line
  exact row_read _ _

theorem h2_be : StableHlo.after hostOps2 W (Proc.devRef .tc main_v44) = rowOf (W (Proc.devRef .tc main_arg4)) := by
  simp only [hostOps2]
  read_line
  exact row_read _ _

theorem h4_mean : StableHlo.after hostOps4 W (Proc.devRef .tc main_v71) = meanOf (W (Proc.devRef .tc main_v57_1)) := by
  simp only [hostOps4]
  read_line
  exact mean_read _ _ _ _

theorem h4_inv : StableHlo.after hostOps4 W (Proc.devRef .tc main_v72)
    = invOf (W (Proc.devRef .tc main_v57_1)) (W (Proc.devRef .tc main_v57_2)) := by
  simp only [hostOps4]
  read_line
  exact inv_read _ _ _ _ _

theorem h4_g : StableHlo.after hostOps4 W (Proc.devRef .tc main_v73) = rowOf (W (Proc.devRef .tc main_arg7)) := by
  simp only [hostOps4]
  read_line
  exact row_read _ _

theorem h4_be : StableHlo.after hostOps4 W (Proc.devRef .tc main_v74) = rowOf (W (Proc.devRef .tc main_arg8)) := by
  simp only [hostOps4]
  read_line
  exact row_read _ _

end Cert.KernelIdeal.KHost

end
-- ==== Proof.KValue2.lean ====
/-
  The second and third layers and the softmax of the idealized kernel, boundary by boundary: each layer's host
  operations turn the column sums into the column means and the reciprocal square roots of the one-pass variances, the
  fused region normalises, keeps the positive part and multiplies by the next weight, the host sums the scaled rows along
  the edges, and the next region combines the three terms.  At the last boundary the result buffer holds the softmax of
  the third convolution.
-/
import proofs.«140138_j37512244363809_2_alg».proof.Proof.KValue1
import proofs.«140138_j37512244363809_2_alg».proof.Proof.KRegion2
import proofs.«140138_j37512244363809_2_alg».proof.Proof.KRegion3Acc
import proofs.«140138_j37512244363809_2_alg».proof.Proof.KRegion4
import proofs.«140138_j37512244363809_2_alg».proof.Proof.KRegion5
import proofs.«140138_j37512244363809_2_alg».proof.Proof.KHostStats

noncomputable section

namespace Cert.KernelIdeal.KValue

open Cert.KernelIdeal Cert.KernelIdeal.Gen Cert.KernelIdeal.KHost
open Idealize.ShloMosaic Idealize.ShloMosaic.TcCoe Idealize.ShloMosaic.ValueIdx
open Cert.Spec Cert.Gcn Cert.GcnArgs

variable (m : (ℓ : Loc nD τ sig) → Buf (Elt Ideal) ℓ) (ρ : Dev nD → PrngReg) (c : Dev nD)

/-! ## The second layer: statistics of Y₁, the fused normalisation and product, the second edge sum -/

theorem w5_mean : W5 m ρ c (Proc.devRef .tc main_v41) = colMean (Y1 m c) cnt :=
  (h2_mean (W4 m ρ c)).trans ((congrArg meanOf (w4_sum m ρ c)).trans (meanOf_colSum _))
theorem w5_inv : W5 m ρ c (Proc.devRef .tc main_v42) = (fun i => Ideal.rsqrt (varK (Y1 m c) cnt i + eps)) :=
  (h2_inv (W4 m ρ c)).trans ((congrArg₂ invOf (w4_sum m ρ c) (w4_sq m ρ c)).trans (invOf_col _))
theorem w5_g : W5 m ρ c (Proc.devRef .tc main_v43) = ag1 m c :=
  (h2_g (W4 m ρ c)).trans (congrArg rowOf (KKeep.W4_arg3 m ρ c))
theorem w5_be : W5 m ρ c (Proc.devRef .tc main_v44) = abe1 m c :=
  (h2_be (W4 m ρ c)).trans (congrArg rowOf (KKeep.W4_arg4 m ρ c))

theorem act1 : normRelu0 (V5 m ρ c (Pipeline.arrRef spec2 0) : Mat 100000 128) (V5 m ρ c (Pipeline.arrRef spec2 1) : Mat 1 128)
      (V5 m ρ c (Pipeline.arrRef spec2 2) : Mat 1 128) (V5 m ρ c (Pipeline.arrRef spec2 3) : Mat 1 128)
      (V5 m ρ c (Pipeline.arrRef spec2 4) : Mat 1 128) = A1 m c :=
  (normRelu0_congr ((KKeep.W5_v27_0 m ρ c).trans (w4_y m ρ c)) (w5_mean m ρ c) (w5_inv m ρ c)
      (w5_g m ρ c) (w5_be m ρ c)).trans
    ((normRelu0_rsqrt eps (Y1 m c) (colMean (Y1 m c) cnt) (varK (Y1 m c) cnt) (ag1 m c) (abe1 m c)).trans
      (actK_def eps cnt (Y1 m c) (ag1 m c) (abe1 m c)))

theorem w6_h : W6 m ρ c (Proc.devRef .tc main_v45_0) = H2 m c :=
  ((hF2 m ρ c 7).symm.trans (Region2.h_eq (V5 m ρ) c)).trans
    (congrArg₂ mm (act1 m ρ c) (KKeep.W5_arg5 m ρ c))
theorem w6_hs : W6 m ρ c (Proc.devRef .tc main_v45_1) = scaleRows (H2 m c) (dis m c) :=
  ((hF2 m ρ c 8).symm.trans (Region2.hs_eq (V5 m ρ) c)).trans
    (congrArg₂ scaleRows (congrArg₂ mm (act1 m ρ c) (KKeep.W5_arg5 m ρ c))
      ((KKeep.W5_v13 m ρ c).trans (w1_dis m ρ c)))

theorem w7_agg : W7 m ρ c (Proc.devRef .tc main_v55) = gsum (gr m c) (scaleRows (H2 m c) (dis m c)) :=
  (h3_agg (W6 m ρ c)).trans
    (congrArg₂ gsum (graph_of m ρ c (KKeep.W6_v1 m ρ c) (KKeep.W6_v3 m ρ c)) (w6_hs m ρ c))
theorem w7_b : W7 m ρ c (Proc.devRef .tc main_v56) = ab2 m c :=
  (h3_b (W6 m ρ c)).trans (congrArg rowOf (KKeep.W6_arg6 m ρ c))

/-! ## Region 3: the second combination and its column sums -/

theorem comb2 : combine (V7 m ρ c (Pipeline.arrRef spec3 1) : Mat 100000 128) (V7 m ρ c (Pipeline.arrRef spec3 0) : Mat 100000 128)
      (V7 m ρ c (Pipeline.arrRef spec3 2) : Mat 100000 1) (V7 m ρ c (Pipeline.arrRef spec3 3) : Mat 100000 1)
      (V7 m ρ c (Pipeline.arrRef spec3 4) : Mat 1 128) = Y2 m c :=
  (combine_congr (w7_agg m ρ c) ((KKeep.W7_v45_0 m ρ c).trans (w6_h m ρ c))
      ((KKeep.W7_v13 m ρ c).trans (w1_dis m ρ c)) ((KKeep.W7_v14 m ρ c).trans (w1_di m ρ c)) (w7_b m ρ c)).trans
    (combine_gsum (gr m c) (H2 m c) (dis m c) (di m c) (ab2 m c))

theorem w8_y : W8 m ρ c (Proc.devRef .tc main_v57_0) = Y2 m c :=
  ((hF3 m ρ c 5).symm.trans (Region3.y_eq (V7 m ρ) c)).trans (comb2 m ρ c)
theorem w8_sum : W8 m ρ c (Proc.devRef .tc main_v57_1) = colSum (Y2 m c) :=
  ((hF3 m ρ c 6).symm.trans (Region3.sum_eq (V7 m ρ) c)).trans (congrArg colSum (comb2 m ρ c))
theorem w8_sq : W8 m ρ c (Proc.devRef .tc main_v57_2) = colSumSq (Y2 m c) :=
  ((hF3 m ρ c 7).symm.trans (Region3.sq_eq (V7 m ρ) c)).trans (congrArg colSumSq (comb2 m ρ c))

/-! ## The third layer: statistics of Y₂, the fused normalisation and product, the third edge sum -/

theorem w9_mean : W9 m ρ c (Proc.devRef .tc main_v71) = colMean (Y2 m c) cnt :=
  (h4_mean (W8 m ρ c)).trans ((congrArg meanOf (w8_sum m ρ c)).trans (meanOf_colSum _))
theorem w9_inv : W9 m ρ c (Proc.devRef .tc main_v72) = (fun i => Ideal.rsqrt (varK (Y2 m c) cnt i + eps)) :=
  (h4_inv (W8 m ρ c)).trans ((congrArg₂ invOf (w8_sum m ρ c) (w8_sq m ρ c)).trans (invOf_col _))
theorem w9_g : W9 m ρ c (Proc.devRef .tc main_v73) = ag2 m c :=
  (h4_g (W8 m ρ c)).trans (congrArg rowOf (KKeep.W8_arg7 m ρ c))
theorem w9_be : W9 m ρ c (Proc.devRef .tc main_v74) = abe2 m c :=
  (h4_be (W8 m ρ c)).trans (congrArg rowOf (KKeep.W8_arg8 m ρ c))

theorem act2 : normRelu0 (V9 m ρ c (Pipeline.arrRef spec4 0) : Mat 100000 128) (V9 m ρ c (Pipeline.arrRef spec4 1) : Mat 1 128)
      (V9 m ρ c (Pipeline.arrRef spec4 2) : Mat 1 128) (V9 m ρ c (Pipeline.arrRef spec4 3) : Mat 1 128)
      (V9 m ρ c (Pipeline.arrRef spec4 4) : Mat 1 128) = A2 m c :=
  (normRelu0_congr ((KKeep.W9_v57_0 m ρ c).trans (w8_y m ρ c)) (w9_mean m ρ c) (w9_inv m ρ c)
      (w9_g m ρ c) (w9_be m ρ c)).trans
    ((normRelu0_rsqrt eps (Y2 m c) (colMean (Y2 m c) cnt) (varK (Y2 m c) cnt) (ag2 m c) (abe2 m c)).trans
      (actK_def eps cnt (Y2 m c) (ag2 m c) (abe2 m c)))

theorem w10_h : W10 m ρ c (Proc.devRef .tc main_v75_0) = H3 m c :=
  ((hF4 m ρ c 7).symm.trans (Region4.h_eq (V9 m ρ) c)).trans
    (congrArg₂ mm (act2 m ρ c) (KKeep.W9_arg9 m ρ c))
theorem w10_hs : W10 m ρ c (Proc.devRef .tc main_v75_1) = scaleRows (H3 m c) (dis m c) :=
  ((hF4 m ρ c 8).symm.trans (Region4.hs_eq (V9 m ρ) c)).trans
    (congrArg₂ scaleRows (congrArg₂ mm (act2 m ρ c) (KKeep.W9_arg9 m ρ c))
      ((KKeep.W9_v13 m ρ c).trans (w1_dis m ρ c)))

theorem w11_agg : W11 m ρ c (Proc.devRef .tc main_v85) = gsum (gr m c) (scaleRows (H3 m c) (dis m c)) :=
  (h5_agg (W10 m ρ c)).trans
    (congrArg₂ gsum (graph_of m ρ c (KKeep.W10_v1 m ρ c) (KKeep.W10_v3 m ρ c)) (w10_hs m ρ c))
theorem w11_b : W11 m ρ c (Proc.devRef .tc main_v86) = ab3 m c :=
  (h5_b (W10 m ρ c)).trans (congrArg rowOf (KKeep.W10_arg10 m ρ c))

/-! ## Region 5: the third combination and the softmax -/

theorem comb3 : combine (V11 m ρ c (Pipeline.arrRef spec5 1) : Mat 100000 2) (V11 m ρ c (Pipeline.arrRef spec5 0) : Mat 100000 2)
      (V11 m ρ c (Pipeline.arrRef spec5 2) : Mat 100000 1) (V11 m ρ c (Pipeline.arrRef spec5 3) : Mat 100000 1)
      (V11 m ρ c (Pipeline.arrRef spec5 4) : Mat 1 2) = Z m c :=
  (combine_congr (w11_agg m ρ c) ((KKeep.W11_v75_0 m ρ c).trans (w10_h m ρ c))
      ((KKeep.W11_v13 m ρ c).trans (w1_dis m ρ c)) ((KKeep.W11_v14 m ρ c).trans (w1_di m ρ c)) (w11_b m ρ c)).trans
    (combine_gsum (gr m c) (H3 m c) (dis m c) (di m c) (ab3 m c))

/-- At the last boundary the result buffer holds the network of the arguments. -/
theorem result : W12 m ρ c (Proc.devRef .tc main_v87) = out m c :=
  ((hF5 m ρ c 5).symm.trans (Region5.out_eq (V11 m ρ) c)).trans (congrArg softmax2 (comb3 m ρ c))

end Cert.KernelIdeal.KValue

end
-- ==== Proof.RefOpsPre.lean ====
/-
  One stretch of the plain program for the three-layer graph convolution, as the list of its operations in order.
  The edge list and the degrees: the two rows of the edge array as vectors of source and target indices, the number of edges into each node by adding a one at every target index, the degree as that count plus one, its reciprocal square root and its reciprocal.
  An operation of an outlined function stands at its call, over the buffers that call names.  Beside the list: every
  operation touches only device buffers; none leaves a buffer undetermined; and a buffer that is no operation's result
  holds after the stretch what it held before, whatever the stretch is entered with.
-/
import proofs.«140138_j37512244363809_2_alg».proof.Proof.Gen.ReferenceIdeal
import Idealize.ShloMosaic.Lib.StableHlo.Run
import proofs.«140138_j37512244363809_2_alg».proof.Proof.LibHostKeeps

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibHostKeeps

variable {F : FTy → Type} [FloatOps F]

/-- The stretch's 17 operations, in order. -/
abbrev s_pre : List (HloOp τ sig (Elt F)) :=
  [ StableHlo.unary main_arg11 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg11 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)),
    StableHlo.nullary main_cst_2 (constant S_ .f32 0x3F800000#32),
    StableHlo.unary main_cst_2 main_v11 (broadcastInDim S100000 ![] bcast_S_S100000 : (⟨S_, .f32⟩ : BufTy).Contents (Elt F) → (⟨S100000, .f32⟩ : BufTy).Contents (Elt F)),
    StableHlo.binary main_v11 main_v9 main_v12 (Host.divf : (⟨S100000, .f32⟩ : BufTy).Contents (Elt F) → (⟨S100000, .f32⟩ : BufTy).Contents (Elt F) → (⟨S100000, .f32⟩ : BufTy).Contents (Elt F)) ]

/-- Every operation of the stretch touches only buffers of the device. -/
theorem s_pre_sub : (s_pre : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub ..⟩

/-- Every operation of the stretch determines its result. -/
theorem s_pre_fresh : ∀ op ∈ (s_pre : List (HloOp τ sig (Elt F))), op.fresh = ∅ := by
  intro _ h; (repeat (cases h with | head => rfl | tail _ h => ?_)); exact nomatch h

theorem s_pre_keeps_arg0 (W : Valuation τ sig (Elt F)) :
    after s_pre W (Proc.devRef .tc main_arg0) = W (Proc.devRef .tc main_arg0) := by host_keeps s_pre
theorem s_pre_keeps_arg1 (W : Valuation τ sig (Elt F)) :
    after s_pre W (Proc.devRef .tc main_arg1) = W (Proc.devRef .tc main_arg1) := by host_keeps s_pre
theorem s_pre_keeps_arg2 (W : Valuation τ sig (Elt F)) :
    after s_pre W (Proc.devRef .tc main_arg2) = W (Proc.devRef .tc main_arg2) := by host_keeps s_pre
theorem s_pre_keeps_arg3 (W : Valuation τ sig (Elt F)) :
    after s_pre W (Proc.devRef .tc main_arg3) = W (Proc.devRef .tc main_arg3) := by host_keeps s_pre
theorem s_pre_keeps_arg4 (W : Valuation τ sig (Elt F)) :
    after s_pre W (Proc.devRef .tc main_arg4) = W (Proc.devRef .tc main_arg4) := by host_keeps s_pre
theorem s_pre_keeps_arg5 (W : Valuation τ sig (Elt F)) :
    after s_pre W (Proc.devRef .tc main_arg5) = W (Proc.devRef .tc main_arg5) := by host_keeps s_pre
theorem s_pre_keeps_arg6 (W : Valuation τ sig (Elt F)) :
    after s_pre W (Proc.devRef .tc main_arg6) = W (Proc.devRef .tc main_arg6) := by host_keeps s_pre
theorem s_pre_keeps_arg7 (W : Valuation τ sig (Elt F)) :
    after s_pre W (Proc.devRef .tc main_arg7) = W (Proc.devRef .tc main_arg7) := by host_keeps s_pre
theorem s_pre_keeps_arg8 (W : Valuation τ sig (Elt F)) :
    after s_pre W (Proc.devRef .tc main_arg8) = W (Proc.devRef .tc main_arg8) := by host_keeps s_pre
theorem s_pre_keeps_arg9 (W : Valuation τ sig (Elt F)) :
    after s_pre W (Proc.devRef .tc main_arg9) = W (Proc.devRef .tc main_arg9) := by host_keeps s_pre
theorem s_pre_keeps_arg10 (W : Valuation τ sig (Elt F)) :
    after s_pre W (Proc.devRef .tc main_arg10) = W (Proc.devRef .tc main_arg10) := by host_keeps s_pre
theorem s_pre_keeps_arg11 (W : Valuation τ sig (Elt F)) :
    after s_pre W (Proc.devRef .tc main_arg11) = W (Proc.devRef .tc main_arg11) := by host_keeps s_pre

end Cert.ReferenceIdeal.RefRun

end
-- ==== Proof.RefOpsConv1.lean ====
/-
  One stretch of the plain program for the three-layer graph convolution, as the list of its operations in order.
  The first convolution: the features times the first weight; along every edge the source's row of that product, scaled by the product of the two end nodes' reciprocal square-root degrees, is added into the target's row; the node's own row scaled by its reciprocal degree and the bias row are added.
  An operation of an outlined function stands at its call, over the buffers that call names.  Beside the list: every
  operation touches only device buffers; none leaves a buffer undetermined; and a buffer that is no operation's result
  holds after the stretch what it held before, whatever the stretch is entered with.
-/
import proofs.«140138_j37512244363809_2_alg».proof.Proof.Gen.ReferenceIdeal
import Idealize.ShloMosaic.Lib.StableHlo.Run
import proofs.«140138_j37512244363809_2_alg».proof.Proof.LibHostKeeps

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibHostKeeps

variable {F : FTy → Type} [FloatOps F]

/-- The stretch's 43 operations, in order. -/
abbrev s_conv1 : List (HloOp τ sig (Elt F)) :=
  [ StableHlo.binary main_arg0 main_arg1 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v16 (broadcastInDim S1600000 ![] bcast_S_S1600000 : (⟨S_, .i32⟩ : BufTy).Contents (Elt F) → (⟨S1600000, .i32⟩ : BufTy).Contents (Elt F)),
    StableHlo.binary main_v1 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v10 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_4 (constantI S_ 32 0#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v23 (broadcastInDim S1600000 ![] bcast_S_S1600000 : (⟨S_, .i32⟩ : BufTy).Contents (Elt F) → (⟨S1600000, .i32⟩ : BufTy).Contents (Elt F)),
    StableHlo.binary main_v3 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v3 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v10 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v20 main_v27 main_v28 (mulf : (⟨S1600000, .f32⟩ : BufTy).Contents (Elt F) → (⟨S1600000, .f32⟩ : BufTy).Contents (Elt F) → (⟨S1600000, .f32⟩ : BufTy).Contents (Elt F)),
    StableHlo.unary main_v28 main_v29 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v30 (broadcastInDim S1600000 ![] bcast_S_S1600000 : (⟨S_, .i32⟩ : BufTy).Contents (Elt F) → (⟨S1600000, .i32⟩ : BufTy).Contents (Elt F)),
    StableHlo.binary main_v1 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v32 (broadcastInDim S1600000 ![] bcast_S_S1600000 : (⟨S_, .i32⟩ : BufTy).Contents (Elt F) → (⟨S1600000, .i32⟩ : BufTy).Contents (Elt F)),
    StableHlo.binary main_v1 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v13 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v29 main_v37 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v36 main_v37 main_v38 (mulf : (⟨S1600000x128, .f32⟩ : BufTy).Contents (Elt F) → (⟨S1600000x128, .f32⟩ : BufTy).Contents (Elt F) → (⟨S1600000x128, .f32⟩ : BufTy).Contents (Elt F)),
    StableHlo.nullary main_cst_8 (constant S_ .f32 0x00000000#32),
    StableHlo.unary main_cst_8 main_v39 (broadcastInDim S100000x128 ![] bcast_S_S100000x128 : (⟨S_, .f32⟩ : BufTy).Contents (Elt F) → (⟨S100000x128, .f32⟩ : BufTy).Contents (Elt F)),
    StableHlo.unary main_v3 main_v40 (broadcastInDim S1600000x1 ![0] bcast_S1600000_S1600000x1_0 : (⟨S1600000, .i32⟩ : BufTy).Contents (Elt F) → (⟨S1600000x1, .i32⟩ : BufTy).Contents (Elt F)),
    StableHlo.ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v43 main_v44 (mulf : (⟨S100000x128, .f32⟩ : BufTy).Contents (Elt F) → (⟨S100000x128, .f32⟩ : BufTy).Contents (Elt F) → (⟨S100000x128, .f32⟩ : BufTy).Contents (Elt F)),
    StableHlo.binary main_v41 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_arg2 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- Every operation of the stretch touches only buffers of the device. -/
theorem s_conv1_sub : (s_conv1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

/-- Every operation of the stretch determines its result. -/
theorem s_conv1_fresh : ∀ op ∈ (s_conv1 : List (HloOp τ sig (Elt F))), op.fresh = ∅ := by
  intro _ h; (repeat (cases h with | head => rfl | tail _ h => ?_)); exact nomatch h

theorem s_conv1_keeps_arg0 (W : Valuation τ sig (Elt F)) :
    after s_conv1 W (Proc.devRef .tc main_arg0) = W (Proc.devRef .tc main_arg0) := by host_keeps s_conv1
theorem s_conv1_keeps_arg1 (W : Valuation τ sig (Elt F)) :
    after s_conv1 W (Proc.devRef .tc main_arg1) = W (Proc.devRef .tc main_arg1) := by host_keeps s_conv1
theorem s_conv1_keeps_arg2 (W : Valuation τ sig (Elt F)) :
    after s_conv1 W (Proc.devRef .tc main_arg2) = W (Proc.devRef .tc main_arg2) := by host_keeps s_conv1
theorem s_conv1_keeps_arg3 (W : Valuation τ sig (Elt F)) :
    after s_conv1 W (Proc.devRef .tc main_arg3) = W (Proc.devRef .tc main_arg3) := by host_keeps s_conv1
theorem s_conv1_keeps_arg4 (W : Valuation τ sig (Elt F)) :
    after s_conv1 W (Proc.devRef .tc main_arg4) = W (Proc.devRef .tc main_arg4) := by host_keeps s_conv1
theorem s_conv1_keeps_arg5 (W : Valuation τ sig (Elt F)) :
    after s_conv1 W (Proc.devRef .tc main_arg5) = W (Proc.devRef .tc main_arg5) := by host_keeps s_conv1
theorem s_conv1_keeps_arg6 (W : Valuation τ sig (Elt F)) :
    after s_conv1 W (Proc.devRef .tc main_arg6) = W (Proc.devRef .tc main_arg6) := by host_keeps s_conv1
theorem s_conv1_keeps_arg7 (W : Valuation τ sig (Elt F)) :
    after s_conv1 W (Proc.devRef .tc main_arg7) = W (Proc.devRef .tc main_arg7) := by host_keeps s_conv1
theorem s_conv1_keeps_arg8 (W : Valuation τ sig (Elt F)) :
    after s_conv1 W (Proc.devRef .tc main_arg8) = W (Proc.devRef .tc main_arg8) := by host_keeps s_conv1
theorem s_conv1_keeps_arg9 (W : Valuation τ sig (Elt F)) :
    after s_conv1 W (Proc.devRef .tc main_arg9) = W (Proc.devRef .tc main_arg9) := by host_keeps s_conv1
theorem s_conv1_keeps_arg10 (W : Valuation τ sig (Elt F)) :
    after s_conv1 W (Proc.devRef .tc main_arg10) = W (Proc.devRef .tc main_arg10) := by host_keeps s_conv1
theorem s_conv1_keeps_arg11 (W : Valuation τ sig (Elt F)) :
    after s_conv1 W (Proc.devRef .tc main_arg11) = W (Proc.devRef .tc main_arg11) := by host_keeps s_conv1
theorem s_conv1_keeps_v1 (W : Valuation τ sig (Elt F)) :
    after s_conv1 W (Proc.devRef .tc main_v1) = W (Proc.devRef .tc main_v1) := by host_keeps s_conv1
theorem s_conv1_keeps_v3 (W : Valuation τ sig (Elt F)) :
    after s_conv1 W (Proc.devRef .tc main_v3) = W (Proc.devRef .tc main_v3) := by host_keeps s_conv1
theorem s_conv1_keeps_v10 (W : Valuation τ sig (Elt F)) :
    after s_conv1 W (Proc.devRef .tc main_v10) = W (Proc.devRef .tc main_v10) := by host_keeps s_conv1
theorem s_conv1_keeps_v12 (W : Valuation τ sig (Elt F)) :
    after s_conv1 W (Proc.devRef .tc main_v12) = W (Proc.devRef .tc main_v12) := by host_keeps s_conv1

end Cert.ReferenceIdeal.RefRun

end
-- ==== Proof.RefOpsNorm1.lean ====
/-
  One stretch of the plain program for the three-layer graph convolution, as the list of its operations in order.
  The first column normalisation: each column's mean, its variance as the mean of the squared deviations, the column centred, scaled by the reciprocal square root of the variance plus a small constant and by the gain, shifted, and the positive part kept.
  An operation of an outlined function stands at its call, over the buffers that call names.  Beside the list: every
  operation touches only device buffers; none leaves a buffer undetermined; and a buffer that is no operation's result
  holds after the stretch what it held before, whatever the stretch is entered with.
-/
import proofs.«140138_j37512244363809_2_alg».proof.Proof.Gen.ReferenceIdeal
import Idealize.ShloMosaic.Lib.StableHlo.Run
import proofs.«140138_j37512244363809_2_alg».proof.Proof.LibHostKeeps

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibHostKeeps

variable {F : FTy → Type} [FloatOps F]

/-- The stretch's 47 operations, in order. -/
abbrev s_norm1 : List (HloOp τ sig (Elt F)) :=
  [ StableHlo.nullary main_cst_9 (constant S_ .f32 0x00000000#32),
    StableHlo.binary main_v48 main_cst_9 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call0.cst (constant S_ .f32 0x00000000#32),
    StableHlo.TRef.binary (StableHlo.TRef.of main_v48 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v48 : StableHlo.TRef sig ⟨S100000x128, .f32⟩) main_call0.v4 main_call0.v5 subf,
    StableHlo.TRef.binary main_call0.v5 main_call0.v5 main_call0.v6 mulf,
    StableHlo.TRef.unary (StableHlo.TRef.of main_c_11 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v54 main_v55 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg3 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (mulf : (⟨S100000x128, .f32⟩ : BufTy).Contents (Elt F) → (⟨S100000x128, .f32⟩ : BufTy).Contents (Elt F) → (⟨S100000x128, .f32⟩ : BufTy).Contents (Elt F)),
    StableHlo.unary main_arg4 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v67 : StableHlo.TRef sig ⟨S100000x128, .f32⟩) main_call1.v0 main_call1.v1 maximumf ]

/-- Every operation of the stretch touches only buffers of the device. -/
theorem s_norm1_sub : (s_norm1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation of the stretch determines its result. -/
theorem s_norm1_fresh : ∀ op ∈ (s_norm1 : List (HloOp τ sig (Elt F))), op.fresh = ∅ := by
  intro _ h; (repeat (cases h with | head => rfl | tail _ h => ?_)); exact nomatch h

theorem s_norm1_keeps_arg0 (W : Valuation τ sig (Elt F)) :
    after s_norm1 W (Proc.devRef .tc main_arg0) = W (Proc.devRef .tc main_arg0) := by host_keeps s_norm1
theorem s_norm1_keeps_arg1 (W : Valuation τ sig (Elt F)) :
    after s_norm1 W (Proc.devRef .tc main_arg1) = W (Proc.devRef .tc main_arg1) := by host_keeps s_norm1
theorem s_norm1_keeps_arg2 (W : Valuation τ sig (Elt F)) :
    after s_norm1 W (Proc.devRef .tc main_arg2) = W (Proc.devRef .tc main_arg2) := by host_keeps s_norm1
theorem s_norm1_keeps_arg3 (W : Valuation τ sig (Elt F)) :
    after s_norm1 W (Proc.devRef .tc main_arg3) = W (Proc.devRef .tc main_arg3) := by host_keeps s_norm1
theorem s_norm1_keeps_arg4 (W : Valuation τ sig (Elt F)) :
    after s_norm1 W (Proc.devRef .tc main_arg4) = W (Proc.devRef .tc main_arg4) := by host_keeps s_norm1
theorem s_norm1_keeps_arg5 (W : Valuation τ sig (Elt F)) :
    after s_norm1 W (Proc.devRef .tc main_arg5) = W (Proc.devRef .tc main_arg5) := by host_keeps s_norm1
theorem s_norm1_keeps_arg6 (W : Valuation τ sig (Elt F)) :
    after s_norm1 W (Proc.devRef .tc main_arg6) = W (Proc.devRef .tc main_arg6) := by host_keeps s_norm1
theorem s_norm1_keeps_arg7 (W : Valuation τ sig (Elt F)) :
    after s_norm1 W (Proc.devRef .tc main_arg7) = W (Proc.devRef .tc main_arg7) := by host_keeps s_norm1
theorem s_norm1_keeps_arg8 (W : Valuation τ sig (Elt F)) :
    after s_norm1 W (Proc.devRef .tc main_arg8) = W (Proc.devRef .tc main_arg8) := by host_keeps s_norm1
theorem s_norm1_keeps_arg9 (W : Valuation τ sig (Elt F)) :
    after s_norm1 W (Proc.devRef .tc main_arg9) = W (Proc.devRef .tc main_arg9) := by host_keeps s_norm1
theorem s_norm1_keeps_arg10 (W : Valuation τ sig (Elt F)) :
    after s_norm1 W (Proc.devRef .tc main_arg10) = W (Proc.devRef .tc main_arg10) := by host_keeps s_norm1
theorem s_norm1_keeps_arg11 (W : Valuation τ sig (Elt F)) :
    after s_norm1 W (Proc.devRef .tc main_arg11) = W (Proc.devRef .tc main_arg11) := by host_keeps s_norm1
theorem s_norm1_keeps_v1 (W : Valuation τ sig (Elt F)) :
    after s_norm1 W (Proc.devRef .tc main_v1) = W (Proc.devRef .tc main_v1) := by host_keeps s_norm1
theorem s_norm1_keeps_v3 (W : Valuation τ sig (Elt F)) :
    after s_norm1 W (Proc.devRef .tc main_v3) = W (Proc.devRef .tc main_v3) := by host_keeps s_norm1
theorem s_norm1_keeps_v10 (W : Valuation τ sig (Elt F)) :
    after s_norm1 W (Proc.devRef .tc main_v10) = W (Proc.devRef .tc main_v10) := by host_keeps s_norm1
theorem s_norm1_keeps_v12 (W : Valuation τ sig (Elt F)) :
    after s_norm1 W (Proc.devRef .tc main_v12) = W (Proc.devRef .tc main_v12) := by host_keeps s_norm1

end Cert.ReferenceIdeal.RefRun

end
-- ==== Proof.RefOpsConv2.lean ====
/-
  One stretch of the plain program for the three-layer graph convolution, as the list of its operations in order.
  The second convolution, on the first layer's activations with the second weight and bias.
  An operation of an outlined function stands at its call, over the buffers that call names.  Beside the list: every
  operation touches only device buffers; none leaves a buffer undetermined; and a buffer that is no operation's result
  holds after the stretch what it held before, whatever the stretch is entered with.
-/
import proofs.«140138_j37512244363809_2_alg».proof.Proof.Gen.ReferenceIdeal
import Idealize.ShloMosaic.Lib.StableHlo.Run
import proofs.«140138_j37512244363809_2_alg».proof.Proof.LibHostKeeps

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibHostKeeps

variable {F : FTy → Type} [FloatOps F]

/-- The stretch's 43 operations, in order. -/
abbrev s_conv2 : List (HloOp τ sig (Elt F)) :=
  [ StableHlo.binary main_v68 main_arg5 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_13 (constantI S_ 32 0#32),
    StableHlo.unary main_c_13 main_v70 (broadcastInDim S1600000 ![] bcast_S_S1600000 : (⟨S_, .i32⟩ : BufTy).Contents (Elt F) → (⟨S1600000, .i32⟩ : BufTy).Contents (Elt F)),
    StableHlo.binary main_v1 main_v70 main_v71 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v72 (broadcastInDim S1600000 ![] bcast_S_S1600000 : (⟨S_, .i32⟩ : BufTy).Contents (Elt F) → (⟨S1600000, .i32⟩ : BufTy).Contents (Elt F)),
    StableHlo.binary main_v1 main_v72 main_v73 (addi : (⟨S1600000, .i32⟩ : BufTy).Contents (Elt F) → (⟨S1600000, .i32⟩ : BufTy).Contents (Elt F) → (⟨S1600000, .i32⟩ : BufTy).Contents (Elt F)),
    StableHlo.ternary main_v71 main_v73 main_v1 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v74 main_v75 (broadcastInDim S1600000x1 ![0] bcast_S1600000_S1600000x1_0 : (⟨S1600000, .i32⟩ : BufTy).Contents (Elt F) → (⟨S1600000x1, .i32⟩ : BufTy).Contents (Elt F)),
    StableHlo.binary main_v10 main_v75 main_v76 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_15 (constantI S_ 32 0#32),
    StableHlo.unary main_c_15 main_v77 (broadcastInDim S1600000 ![] bcast_S_S1600000 : (⟨S_, .i32⟩ : BufTy).Contents (Elt F) → (⟨S1600000, .i32⟩ : BufTy).Contents (Elt F)),
    StableHlo.binary main_v3 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v79 (broadcastInDim S1600000 ![] bcast_S_S1600000 : (⟨S_, .i32⟩ : BufTy).Contents (Elt F) → (⟨S1600000, .i32⟩ : BufTy).Contents (Elt F)),
    StableHlo.binary main_v3 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_v3 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_v10 main_v82 main_v83 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v76 main_v83 main_v84 (mulf : (⟨S1600000, .f32⟩ : BufTy).Contents (Elt F) → (⟨S1600000, .f32⟩ : BufTy).Contents (Elt F) → (⟨S1600000, .f32⟩ : BufTy).Contents (Elt F)),
    StableHlo.unary main_v84 main_v85 (broadcastInDim S1600000x1 ![0] bcast_S1600000_S1600000x1_0 : (⟨S1600000, .f32⟩ : BufTy).Contents (Elt F) → (⟨S1600000x1, .f32⟩ : BufTy).Contents (Elt F)),
    StableHlo.nullary main_c_17 (constantI S_ 32 0#32),
    StableHlo.unary main_c_17 main_v86 (broadcastInDim S1600000 ![] bcast_S_S1600000 : (⟨S_, .i32⟩ : BufTy).Contents (Elt F) → (⟨S1600000, .i32⟩ : BufTy).Contents (Elt F)),
    StableHlo.binary main_v1 main_v86 main_v87 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v88 (broadcastInDim S1600000 ![] bcast_S_S1600000 : (⟨S_, .i32⟩ : BufTy).Contents (Elt F) → (⟨S1600000, .i32⟩ : BufTy).Contents (Elt F)),
    StableHlo.binary main_v1 main_v88 main_v89 (addi : (⟨S1600000, .i32⟩ : BufTy).Contents (Elt F) → (⟨S1600000, .i32⟩ : BufTy).Contents (Elt F) → (⟨S1600000, .i32⟩ : BufTy).Contents (Elt F)),
    StableHlo.ternary main_v87 main_v89 main_v1 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v90 main_v91 (broadcastInDim S1600000x1 ![0] bcast_S1600000_S1600000x1_0 : (⟨S1600000, .i32⟩ : BufTy).Contents (Elt F) → (⟨S1600000x1, .i32⟩ : BufTy).Contents (Elt F)),
    StableHlo.binary main_v69 main_v91 main_v92 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v85 main_v93 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v92 main_v93 main_v94 (mulf : (⟨S1600000x128, .f32⟩ : BufTy).Contents (Elt F) → (⟨S1600000x128, .f32⟩ : BufTy).Contents (Elt F) → (⟨S1600000x128, .f32⟩ : BufTy).Contents (Elt F)),
    StableHlo.nullary main_cst_19 (constant S_ .f32 0x00000000#32),
    StableHlo.unary main_cst_19 main_v95 (broadcastInDim S100000x128 ![] bcast_S_S100000x128 : (⟨S_, .f32⟩ : BufTy).Contents (Elt F) → (⟨S100000x128, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v98 (broadcastInDim S100000x1 ![0] bcast_S100000_S100000x1_0 : (⟨S100000, .f32⟩ : BufTy).Contents (Elt F) → (⟨S100000x1, .f32⟩ : BufTy).Contents (Elt F)),
    StableHlo.unary main_v98 main_v99 (broadcastInDim S100000x128 ![0, 1] bcast_S100000x1_S100000x128_0_1 : (⟨S100000x1, .f32⟩ : BufTy).Contents (Elt F) → (⟨S100000x128, .f32⟩ : BufTy).Contents (Elt F)),
    StableHlo.binary main_v69 main_v99 main_v100 (mulf : (⟨S100000x128, .f32⟩ : BufTy).Contents (Elt F) → (⟨S100000x128, .f32⟩ : BufTy).Contents (Elt F) → (⟨S100000x128, .f32⟩ : BufTy).Contents (Elt F)),
    StableHlo.binary main_v97 main_v100 main_v101 (addf : (⟨S100000x128, .f32⟩ : BufTy).Contents (Elt F) → (⟨S100000x128, .f32⟩ : BufTy).Contents (Elt F) → (⟨S100000x128, .f32⟩ : BufTy).Contents (Elt F)),
    StableHlo.unary main_arg6 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v103 main_v104 (addf : (⟨S100000x128, .f32⟩ : BufTy).Contents (Elt F) → (⟨S100000x128, .f32⟩ : BufTy).Contents (Elt F) → (⟨S100000x128, .f32⟩ : BufTy).Contents (Elt F)) ]

/-- Every operation of the stretch touches only buffers of the device. -/
theorem s_conv2_sub : (s_conv2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

/-- Every operation of the stretch determines its result. -/
theorem s_conv2_fresh : ∀ op ∈ (s_conv2 : List (HloOp τ sig (Elt F))), op.fresh = ∅ := by
  intro _ h; (repeat (cases h with | head => rfl | tail _ h => ?_)); exact nomatch h

theorem s_conv2_keeps_arg0 (W : Valuation τ sig (Elt F)) :
    after s_conv2 W (Proc.devRef .tc main_arg0) = W (Proc.devRef .tc main_arg0) := by host_keeps s_conv2
theorem s_conv2_keeps_arg1 (W : Valuation τ sig (Elt F)) :
    after s_conv2 W (Proc.devRef .tc main_arg1) = W (Proc.devRef .tc main_arg1) := by host_keeps s_conv2
theorem s_conv2_keeps_arg2 (W : Valuation τ sig (Elt F)) :
    after s_conv2 W (Proc.devRef .tc main_arg2) = W (Proc.devRef .tc main_arg2) := by host_keeps s_conv2
theorem s_conv2_keeps_arg3 (W : Valuation τ sig (Elt F)) :
    after s_conv2 W (Proc.devRef .tc main_arg3) = W (Proc.devRef .tc main_arg3) := by host_keeps s_conv2
theorem s_conv2_keeps_arg4 (W : Valuation τ sig (Elt F)) :
    after s_conv2 W (Proc.devRef .tc main_arg4) = W (Proc.devRef .tc main_arg4) := by host_keeps s_conv2
theorem s_conv2_keeps_arg5 (W : Valuation τ sig (Elt F)) :
    after s_conv2 W (Proc.devRef .tc main_arg5) = W (Proc.devRef .tc main_arg5) := by host_keeps s_conv2
theorem s_conv2_keeps_arg6 (W : Valuation τ sig (Elt F)) :
    after s_conv2 W (Proc.devRef .tc main_arg6) = W (Proc.devRef .tc main_arg6) := by host_keeps s_conv2
theorem s_conv2_keeps_arg7 (W : Valuation τ sig (Elt F)) :
    after s_conv2 W (Proc.devRef .tc main_arg7) = W (Proc.devRef .tc main_arg7) := by host_keeps s_conv2
theorem s_conv2_keeps_arg8 (W : Valuation τ sig (Elt F)) :
    after s_conv2 W (Proc.devRef .tc main_arg8) = W (Proc.devRef .tc main_arg8) := by host_keeps s_conv2
theorem s_conv2_keeps_arg9 (W : Valuation τ sig (Elt F)) :
    after s_conv2 W (Proc.devRef .tc main_arg9) = W (Proc.devRef .tc main_arg9) := by host_keeps s_conv2
theorem s_conv2_keeps_arg10 (W : Valuation τ sig (Elt F)) :
    after s_conv2 W (Proc.devRef .tc main_arg10) = W (Proc.devRef .tc main_arg10) := by host_keeps s_conv2
theorem s_conv2_keeps_arg11 (W : Valuation τ sig (Elt F)) :
    after s_conv2 W (Proc.devRef .tc main_arg11) = W (Proc.devRef .tc main_arg11) := by host_keeps s_conv2
theorem s_conv2_keeps_v1 (W : Valuation τ sig (Elt F)) :
    after s_conv2 W (Proc.devRef .tc main_v1) = W (Proc.devRef .tc main_v1) := by host_keeps s_conv2
theorem s_conv2_keeps_v3 (W : Valuation τ sig (Elt F)) :
    after s_conv2 W (Proc.devRef .tc main_v3) = W (Proc.devRef .tc main_v3) := by host_keeps s_conv2
theorem s_conv2_keeps_v10 (W : Valuation τ sig (Elt F)) :
    after s_conv2 W (Proc.devRef .tc main_v10) = W (Proc.devRef .tc main_v10) := by host_keeps s_conv2
theorem s_conv2_keeps_v12 (W : Valuation τ sig (Elt F)) :
    after s_conv2 W (Proc.devRef .tc main_v12) = W (Proc.devRef .tc main_v12) := by host_keeps s_conv2

end Cert.ReferenceIdeal.RefRun

end
-- ==== Proof.RefOpsNorm2.lean ====
/-
  One stretch of the plain program for the three-layer graph convolution, as the list of its operations in order.
  The second column normalisation, with the second gain and shift.
  An operation of an outlined function stands at its call, over the buffers that call names.  Beside the list: every
  operation touches only device buffers; none leaves a buffer undetermined; and a buffer that is no operation's result
  holds after the stretch what it held before, whatever the stretch is entered with.
-/
import proofs.«140138_j37512244363809_2_alg».proof.Proof.Gen.ReferenceIdeal
import Idealize.ShloMosaic.Lib.StableHlo.Run
import proofs.«140138_j37512244363809_2_alg».proof.Proof.LibHostKeeps

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibHostKeeps

variable {F : FTy → Type} [FloatOps F]

/-- The stretch's 47 operations, in order. -/
abbrev s_norm2 : List (HloOp τ sig (Elt F)) :=
  [ StableHlo.nullary main_cst_20 (constant S_ .f32 0x00000000#32),
    StableHlo.binary main_v104 main_cst_20 main_v105 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v106 (broadcastInDim S128 ![] bcast_S_S128 : (⟨S_, .f32⟩ : BufTy).Contents (Elt F) → (⟨S128, .f32⟩ : BufTy).Contents (Elt F)),
    StableHlo.binary main_v105 main_v106 main_v107 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call2.cst (constant S_ .f32 0x00000000#32),
    StableHlo.TRef.binary (StableHlo.TRef.of main_v104 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v104 : StableHlo.TRef sig ⟨S100000x128, .f32⟩) main_call2.v4 main_call2.v5 subf,
    StableHlo.TRef.binary main_call2.v5 main_call2.v5 main_call2.v6 mulf,
    StableHlo.TRef.unary (StableHlo.TRef.of main_c_22 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v107 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v110 main_v111 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v112 (broadcastInDim S128 ![] bcast_S_S128 : (⟨S_, .f32⟩ : BufTy).Contents (Elt F) → (⟨S128, .f32⟩ : BufTy).Contents (Elt F)),
    StableHlo.binary main_v108 main_v112 main_v113 (addf : (⟨S128, .f32⟩ : BufTy).Contents (Elt F) → (⟨S128, .f32⟩ : BufTy).Contents (Elt F) → (⟨S128, .f32⟩ : BufTy).Contents (Elt F)),
    StableHlo.unary main_v113 main_v114 (Host.rsqrt : (⟨S128, .f32⟩ : BufTy).Contents (Elt F) → (⟨S128, .f32⟩ : BufTy).Contents (Elt F)),
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v116 main_v117 (mulf : (⟨S100000x128, .f32⟩ : BufTy).Contents (Elt F) → (⟨S100000x128, .f32⟩ : BufTy).Contents (Elt F) → (⟨S100000x128, .f32⟩ : BufTy).Contents (Elt F)),
    StableHlo.unary main_arg7 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v119 main_v120 (mulf : (⟨S100000x128, .f32⟩ : BufTy).Contents (Elt F) → (⟨S100000x128, .f32⟩ : BufTy).Contents (Elt F) → (⟨S100000x128, .f32⟩ : BufTy).Contents (Elt F)),
    StableHlo.unary main_arg8 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S100000x128 ![0, 1] bcast_S1x128_S100000x128_0_1 : (⟨S1x128, .f32⟩ : BufTy).Contents (Elt F) → (⟨S100000x128, .f32⟩ : BufTy).Contents (Elt F)),
    StableHlo.binary main_v120 main_v122 main_v123 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v123 : StableHlo.TRef sig ⟨S100000x128, .f32⟩) main_call3.v0 main_call3.v1 maximumf ]

/-- Every operation of the stretch touches only buffers of the device. -/
theorem s_norm2_sub : (s_norm2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation of the stretch determines its result. -/
theorem s_norm2_fresh : ∀ op ∈ (s_norm2 : List (HloOp τ sig (Elt F))), op.fresh = ∅ := by
  intro _ h; (repeat (cases h with | head => rfl | tail _ h => ?_)); exact nomatch h

theorem s_norm2_keeps_arg0 (W : Valuation τ sig (Elt F)) :
    after s_norm2 W (Proc.devRef .tc main_arg0) = W (Proc.devRef .tc main_arg0) := by host_keeps s_norm2
theorem s_norm2_keeps_arg1 (W : Valuation τ sig (Elt F)) :
    after s_norm2 W (Proc.devRef .tc main_arg1) = W (Proc.devRef .tc main_arg1) := by host_keeps s_norm2
theorem s_norm2_keeps_arg2 (W : Valuation τ sig (Elt F)) :
    after s_norm2 W (Proc.devRef .tc main_arg2) = W (Proc.devRef .tc main_arg2) := by host_keeps s_norm2
theorem s_norm2_keeps_arg3 (W : Valuation τ sig (Elt F)) :
    after s_norm2 W (Proc.devRef .tc main_arg3) = W (Proc.devRef .tc main_arg3) := by host_keeps s_norm2
theorem s_norm2_keeps_arg4 (W : Valuation τ sig (Elt F)) :
    after s_norm2 W (Proc.devRef .tc main_arg4) = W (Proc.devRef .tc main_arg4) := by host_keeps s_norm2
theorem s_norm2_keeps_arg5 (W : Valuation τ sig (Elt F)) :
    after s_norm2 W (Proc.devRef .tc main_arg5) = W (Proc.devRef .tc main_arg5) := by host_keeps s_norm2
theorem s_norm2_keeps_arg6 (W : Valuation τ sig (Elt F)) :
    after s_norm2 W (Proc.devRef .tc main_arg6) = W (Proc.devRef .tc main_arg6) := by host_keeps s_norm2
theorem s_norm2_keeps_arg7 (W : Valuation τ sig (Elt F)) :
    after s_norm2 W (Proc.devRef .tc main_arg7) = W (Proc.devRef .tc main_arg7) := by host_keeps s_norm2
theorem s_norm2_keeps_arg8 (W : Valuation τ sig (Elt F)) :
    after s_norm2 W (Proc.devRef .tc main_arg8) = W (Proc.devRef .tc main_arg8) := by host_keeps s_norm2
theorem s_norm2_keeps_arg9 (W : Valuation τ sig (Elt F)) :
    after s_norm2 W (Proc.devRef .tc main_arg9) = W (Proc.devRef .tc main_arg9) := by host_keeps s_norm2
theorem s_norm2_keeps_arg10 (W : Valuation τ sig (Elt F)) :
    after s_norm2 W (Proc.devRef .tc main_arg10) = W (Proc.devRef .tc main_arg10) := by host_keeps s_norm2
theorem s_norm2_keeps_arg11 (W : Valuation τ sig (Elt F)) :
    after s_norm2 W (Proc.devRef .tc main_arg11) = W (Proc.devRef .tc main_arg11) := by host_keeps s_norm2
theorem s_norm2_keeps_v1 (W : Valuation τ sig (Elt F)) :
    after s_norm2 W (Proc.devRef .tc main_v1) = W (Proc.devRef .tc main_v1) := by host_keeps s_norm2
theorem s_norm2_keeps_v3 (W : Valuation τ sig (Elt F)) :
    after s_norm2 W (Proc.devRef .tc main_v3) = W (Proc.devRef .tc main_v3) := by host_keeps s_norm2
theorem s_norm2_keeps_v10 (W : Valuation τ sig (Elt F)) :
    after s_norm2 W (Proc.devRef .tc main_v10) = W (Proc.devRef .tc main_v10) := by host_keeps s_norm2
theorem s_norm2_keeps_v12 (W : Valuation τ sig (Elt F)) :
    after s_norm2 W (Proc.devRef .tc main_v12) = W (Proc.devRef .tc main_v12) := by host_keeps s_norm2

end Cert.ReferenceIdeal.RefRun

end
-- ==== Proof.RefOpsConv3.lean ====
/-
  One stretch of the plain program for the three-layer graph convolution, as the list of its operations in order.
  The third convolution, two columns wide, on the second layer's activations with the third weight and bias.
  An operation of an outlined function stands at its call, over the buffers that call names.  Beside the list: every
  operation touches only device buffers; none leaves a buffer undetermined; and a buffer that is no operation's result
  holds after the stretch what it held before, whatever the stretch is entered with.
-/
import proofs.«140138_j37512244363809_2_alg».proof.Proof.Gen.ReferenceIdeal
import Idealize.ShloMosaic.Lib.StableHlo.Run
import proofs.«140138_j37512244363809_2_alg».proof.Proof.LibHostKeeps

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibHostKeeps

variable {F : FTy → Type} [FloatOps F]

/-- The stretch's 43 operations, in order. -/
abbrev s_conv3 : List (HloOp τ sig (Elt F)) :=
  [ StableHlo.binary main_v124 main_arg9 main_v125 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    StableHlo.nullary main_c_24 (constantI S_ 32 0#32),
    StableHlo.unary main_c_24 main_v126 (broadcastInDim S1600000 ![] bcast_S_S1600000 : (⟨S_, .i32⟩ : BufTy).Contents (Elt F) → (⟨S1600000, .i32⟩ : BufTy).Contents (Elt F)),
    StableHlo.binary main_v1 main_v126 main_v127 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v128 (broadcastInDim S1600000 ![] bcast_S_S1600000 : (⟨S_, .i32⟩ : BufTy).Contents (Elt F) → (⟨S1600000, .i32⟩ : BufTy).Contents (Elt F)),
    StableHlo.binary main_v1 main_v128 main_v129 (addi : (⟨S1600000, .i32⟩ : BufTy).Contents (Elt F) → (⟨S1600000, .i32⟩ : BufTy).Contents (Elt F) → (⟨S1600000, .i32⟩ : BufTy).Contents (Elt F)),
    StableHlo.ternary main_v127 main_v129 main_v1 main_v130 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v130 main_v131 (broadcastInDim S1600000x1 ![0] bcast_S1600000_S1600000x1_0 : (⟨S1600000, .i32⟩ : BufTy).Contents (Elt F) → (⟨S1600000x1, .i32⟩ : BufTy).Contents (Elt F)),
    StableHlo.binary main_v10 main_v131 main_v132 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_26 (constantI S_ 32 0#32),
    StableHlo.unary main_c_26 main_v133 (broadcastInDim S1600000 ![] bcast_S_S1600000 : (⟨S_, .i32⟩ : BufTy).Contents (Elt F) → (⟨S1600000, .i32⟩ : BufTy).Contents (Elt F)),
    StableHlo.binary main_v3 main_v133 main_v134 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v135 (broadcastInDim S1600000 ![] bcast_S_S1600000 : (⟨S_, .i32⟩ : BufTy).Contents (Elt F) → (⟨S1600000, .i32⟩ : BufTy).Contents (Elt F)),
    StableHlo.binary main_v3 main_v135 main_v136 (addi : (⟨S1600000, .i32⟩ : BufTy).Contents (Elt F) → (⟨S1600000, .i32⟩ : BufTy).Contents (Elt F) → (⟨S1600000, .i32⟩ : BufTy).Contents (Elt F)),
    StableHlo.ternary main_v134 main_v136 main_v3 main_v137 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v137 main_v138 (broadcastInDim S1600000x1 ![0] bcast_S1600000_S1600000x1_0 : (⟨S1600000, .i32⟩ : BufTy).Contents (Elt F) → (⟨S1600000x1, .i32⟩ : BufTy).Contents (Elt F)),
    StableHlo.binary main_v10 main_v138 main_v139 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v132 main_v139 main_v140 (mulf : (⟨S1600000, .f32⟩ : BufTy).Contents (Elt F) → (⟨S1600000, .f32⟩ : BufTy).Contents (Elt F) → (⟨S1600000, .f32⟩ : BufTy).Contents (Elt F)),
    StableHlo.unary main_v140 main_v141 (broadcastInDim S1600000x1 ![0] bcast_S1600000_S1600000x1_0 : (⟨S1600000, .f32⟩ : BufTy).Contents (Elt F) → (⟨S1600000x1, .f32⟩ : BufTy).Contents (Elt F)),
    StableHlo.nullary main_c_28 (constantI S_ 32 0#32),
    StableHlo.unary main_c_28 main_v142 (broadcastInDim S1600000 ![] bcast_S_S1600000 : (⟨S_, .i32⟩ : BufTy).Contents (Elt F) → (⟨S1600000, .i32⟩ : BufTy).Contents (Elt F)),
    StableHlo.binary main_v1 main_v142 main_v143 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v144 (broadcastInDim S1600000 ![] bcast_S_S1600000 : (⟨S_, .i32⟩ : BufTy).Contents (Elt F) → (⟨S1600000, .i32⟩ : BufTy).Contents (Elt F)),
    StableHlo.binary main_v1 main_v144 main_v145 (addi : (⟨S1600000, .i32⟩ : BufTy).Contents (Elt F) → (⟨S1600000, .i32⟩ : BufTy).Contents (Elt F) → (⟨S1600000, .i32⟩ : BufTy).Contents (Elt F)),
    StableHlo.ternary main_v143 main_v145 main_v1 main_v146 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v146 main_v147 (broadcastInDim S1600000x1 ![0] bcast_S1600000_S1600000x1_0 : (⟨S1600000, .i32⟩ : BufTy).Contents (Elt F) → (⟨S1600000x1, .i32⟩ : BufTy).Contents (Elt F)),
    StableHlo.binary main_v125 main_v147 main_v148 ((fun x i => Host.gather gather_S100000x2_S1600000x1_S1600000x2_1_0_n_n_0_1_12 x i) : (⟨S100000x2, .f32⟩ : BufTy).Contents (Elt F) → (⟨S1600000x1, .i32⟩ : BufTy).Contents (Elt F) → (⟨S1600000x2, .f32⟩ : BufTy).Contents (Elt F)),
    StableHlo.unary main_v141 main_v149 (broadcastInDim S1600000x2 ![0, 1] bcast_S1600000x1_S1600000x2_0_1 : (⟨S1600000x1, .f32⟩ : BufTy).Contents (Elt F) → (⟨S1600000x2, .f32⟩ : BufTy).Contents (Elt F)),
    StableHlo.binary main_v148 main_v149 main_v150 (mulf : (⟨S1600000x2, .f32⟩ : BufTy).Contents (Elt F) → (⟨S1600000x2, .f32⟩ : BufTy).Contents (Elt F) → (⟨S1600000x2, .f32⟩ : BufTy).Contents (Elt F)),
    StableHlo.nullary main_cst_30 (constant S_ .f32 0x00000000#32),
    StableHlo.unary main_cst_30 main_v151 (broadcastInDim S100000x2 ![] bcast_S_S100000x2 : (⟨S_, .f32⟩ : BufTy).Contents (Elt F) → (⟨S100000x2, .f32⟩ : BufTy).Contents (Elt F)),
    StableHlo.unary main_v3 main_v152 (broadcastInDim S1600000x1 ![0] bcast_S1600000_S1600000x1_0 : (⟨S1600000, .i32⟩ : BufTy).Contents (Elt F) → (⟨S1600000x1, .i32⟩ : BufTy).Contents (Elt F)),
    StableHlo.ternary main_v151 main_v152 main_v150 main_v153 ((fun x i u => Host.scatterAdd scatter_S100000x2_S1600000x1_S1600000x2_1_0_0_1 x i u) : (⟨S100000x2, .f32⟩ : BufTy).Contents (Elt F) → (⟨S1600000x1, .i32⟩ : BufTy).Contents (Elt F) → (⟨S1600000x2, .f32⟩ : BufTy).Contents (Elt F) → (⟨S100000x2, .f32⟩ : BufTy).Contents (Elt F)),
    StableHlo.unary main_v12 main_v154 (broadcastInDim S100000x1 ![0] bcast_S100000_S100000x1_0 : (⟨S100000, .f32⟩ : BufTy).Contents (Elt F) → (⟨S100000x1, .f32⟩ : BufTy).Contents (Elt F)),
    StableHlo.unary main_v154 main_v155 (broadcastInDim S100000x2 ![0, 1] bcast_S100000x1_S100000x2_0_1 : (⟨S100000x1, .f32⟩ : BufTy).Contents (Elt F) → (⟨S100000x2, .f32⟩ : BufTy).Contents (Elt F)),
    StableHlo.binary main_v125 main_v155 main_v156 (mulf : (⟨S100000x2, .f32⟩ : BufTy).Contents (Elt F) → (⟨S100000x2, .f32⟩ : BufTy).Contents (Elt F) → (⟨S100000x2, .f32⟩ : BufTy).Contents (Elt F)),
    StableHlo.binary main_v153 main_v156 main_v157 (addf : (⟨S100000x2, .f32⟩ : BufTy).Contents (Elt F) → (⟨S100000x2, .f32⟩ : BufTy).Contents (Elt F) → (⟨S100000x2, .f32⟩ : BufTy).Contents (Elt F)),
    StableHlo.unary main_arg10 main_v158 (broadcastInDim S1x2 ![1] bcast_S2_S1x2_1 : (⟨S2, .f32⟩ : BufTy).Contents (Elt F) → (⟨S1x2, .f32⟩ : BufTy).Contents (Elt F)),
    StableHlo.unary main_v158 main_v159 (broadcastInDim S100000x2 ![0, 1] bcast_S1x2_S100000x2_0_1 : (⟨S1x2, .f32⟩ : BufTy).Contents (Elt F) → (⟨S100000x2, .f32⟩ : BufTy).Contents (Elt F)),
    StableHlo.binary main_v157 main_v159 main_v160 (addf : (⟨S100000x2, .f32⟩ : BufTy).Contents (Elt F) → (⟨S100000x2, .f32⟩ : BufTy).Contents (Elt F) → (⟨S100000x2, .f32⟩ : BufTy).Contents (Elt F)) ]

/-- Every operation of the stretch touches only buffers of the device. -/
theorem s_conv3_sub : (s_conv3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

/-- Every operation of the stretch determines its result. -/
theorem s_conv3_fresh : ∀ op ∈ (s_conv3 : List (HloOp τ sig (Elt F))), op.fresh = ∅ := by
  intro _ h; (repeat (cases h with | head => rfl | tail _ h => ?_)); exact nomatch h

theorem s_conv3_keeps_arg0 (W : Valuation τ sig (Elt F)) :
    after s_conv3 W (Proc.devRef .tc main_arg0) = W (Proc.devRef .tc main_arg0) := by host_keeps s_conv3
theorem s_conv3_keeps_arg1 (W : Valuation τ sig (Elt F)) :
    after s_conv3 W (Proc.devRef .tc main_arg1) = W (Proc.devRef .tc main_arg1) := by host_keeps s_conv3
theorem s_conv3_keeps_arg2 (W : Valuation τ sig (Elt F)) :
    after s_conv3 W (Proc.devRef .tc main_arg2) = W (Proc.devRef .tc main_arg2) := by host_keeps s_conv3
theorem s_conv3_keeps_arg3 (W : Valuation τ sig (Elt F)) :
    after s_conv3 W (Proc.devRef .tc main_arg3) = W (Proc.devRef .tc main_arg3) := by host_keeps s_conv3
theorem s_conv3_keeps_arg4 (W : Valuation τ sig (Elt F)) :
    after s_conv3 W (Proc.devRef .tc main_arg4) = W (Proc.devRef .tc main_arg4) := by host_keeps s_conv3
theorem s_conv3_keeps_arg5 (W : Valuation τ sig (Elt F)) :
    after s_conv3 W (Proc.devRef .tc main_arg5) = W (Proc.devRef .tc main_arg5) := by host_keeps s_conv3
theorem s_conv3_keeps_arg6 (W : Valuation τ sig (Elt F)) :
    after s_conv3 W (Proc.devRef .tc main_arg6) = W (Proc.devRef .tc main_arg6) := by host_keeps s_conv3
theorem s_conv3_keeps_arg7 (W : Valuation τ sig (Elt F)) :
    after s_conv3 W (Proc.devRef .tc main_arg7) = W (Proc.devRef .tc main_arg7) := by host_keeps s_conv3
theorem s_conv3_keeps_arg8 (W : Valuation τ sig (Elt F)) :
    after s_conv3 W (Proc.devRef .tc main_arg8) = W (Proc.devRef .tc main_arg8) := by host_keeps s_conv3
theorem s_conv3_keeps_arg9 (W : Valuation τ sig (Elt F)) :
    after s_conv3 W (Proc.devRef .tc main_arg9) = W (Proc.devRef .tc main_arg9) := by host_keeps s_conv3
theorem s_conv3_keeps_arg10 (W : Valuation τ sig (Elt F)) :
    after s_conv3 W (Proc.devRef .tc main_arg10) = W (Proc.devRef .tc main_arg10) := by host_keeps s_conv3
theorem s_conv3_keeps_arg11 (W : Valuation τ sig (Elt F)) :
    after s_conv3 W (Proc.devRef .tc main_arg11) = W (Proc.devRef .tc main_arg11) := by host_keeps s_conv3
theorem s_conv3_keeps_v1 (W : Valuation τ sig (Elt F)) :
    after s_conv3 W (Proc.devRef .tc main_v1) = W (Proc.devRef .tc main_v1) := by host_keeps s_conv3
theorem s_conv3_keeps_v3 (W : Valuation τ sig (Elt F)) :
    after s_conv3 W (Proc.devRef .tc main_v3) = W (Proc.devRef .tc main_v3) := by host_keeps s_conv3
theorem s_conv3_keeps_v10 (W : Valuation τ sig (Elt F)) :
    after s_conv3 W (Proc.devRef .tc main_v10) = W (Proc.devRef .tc main_v10) := by host_keeps s_conv3
theorem s_conv3_keeps_v12 (W : Valuation τ sig (Elt F)) :
    after s_conv3 W (Proc.devRef .tc main_v12) = W (Proc.devRef .tc main_v12) := by host_keeps s_conv3

end Cert.ReferenceIdeal.RefRun

end
-- ==== Proof.RefOpsSoft.lean ====
/-
  One stretch of the plain program for the three-layer graph convolution, as the list of its operations in order.
  The softmax along each row: the row's maximum subtracted, the exponential, each entry divided by the row's sum of exponentials.
  An operation of an outlined function stands at its call, over the buffers that call names.  Beside the list: every
  operation touches only device buffers; none leaves a buffer undetermined; and a buffer that is no operation's result
  holds after the stretch what it held before, whatever the stretch is entered with.
-/
import proofs.«140138_j37512244363809_2_alg».proof.Proof.Gen.ReferenceIdeal
import Idealize.ShloMosaic.Lib.StableHlo.Run
import proofs.«140138_j37512244363809_2_alg».proof.Proof.LibHostKeeps

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibHostKeeps

variable {F : FTy → Type} [FloatOps F]

/-- The stretch's 14 operations, in order. -/
abbrev s_soft : List (HloOp τ sig (Elt F)) :=
  [ StableHlo.nullary main_cst_31 (constant S_ .f32 0xFF800000#32),
    StableHlo.binary main_v160 main_cst_31 main_v161 ((fun x v => Host.reduce FloatOps.maximumf x v reducesTo_S100000x2_S100000_d1 h_S_) : (⟨S100000x2, .f32⟩ : BufTy).Contents (Elt F) → (⟨S_, .f32⟩ : BufTy).Contents (Elt F) → (⟨S100000, .f32⟩ : BufTy).Contents (Elt F)),
    StableHlo.nullary main_cst_32 (constant S_ .f32 0xFF800000#32),
    StableHlo.unary main_cst_32 main_v162 (broadcastInDim S100000 ![] bcast_S_S100000 : (⟨S_, .f32⟩ : BufTy).Contents (Elt F) → (⟨S100000, .f32⟩ : BufTy).Contents (Elt F)),
    StableHlo.binary main_v162 main_v161 main_v163 (maximumf : (⟨S100000, .f32⟩ : BufTy).Contents (Elt F) → (⟨S100000, .f32⟩ : BufTy).Contents (Elt F) → (⟨S100000, .f32⟩ : BufTy).Contents (Elt F)),
    StableHlo.unary main_v163 main_v164 (broadcastInDim S100000x1 ![0] bcast_S100000_S100000x1_0 : (⟨S100000, .f32⟩ : BufTy).Contents (Elt F) → (⟨S100000x1, .f32⟩ : BufTy).Contents (Elt F)),
    StableHlo.unary main_v164 main_v165 (broadcastInDim S100000x2 ![0, 1] bcast_S100000x1_S100000x2_0_1 : (⟨S100000x1, .f32⟩ : BufTy).Contents (Elt F) → (⟨S100000x2, .f32⟩ : BufTy).Contents (Elt F)),
    StableHlo.binary main_v160 main_v165 main_v166 (subf : (⟨S100000x2, .f32⟩ : BufTy).Contents (Elt F) → (⟨S100000x2, .f32⟩ : BufTy).Contents (Elt F) → (⟨S100000x2, .f32⟩ : BufTy).Contents (Elt F)),
    StableHlo.unary main_v166 main_v167 (Host.exp : (⟨S100000x2, .f32⟩ : BufTy).Contents (Elt F) → (⟨S100000x2, .f32⟩ : BufTy).Contents (Elt F)),
    StableHlo.nullary main_cst_33 (constant S_ .f32 0x00000000#32),
    StableHlo.binary main_v167 main_cst_33 main_v168 ((fun x v => Host.reduceAdd x v reducesTo_S100000x2_S100000_d1 h_S_) : (⟨S100000x2, .f32⟩ : BufTy).Contents (Elt F) → (⟨S_, .f32⟩ : BufTy).Contents (Elt F) → (⟨S100000, .f32⟩ : BufTy).Contents (Elt F)),
    StableHlo.unary main_v168 main_v169 (broadcastInDim S100000x1 ![0] bcast_S100000_S100000x1_0 : (⟨S100000, .f32⟩ : BufTy).Contents (Elt F) → (⟨S100000x1, .f32⟩ : BufTy).Contents (Elt F)),
    StableHlo.unary main_v169 main_v170 (broadcastInDim S100000x2 ![0, 1] bcast_S100000x1_S100000x2_0_1 : (⟨S100000x1, .f32⟩ : BufTy).Contents (Elt F) → (⟨S100000x2, .f32⟩ : BufTy).Contents (Elt F)),
    StableHlo.binary main_v167 main_v170 main_v171 (Host.divf : (⟨S100000x2, .f32⟩ : BufTy).Contents (Elt F) → (⟨S100000x2, .f32⟩ : BufTy).Contents (Elt F) → (⟨S100000x2, .f32⟩ : BufTy).Contents (Elt F)) ]

/-- Every operation of the stretch touches only buffers of the device. -/
theorem s_soft_sub : (s_soft : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- Every operation of the stretch determines its result. -/
theorem s_soft_fresh : ∀ op ∈ (s_soft : List (HloOp τ sig (Elt F))), op.fresh = ∅ := by
  intro _ h; (repeat (cases h with | head => rfl | tail _ h => ?_)); exact nomatch h

theorem s_soft_keeps_arg0 (W : Valuation τ sig (Elt F)) :
    after s_soft W (Proc.devRef .tc main_arg0) = W (Proc.devRef .tc main_arg0) := by host_keeps s_soft
theorem s_soft_keeps_arg1 (W : Valuation τ sig (Elt F)) :
    after s_soft W (Proc.devRef .tc main_arg1) = W (Proc.devRef .tc main_arg1) := by host_keeps s_soft
theorem s_soft_keeps_arg2 (W : Valuation τ sig (Elt F)) :
    after s_soft W (Proc.devRef .tc main_arg2) = W (Proc.devRef .tc main_arg2) := by host_keeps s_soft
theorem s_soft_keeps_arg3 (W : Valuation τ sig (Elt F)) :
    after s_soft W (Proc.devRef .tc main_arg3) = W (Proc.devRef .tc main_arg3) := by host_keeps s_soft
theorem s_soft_keeps_arg4 (W : Valuation τ sig (Elt F)) :
    after s_soft W (Proc.devRef .tc main_arg4) = W (Proc.devRef .tc main_arg4) := by host_keeps s_soft
theorem s_soft_keeps_arg5 (W : Valuation τ sig (Elt F)) :
    after s_soft W (Proc.devRef .tc main_arg5) = W (Proc.devRef .tc main_arg5) := by host_keeps s_soft
theorem s_soft_keeps_arg6 (W : Valuation τ sig (Elt F)) :
    after s_soft W (Proc.devRef .tc main_arg6) = W (Proc.devRef .tc main_arg6) := by host_keeps s_soft
theorem s_soft_keeps_arg7 (W : Valuation τ sig (Elt F)) :
    after s_soft W (Proc.devRef .tc main_arg7) = W (Proc.devRef .tc main_arg7) := by host_keeps s_soft
theorem s_soft_keeps_arg8 (W : Valuation τ sig (Elt F)) :
    after s_soft W (Proc.devRef .tc main_arg8) = W (Proc.devRef .tc main_arg8) := by host_keeps s_soft
theorem s_soft_keeps_arg9 (W : Valuation τ sig (Elt F)) :
    after s_soft W (Proc.devRef .tc main_arg9) = W (Proc.devRef .tc main_arg9) := by host_keeps s_soft
theorem s_soft_keeps_arg10 (W : Valuation τ sig (Elt F)) :
    after s_soft W (Proc.devRef .tc main_arg10) = W (Proc.devRef .tc main_arg10) := by host_keeps s_soft
theorem s_soft_keeps_arg11 (W : Valuation τ sig (Elt F)) :
    after s_soft W (Proc.devRef .tc main_arg11) = W (Proc.devRef .tc main_arg11) := by host_keeps s_soft
theorem s_soft_keeps_v1 (W : Valuation τ sig (Elt F)) :
    after s_soft W (Proc.devRef .tc main_v1) = W (Proc.devRef .tc main_v1) := by host_keeps s_soft
theorem s_soft_keeps_v3 (W : Valuation τ sig (Elt F)) :
    after s_soft W (Proc.devRef .tc main_v3) = W (Proc.devRef .tc main_v3) := by host_keeps s_soft
theorem s_soft_keeps_v10 (W : Valuation τ sig (Elt F)) :
    after s_soft W (Proc.devRef .tc main_v10) = W (Proc.devRef .tc main_v10) := by host_keeps s_soft
theorem s_soft_keeps_v12 (W : Valuation τ sig (Elt F)) :
    after s_soft W (Proc.devRef .tc main_v12) = W (Proc.devRef .tc main_v12) := by host_keeps s_soft

end Cert.ReferenceIdeal.RefRun

end
-- ==== Proof.RefOps.lean ====
/-
  The plain program for the three-layer graph convolution, run: its operations in order are the seven stretches one
  after another (edge list and degrees; convolution, column normalisation; the same again; a last convolution two
  columns wide; softmax).  The program's text is four windows of statements with two outlined functions called twice
  each; every window is the line of the operations it covers, a call's operations standing at the call.  Hence every
  weakly fair execution terminates without fault, each buffer ending at the operations' composed value from the
  launch contents; the twelve argument arrays are results of no operation and end as they began.
-/
import proofs.«140138_j37512244363809_2_alg».proof.Proof.RefOpsPre
import proofs.«140138_j37512244363809_2_alg».proof.Proof.RefOpsConv1
import proofs.«140138_j37512244363809_2_alg».proof.Proof.RefOpsNorm1
import proofs.«140138_j37512244363809_2_alg».proof.Proof.RefOpsConv2
import proofs.«140138_j37512244363809_2_alg».proof.Proof.RefOpsNorm2
import proofs.«140138_j37512244363809_2_alg».proof.Proof.RefOpsConv3
import proofs.«140138_j37512244363809_2_alg».proof.Proof.RefOpsSoft
import Idealize.ShloMosaic.Lib.Pipeline.Frame
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 254 operations, in order: the seven stretches one after another. -/
abbrev ops : List (HloOp τ sig (Elt F)) := s_pre ++ s_conv1 ++ s_norm1 ++ s_conv2 ++ s_norm2 ++ s_conv3 ++ s_soft

/-- The operations the four windows of the program's text cover: the first 60, the next 83, the next 83, the last 28. -/
abbrev win0 : List (HloOp τ sig (Elt F)) := ops.take 60
abbrev win1 : List (HloOp τ sig (Elt F)) := (ops.drop 60).take 83
abbrev win2 : List (HloOp τ sig (Elt F)) := ((ops.drop 60).drop 83).take 83
abbrev win3 : List (HloOp τ sig (Elt F)) := ((ops.drop 60).drop 83).drop 83

theorem ops_eq_wins : (ops : List (HloOp τ sig (Elt F))) = win0 ++ (win1 ++ (win2 ++ win3)) := by
  unfold win0 win1 win2 win3
  rw [List.take_append_drop, List.take_append_drop, List.take_append_drop]

/-- Each window of the text is the line of its operations: the outlined functions' bodies stand at their calls, and
    sequencing is associative. -/
theorem part0_eq (c : Dev nD) : main_part0 (F := F) c = seq win0 := rfl
theorem part1_eq (c : Dev nD) : main_part1 (F := F) c = seq win1 := rfl
theorem part2_eq (c : Dev nD) : main_part2 (F := F) c = seq win2 := rfl
theorem part3_eq (c : Dev nD) : main_part3 (F := F) c = seq win3 := rfl

theorem main_eq (c : Dev nD) : main (F := F) c = seq ops := by
  rw [ops_eq_wins, seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr ⟨List.forall_append.mpr ⟨s_pre_sub, s_conv1_sub⟩, s_norm1_sub⟩, s_conv2_sub⟩, s_norm2_sub⟩, s_conv3_sub⟩, s_soft_sub⟩

theorem ops_fresh : ∀ op ∈ (ops : List (HloOp τ sig (Elt F))), op.fresh = ∅ := by
  intro op h
  simp only [ops, List.mem_append] at h
  rcases h with (((((h | h) | h) | h) | h) | h) | h
  exacts [s_pre_fresh op h, s_conv1_fresh op h, s_norm1_fresh op h, s_conv2_fresh op h, s_norm2_fresh op h, s_conv3_fresh op h, s_soft_fresh op h]

/-- The stretches one after another, from contents W: each entered with what the one before left. -/
theorem after_ops (W : Valuation τ sig (Elt F)) :
    after ops W = after s_soft (after s_conv3 (after s_norm2 (after s_conv2 (after s_norm1 (after s_conv1 (after s_pre W)))))) := by
  simp only [ops, after_append]

theorem ops_keeps_arg0 (W : Valuation τ sig (Elt F)) :
    after ops W (Proc.devRef .tc main_arg0) = W (Proc.devRef .tc main_arg0) := by
  rw [after_ops, s_soft_keeps_arg0, s_conv3_keeps_arg0, s_norm2_keeps_arg0, s_conv2_keeps_arg0, s_norm1_keeps_arg0, s_conv1_keeps_arg0, s_pre_keeps_arg0]
theorem ops_keeps_arg1 (W : Valuation τ sig (Elt F)) :
    after ops W (Proc.devRef .tc main_arg1) = W (Proc.devRef .tc main_arg1) := by
  rw [after_ops, s_soft_keeps_arg1, s_conv3_keeps_arg1, s_norm2_keeps_arg1, s_conv2_keeps_arg1, s_norm1_keeps_arg1, s_conv1_keeps_arg1, s_pre_keeps_arg1]
theorem ops_keeps_arg2 (W : Valuation τ sig (Elt F)) :
    after ops W (Proc.devRef .tc main_arg2) = W (Proc.devRef .tc main_arg2) := by
  rw [after_ops, s_soft_keeps_arg2, s_conv3_keeps_arg2, s_norm2_keeps_arg2, s_conv2_keeps_arg2, s_norm1_keeps_arg2, s_conv1_keeps_arg2, s_pre_keeps_arg2]
theorem ops_keeps_arg3 (W : Valuation τ sig (Elt F)) :
    after ops W (Proc.devRef .tc main_arg3) = W (Proc.devRef .tc main_arg3) := by
  rw [after_ops, s_soft_keeps_arg3, s_conv3_keeps_arg3, s_norm2_keeps_arg3, s_conv2_keeps_arg3, s_norm1_keeps_arg3, s_conv1_keeps_arg3, s_pre_keeps_arg3]
theorem ops_keeps_arg4 (W : Valuation τ sig (Elt F)) :
    after ops W (Proc.devRef .tc main_arg4) = W (Proc.devRef .tc main_arg4) := by
  rw [after_ops, s_soft_keeps_arg4, s_conv3_keeps_arg4, s_norm2_keeps_arg4, s_conv2_keeps_arg4, s_norm1_keeps_arg4, s_conv1_keeps_arg4, s_pre_keeps_arg4]
theorem ops_keeps_arg5 (W : Valuation τ sig (Elt F)) :
    after ops W (Proc.devRef .tc main_arg5) = W (Proc.devRef .tc main_arg5) := by
  rw [after_ops, s_soft_keeps_arg5, s_conv3_keeps_arg5, s_norm2_keeps_arg5, s_conv2_keeps_arg5, s_norm1_keeps_arg5, s_conv1_keeps_arg5, s_pre_keeps_arg5]
theorem ops_keeps_arg6 (W : Valuation τ sig (Elt F)) :
    after ops W (Proc.devRef .tc main_arg6) = W (Proc.devRef .tc main_arg6) := by
  rw [after_ops, s_soft_keeps_arg6, s_conv3_keeps_arg6, s_norm2_keeps_arg6, s_conv2_keeps_arg6, s_norm1_keeps_arg6, s_conv1_keeps_arg6, s_pre_keeps_arg6]
theorem ops_keeps_arg7 (W : Valuation τ sig (Elt F)) :
    after ops W (Proc.devRef .tc main_arg7) = W (Proc.devRef .tc main_arg7) := by
  rw [after_ops, s_soft_keeps_arg7, s_conv3_keeps_arg7, s_norm2_keeps_arg7, s_conv2_keeps_arg7, s_norm1_keeps_arg7, s_conv1_keeps_arg7, s_pre_keeps_arg7]
theorem ops_keeps_arg8 (W : Valuation τ sig (Elt F)) :
    after ops W (Proc.devRef .tc main_arg8) = W (Proc.devRef .tc main_arg8) := by
  rw [after_ops, s_soft_keeps_arg8, s_conv3_keeps_arg8, s_norm2_keeps_arg8, s_conv2_keeps_arg8, s_norm1_keeps_arg8, s_conv1_keeps_arg8, s_pre_keeps_arg8]
theorem ops_keeps_arg9 (W : Valuation τ sig (Elt F)) :
    after ops W (Proc.devRef .tc main_arg9) = W (Proc.devRef .tc main_arg9) := by
  rw [after_ops, s_soft_keeps_arg9, s_conv3_keeps_arg9, s_norm2_keeps_arg9, s_conv2_keeps_arg9, s_norm1_keeps_arg9, s_conv1_keeps_arg9, s_pre_keeps_arg9]
theorem ops_keeps_arg10 (W : Valuation τ sig (Elt F)) :
    after ops W (Proc.devRef .tc main_arg10) = W (Proc.devRef .tc main_arg10) := by
  rw [after_ops, s_soft_keeps_arg10, s_conv3_keeps_arg10, s_norm2_keeps_arg10, s_conv2_keeps_arg10, s_norm1_keeps_arg10, s_conv1_keeps_arg10, s_pre_keeps_arg10]
theorem ops_keeps_arg11 (W : Valuation τ sig (Elt F)) :
    after ops W (Proc.devRef .tc main_arg11) = W (Proc.devRef .tc main_arg11) := by
  rw [after_ops, s_soft_keeps_arg11, s_conv3_keeps_arg11, s_norm2_keeps_arg11, s_conv2_keeps_arg11, s_norm1_keeps_arg11, s_conv1_keeps_arg11, s_pre_keeps_arg11]

/-- The contents a device's buffers are launched with. -/
abbrev W0 (m : (ℓ : Loc nD τ sig) → Buf (Elt F) ℓ) (c : Dev nD) : Valuation τ sig (Elt F) := fun b => m (c, b)

/-- On every device, for any float values, from any memory with zero counters: every weakly fair execution of the
    program terminates with the result array at the operations' composed value of the launch contents and the twelve
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v171) = after ops (W0 m c) (Proc.devRef .tc main_v171)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v171,
      (h c main_arg0).trans (ops_keeps_arg0 _),
      (h c main_arg1).trans (ops_keeps_arg1 _),
      (h c main_arg2).trans (ops_keeps_arg2 _),
      (h c main_arg3).trans (ops_keeps_arg3 _),
      (h c main_arg4).trans (ops_keeps_arg4 _),
      (h c main_arg5).trans (ops_keeps_arg5 _),
      (h c main_arg6).trans (ops_keeps_arg6 _),
      (h c main_arg7).trans (ops_keeps_arg7 _),
      (h c main_arg8).trans (ops_keeps_arg8 _),
      (h c main_arg9).trans (ops_keeps_arg9 _),
      (h c main_arg10).trans (ops_keeps_arg10 _),
      (h c main_arg11).trans (ops_keeps_arg11 _)⟩)
    (run_seq scopedRefs_eq scopedSems_eq defs main (fun _ => ops) main_eq (fun _ => ops_sub) m ρ (fun _ => ops_fresh))

/-- The program runs and its argument arrays end unchanged, at the extended reals. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono (fun _ h c => (h c).2) (run (F := Ideal) m ρ)

end Cert.ReferenceIdeal.RefRun

end
-- ==== Proof.RefBasics.lean ====
/-
  Small facts for reading host operations at an entry, at the extended reals: a float word spread over a shape, a
  vector laid as a column, the reciprocal square root and the exponential entry by entry, the two constants of the
  column normalisation under their names, and the word of minus infinity.
-/
import proofs.«140138_j37512244363809_2_alg».proof.Proof.GcnArgs
import Idealize.ShloMosaic.Lib.IdealHost
import Idealize.ShloMosaic.Lib.KernelVsHost
import Idealize.ShloMosaic.Lib.ValueLayout

noncomputable section

namespace Cert.ReferenceIdeal.RefRead

open Idealize.ShloMosaic Idealize.ShloMosaic.ValueIdx Cert.GcnArgs

theorem hostRsqrt_apply {s : Shape} {φ : FTy} (x : FVec Ideal s φ) (i : s.Idx) : Host.rsqrt x i = Ideal.rsqrt (x i) := rfl

theorem hostExp_apply {s : Shape} {φ : FTy} (x : FVec Ideal s φ) (i : s.Idx) : Host.exp x i = Ideal.exp (x i) := rfl

theorem cnt_def : Ideal.ofBits .f32 0x47C35000#32 = cnt := rfl
theorem eps_def : Ideal.ofBits .f32 0x3727C5AC#32 = eps := rfl

/-- The word of minus infinity is the least extended real. -/
theorem negInf : Ideal.ofBits .f32 0xFF800000#32 = (⊥ : EReal) := by simp [Ideal.ofBits, Ideal.ieee]

/-- A float word spread over any shape reads, anywhere, the extended real of the word. -/
theorem fill_apply {T : Shape} (h : (⟨0, ![]⟩ : Shape).BroadcastsInDim T ![]) (w : BitVec 32) (i : T.Idx) :
    broadcastInDim T ![] h (constant (F := Ideal) ⟨0, ![]⟩ .f32 w) i = Ideal.ofBits .f32 w := by
  rw [broadcastInDim_scalar_apply, constant_apply]

/-- A length-n vector laid as a column reads, at (p, 0), the vector at p. -/
theorem asCol_apply {α : Type} {n : ℕ} (v : (⟨1, ![n]⟩ : Shape).Idx → α)
    (h : (⟨1, ![n]⟩ : Shape).BroadcastsInDim ⟨2, ![n, 1]⟩ ![0]) (p : Fin n) (z : Fin 1) :
    broadcastInDim ⟨2, ![n, 1]⟩ ![0] h v (ix2 p z) = v (ix1 p) := by
  refine broadcastInDim_apply ![0] h v (ix2 p z) (ix1 p) ?_
  intro a
  match a with
  | ⟨0, _⟩ =>
    show p.val = if n = 1 then 0 else p.val
    split_ifs with hd
    · have := p.isLt; omega
    · rfl

end Cert.ReferenceIdeal.RefRead

end
-- ==== Proof.RefEdges.lean ====
/-
  The edge-side pieces every convolution of the plain program shares, read at the extended reals: an index vector with
  negative entries counted from the end, laid as a column, is the normalised column of the specification's graph; the
  raw target vector laid as a column is its raw column; and the weight of edge x, the product of the reciprocal
  square-root degrees gathered at its two normalised end indices, is dis (src x) · dis (tgt x).  Also a length-100000
  vector read as a column.
-/
import proofs.«140138_j37512244363809_2_alg».proof.Proof.Gen.ReferenceIdeal
import proofs.«140138_j37512244363809_2_alg».proof.Proof.RefBasics
import proofs.«140138_j37512244363809_2_alg».proof.Proof.GcnRead

noncomputable section

open scoped BigOperators

namespace Cert.ReferenceIdeal.RefRead

open Cert.ReferenceIdeal Cert.ReferenceIdeal.Gen Idealize.ShloMosaic Idealize.ShloMosaic.TcCoe Idealize.SL.Sem
open Idealize.ShloMosaic.StableHlo Idealize.ShloMosaic.ValueIdx
open Cert.Spec Cert.Gcn Cert.GcnArgs

open Cert.LibRows Cert.LibVec

/-- A negative index counted from the end, the vector then laid as a column. -/
def normIdx (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

theorem normIdx_eq (v : IVec S1600000 32) : normIdx v = normCol v :=
  normCol_read v bcast_S_S1600000 bcast_S1600000_S1600000x1_0

theorem rawIdx_eq (v : IVec S1600000 32) : broadcastInDim S1600000x1 ![0] bcast_S1600000_S1600000x1_0 v = rawCol v :=
  rawCol_read v bcast_S1600000_S1600000x1_0

/-- A length-100000 vector as a column. -/
def colOf (v : FVec Ideal S100000 .f32) : Mat N 1 := fun i => v (ix1 (i 0))

theorem colOf_apply (v : FVec Ideal S100000 .f32) (r : Fin N) (z : Fin 1) : colOf v (ix2 r z) = v (ix1 r) := rfl

/-- The edges' weights: the vector dis gathered at the normalised sources times the same at the normalised targets. -/
def edgeW (dis : FVec Ideal S100000 .f32) (sv dv : IVec S1600000 32) : FVec Ideal S1600000 .f32 :=
  mulf (Host.gather gather_S100000_S1600000x1_S1600000_n_0_n_n_0_1_1 dis (normIdx sv))
    (Host.gather gather_S100000_S1600000x1_S1600000_n_0_n_n_0_1_1 dis (normIdx dv))

theorem gather1_rec : gather_S100000_S1600000x1_S1600000_n_0_n_n_0_1_1
    = gather1Dims N E gather_S100000_S1600000x1_S1600000_n_0_n_n_0_1_1_wf := rfl

theorem edgeW_apply (dis : FVec Ideal S100000 .f32) (sv dv : IVec S1600000 32) (x : Fin E) :
    edgeW dis sv dv (ix1 x)
      = dis (ix1 (rowAt N_pos (normCol sv) x)) * dis (ix1 (rowAt N_pos (normCol dv) x)) := by
  unfold edgeW
  rw [mulf_apply, normIdx_eq, normIdx_eq, gather1_rec, gather1_apply N_pos, gather1_apply N_pos]

end Cert.ReferenceIdeal.RefRead

end
-- ==== Proof.RefPre.lean ====
/-
  The first stretch of the plain program, read at the extended reals: the two rows of the edge array are the source
  and target index vectors; the degree of a node is the scatter-add of a one at every raw target index into zeros,
  plus one; the two weights are its reciprocal square root and its reciprocal.  On the graph of the two index vectors
  these are the specification's degree vectors.
-/
import proofs.«140138_j37512244363809_2_alg».proof.Proof.RefOpsPre
import proofs.«140138_j37512244363809_2_alg».proof.Proof.LibReadLine
import proofs.«140138_j37512244363809_2_alg».proof.Proof.RefEdges

noncomputable section

open scoped BigOperators

namespace Cert.ReferenceIdeal.RefRead

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx
open Cert.LibHostKeeps Cert.Spec Cert.Gcn Cert.GcnArgs

open Cert.LibRows Cert.LibVec

/-- The degrees as the stretch computes them from the target index vector. -/
def degTerm (dv : IVec S1600000 32) : FVec Ideal S100000 .f32 :=
  addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dv)
      (broadcastInDim S1600000 ![] bcast_S_S1600000 (constant (F := Ideal) S_ .f32 0x3F800000#32)))
    (broadcastInDim S100000 ![] bcast_S_S100000 (constant (F := Ideal) S_ .f32 0x3F800000#32))

theorem pre_v1 (W : Valuation τ sig (Elt Ideal)) :
    after (s_pre (F := Ideal)) W (Proc.devRef .tc main_v1) = srcOf (W (Proc.devRef .tc main_arg11)) := by
  unfold s_pre
  read_line
  rfl

theorem pre_v3 (W : Valuation τ sig (Elt Ideal)) :
    after (s_pre (F := Ideal)) W (Proc.devRef .tc main_v3) = dstOf (W (Proc.devRef .tc main_arg11)) := by
  unfold s_pre
  read_line
  rfl

theorem pre_v10 (W : Valuation τ sig (Elt Ideal)) :
    after (s_pre (F := Ideal)) W (Proc.devRef .tc main_v10)
      = Host.rsqrt (F := Ideal) (φ := .f32) (degTerm (dstOf (W (Proc.devRef .tc main_arg11)))) := by
  unfold s_pre
  read_line
  rfl

theorem pre_v12 (W : Valuation τ sig (Elt Ideal)) :
    after (s_pre (F := Ideal)) W (Proc.devRef .tc main_v12)
      = Host.divf (F := Ideal) (φ := .f32)
          (broadcastInDim S100000 ![] bcast_S_S100000 (constant (F := Ideal) S_ .f32 0x3F800000#32))
          (degTerm (dstOf (W (Proc.devRef .tc main_arg11)))) := by
  unfold s_pre
  read_line
  rfl

theorem scatter1_rec : scatter_S100000_S1600000x1_S1600000_n_0_0_1
    = scatter1Dims N E scatter_S100000_S1600000x1_S1600000_n_0_0_1_wf := rfl

/-- The degrees are the specification's, on the graph of any source vector and this target vector. -/
theorem degTerm_eq (sv dv : IVec S1600000 32) : degTerm dv = degVec (graphOf sv dv) := by
  unfold degTerm
  rw [rawIdx_eq]
  exact deg_read sv dv scatter_S100000_S1600000x1_S1600000_n_0_0_1_wf _ scatter1_rec bcast_S_S100000 bcast_S_S1600000

/-- After the stretch the buffer of reciprocal square-root degrees holds the specification's vector. -/
theorem pre_dis (W : Valuation τ sig (Elt Ideal)) :
    after (s_pre (F := Ideal)) W (Proc.devRef .tc main_v10)
      = disVec (graphOf (srcOf (W (Proc.devRef .tc main_arg11))) (dstOf (W (Proc.devRef .tc main_arg11)))) := by
  rw [pre_v10, degTerm_eq (srcOf (W (Proc.devRef .tc main_arg11)))]
  exact dis_read _

/-- After the stretch the buffer of reciprocal degrees holds the specification's vector. -/
theorem pre_di (W : Valuation τ sig (Elt Ideal)) :
    after (s_pre (F := Ideal)) W (Proc.devRef .tc main_v12)
      = diVec (graphOf (srcOf (W (Proc.devRef .tc main_arg11))) (dstOf (W (Proc.devRef .tc main_arg11)))) := by
  rw [pre_v12, degTerm_eq (srcOf (W (Proc.devRef .tc main_arg11)))]
  exact di_read _ bcast_S_S100000

/-- A degree vector read as a column is the specification's column. -/
theorem colOf_disVec (G : Graph N E) : colOf (disVec G) = disCol G := by
  funext i
  obtain ⟨r, z, rfl⟩ : ∃ (r : Fin N) (z : Fin 1), i = ix2 r z := ⟨i 0, i 1, eq_ix2 i⟩
  obtain rfl : z = 0 := Subsingleton.elim _ _
  rw [colOf_apply, disVec_apply]

theorem colOf_diVec (G : Graph N E) : colOf (diVec G) = diCol G := by
  funext i
  obtain ⟨r, z, rfl⟩ : ∃ (r : Fin N) (z : Fin 1), i = ix2 r z := ⟨i 0, i 1, eq_ix2 i⟩
  obtain rfl : z = 0 := Subsingleton.elim _ _
  rw [colOf_apply, diVec_apply]

end Cert.ReferenceIdeal.RefRead

end
-- ==== Proof.RefConv.lean ====
/-
  A convolution of the plain program at width 128 (the first and the second), read at the extended reals.
  With H the features times the weight, the stretch gathers H's rows at the edges' normalised source indices, scales
  row x by the edge's weight dis (src x) · dis (tgt x), adds the scaled rows into zeros at the edges' raw target
  indices, and adds H's own rows scaled by the reciprocal degrees and the bias row.  At node r and column c that is
  the sum over the edges into r of H (src x, c) · (dis (src x) · dis (tgt x)), plus H (r, c) · di r, plus b c: the
  specification's convR on the graph of the two index vectors.
-/
import proofs.«140138_j37512244363809_2_alg».proof.Proof.RefOpsConv1
import proofs.«140138_j37512244363809_2_alg».proof.Proof.RefOpsConv2
import proofs.«140138_j37512244363809_2_alg».proof.Proof.LibReadLine
import proofs.«140138_j37512244363809_2_alg».proof.Proof.RefEdges
import proofs.«140138_j37512244363809_2_alg».proof.Proof.LibPlainDot

noncomputable section

open scoped BigOperators

namespace Cert.ReferenceIdeal.RefRead

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx
open Cert.LibHostKeeps Cert.Spec Cert.Gcn Cert.GcnArgs

open Cert.LibRows Cert.LibVec

/-- The features times the weight. -/
def hTerm (X : FVec Ideal S100000x128 .f32) (Wt : FVec Ideal S128x128 .f32) : FVec Ideal S100000x128 .f32 :=
  Host.dotGeneral dot_S100000x128_S128x128_S100000x128_1_0_0_1_n_n none X Wt

/-- The whole stretch. -/
def convTerm (X : FVec Ideal S100000x128 .f32) (Wt : FVec Ideal S128x128 .f32) (b : FVec Ideal S128 .f32)
    (sv dv : IVec S1600000 32) (dis di : FVec Ideal S100000 .f32) : FVec Ideal S100000x128 .f32 :=
  addf
    (addf
      (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dv)
        (mulf (Host.gather gather_S100000x128_S1600000x1_S1600000x128_1_0_n_n_0_1_1128 (hTerm X Wt) (normIdx sv))
          (broadcastInDim S1600000x128 ![0, 1] bcast_S1600000x1_S1600000x128_0_1
            (broadcastInDim S1600000x1 ![0] bcast_S1600000_S1600000x1_0 (edgeW dis sv dv)))))
      (mulf (hTerm X Wt)
        (broadcastInDim S100000x128 ![0, 1] bcast_S100000x1_S100000x128_0_1
          (broadcastInDim S100000x1 ![0] bcast_S100000_S100000x1_0 di))))
    (broadcastInDim S100000x128 ![0, 1] bcast_S1x128_S100000x128_0_1 (broadcastInDim S1x128 ![1] bcast_S128_S1x128_1 b))

/-- The first convolution leaves its result at that term of the features, the first weight and bias, the two index
    vectors and the two degree vectors. -/
theorem conv1_read (W : Valuation τ sig (Elt Ideal)) :
    after (s_conv1 (F := Ideal)) W (Proc.devRef .tc main_v48)
      = convTerm (W (Proc.devRef .tc main_arg0)) (W (Proc.devRef .tc main_arg1)) (W (Proc.devRef .tc main_arg2))
          (W (Proc.devRef .tc main_v1)) (W (Proc.devRef .tc main_v3)) (W (Proc.devRef .tc main_v10)) (W (Proc.devRef .tc main_v12)) := by
  unfold s_conv1
  read_line
  rfl

/-- The second convolution likewise, of the first layer's activations. -/
theorem conv2_read (W : Valuation τ sig (Elt Ideal)) :
    after (s_conv2 (F := Ideal)) W (Proc.devRef .tc main_v104)
      = convTerm (W (Proc.devRef .tc main_v68)) (W (Proc.devRef .tc main_arg5)) (W (Proc.devRef .tc main_arg6))
          (W (Proc.devRef .tc main_v1)) (W (Proc.devRef .tc main_v3)) (W (Proc.devRef .tc main_v10)) (W (Proc.devRef .tc main_v12)) := by
  unfold s_conv2
  read_line
  rfl

/-! ## The term at an entry -/

theorem hTerm_eq (X : FVec Ideal S100000x128 .f32) (Wt : FVec Ideal S128x128 .f32) : hTerm X Wt = mm X Wt := by
  funext i
  obtain ⟨p, c, rfl⟩ : ∃ (p : Fin 100000) (c : Fin 128), i = ix2 p c := ⟨i 0, i 1, eq_ix2 i⟩
  rw [mm_apply]
  exact Cert.LibPlainDot.dotGeneral_apply dot_S100000x128_S128x128_S100000x128_1_0_0_1_n_n rfl none _ X Wt p c

theorem gatherRows_rec : gather_S100000x128_S1600000x1_S1600000x128_1_0_n_n_0_1_1128 = gatherRowsDims N 128 E gather_S100000x128_S1600000x1_S1600000x128_1_0_n_n_0_1_1128_wf := rfl
theorem scatterRows_rec : scatter_S100000x128_S1600000x1_S1600000x128_1_0_0_1 = scatterRowsDims N 128 E scatter_S100000x128_S1600000x1_S1600000x128_1_0_0_1_wf := rfl

/-- The stretch is the specification's convolution, each edge weighted by dis (src x) · dis (tgt x). -/
theorem convTerm_eq (X : FVec Ideal S100000x128 .f32) (Wt : FVec Ideal S128x128 .f32) (b : FVec Ideal S128 .f32)
    (sv dv : IVec S1600000 32) (dis di : FVec Ideal S100000 .f32) :
    convTerm X Wt b sv dv dis di = convR (graphOf sv dv) (mm X Wt) (colOf dis) (colOf di) (rowOf b) := by
  unfold convTerm
  rw [hTerm_eq, rawIdx_eq, normIdx_eq, scatterRows_rec, gatherRows_rec, scatterAdd_ideal]
  funext i
  obtain ⟨r, c, rfl⟩ : ∃ (r : Fin N) (c : Fin 128), i = ix2 r c := ⟨i 0, i 1, eq_ix2 i⟩
  rw [addf_apply, addf_apply, scatterRows_apply, Cert.HostRead.fill_zero_apply, zero_add, mulf_apply,
    Cert.HostRead.cols_apply (by decide), asCol_apply, Cert.HostRead.rows_apply, convR_apply, graphOf_into, edgesInto_def,
    colOf_apply, rowOf_apply]
  simp only [mulf_apply, gatherRows_apply N_pos gather_S100000x128_S1600000x1_S1600000x128_1_0_n_n_0_1_1128_wf, Cert.HostRead.cols_apply (n := E) (by decide),
    asCol_apply (edgeW dis sv dv) bcast_S1600000_S1600000x1_0, edgeW_apply, graphOf_src, graphOf_tgt, colOf_apply]

end Cert.ReferenceIdeal.RefRead

end
-- ==== Proof.RefConv3.lean ====
/-
  The last convolution of the plain program, two columns wide, read at the extended reals.
  With H the features times the weight, the stretch gathers H's rows at the edges' normalised source indices, scales
  row x by the edge's weight dis (src x) · dis (tgt x), adds the scaled rows into zeros at the edges' raw target
  indices, and adds H's own rows scaled by the reciprocal degrees and the bias row.  At node r and column c that is
  the sum over the edges into r of H (src x, c) · (dis (src x) · dis (tgt x)), plus H (r, c) · di r, plus b c: the
  specification's convR on the graph of the two index vectors.
-/
import proofs.«140138_j37512244363809_2_alg».proof.Proof.RefOpsConv3
import proofs.«140138_j37512244363809_2_alg».proof.Proof.LibReadLine
import proofs.«140138_j37512244363809_2_alg».proof.Proof.RefEdges
import proofs.«140138_j37512244363809_2_alg».proof.Proof.LibPlainDot

noncomputable section

open scoped BigOperators

namespace Cert.ReferenceIdeal.RefRead

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx
open Cert.LibHostKeeps Cert.Spec Cert.Gcn Cert.GcnArgs

open Cert.LibRows Cert.LibVec

/-- The features times the weight. -/
def hTerm3 (X : FVec Ideal S100000x128 .f32) (Wt : FVec Ideal S128x2 .f32) : FVec Ideal S100000x2 .f32 :=
  Host.dotGeneral dot_S100000x128_S128x2_S100000x2_1_0_0_1_n_n none X Wt

/-- The whole stretch. -/
def convTerm3 (X : FVec Ideal S100000x128 .f32) (Wt : FVec Ideal S128x2 .f32) (b : FVec Ideal S2 .f32)
    (sv dv : IVec S1600000 32) (dis di : FVec Ideal S100000 .f32) : FVec Ideal S100000x2 .f32 :=
  addf
    (addf
      (Host.scatterAdd scatter_S100000x2_S1600000x1_S1600000x2_1_0_0_1
        (broadcastInDim S100000x2 ![] bcast_S_S100000x2 (constant (F := Ideal) S_ .f32 0x00000000#32))
        (broadcastInDim S1600000x1 ![0] bcast_S1600000_S1600000x1_0 dv)
        (mulf (Host.gather gather_S100000x2_S1600000x1_S1600000x2_1_0_n_n_0_1_12 (hTerm3 X Wt) (normIdx sv))
          (broadcastInDim S1600000x2 ![0, 1] bcast_S1600000x1_S1600000x2_0_1
            (broadcastInDim S1600000x1 ![0] bcast_S1600000_S1600000x1_0 (edgeW dis sv dv)))))
      (mulf (hTerm3 X Wt)
        (broadcastInDim S100000x2 ![0, 1] bcast_S100000x1_S100000x2_0_1
          (broadcastInDim S100000x1 ![0] bcast_S100000_S100000x1_0 di))))
    (broadcastInDim S100000x2 ![0, 1] bcast_S1x2_S100000x2_0_1 (broadcastInDim S1x2 ![1] bcast_S2_S1x2_1 b))

/-- The third convolution leaves its result at that term of the second layer's activations, the third weight and
    bias, the two index vectors and the two degree vectors. -/
theorem conv3_read (W : Valuation τ sig (Elt Ideal)) :
    after (s_conv3 (F := Ideal)) W (Proc.devRef .tc main_v160)
      = convTerm3 (W (Proc.devRef .tc main_v124)) (W (Proc.devRef .tc main_arg9)) (W (Proc.devRef .tc main_arg10))
          (W (Proc.devRef .tc main_v1)) (W (Proc.devRef .tc main_v3)) (W (Proc.devRef .tc main_v10)) (W (Proc.devRef .tc main_v12)) := by
  unfold s_conv3
  read_line
  rfl

/-! ## The term at an entry -/

theorem hTerm3_eq (X : FVec Ideal S100000x128 .f32) (Wt : FVec Ideal S128x2 .f32) : hTerm3 X Wt = mm X Wt := by
  funext i
  obtain ⟨p, c, rfl⟩ : ∃ (p : Fin 100000) (c : Fin 2), i = ix2 p c := ⟨i 0, i 1, eq_ix2 i⟩
  rw [mm_apply]
  exact Cert.LibPlainDot.dotGeneral_apply dot_S100000x128_S128x2_S100000x2_1_0_0_1_n_n rfl none _ X Wt p c

theorem gatherRows3_rec : gather_S100000x2_S1600000x1_S1600000x2_1_0_n_n_0_1_12 = gatherRowsDims N 2 E gather_S100000x2_S1600000x1_S1600000x2_1_0_n_n_0_1_12_wf := rfl
theorem scatterRows3_rec : scatter_S100000x2_S1600000x1_S1600000x2_1_0_0_1 = scatterRowsDims N 2 E scatter_S100000x2_S1600000x1_S1600000x2_1_0_0_1_wf := rfl

/-- The stretch is the specification's convolution, each edge weighted by dis (src x) · dis (tgt x). -/
theorem convTerm3_eq (X : FVec Ideal S100000x128 .f32) (Wt : FVec Ideal S128x2 .f32) (b : FVec Ideal S2 .f32)
    (sv dv : IVec S1600000 32) (dis di : FVec Ideal S100000 .f32) :
    convTerm3 X Wt b sv dv dis di = convR (graphOf sv dv) (mm X Wt) (colOf dis) (colOf di) (rowOf b) := by
  unfold convTerm3
  rw [hTerm3_eq, rawIdx_eq, normIdx_eq, scatterRows3_rec, gatherRows3_rec, scatterAdd_ideal]
  funext i
  obtain ⟨r, c, rfl⟩ : ∃ (r : Fin N) (c : Fin 2), i = ix2 r c := ⟨i 0, i 1, eq_ix2 i⟩
  rw [addf_apply, addf_apply, scatterRows_apply, Cert.HostRead.fill_zero_apply, zero_add, mulf_apply,
    Cert.HostRead.cols_apply (by decide), asCol_apply, Cert.HostRead.rows_apply, convR_apply, graphOf_into, edgesInto_def,
    colOf_apply, rowOf_apply]
  simp only [mulf_apply, gatherRows_apply N_pos gather_S100000x2_S1600000x1_S1600000x2_1_0_n_n_0_1_12_wf, Cert.HostRead.cols_apply (n := E) (by decide),
    asCol_apply (edgeW dis sv dv) bcast_S1600000_S1600000x1_0, edgeW_apply, graphOf_src, graphOf_tgt, colOf_apply]

end Cert.ReferenceIdeal.RefRead

end
-- ==== Proof.RefNorm.lean ====
/-
  The column normalisation of the plain program, read at the extended reals.  From an array Y of 100000 rows and 128
  columns, a gain vector g and a shift vector be, the stretch computes each column's mean (the column sum over the
  count), the column's variance — inside an outlined function: the mean of the squared deviations from that mean,
  guarded by a test that the count less zero is positive, which it is —, and then, entry by entry,
  max ((Y − mean) · rsqrt (variance + ε) · g + be, 0).  That is the activation actR of the specification, with the
  two vectors read as rows.
-/
import proofs.«140138_j37512244363809_2_alg».proof.Proof.RefOpsNorm1
import proofs.«140138_j37512244363809_2_alg».proof.Proof.RefOpsNorm2
import proofs.«140138_j37512244363809_2_alg».proof.Proof.LibReadLine
import proofs.«140138_j37512244363809_2_alg».proof.Proof.RefBasics
import Idealize.ShloMosaic.Lib.IdealHost
import Idealize.ShloMosaic.Lib.KernelVsHost
import Idealize.ShloMosaic.Lib.ValueLayout

noncomputable section

open scoped BigOperators

namespace Cert.ReferenceIdeal.RefRead

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx
open Cert.LibHostKeeps Cert.Spec Cert.Gcn Cert.GcnArgs

/-- The deviations from the column means, as the variance computes them. -/
def devTerm (Y : FVec Ideal S100000x128 .f32) : FVec Ideal S100000x128 .f32 :=
  subf Y (broadcastInDim S100000x128 ![0, 1] bcast_S1x128_S100000x128_0_1
    (Host.divf
      (broadcastInDim S1x128 ![1] bcast_S128_S1x128_1
        (Host.reduceAdd Y (constant (F := Ideal) S_ .f32 0x00000000#32) reducesTo_S100000x128_S128_d0 h_S_))
      (broadcastInDim S1x128 ![] bcast_S_S1x128 (constant (F := Ideal) S_ .f32 0x47C35000#32))))

/-- The column variances: the guarded quotient of the summed squared deviations by the count less zero. -/
def varTerm (Y : FVec Ideal S100000x128 .f32) : FVec Ideal S128 .f32 :=
  select
    (broadcastInDim S128 ![] bcast_S_S128
      (cmpf .ogt (subf (constant (F := Ideal) S_ .f32 0x47C35000#32) (sitofp .f32 (constantI S_ 32 0#32)))
        (constant (F := Ideal) S_ .f32 0x00000000#32)))
    (Host.divf
      (Host.reduceAdd (mulf (devTerm Y) (devTerm Y)) (constant (F := Ideal) S_ .f32 0x00000000#32)
        reducesTo_S100000x128_S128_d0 h_S_)
      (broadcastInDim S128 ![] bcast_S_S128
        (subf (constant (F := Ideal) S_ .f32 0x47C35000#32) (sitofp .f32 (constantI S_ 32 0#32)))))
    (broadcastInDim S128 ![] bcast_S_S128 (id (constant (F := Ideal) S_ .f32 0x7FC00000#32)))

/-- The whole stretch: centre, scale by the reciprocal root of variance plus ε and by the gain, shift, positive part. -/
def normTerm (Y : FVec Ideal S100000x128 .f32) (g be : FVec Ideal S128 .f32) : FVec Ideal S100000x128 .f32 :=
  maximumf
    (addf
      (mulf
        (mulf
          (subf Y (broadcastInDim S100000x128 ![0, 1] bcast_S1x128_S100000x128_0_1 (broadcastInDim S1x128 ![1] bcast_S128_S1x128_1 (Host.divf (Host.reduceAdd Y (constant (F := Ideal) S_ .f32 0x00000000#32) reducesTo_S100000x128_S128_d0 h_S_)
                (broadcastInDim S128 ![] bcast_S_S128 (constant (F := Ideal) S_ .f32 0x47C35000#32))))))
          (broadcastInDim S100000x128 ![0, 1] bcast_S1x128_S100000x128_0_1 (broadcastInDim S1x128 ![1] bcast_S128_S1x128_1 (Host.rsqrt (addf (varTerm Y) (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 be)))
    (broadcastInDim S100000x128 ![] bcast_S_S100000x128 (constant (F := Ideal) S_ .f32 0x00000000#32))

/-- The first normalisation leaves its result at that term of the convolution's output and the two vectors. -/
theorem norm1_read (W : Valuation τ sig (Elt Ideal)) :
    after (s_norm1 (F := Ideal)) W (Proc.devRef .tc main_v68)
      = normTerm (W (Proc.devRef .tc main_v48)) (W (Proc.devRef .tc main_arg3)) (W (Proc.devRef .tc main_arg4)) := by
  unfold s_norm1
  read_line
  drop_casts
  rfl

/-- The second normalisation likewise. -/
theorem norm2_read (W : Valuation τ sig (Elt Ideal)) :
    after (s_norm2 (F := Ideal)) W (Proc.devRef .tc main_v124)
      = normTerm (W (Proc.devRef .tc main_v104)) (W (Proc.devRef .tc main_arg7)) (W (Proc.devRef .tc main_arg8)) := by
  unfold s_norm2
  read_line
  drop_casts
  rfl

/-! ## The term at an entry -/

/-- The index a sum down the rows inserts at column c is (k, c). -/
theorem lift_col (h : S100000x128.Reduces [0] S128) (c : Fin 128) (k : Fin 100000) : h.lift (ix1 c) k = ix2 k c := by
  funext a; refine Fin.ext ?_
  match a with
  | ⟨0, _⟩ => rfl
  | ⟨1, _⟩ => rfl

/-- A sum down the rows from zero, at column c. -/
theorem colSum_read (Y : FVec Ideal S100000x128 .f32) (c : Fin 128) :
    Host.reduceAdd Y (constant (F := Ideal) S_ .f32 0x00000000#32) reducesTo_S100000x128_S128_d0 h_S_ (ix1 c)
      = ∑ p : Fin 100000, Y (ix2 p c) := by
  rw [hostReduceAdd_apply, Ideal.hostReduceAdd_single reducesTo_S100000x128_S128_d0 (by decide), constant_apply,
    Cert.Consts.ofBits_zero, zero_add]
  exact Finset.sum_congr rfl fun k _ => congrArg Y (lift_col _ c k)

/-- The count less the integer zero converted is the count. -/
theorem cnt_less_zero : cnt - FloatOps.sitofp (F := Ideal) .f32 (0#32 : BitVec 32) = cnt := by
  show cnt - ((((0#32 : BitVec 32).toInt : ℤ) : ℝ) : EReal) = cnt
  simp

theorem cntLess_apply :
    (subf (constant (F := Ideal) S_ .f32 0x47C35000#32) (sitofp .f32 (constantI S_ 32 0#32))) ix0 = cnt := by
  rw [subf_apply, constant_apply, sitofp_apply, constantI_apply, cnt_def]
  exact cnt_less_zero

/-- The count is positive. -/
theorem cnt_gt_zero : Ideal.cmp .ogt cnt (Ideal.ofBits .f32 0x00000000#32) = 1#1 := by
  have h : (Ideal.ofBits .f32 0x00000000#32 : EReal) < cnt := by
    rw [Cert.Consts.ofBits_zero, cnt_eq]; exact_mod_cast (by norm_num : (0 : ℝ) < ((N : ℕ) : ℝ))
  show BitVec.ofBool (decide (Ideal.ofBits .f32 0x00000000#32 < cnt)) = 1#1
  rw [decide_eq_true h]; rfl

/-- The guard of the variance's quotient holds at every column. -/
theorem guard_apply (c : Fin 128) :
    (broadcastInDim S128 ![] bcast_S_S128
      (cmpf .ogt (subf (constant (F := Ideal) S_ .f32 0x47C35000#32) (sitofp .f32 (constantI S_ 32 0#32)))
        (constant (F := Ideal) S_ .f32 0x00000000#32))) (ix1 c) = 1#1 := by
  rw [broadcastInDim_scalar_apply, cmpf_apply, cntLess_apply, constant_apply, Ideal.cmpf_def, cnt_gt_zero]

/-- The variance's divisor is the count at every column. -/
theorem divisor_apply (c : Fin 128) :
    (broadcastInDim S128 ![] bcast_S_S128
      (subf (constant (F := Ideal) S_ .f32 0x47C35000#32) (sitofp .f32 (constantI S_ 32 0#32)))) (ix1 c) = cnt := by
  rw [broadcastInDim_scalar_apply, cntLess_apply]

theorem devTerm_apply (Y : FVec Ideal S100000x128 .f32) (p : Fin 100000) (c : Fin 128) :
    devTerm Y (ix2 p c) = Y (ix2 p c) - colMean Y cnt (ix2 (0 : Fin 1) c) := by
  unfold devTerm
  rw [subf_apply, broadcastInDim_oneRow_apply, hostDivf_apply, Cert.HostRead.asRow_apply, colSum_read,
    broadcastInDim_scalar_apply, constant_apply]
  rfl

theorem varTerm_apply (Y : FVec Ideal S100000x128 .f32) (c : Fin 128) :
    varTerm Y (ix1 c) = varR Y cnt (ix2 (0 : Fin 1) c) := by
  unfold varTerm
  rw [select_apply, guard_apply, select_one, hostDivf_apply, colSum_read, divisor_apply, varR_apply]
  refine congrArg (fun s => Ideal.div s cnt) (Finset.sum_congr rfl fun p _ => ?_)
  rw [mulf_apply, devTerm_apply]

/-- The stretch is the specification's activation, variance by squared deviations, the vectors read as rows. -/
theorem normTerm_eq (Y : FVec Ideal S100000x128 .f32) (g be : FVec Ideal S128 .f32) :
    normTerm Y g be = actR eps cnt Y (rowOf g) (rowOf be) := by
  funext i
  obtain ⟨r, c, rfl⟩ : ∃ (r : Fin 100000) (c : Fin 128), i = ix2 r c := ⟨i 0, i 1, eq_ix2 i⟩
  show normTerm Y g be (ix2 r c) = normRelu eps Y (colMean Y cnt) (varR Y cnt) (rowOf g) (rowOf be) (ix2 r c)
  unfold normTerm
  rw [maximumf_apply, addf_apply, mulf_apply, mulf_apply, subf_apply, Cert.HostRead.rows_apply, Cert.HostRead.rows_apply,
    Cert.HostRead.rows_apply, Cert.HostRead.rows_apply, Cert.HostRead.fill_zero_apply, hostDivf_apply, colSum_read,
    fill_apply, cnt_def, hostRsqrt_apply, addf_apply, varTerm_apply, fill_apply, eps_def,
    normRelu_apply, colMean_apply, rowOf_apply, rowOf_apply]

end Cert.ReferenceIdeal.RefRead

end
-- ==== Proof.RefSoft.lean ====
/-
  The softmax of the plain program, read at the extended reals.  From an array Z of 100000 rows and two columns the
  stretch takes each row's maximum (a fold of max from minus infinity over the two columns, then once more against
  minus infinity), subtracts it, exponentiates, and divides each entry by its row's sum of exponentials (a sum from
  zero over the two columns).  That is softmax2 of the specification.
-/
import proofs.«140138_j37512244363809_2_alg».proof.Proof.RefOpsSoft
import proofs.«140138_j37512244363809_2_alg».proof.Proof.LibReadLine
import proofs.«140138_j37512244363809_2_alg».proof.Proof.RefBasics

noncomputable section

open scoped BigOperators

namespace Cert.ReferenceIdeal.RefRead

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx
open Cert.LibHostKeeps Cert.Spec Cert.Gcn Cert.GcnArgs

/-- The exponentials of the entries less their row's maximum. -/
def expTerm (Z : FVec Ideal S100000x2 .f32) : FVec Ideal S100000x2 .f32 :=
  Host.exp (subf Z (broadcastInDim S100000x2 ![0, 1] bcast_S100000x1_S100000x2_0_1 (broadcastInDim S100000x1 ![0] bcast_S100000_S100000x1_0 (maximumf (broadcastInDim S100000 ![] bcast_S_S100000 (constant (F := Ideal) S_ .f32 0xFF800000#32))
      (Host.reduce FloatOps.maximumf Z (constant (F := Ideal) S_ .f32 0xFF800000#32) reducesTo_S100000x2_S100000_d1 h_S_)))))

/-- Each exponential over its row's sum. -/
def softTerm (Z : FVec Ideal S100000x2 .f32) : FVec Ideal S100000x2 .f32 :=
  Host.divf (expTerm Z) (broadcastInDim S100000x2 ![0, 1] bcast_S100000x1_S100000x2_0_1 (broadcastInDim S100000x1 ![0] bcast_S100000_S100000x1_0 (Host.reduceAdd (expTerm Z) (constant (F := Ideal) S_ .f32 0x00000000#32) reducesTo_S100000x2_S100000_d1 h_S_)))

/-- The last stretch leaves its result at that term of the third convolution's output. -/
theorem soft_read (W : Valuation τ sig (Elt Ideal)) :
    after (s_soft (F := Ideal)) W (Proc.devRef .tc main_v171) = softTerm (W (Proc.devRef .tc main_v160)) := by
  unfold s_soft
  read_line
  rfl

/-! ## The term at an entry -/

/-- The index a reduction along the rows inserts at row r is (r, k). -/
theorem lift_row (h : S100000x2.Reduces [1] S100000) (r : Fin 100000) (k : Fin 2) : h.lift (ix1 r) k = ix2 r k := by
  funext a; refine Fin.ext ?_
  match a with
  | ⟨0, _⟩ => rfl
  | ⟨1, _⟩ => rfl

/-- The row maximum from minus infinity is the larger of the row's two entries. -/
theorem rowMax_read (Z : FVec Ideal S100000x2 .f32) (h : S100000x2.Reduces [1] S100000) (r : Fin 100000) :
    Host.reduce FloatOps.maximumf Z (constant (F := Ideal) S_ .f32 0xFF800000#32) reducesTo_S100000x2_S100000_d1 h_S_ (ix1 r)
      = max (Z (ix2 r (0 : Fin 2))) (Z (ix2 r (1 : Fin 2))) := by
  rw [Host.reduce_eq_fold_single FloatOps.maximumf Z _ reducesTo_S100000x2_S100000_d1 h h_S_]
  have hf : (Z ∘ h.lift (ix1 r)) = fun k : Fin 2 => Z (ix2 r k) := funext fun k => congrArg Z (lift_row h r k)
  rw [hf]
  show Finset.fold max (Ideal.ofBits .f32 0xFF800000#32) (fun k : Fin 2 => Z (ix2 r k)) (Finset.univ : Finset (Fin 2)) = _
  rw [show (Finset.univ : Finset (Fin 2)) = {0, 1} from by decide, Finset.fold_insert (by decide), Finset.fold_singleton,
    negInf, max_eq_left (bot_le : (⊥ : EReal) ≤ Z (ix2 r (1 : Fin 2)))]

/-- The row sum from zero is the sum of the row's two entries. -/
theorem rowSum_read (X : FVec Ideal S100000x2 .f32) (h : S100000x2.Reduces [1] S100000) (r : Fin 100000) :
    Host.reduceAdd X (constant (F := Ideal) S_ .f32 0x00000000#32) reducesTo_S100000x2_S100000_d1 h_S_ (ix1 r)
      = X (ix2 r (0 : Fin 2)) + X (ix2 r (1 : Fin 2)) := by
  rw [hostReduceAdd_apply, Ideal.hostReduceAdd_single reducesTo_S100000x2_S100000_d1 h, constant_apply,
    Cert.Consts.ofBits_zero, zero_add]
  show ∑ k : Fin 2, X (h.lift (ix1 r) k) = _
  rw [Fin.sum_univ_two, lift_row, lift_row]

theorem expTerm_apply (Z : FVec Ideal S100000x2 .f32) (r : Fin 100000) (c : Fin 2) :
    expTerm Z (ix2 r c) = Ideal.exp (Z (ix2 r c) - max (Z (ix2 r (0 : Fin 2))) (Z (ix2 r (1 : Fin 2)))) := by
  unfold expTerm
  rw [hostExp_apply, subf_apply, Cert.HostRead.cols_apply (by decide), asCol_apply, maximumf_apply, fill_apply, negInf,
    rowMax_read Z (by decide), max_eq_right (bot_le : (⊥ : EReal) ≤ _)]

/-- The stretch is the specification's row softmax. -/
theorem softTerm_eq (Z : FVec Ideal S100000x2 .f32) : softTerm Z = softmax2 Z := by
  funext i
  obtain ⟨r, c, rfl⟩ : ∃ (r : Fin 100000) (c : Fin 2), i = ix2 r c := ⟨i 0, i 1, eq_ix2 i⟩
  unfold softTerm
  rw [hostDivf_apply, Cert.HostRead.cols_apply (by decide), asCol_apply, rowSum_read _ (by decide), softmax2_apply]
  simp only [expTerm_apply]

end Cert.ReferenceIdeal.RefRead

end
-- ==== Proof.RefNet.lean ====
/-
  The plain program's result, read at the extended reals: entered with any contents W, the seven stretches one after
  another leave in the result buffer the specification's network netR — convolutions with each edge weighted by
  dis (src x) · dis (tgt x), variances by squared deviations, the softmax at the end — of the twelve argument arrays
  as W holds them, on the graph of the edge array's two rows, with that graph's degree columns.  Each stretch reads
  only argument arrays and results of earlier stretches, which the stretches between leave alone.
-/
import proofs.«140138_j37512244363809_2_alg».proof.Proof.RefOps
import proofs.«140138_j37512244363809_2_alg».proof.Proof.RefPre
import proofs.«140138_j37512244363809_2_alg».proof.Proof.RefConv
import proofs.«140138_j37512244363809_2_alg».proof.Proof.RefConv3
import proofs.«140138_j37512244363809_2_alg».proof.Proof.RefNorm
import proofs.«140138_j37512244363809_2_alg».proof.Proof.RefSoft

noncomputable section

open scoped BigOperators

namespace Cert.ReferenceIdeal.RefRead

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx
open Cert.LibHostKeeps Cert.Spec Cert.Gcn Cert.GcnArgs

/-- The result buffer after the whole program, from any contents. -/
theorem ref_value (W : Valuation τ sig (Elt Ideal)) :
    after (ops (F := Ideal)) W (Proc.devRef .tc main_v171)
      = netR (graphOf (srcOf (W (Proc.devRef .tc main_arg11))) (dstOf (W (Proc.devRef .tc main_arg11)))) eps cnt
          (disCol (graphOf (srcOf (W (Proc.devRef .tc main_arg11))) (dstOf (W (Proc.devRef .tc main_arg11)))))
          (diCol (graphOf (srcOf (W (Proc.devRef .tc main_arg11))) (dstOf (W (Proc.devRef .tc main_arg11)))))
          (W (Proc.devRef .tc main_arg0)) (W (Proc.devRef .tc main_arg1)) (rowOf (W (Proc.devRef .tc main_arg2))) (rowOf (W (Proc.devRef .tc main_arg3)))
          (rowOf (W (Proc.devRef .tc main_arg4))) (W (Proc.devRef .tc main_arg5)) (rowOf (W (Proc.devRef .tc main_arg6))) (rowOf (W (Proc.devRef .tc main_arg7)))
          (rowOf (W (Proc.devRef .tc main_arg8))) (W (Proc.devRef .tc main_arg9)) (rowOf (W (Proc.devRef .tc main_arg10))) := by
  unfold netR
  rw [after_ops, soft_read, softTerm_eq, conv3_read, convTerm3_eq]
  rw [s_norm2_keeps_v1, s_norm2_keeps_v3, s_norm2_keeps_v10, s_norm2_keeps_v12, s_norm2_keeps_arg9, s_norm2_keeps_arg10, norm2_read, normTerm_eq]
  rw [s_conv2_keeps_v1, s_conv2_keeps_v3, s_conv2_keeps_v10, s_conv2_keeps_v12, s_conv2_keeps_arg7, s_conv2_keeps_arg8, s_conv2_keeps_arg9, s_conv2_keeps_arg10, conv2_read, convTerm_eq]
  rw [s_norm1_keeps_v1, s_norm1_keeps_v3, s_norm1_keeps_v10, s_norm1_keeps_v12, s_norm1_keeps_arg5, s_norm1_keeps_arg6, s_norm1_keeps_arg7, s_norm1_keeps_arg8, s_norm1_keeps_arg9, s_norm1_keeps_arg10, norm1_read, normTerm_eq]
  rw [s_conv1_keeps_v1, s_conv1_keeps_v3, s_conv1_keeps_v10, s_conv1_keeps_v12, s_conv1_keeps_arg3, s_conv1_keeps_arg4, s_conv1_keeps_arg5, s_conv1_keeps_arg6, s_conv1_keeps_arg7, s_conv1_keeps_arg8, s_conv1_keeps_arg9, s_conv1_keeps_arg10, conv1_read, convTerm_eq]
  rw [s_pre_keeps_arg0, s_pre_keeps_arg1, s_pre_keeps_arg2, s_pre_keeps_arg3, s_pre_keeps_arg4, s_pre_keeps_arg5, s_pre_keeps_arg6, s_pre_keeps_arg7, s_pre_keeps_arg8, s_pre_keeps_arg9, s_pre_keeps_arg10, pre_v1, pre_v3, pre_dis, pre_di, colOf_disVec, colOf_diVec]

end Cert.ReferenceIdeal.RefRead

end
-- ==== Proof.PreFinite.lean ====
/-
  The precondition read back: every float input holds real numbers only.

  The predicate asks of each of the eleven float arrays x that |x| < +∞ at every entry (the comparison is taken entry by
  entry, the answers are folded by "and" from 1 into one word, and the eleven words are and-ed together); the claim's
  hypothesis says the final word is 1.  A conjunction of words is 1 only when each word is 1; a fold by "and" is 1 only
  when every entry it met is 1; and the entry's word is 1 exactly when max x (−x) < ⊤ in the extended reals.  For x = ⊤
  and for x = ⊥ that maximum is ⊤, so x is a real number.  The one fact is proved for an array of any shape and then
  read off for the eleven arguments, whose shapes are [100000,128], [128,128], [128], [128,2] and [2].
-/
import proofs.«140138_j37512244363809_2_alg».proof.Defs
import proofs.«140138_j37512244363809_2_alg».proof.Proof.Gen.Pre_finite_inputs
import proofs.«140138_j37512244363809_2_alg».proof.Proof.Gen.KernelIdeal
import Idealize.ShloMosaic.Lib.ReduceAll
import Idealize.ShloMosaic.Lib.ValueIdx

noncomputable section

namespace Cert.KernelIdeal.PreFinite

open Idealize.ShloMosaic Idealize.ShloMosaic.ValueIdx Idealize.SL.Sem

/-- The shape with no axes has exactly one index. -/
instance : Subsingleton (⟨0, ![]⟩ : Shape).Idx := ⟨fun a b => funext fun d => d.elim0⟩

/-- A truth value packed into one bit is the word 1 exactly when it is true. -/
theorem ofBool_eq_one (b : Bool) : BitVec.ofBool b = 1#1 ↔ b = true := by cases b <;> decide

/-- An extended real whose absolute value max x (−x) lies strictly below +∞ is a real number:
    at ⊤ and at ⊥ the maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word 0x7F800000 denotes +∞. -/
theorem inf_word : Ideal.ofBits .f32 0x7F800000#32 = (⊤ : EReal) := by simp [Ideal.ofBits, Ideal.ieee]

/-- For an array x of any shape S: if the entrywise comparison |x| < +∞, folded by "and" over all of S from 1,
    is 1, then every entry of x is a real number. -/
theorem real_of_all {S : Shape} {axes : List (Fin S.rank)}
    (hb : (⟨0, ![]⟩ : Shape).BroadcastsInDim S (![] : Fin 0 → Fin S.rank))
    (hr : S.ReducesTo axes (⟨0, ![]⟩ : Shape)) (hu : 0 < (⟨0, ![]⟩ : Shape).numel)
    (x : FVec Ideal S .f32)
    (e : Host.reduce IntOp.andi
          (cmpf .olt (Host.absf x) (broadcastInDim S ![] hb (constant (F := Ideal) ⟨0, ![]⟩ .f32 0x7F800000#32)))
          (constantI ⟨0, ![]⟩ 1 1#1) hr hu ix0 = 1#1)
    (i : S.Idx) : ∃ r : ℝ, x i = (r : EReal) := by
  -- the fold is 1, so the comparison's word at i is 1
  have h1 := Host.reduce_andi_all _ _ hr hu ix0 e i
  -- at an entry the comparison is max (x i) (−(x i)) < the value of the word 0x7F800000
  have h2 : Ideal.cmp .olt (max (x i) (-(x i))) (Ideal.ofBits .f32 0x7F800000#32) = 1#1 := h1
  rw [inf_word] at h2
  unfold Ideal.cmp at h2
  rw [ofBool_eq_one] at h2
  exact real_of_abs_lt_top (x i) (by simpa using h2)

open Cert.Pre_finite_inputs in
/-- If the predicate's value on twelve arrays is the word 1, the eleven float arrays hold real numbers only
    (the twelfth array, the integer edge list, is not constrained). -/
theorem reals_of_fn [Cert.Pre_finite_inputs.Facts]
    (a0 : FVec Ideal S100000x128 .f32) (a1 : FVec Ideal S128x128 .f32) (a2 a3 a4 : FVec Ideal S128 .f32)
    (a5 : FVec Ideal S128x128 .f32) (a6 a7 a8 : FVec Ideal S128 .f32) (a9 : FVec Ideal S128x2 .f32)
    (a10 : FVec Ideal S2 .f32) (a11 : IVec S2x1600000 32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) := by
  -- the predicate's one word, written out as the left-nested conjunction of the eleven folds
  have e := congrFun h ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨e0, e1⟩, e2⟩, e3⟩, e4⟩, e5⟩, e6⟩, e7⟩, e8⟩, e9⟩, e10⟩ := e
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10⟩

/-- Under the precondition, on every device, each entry of each of the eleven float arguments is a real number. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal)) :=
  reals_of_fn _ _ _ _ _ _ _ _ _ _ _ _ (h c)

end Cert.KernelIdeal.PreFinite

end
-- ==== Proof.GcnLaws.lean ====
/-
  The two networks of GcnSpec agree on finite data.

  conv_eq: on the edges into a node r the target index reads r, so every message carries the same factor dis r; for
  finite features and finite dis that factor moves out of the finite sum of finite terms.  var_eq: for finite entries the
  mean of the squared deviations from the mean is the mean of the squares less the squared mean — a real identity — and,
  being a mean of squares, is not negative, so keeping it non-negative changes nothing.  Both need every intermediate
  array to be finite, which is carried layer by layer: a matrix product, a convolution, a column mean, a variance
  (a non-negative real), the reciprocal square root of a variance plus a positive ε, and the positive part all keep
  finite entries finite.
-/
import proofs.«140138_j37512244363809_2_alg».proof.Proof.GcnSpec

noncomputable section

open scoped BigOperators

namespace Cert.Gcn

open Idealize.ShloMosaic Idealize.ShloMosaic.ValueIdx Cert.Spec

variable {n e k d : ℕ}

theorem coe_max (a b : ℝ) : ((max a b : ℝ) : EReal) = max (a : EReal) (b : EReal) :=
  EReal.coe_strictMono.monotone.map_max

/-! ## The convolution -/

theorem conv_eq (G : Graph n e) (H : Mat n d) (dis di : Mat n 1) (B : Mat 1 d) (hH : Fin' H) (hd : Fin' dis) :
    convK G H dis di B = convR G H dis di B := by
  funext i
  obtain ⟨r, c, rfl⟩ : ∃ (r : Fin n) (c : Fin d), i = ix2 r c := ⟨i 0, i 1, eq_ix2 i⟩
  rw [convK_apply, convR_apply]
  congr 2
  have ht : (∑ x ∈ G.into r, H (ix2 (G.src x) c) * (dis (ix2 (G.src x) (0 : Fin 1)) * dis (ix2 (G.tgt x) (0 : Fin 1))))
      = ∑ x ∈ G.into r, H (ix2 (G.src x) c) * (dis (ix2 (G.src x) (0 : Fin 1)) * dis (ix2 r (0 : Fin 1))) :=
    Finset.sum_congr rfl fun x hx => by rw [G.tgt_of_mem r x hx]
  rw [ht]
  choose hr hhr using hH
  choose sr hsr using hd
  simp only [hhr, hsr, ← EReal.coe_mul, ← Cert.Consts.coe_sum]
  refine congrArg _ ?_
  rw [Finset.sum_mul]
  exact Finset.sum_congr rfl fun x _ => by ring

/-! ## The variance -/

theorem var_real (y : Fin n → ℝ) (hn : 0 < n) :
    (∑ p, (y p - (∑ p, y p) / n) * (y p - (∑ p, y p) / n)) / n
      = (∑ p, y p * y p) / n - (∑ p, y p) / n * ((∑ p, y p) / n) := by
  have hn' : (n : ℝ) ≠ 0 := Nat.cast_ne_zero.mpr hn.ne'
  have h1 : ∑ p, (y p - (∑ p, y p) / n) * (y p - (∑ p, y p) / n)
      = (∑ p, y p * y p) - 2 * ((∑ p, y p) / n) * (∑ p, y p) + n * (((∑ p, y p) / n) * ((∑ p, y p) / n)) := by
    have : ∀ p, (y p - (∑ p, y p) / n) * (y p - (∑ p, y p) / n)
        = y p * y p - 2 * ((∑ p, y p) / n) * y p + ((∑ p, y p) / n) * ((∑ p, y p) / n) := fun p => by ring
    simp only [this]
    rw [Finset.sum_add_distrib, Finset.sum_sub_distrib, ← Finset.mul_sum, Finset.sum_const, Finset.card_univ,
      Fintype.card_fin, nsmul_eq_mul]
  rw [h1]
  field_simp
  ring

theorem var_eq (Y : Mat n d) (hY : Fin' Y) (hn : 0 < n) :
    varK Y ((n : ℝ) : EReal) = varR Y ((n : ℝ) : EReal) := by
  funext i
  obtain ⟨z, j, rfl⟩ : ∃ (z : Fin 1) (j : Fin d), i = ix2 z j := ⟨i 0, i 1, eq_ix2 i⟩
  rw [varK_apply, varR_apply, colMean_apply]
  choose y hy using hY
  have hn' : (n : ℝ) ≠ 0 := Nat.cast_ne_zero.mpr hn.ne'
  simp only [hy, ← EReal.coe_mul, ← Cert.Consts.coe_sum, Cert.Consts.div_real _ hn', ← EReal.coe_sub]
  rw [var_real (fun p => y (ix2 p j)) hn]
  refine max_eq_left (EReal.coe_nonneg.mpr ?_)
  rw [← var_real (fun p => y (ix2 p j)) hn]
  exact div_nonneg (Finset.sum_nonneg fun p _ => mul_self_nonneg _) (Nat.cast_nonneg n)

/-- The variance by deviations is a non-negative real. -/
theorem varR_real (Y : Mat n d) (hY : Fin' Y) (hn : 0 < n) :
    ∀ i, ∃ v : ℝ, 0 ≤ v ∧ varR Y ((n : ℝ) : EReal) i = (v : EReal) := by
  intro i
  obtain ⟨z, j, rfl⟩ : ∃ (z : Fin 1) (j : Fin d), i = ix2 z j := ⟨i 0, i 1, eq_ix2 i⟩
  rw [varR_apply, colMean_apply]
  choose y hy using hY
  have hn' : (n : ℝ) ≠ 0 := Nat.cast_ne_zero.mpr hn.ne'
  simp only [hy, ← EReal.coe_mul, ← Cert.Consts.coe_sum, Cert.Consts.div_real _ hn', ← EReal.coe_sub]
  exact ⟨_, div_nonneg (Finset.sum_nonneg fun p _ => mul_self_nonneg _) (Nat.cast_nonneg n), rfl⟩

/-! ## Finite entries stay finite -/

theorem fin_mm (X : Mat n k) (W : Mat k d) (hX : Fin' X) (hW : Fin' W) : Fin' (mm X W) := by
  intro i
  choose x hx using hX
  choose w hw using hW
  refine ⟨∑ q : Fin k, x (ix2 (i 0) q) * w (ix2 q (i 1)), ?_⟩
  show (∑ q : Fin k, X (ix2 (i 0) q) * W (ix2 q (i 1))) = _
  simp only [hx, hw, ← EReal.coe_mul, ← Cert.Consts.coe_sum]

theorem fin_convR (G : Graph n e) (H : Mat n d) (dis di : Mat n 1) (B : Mat 1 d)
    (hH : Fin' H) (hd : Fin' dis) (hdi : Fin' di) (hB : Fin' B) : Fin' (convR G H dis di B) := by
  intro i
  obtain ⟨r, c, rfl⟩ : ∃ (r : Fin n) (c : Fin d), i = ix2 r c := ⟨i 0, i 1, eq_ix2 i⟩
  rw [convR_apply]
  choose hr hhr using hH
  choose sr hsr using hd
  choose tr htr using hdi
  choose br hbr using hB
  simp only [hhr, hsr, htr, hbr, ← EReal.coe_mul, ← Cert.Consts.coe_sum, ← EReal.coe_add]
  exact ⟨_, rfl⟩

theorem fin_colMean (Y : Mat n d) (hY : Fin' Y) (hn : 0 < n) : Fin' (colMean Y ((n : ℝ) : EReal)) := by
  intro i
  obtain ⟨z, j, rfl⟩ : ∃ (z : Fin 1) (j : Fin d), i = ix2 z j := ⟨i 0, i 1, eq_ix2 i⟩
  rw [colMean_apply]
  choose y hy using hY
  have hn' : (n : ℝ) ≠ 0 := Nat.cast_ne_zero.mpr hn.ne'
  simp only [hy, ← Cert.Consts.coe_sum, Cert.Consts.div_real _ hn']
  exact ⟨_, rfl⟩

theorem fin_normRelu {ε : ℝ} (hε : 0 < ε) (Y : Mat n d) (MU VAR G BT : Mat 1 d) (hY : Fin' Y) (hMU : Fin' MU)
    (hVAR : ∀ i, ∃ v : ℝ, 0 ≤ v ∧ VAR i = (v : EReal)) (hG : Fin' G) (hBT : Fin' BT) :
    Fin' (normRelu (ε : EReal) Y MU VAR G BT) := by
  intro i
  obtain ⟨r, c, rfl⟩ : ∃ (r : Fin n) (c : Fin d), i = ix2 r c := ⟨i 0, i 1, eq_ix2 i⟩
  rw [normRelu_apply]
  obtain ⟨y, hy⟩ := hY (ix2 r c)
  obtain ⟨mu, hmu⟩ := hMU (ix2 (0 : Fin 1) c)
  obtain ⟨v, hv0, hv⟩ := hVAR (ix2 (0 : Fin 1) c)
  obtain ⟨g, hg⟩ := hG (ix2 (0 : Fin 1) c)
  obtain ⟨bt, hbt⟩ := hBT (ix2 (0 : Fin 1) c)
  rw [hy, hmu, hv, hg, hbt, ← EReal.coe_add, Cert.Consts.rsqrt_pos (by linarith : 0 < v + ε), ← EReal.coe_sub,
    ← EReal.coe_mul, ← EReal.coe_mul, ← EReal.coe_add, ← EReal.coe_zero, ← coe_max]
  exact ⟨_, rfl⟩

/-! ## The two networks -/

variable {h : ℕ}

theorem act_eq {ε : EReal} (Y : Mat n d) (g be : Mat 1 d) (hY : Fin' Y) (hn : 0 < n) :
    actK ε ((n : ℝ) : EReal) Y g be = actR ε ((n : ℝ) : EReal) Y g be := by
  unfold actK actR
  rw [var_eq Y hY hn]

theorem fin_actR {ε : ℝ} (hε : 0 < ε) (Y : Mat n d) (g be : Mat 1 d) (hY : Fin' Y) (hg : Fin' g) (hbe : Fin' be)
    (hn : 0 < n) : Fin' (actR (ε : EReal) ((n : ℝ) : EReal) Y g be) :=
  fin_normRelu hε Y _ _ g be hY (fin_colMean Y hY hn) (varR_real Y hY hn) hg hbe

/-- On finite data the network computed with pre-scaled rows and one-pass variances is the network computed with
    per-edge weights and variances by deviations. -/
theorem net_eq (G : Graph n e) {ε : ℝ} (hε : 0 < ε) (hn : 0 < n) (dis di : Mat n 1) (X : Mat n k) (W1 : Mat k h)
    (b1 g1 be1 : Mat 1 h) (W2 : Mat h h) (b2 g2 be2 : Mat 1 h) (W3 : Mat h 2) (b3 : Mat 1 2)
    (hdis : Fin' dis) (hdi : Fin' di) (hX : Fin' X) (hW1 : Fin' W1) (hb1 : Fin' b1) (hg1 : Fin' g1) (hbe1 : Fin' be1)
    (hW2 : Fin' W2) (hb2 : Fin' b2) (hg2 : Fin' g2) (hbe2 : Fin' be2) (hW3 : Fin' W3) :
    netK G (ε : EReal) ((n : ℝ) : EReal) dis di X W1 b1 g1 be1 W2 b2 g2 be2 W3 b3
      = netR G (ε : EReal) ((n : ℝ) : EReal) dis di X W1 b1 g1 be1 W2 b2 g2 be2 W3 b3 := by
  unfold netK netR
  have fH1 := fin_mm X W1 hX hW1
  rw [conv_eq G (mm X W1) dis di b1 fH1 hdis]
  have fY1 := fin_convR G (mm X W1) dis di b1 fH1 hdis hdi hb1
  rw [act_eq _ g1 be1 fY1 hn]
  have fA1 := fin_actR hε _ g1 be1 fY1 hg1 hbe1 hn
  have fH2 := fin_mm _ W2 fA1 hW2
  rw [conv_eq G _ dis di b2 fH2 hdis]
  have fY2 := fin_convR G _ dis di b2 fH2 hdis hdi hb2
  rw [act_eq _ g2 be2 fY2 hn]
  have fA2 := fin_actR hε _ g2 be2 fY2 hg2 hbe2 hn
  have fH3 := fin_mm _ W3 fA2 hW3
  rw [conv_eq G _ dis di b3 fH3 hdis]

end Cert.Gcn

end
-- ==== Proof.lean ====
/-
  The certificate of a three-layer graph convolution with column normalisation and a final row softmax, on
  100000 nodes and 1600000 edges: a kernel of six tiled regions among host operations against the plain program.

  Frames.  The kernel's two frames are the generated ones.  The reference is a straight line of host operations;
  its run (RefOps) ends with every argument array unchanged.

  Values, over the extended reals.  Both programs read the edge list the same way: an edge is summed into node r
  when its raw target index is r, and reads its source (and, in the reference, its target) through the index
  normalised and clamped.  The reference weights each message by dis (src) · dis (tgt), sums, adds the node's own
  row times di and the bias, and normalises each column by its mean and the mean of its squared deviations (netR).
  The kernel scales the rows by dis before the edges are summed and once more after, and takes the variance as the mean
  of the squares less the squared mean, kept non-negative (netK).  On finite inputs the two are one function
  (GcnLaws.net_eq): the target of an edge into r reads r, a finite factor moves across a finite sum of finite terms,
  and the two variances are one non-negative real.  The precondition gives the finiteness (PreFinite); the degree
  weights dis, di are finite whatever the edge list is.  The kernel's result buffer holds netK of the arguments
  (KValue), the reference's holds netR of the same arguments (RefNet), so they agree entry by entry.
-/
import proofs.«140138_j37512244363809_2_alg».proof.Defs
import proofs.«140138_j37512244363809_2_alg».proof.Proof.Gen.Kernel
import proofs.«140138_j37512244363809_2_alg».proof.Proof.Gen.Kernel.Frame
import proofs.«140138_j37512244363809_2_alg».proof.Proof.Gen.KernelIdeal
import proofs.«140138_j37512244363809_2_alg».proof.Proof.Gen.KernelIdeal.Frame
import proofs.«140138_j37512244363809_2_alg».proof.Proof.Gen.ReferenceIdeal
import proofs.«140138_j37512244363809_2_alg».proof.Proof.Gen.Pre_finite_inputs
import proofs.«140138_j37512244363809_2_alg».proof.Proof.KRun
import proofs.«140138_j37512244363809_2_alg».proof.Proof.KValue2
import proofs.«140138_j37512244363809_2_alg».proof.Proof.RefOps
import proofs.«140138_j37512244363809_2_alg».proof.Proof.RefNet
import proofs.«140138_j37512244363809_2_alg».proof.Proof.PreFinite
import proofs.«140138_j37512244363809_2_alg».proof.Proof.GcnLaws
import Idealize.ShloMosaic.Adequacy
import Idealize.ShloMosaic.Init

noncomputable section

namespace Cert.Proof

open Idealize.ShloMosaic Idealize.ShloMosaic.TcCoe Idealize.SL.Sem
open Cert.Spec Cert.Gcn Cert.GcnArgs

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.RefRun.frame m ρ

/-- The ideal pass rewrote nothing: the idealized kernel is the kernel's own text read over the extended reals. -/
theorem preserves : Cert.preserves_Kernel_KernelIdeal := trivial

/-- The network of the reference's arguments is the kernel's result when the arguments agree and are finite. -/
theorem bridge (m : (ℓ : Loc Cert.KernelIdeal.nD Cert.KernelIdeal.τ Cert.KernelIdeal.sig) → Buf (Elt Ideal) ℓ)
    (hpre : Cert.Pre_KernelIdeal m) (c : Dev Cert.KernelIdeal.nD) :
    netR (Cert.KernelIdeal.KValue.gr m c) eps cnt (Cert.KernelIdeal.KValue.dis m c) (Cert.KernelIdeal.KValue.di m c)
        (Cert.KernelIdeal.KValue.aX m c) (Cert.KernelIdeal.KValue.aW1 m c) (Cert.KernelIdeal.KValue.ab1 m c)
        (Cert.KernelIdeal.KValue.ag1 m c) (Cert.KernelIdeal.KValue.abe1 m c) (Cert.KernelIdeal.KValue.aW2 m c)
        (Cert.KernelIdeal.KValue.ab2 m c) (Cert.KernelIdeal.KValue.ag2 m c) (Cert.KernelIdeal.KValue.abe2 m c)
        (Cert.KernelIdeal.KValue.aW3 m c) (Cert.KernelIdeal.KValue.ab3 m c)
      = Cert.KernelIdeal.KValue.out m c := by
  obtain ⟨f0, f1, f2, f3, f4, f5, f6, f7, f8, f9, _⟩ := Cert.KernelIdeal.PreFinite.finite_of_pre m hpre c
  obtain ⟨ε, hε, he⟩ := eps_pos
  rw [Cert.KernelIdeal.KValue.out_eq, he, cnt_eq]
  exact (net_eq (Cert.KernelIdeal.KValue.gr m c) hε N_pos _ _ _ _ _ _ _ _ _ _ _ _ _
    (fin_disCol _) (fin_diCol _) f0 f1 (fin_rowOf _ f2) (fin_rowOf _ f3) (fin_rowOf _ f4) f5 (fin_rowOf _ f6)
    (fin_rowOf _ f7) (fin_rowOf _ f8) f9).symm

theorem algebraic : Cert.algebraic_KernelIdeal_ReferenceIdeal := by
  intro m ρ m' ρ' hpre hagree
  refine ⟨fun c => Cert.KernelIdeal.KValue.out m c, ?_, ?_⟩
  · exact (θ_run (Cert.KernelIdeal.defs (F := Ideal)) _ _).mono
      (fun r h c => ⟨(h c).1.trans (Cert.KernelIdeal.KValue.result m ρ c), (h c).2⟩)
      (Cert.KernelIdeal.KRun.run_value m ρ)
  · refine (θ_run (Cert.ReferenceIdeal.defs (F := Ideal)) _ _).mono (fun r h c => ⟨?_, (h c).2⟩)
      (Cert.ReferenceIdeal.RefRun.run (F := Ideal) m' ρ')
    refine ((h c).1.trans (Cert.ReferenceIdeal.RefRead.ref_value (Cert.ReferenceIdeal.RefRun.W0 m' c))).trans ?_
    obtain ⟨a0, a1, a2, a3, a4, a5, a6, a7, a8, a9, a10, a11⟩ := hagree c
    rw [show Cert.ReferenceIdeal.RefRun.W0 m' c (Proc.devRef .tc Cert.ReferenceIdeal.main_arg0) = Cert.KernelIdeal.KValue.aX m c from a0,
      show Cert.ReferenceIdeal.RefRun.W0 m' c (Proc.devRef .tc Cert.ReferenceIdeal.main_arg1) = Cert.KernelIdeal.KValue.aW1 m c from a1,
      show rowOf (Cert.ReferenceIdeal.RefRun.W0 m' c (Proc.devRef .tc Cert.ReferenceIdeal.main_arg2)) = Cert.KernelIdeal.KValue.ab1 m c from congrArg rowOf a2,
      show rowOf (Cert.ReferenceIdeal.RefRun.W0 m' c (Proc.devRef .tc Cert.ReferenceIdeal.main_arg3)) = Cert.KernelIdeal.KValue.ag1 m c from congrArg rowOf a3,
      show rowOf (Cert.ReferenceIdeal.RefRun.W0 m' c (Proc.devRef .tc Cert.ReferenceIdeal.main_arg4)) = Cert.KernelIdeal.KValue.abe1 m c from congrArg rowOf a4,
      show Cert.ReferenceIdeal.RefRun.W0 m' c (Proc.devRef .tc Cert.ReferenceIdeal.main_arg5) = Cert.KernelIdeal.KValue.aW2 m c from a5,
      show rowOf (Cert.ReferenceIdeal.RefRun.W0 m' c (Proc.devRef .tc Cert.ReferenceIdeal.main_arg6)) = Cert.KernelIdeal.KValue.ab2 m c from congrArg rowOf a6,
      show rowOf (Cert.ReferenceIdeal.RefRun.W0 m' c (Proc.devRef .tc Cert.ReferenceIdeal.main_arg7)) = Cert.KernelIdeal.KValue.ag2 m c from congrArg rowOf a7,
      show rowOf (Cert.ReferenceIdeal.RefRun.W0 m' c (Proc.devRef .tc Cert.ReferenceIdeal.main_arg8)) = Cert.KernelIdeal.KValue.abe2 m c from congrArg rowOf a8,
      show Cert.ReferenceIdeal.RefRun.W0 m' c (Proc.devRef .tc Cert.ReferenceIdeal.main_arg9) = Cert.KernelIdeal.KValue.aW3 m c from a9,
      show rowOf (Cert.ReferenceIdeal.RefRun.W0 m' c (Proc.devRef .tc Cert.ReferenceIdeal.main_arg10)) = Cert.KernelIdeal.KValue.ab3 m c from congrArg rowOf a10,
      show Cert.ReferenceIdeal.RefRun.W0 m' c (Proc.devRef .tc Cert.ReferenceIdeal.main_arg11) = Cert.KernelIdeal.KValue.aEi m c from a11]
    exact bridge m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
